-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S5000x128 : Shape := ⟨2, ![5000, 128]⟩
abbrev S1700000x128 : Shape := ⟨2, ![1700000, 128]⟩

abbrev nBuf : Space → Nat
  | .hbm => 120
  | .vmem => 52
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S100000x128, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x128, .f32⟩
  | .hbm, ⟨72, _⟩ => ⟨S1700000x1, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x128, .f32⟩
  | .hbm, ⟨92, _⟩ => ⟨S1700000x1, .f32⟩
  | .hbm, ⟨93, _⟩ => ⟨S1700000x128, .f32⟩
  | .hbm, ⟨94, _⟩ => ⟨S1700000x128, .f32⟩
  | .hbm, ⟨95, _⟩ => ⟨S_, .f32⟩
  | .hbm, ⟨96, _⟩ => ⟨S100000x128, .f32⟩
  | .hbm, ⟨97, _⟩ => ⟨S1700000x1, .i32⟩
  | .hbm, ⟨98, _⟩ => ⟨S100000x128, .f32⟩
  | .hbm, ⟨99, _⟩ => ⟨S1x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x128, .f32⟩
  | .hbm, ⟨112, _⟩ => ⟨S1700000x1, .f32⟩
  | .hbm, ⟨113, _⟩ => ⟨S1700000x128, .f32⟩
  | .hbm, ⟨114, _⟩ => ⟨S1700000x128, .f32⟩
  | .hbm, ⟨115, _⟩ => ⟨S_, .f32⟩
  | .hbm, ⟨116, _⟩ => ⟨S100000x128, .f32⟩
  | .hbm, ⟨117, _⟩ => ⟨S1700000x1, .i32⟩
  | .hbm, ⟨118, _⟩ => ⟨S100000x128, .f32⟩
  | .hbm, ⟨119, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53_0 : Ref sig .tc := ⟨.hbm, 79, rfl⟩
abbrev main_v53_1 : Ref sig .tc := ⟨.hbm, 80, rfl⟩
abbrev main_v54 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69_0 : Ref sig .tc := ⟨.hbm, 99, rfl⟩
abbrev main_v69_1 : Ref sig .tc := ⟨.hbm, 100, rfl⟩
abbrev main_v70 : Ref sig .tc := ⟨.hbm, 101, rfl⟩
abbrev main_v71 : Ref sig .tc := ⟨.hbm, 102, rfl⟩
abbrev main_c_13 : Ref sig .tc := ⟨.hbm, 103, rfl⟩
abbrev main_v72 : Ref sig .tc := ⟨.hbm, 104, rfl⟩
abbrev main_v73 : Ref sig .tc := ⟨.hbm, 105, rfl⟩
abbrev main_c_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_scratch0 : Ref sig .tc := ⟨.vmem, 31, rfl⟩
abbrev cc4_scratch1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg2_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem2_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v24 : BitVec 1 := Scalar.cmpi .eq arg0 c19_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v24 : BitVec 1 := Scalar.cmpi .eq arg0 c19_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53_0) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53_1) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v68) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v33) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69_0) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69_1) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v37) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v38) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v70) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v70) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v71) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v84) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v34) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v85) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 181
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S128, .f32⟩
  | 86 => ⟨S_, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x128, .f32⟩
  | 118 => ⟨S1700000x1, .f32⟩
  | 119 => ⟨S1700000x128, .f32⟩
  | 120 => ⟨S1700000x128, .f32⟩
  | 121 => ⟨S_, .f32⟩
  | 122 => ⟨S100000x128, .f32⟩
  | 123 => ⟨S1700000x1, .i32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S100000x128, .f32⟩
  | 9 => ⟨S_, .f32⟩
  | 10 => ⟨S128, .f32⟩
  | 11 => ⟨S_, .f32⟩
  | 12 => ⟨S128, .f32⟩
  | 13 => ⟨S128, .f32⟩
  | 14 => ⟨S1x128, .f32⟩
  | 15 => ⟨S100000x128, .f32⟩
  | 16 => ⟨S100000x128, .f32⟩
  | 17 => ⟨S_, .f32⟩
  | 18 => ⟨S128, .f32⟩
  | 19 => ⟨S128, .f32⟩
  | 20 => ⟨S128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S100000x128, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000x128, .f32⟩
  | 43 => ⟨S1700000x1, .f32⟩
  | 44 => ⟨S1700000x128, .f32⟩
  | 45 => ⟨S1700000x128, .f32⟩
  | 46 => ⟨S_, .f32⟩
  | 47 => ⟨S100000x128, .f32⟩
  | 48 => ⟨S1700000x1, .i32⟩
  | 49 => ⟨S100000x128, .f32⟩
  | 50 => ⟨S1x128, .f32⟩
  | 51 => ⟨S100000x128, .f32⟩
  | 52 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_cst : Ref sig .tc := ⟨.hbm, 105, rfl⟩
abbrev main_call1_v0 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_c_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_17 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_cst_19 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_22 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_call2_cst : Ref sig .tc := ⟨.hbm, 158, rfl⟩
abbrev main_call2_v0 : Ref sig .tc := ⟨.hbm, 159, rfl⟩
abbrev main_v117 : Ref sig .tc := ⟨.hbm, 160, rfl⟩
abbrev main_v118 : Ref sig .tc := ⟨.hbm, 161, rfl⟩
abbrev main_c_23 : Ref sig .tc := ⟨.hbm, 162, rfl⟩
abbrev main_v119 : Ref sig .tc := ⟨.hbm, 163, rfl⟩
abbrev main_v120 : Ref sig .tc := ⟨.hbm, 164, rfl⟩
abbrev main_c_24 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_25 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.K.RegOf.lean ====
/-
  One kernel region of the program as a segment of its run, for ANY of its eight pallas_calls at once.

  Between two items of @main a TensorCore holds every unscoped buffer whole at known contents, its generator
  register at some state, and owes nothing.  A region takes its windows' arrays out of those buffers, runs its
  pipeline over the grid, and puts the arrays back at what the write-backs leave; every other unscoped buffer is
  untouched.  What a region needs from its kernel is stated here as hypotheses: the body obligation of its proof
  data, that the data hold each array whole at the entry contents and owe nothing, the invariant entered from
  (and left at) the generator register beside the scoped buffers no window stages, and the exit contents array
  by array.
-/
import proofs.«171122_j58480274703249_1_alg».proof.Proof.Gen.Kernel.Launch
import proofs.«171122_j58480274703249_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No variant, no level: no core of this program ever waits on another. -/
abbrev 𝒱₀ : Variants := Variants.none
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 := iprop((∃ r, prngReg c r) ∗ ∃ W, owes (c : Thread nD τ) (0 : CellTallies nD τ sig Unit) W)

/-- A valuation of the device's references read at the TensorCore's own. -/
abbrev atTc (c : Dev nD) (W : Valuation τ sig (Elt F)) : (b : Ref sig .tc) → Buf (Elt F) ((c : Thread nD τ).loc b) := fun b => W b

variable (pdats : (p : Fin 8) → (c : Dev nD) → Dat τ (Elt F) Unit ℕ (UR sig nD τ) ℕ (Pipeline.pin (pcfgs (F := F)) Gen.adm p) c)

set_option backward.isDefEq.respectTransparency.types false in
/-- Region `p` entered with every unscoped buffer at `Wp` and left with them at `Wq`. -/
def regOf (p : Fin 8) (lp : Pipeline.LaunchFacts (nD := nD) (τ := τ) cfgs p)
    (Wp Wq : Dev nD → Valuation τ sig (Elt F))
    (hbody : ∀ c, BodyObligation (pdats p c) (defs₀ (F := F)) Variants.none () Set.univ)
    (hq : ∀ c w, (pdats p c).q w = fullShare)
    (howed : ∀ c t, (pdats p c).owed t = 0)
    (hrec : ∀ c t, (pdats p c).recorded t = Set.univ)
    (hA : ∀ c w, (pdats p c).A w = atTc c (Wp c) (Pipeline.arrRef (cfgs p).spec w))
    (hin : ∀ c, iprop((∃ r, prngReg c r) ∗ Pipeline.scopedRest (cfgs p).spec c) ⊢ (pdats p c).Φ 0)
    (hout : ∀ c, (pdats p c).Φ (Fin.last (cfgs p).N) ⊢ (iprop((∃ r, prngReg c r) ∗ Pipeline.scopedRest (cfgs p).spec c) : sProp 𝕄))
    (hF : ∀ c w, (pdats p c).arrAt w (cfgs p).N = atTc c (Wq c) (Pipeline.arrRef (cfgs p).spec w))
    (hrest : ∀ c b, b ∉ Finset.univ.image (Pipeline.arrRef (cfgs p).spec) → atTc c (Wq c) b = atTc c (Wp c) b) :
    Pipeline.RegionSeg (pcfgs (F := F)) Gen.adm pdats () defs₀ 𝒱₀ L lv p where
  win := lp.win.to₀
  block_pos := lp.block_pos
  stage_whole := lp.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wp c) ∗ R c)
  post c := iprop(StableHlo.held (c : Thread nD τ) (Pipeline.ucRefs τ sig) (Wq c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc c (Wp c))
  hentry c := by
    rw [Pipeline.ownSems0_none]
    have hsplit := Pipeline.arrays_of_unscopedBufs (p := p) (pcfgs (F := F)) Gen.adm pdats lp.win lp.arr_whole c
      ((pdats p c).share_full (hq c)) (atTc c (Wp c)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl ((hrec c 0).symm ▸ Set.mem_univ x)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lp.win lp.arr_whole c pdats ((pdats p c).share_full (hq c))
      (atTc c (Wp c)) (atTc c (Wq c)) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-- The class invariant of a body that keeps nothing between points is entered from, and left at, the generator
    register beside the scoped buffers no window stages. -/
theorem classA_in (p : Fin 8) (c : Dev nD) :
    (iprop((∃ r, prngReg c r) ∗ Pipeline.scopedRest (cfgs p).spec c) : sProp 𝕄) ⊢ Pipeline.ΦA (cfgs p).spec c := by
  unfold Pipeline.ΦA
  iintro ⟨Hp, Hr⟩
  isplitl [Hr]; · iexact Hr
  iexact Hp

theorem classA_out (p : Fin 8) (c : Dev nD) :
    (Pipeline.ΦA (cfgs p).spec c : sProp 𝕄) ⊢ iprop((∃ r, prngReg c r) ∗ Pipeline.scopedRest (cfgs p).spec c) := by
  unfold Pipeline.ΦA
  iintro ⟨Hr, Hp⟩
  isplitl [Hp]; · iexact Hp
  iexact Hr

/-! ## The buffers after a region -/

section Step

variable {p : Fin 8} (dat : (c : Dev nD) → Dat τ (Elt F) Unit ℕ (UR sig nD τ) ℕ (cfgs p) c)
  (Wp : Dev nD → Valuation τ sig (Elt F))

/-- The unscoped buffers after region `p`, entered at `Wp`: the region's arrays at what its write-backs leave
    (an input array as entered, an output array with every flushed block folded in), every other buffer as entered. -/
def stepW (c : Dev nD) : Valuation τ sig (Elt F) :=
  Pipeline.withArrays (cfgs p).spec c (Wp c) fun w => (dat c).arrAt w (cfgs p).N

theorem stepW_arr (lp : Pipeline.LaunchFacts (nD := nD) (τ := τ) cfgs p) (c : Dev nD) (w : Fin (cfgs p).W) :
    stepW dat Wp c (Proc.devRef .tc (Pipeline.arrRef (cfgs p).spec w)) = (dat c).arrAt w (cfgs p).N := by
  unfold stepW; exact Pipeline.withArrays_arr (cfgs p).spec lp.win.arr_inj c _ _ w

theorem stepW_of_ne (c : Dev nD) (b : Ref sig .tc) (hb : ∀ w, Pipeline.arrRef (cfgs p).spec w ≠ b) :
    stepW dat Wp c (Proc.devRef .tc b) = Wp c (Proc.devRef .tc b) := by
  unfold stepW; exact Pipeline.withArrays_of_ne (cfgs p).spec c _ _ b hb

/-- A buffer that is no OUTPUT array of the region holds after it what it held before: an input array is read
    and never written back, any other buffer is not touched. -/
theorem stepW_keep (lp : Pipeline.LaunchFacts (nD := nD) (τ := τ) cfgs p)
    (hA : ∀ c w, (dat c).A w = atTc c (Wp c) (Pipeline.arrRef (cfgs p).spec w))
    (c : Dev nD) (b : Ref sig .tc) (hb : ∀ w, ((cfgs p).win w).isOut = true → Pipeline.arrRef (cfgs p).spec w ≠ b) :
    stepW dat Wp c (Proc.devRef .tc b) = Wp c (Proc.devRef .tc b) := by
  by_cases h : ∃ w, Pipeline.arrRef (cfgs p).spec w = b
  · obtain ⟨w, rfl⟩ := h
    have hw : ((cfgs p).win w).isOut = false := by
      cases hio : ((cfgs p).win w).isOut
      · rfl
      · exact absurd rfl (hb w hio)
    rw [stepW_arr dat Wp lp c w]
    exact ((dat c).arrAt_in w hw _).trans (hA c w)
  · exact stepW_of_ne dat Wp c b fun w e => h ⟨w, e⟩

end Step

end Cert.Kernel.Hand

end
-- ==== Proof.K.A0.lean ====
/- The class-A half of region 0, a matmul pallas_call on the grid (20,): at each point the body reads the
   5000x128 row block of the left factor and the 128x128 right factor, rounds both to bf16, multiplies them with f32
   accumulation from zero and stores the 5000x128 product into the output block. Stated at a parameter `V`, the
   TensorCore's buffer contents when the region is entered: each window's block at a point, the output buffer after
   the body as a function of the input blocks, the body's triple, the pipeline's proof data and its body
   obligation. -/
import proofs.«171122_j58480274703249_1_alg».proof.Proof.Gen.Kernel.Launch
import proofs.«171122_j58480274703249_1_alg».proof.Proof.Gen.Kernel.Skeleton
import proofs.«171122_j58480274703249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks are long (5000 rows): membership in a block's rectangle is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of the left factor) holds its block at every point, fetched there or not, for any proof data whose
    array is `V`'s and whose body leaves the block in place: where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right factor, one block for the whole grid) holds its block at every point, fetched there or not, for any proof data whose
    array is `V`'s and whose body leaves the block in place: where it is not fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-! ## What the body leaves in the output window's buffer -/

/-- Window 2's staging buffer after the body: one store of the whole block, the product of the row block (rounded to
    bf16) with the right factor (rounded to bf16), accumulated in f32 from zero. -/
def out0_2 (x0 : Vec F S5000x128 .f32) (x1 : Vec F S128x128 .f32) : Vec F S5000x128 .f32 :=
  View.canon [⟨r0_0, k0_pay1 (View.ld x0 r0_0) (View.ld x1 r0_1)⟩]

/-- The one store is of the whole block, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `xW` and the output's at anything, runs to
    the continuation holding the inputs' as they were and the output's at `out0_2` of the inputs'. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them (`V`); after the body at
    point `t` each input's buffer at its block and the output's at `out0_2` of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.A2.lean ====
/- The class-A half of region 2, a batch-norm-and-relu pallas_call on the grid (20,): at each point the body reads a
   5000x128 row block x and five 1x128 rows (a bias b, a mean m, a variance v, a scale g and a shift h), and stores
   max(((x + b) - m) * rsqrt(v + 1e-5) * g + h, 0), the rows broadcast along the rows of the block, into the 5000x128
   output block. Stated at a parameter `V`, the TensorCore's buffer contents when the region is entered: each
   window's block at a point, the output buffer after the body as a function of the input blocks, the body's
   triple, the pipeline's proof data and its body obligation. -/
import proofs.«171122_j58480274703249_1_alg».proof.Proof.Gen.Kernel.Launch
import proofs.«171122_j58480274703249_1_alg».proof.Proof.Gen.Kernel.Skeleton
import proofs.«171122_j58480274703249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks are long (5000 rows): membership in a block's rectangle is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the row block) holds its block at every point, fetched there or not, for any proof data whose
    array is `V`'s and whose body leaves the block in place: where it is not fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the bias row, one block for the whole grid) holds its block at every point, fetched there or not, for any proof data whose
    array is `V`'s and whose body leaves the block in place: where it is not fetched its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the mean row, one block for the whole grid) holds its block at every point, fetched there or not, for any proof data whose
    array is `V`'s and whose body leaves the block in place: where it is not fetched its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the variance row, one block for the whole grid) holds its block at every point, fetched there or not, for any proof data whose
    array is `V`'s and whose body leaves the block in place: where it is not fetched its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the scale row, one block for the whole grid) holds its block at every point, fetched there or not, for any proof data whose
    array is `V`'s and whose body leaves the block in place: where it is not fetched its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the shift row, one block for the whole grid) holds its block at every point, fetched there or not, for any proof data whose
    array is `V`'s and whose body leaves the block in place: where it is not fetched its block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- Window 6's staging buffer after the body: one store of the whole block, the normalised, scaled, shifted
    and clamped row block (the variance row is the payload's third argument, the mean row its fourth). -/
def out2_6 (x0 : Vec F S5000x128 .f32) (x1 : Vec F S1x128 .f32) (x2 : Vec F S1x128 .f32) (x3 : Vec F S1x128 .f32) (x4 : Vec F S1x128 .f32) (x5 : Vec F S1x128 .f32) : Vec F S5000x128 .f32 :=
  View.canon [⟨r2_0, k2_pay1 (View.ld x0 r2_0) (View.ld x1 r2_1) (View.ld x3 r2_1) (View.ld x2 r2_1) (View.ld x4 r2_1) (View.ld x5 r2_1)⟩]

/-- The one store is of the whole block, so it covers it. -/
theorem cover2_6 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents `xW` and the output's at anything, runs to
    the continuation holding the inputs' as they were and the output's at `out2_6` of the inputs'. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_relu_kernel i arg1 harg1 arg2 harg2 arg3 harg3 arg4 harg4 arg5 harg5 arg6 harg6 arg7 harg7) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of this pipeline on core `c`: the arrays as the region finds them (`V`); after the body at
    point `t` each input's buffer at its block and the output's at `out2_6` of the input blocks; the invariant is
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.A3.lean ====
/- The class-A half of region 3, a matmul pallas_call on the grid (20,): at each point the body reads the
   5000x128 row block of the left factor and the 128x128 right factor, rounds both to bf16, multiplies them with f32
   accumulation from zero and stores the 5000x128 product into the output block. Stated at a parameter `V`, the
   TensorCore's buffer contents when the region is entered: each window's block at a point, the output buffer after
   the body as a function of the input blocks, the body's triple, the pipeline's proof data and its body
   obligation. -/
import proofs.«171122_j58480274703249_1_alg».proof.Proof.Gen.Kernel.Launch
import proofs.«171122_j58480274703249_1_alg».proof.Proof.Gen.Kernel.Skeleton
import proofs.«171122_j58480274703249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks are long (5000 rows): membership in a block's rectangle is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 3, at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block of the left factor) holds its block at every point, fetched there or not, for any proof data whose
    array is `V`'s and whose body leaves the block in place: where it is not fetched its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the right factor, one block for the whole grid) holds its block at every point, fetched there or not, for any proof data whose
    array is `V`'s and whose body leaves the block in place: where it is not fetched its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0

/-! ## What the body leaves in the output window's buffer -/

/-- Window 2's staging buffer after the body: one store of the whole block, the product of the row block (rounded to
    bf16) with the right factor (rounded to bf16), accumulated in f32 from zero. -/
def out3_2 (x0 : Vec F S5000x128 .f32) (x1 : Vec F S128x128 .f32) : Vec F S5000x128 .f32 :=
  View.canon [⟨r3_0, k3_pay1 (View.ld x0 r3_0) (View.ld x1 r3_1)⟩]

/-- The one store is of the whole block, so it covers it. -/
theorem cover3_2 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `xW` and the output's at anything, runs to
    the continuation holding the inputs' as they were and the output's at `out3_2` of the inputs'. -/
theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them (`V`); after the body at
    point `t` each input's buffer at its block and the output's at `out3_2` of the input blocks; the invariant is
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.A5.lean ====
/- The class-A half of region 5, a batch-norm-and-relu pallas_call on the grid (20,): at each point the body reads a
   5000x128 row block x and five 1x128 rows (a bias b, a mean m, a variance v, a scale g and a shift h), and stores
   max(((x + b) - m) * rsqrt(v + 1e-5) * g + h, 0), the rows broadcast along the rows of the block, into the 5000x128
   output block. Stated at a parameter `V`, the TensorCore's buffer contents when the region is entered: each
   window's block at a point, the output buffer after the body as a function of the input blocks, the body's
   triple, the pipeline's proof data and its body obligation. -/
import proofs.«171122_j58480274703249_1_alg».proof.Proof.Gen.Kernel.Launch
import proofs.«171122_j58480274703249_1_alg».proof.Proof.Gen.Kernel.Skeleton
import proofs.«171122_j58480274703249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks are long (5000 rows): membership in a block's rectangle is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 5, at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the row block) holds its block at every point, fetched there or not, for any proof data whose
    array is `V`'s and whose body leaves the block in place: where it is not fetched its block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the bias row, one block for the whole grid) holds its block at every point, fetched there or not, for any proof data whose
    array is `V`'s and whose body leaves the block in place: where it is not fetched its block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the mean row, one block for the whole grid) holds its block at every point, fetched there or not, for any proof data whose
    array is `V`'s and whose body leaves the block in place: where it is not fetched its block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3 (the variance row, one block for the whole grid) holds its block at every point, fetched there or not, for any proof data whose
    array is `V`'s and whose body leaves the block in place: where it is not fetched its block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4 (the scale row, one block for the whole grid) holds its block at every point, fetched there or not, for any proof data whose
    array is `V`'s and whose body leaves the block in place: where it is not fetched its block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5 (the shift row, one block for the whole grid) holds its block at every point, fetched there or not, for any proof data whose
    array is `V`'s and whose body leaves the block in place: where it is not fetched its block index has not moved. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 6's staging buffer after the body: one store of the whole block, the normalised, scaled, shifted
    and clamped row block (the variance row is the payload's third argument, the mean row its fourth). -/
def out5_6 (x0 : Vec F S5000x128 .f32) (x1 : Vec F S1x128 .f32) (x2 : Vec F S1x128 .f32) (x3 : Vec F S1x128 .f32) (x4 : Vec F S1x128 .f32) (x5 : Vec F S1x128 .f32) : Vec F S5000x128 .f32 :=
  View.canon [⟨r5_0, k5_pay1 (View.ld x0 r5_0) (View.ld x1 r5_1) (View.ld x3 r5_1) (View.ld x2 r5_1) (View.ld x4 r5_1) (View.ld x5 r5_1)⟩]

/-- The one store is of the whole block, so it covers it. -/
theorem cover5_6 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `xW` and the output's at anything, runs to
    the continuation holding the inputs' as they were and the output's at `out5_6` of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__bn_relu_kernel i arg1 harg1 arg2 harg2 arg3 harg3 arg4 harg4 arg5 harg5 arg6 harg6 arg7 harg7) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of this pipeline on core `c`: the arrays as the region finds them (`V`); after the body at
    point `t` each input's buffer at its block and the output's at `out5_6` of the input blocks; the invariant is
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the body's triple applies; the invariant and
    the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.A6.lean ====
/- The class-A half of region 6, a matmul pallas_call on the grid (20,): at each point the body reads the
   5000x128 row block of the left factor and the 128x128 right factor, rounds both to bf16, multiplies them with f32
   accumulation from zero and stores the 5000x128 product into the output block. Stated at a parameter `V`, the
   TensorCore's buffer contents when the region is entered: each window's block at a point, the output buffer after
   the body as a function of the input blocks, the body's triple, the pipeline's proof data and its body
   obligation. -/
import proofs.«171122_j58480274703249_1_alg».proof.Proof.Gen.Kernel.Launch
import proofs.«171122_j58480274703249_1_alg».proof.Proof.Gen.Kernel.Skeleton
import proofs.«171122_j58480274703249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks are long (5000 rows): membership in a block's rectangle is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 6, at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the row block of the left factor) holds its block at every point, fetched there or not, for any proof data whose
    array is `V`'s and whose body leaves the block in place: where it is not fetched its block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the right factor, one block for the whole grid) holds its block at every point, fetched there or not, for any proof data whose
    array is `V`'s and whose body leaves the block in place: where it is not fetched its block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0

/-! ## What the body leaves in the output window's buffer -/

/-- Window 2's staging buffer after the body: one store of the whole block, the product of the row block (rounded to
    bf16) with the right factor (rounded to bf16), accumulated in f32 from zero. -/
def out6_2 (x0 : Vec F S5000x128 .f32) (x1 : Vec F S128x128 .f32) : Vec F S5000x128 .f32 :=
  View.canon [⟨r6_0, k6_pay1 (View.ld x0 r6_0) (View.ld x1 r6_1)⟩]

/-- The one store is of the whole block, so it covers it. -/
theorem cover6_2 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 1000000 in
/-- The kernel body on whole staging memrefs, the inputs' at read contents `xW` and the output's at anything, runs to
    the continuation holding the inputs' as they were and the output's at `out6_2` of the inputs'. -/
theorem sound_kernel6 (c : Dev nD) (E : Set ℕ) (i : grid6.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of this pipeline on core `c`: the arrays as the region finds them (`V`); after the body at
    point `t` each input's buffer at its block and the output's at `out6_2` of the input blocks; the invariant is
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and
    the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.A7.lean ====
/- The class-A half of region 7, a bias-add pallas_call on the grid (20,): at each point the body reads a 5000x128
   row block and a 1x128 bias row, adds the row (broadcast along the rows) to the block and stores the 5000x128 sum
   into the output block. Stated at a parameter `V`, the TensorCore's buffer contents when the region is entered:
   each window's block at a point, the output buffer after the body as a function of the input blocks, the body's
   triple, the pipeline's proof data and its body obligation. -/
import proofs.«171122_j58480274703249_1_alg».proof.Proof.Gen.Kernel.Launch
import proofs.«171122_j58480274703249_1_alg».proof.Proof.Gen.Kernel.Skeleton
import proofs.«171122_j58480274703249_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks are long (5000 rows): membership in a block's rectangle is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 7, at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the row block) holds its block at every point, fetched there or not, for any proof data whose
    array is `V`'s and whose body leaves the block in place: where it is not fetched its block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the bias row, one block for the whole grid) holds its block at every point, fetched there or not, for any proof data whose
    array is `V`'s and whose body leaves the block in place: where it is not fetched its block index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x128 := Rect.unit (s := S5000x128) ![0, 0] S5000x128.size inb_S5000x128_S5000x128_0_0
abbrev r7_1 : Rect S1x128 := Rect.unit (s := S1x128) ![0, 0] S1x128.size inb_S1x128_S1x128_0_0

/-! ## What the body leaves in the output window's buffer -/

/-- Window 2's staging buffer after the body: one store of the whole block, the row block plus the bias row
    broadcast along the rows. -/
def out7_2 (x0 : Vec F S5000x128 .f32) (x1 : Vec F S1x128 .f32) : Vec F S5000x128 .f32 :=
  View.canon [⟨r7_0, k7_pay1 (View.ld x0 r7_0) (View.ld x1 r7_1)⟩]

/-- The one store is of the whole block, so it covers it. -/
theorem cover7_2 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel body on whole staging memrefs, the inputs' at read contents `xW` and the output's at anything, runs to
    the continuation holding the inputs' as they were and the output's at `out7_2` of the inputs'. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_add_kernel i arg1 harg1 arg2 harg2 arg3 harg3) K := by
  simp only [cc7__bias_add_kernel_eq_skeleton]; unfold cc7__bias_add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of this pipeline on core `c`: the arrays as the region finds them (`V`); after the body at
    point `t` each input's buffer at its block and the output's at `out7_2` of the input blocks; the invariant is
    the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so the body's triple applies; the invariant and
    the core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.R1a.lean ====
/- Region 1 (the column-statistics kernel over a grid of 20 row blocks): what its three control cases share.
   The windows' blocks read off the arrays as the region finds them; the two branch conditions in closed form
   (the first point zeroes the two running sums, the last point writes mean and variance); where the two
   result windows are idle; the staging and scratch memrefs the body is called with. -/
import proofs.«171122_j58480274703249_1_alg».proof.Proof.Gen.Kernel.Launch
import proofs.«171122_j58480274703249_1_alg».proof.Proof.Gen.Kernel.Skeleton
import proofs.«171122_j58480274703249_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (the point is the first), from the grid coordinates. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's condition (the point is the last). -/
abbrev cond1_1 (i : grid1.Coords) : Prop := k1_cond2 i = 1#1
theorem hcond1_1 : ∀ t : Fin cfg1.N, cond1_1 (grid1.coords t) ↔ t.val = 19 :=
  (by decide +kernel : ∀ t : Fin grid1.N, cond1_1 (grid1.coords t) ↔ t.val = 19)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the two result windows are idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last point they are live. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two scratch operands (the running column sums of the rows and of their squares): whole scoped buffers. -/
abbrev scM1_0 : Memref sig .tc .vmem S1x128 .f32 := Memref.whole cc1_scratch0
abbrev scM1_1 : Memref sig .tc .vmem S1x128 .f32 := Memref.whole cc1_scratch1

/-- The whole-row access every store and load of a `1×128` memref makes. -/
abbrev r1row : Rect S1x128 := Rect.unit (s := S1x128) ![0, 0] S1x128.size inb_S1x128_S1x128_0_0
abbrev r1blk : Rect S5000x128 := Rect.unit (s := S5000x128) ![0, 0] S5000x128.size inb_S5000x128_S5000x128_0_0

end Cert.Kernel.Hand

end
-- ==== Proof.K.R1b.lean ====
/- Region 1, the FIRST grid point: the first conditional is taken (the two running sums are zeroed), the last is not.
   On whole memrefs — the two inputs at their blocks, the two result buffers at contents handed back untouched, the two
   scratch buffers at anything — the body runs to the continuation with the scratch buffers holding the pieces its stores
   wrote (the zero row, then zero plus the block's column sums of z and of z*z, z = block + bias row). -/
import proofs.«171122_j58480274703249_1_alg».proof.Proof.K.R1a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S5000x128 .f32) (x1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.K.R1c.lean ====
/- Region 1, a MIDDLE grid point: neither conditional is taken. On whole memrefs — the two inputs at their blocks,
   the two result buffers at contents handed back untouched, the two scratch buffers at what the point before left
   (the running column sums) — the body runs to the continuation with the scratch buffers holding the pieces its stores wrote
   (the running sums plus the block's column sums of z and of z*z, z = block + bias row). -/
import proofs.«171122_j58480274703249_1_alg».proof.Proof.K.R1a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_B (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S5000x128 .f32) (x1 : Vec F S1x128 .f32) (xs0 xs1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.K.R1d.lean ====
/- Region 1, the LAST grid point: the first conditional is not taken, the last is (mean and variance are written).
   On whole memrefs — the two inputs at their blocks, the two result buffers at anything, the two scratch buffers at what
   the point before left — the body runs to the continuation with the scratch buffers holding the pieces its stores wrote
   (the final column sums S and Q) and the result buffers theirs (S/100000, and Q/100000 minus its square). -/
import proofs.«171122_j58480274703249_1_alg».proof.Proof.K.R1a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_C (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S5000x128 .f32) (x1 : Vec F S1x128 .f32) (xs0 xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.K.R1.lean ====
/- Region 1 (the column-statistics kernel: over 20 row blocks of z = block + bias row it accumulates the column sums
   S of z and Q of z*z in two scratch rows carried from point to point, and at the last point writes mean = S/100000 and
   variance = Q/100000 - mean*mean), stated at the buffer contents `V` the region is entered with.
   Per control case (first / middle / last point) what the body's stores leave in the two scratch rows and the two result
   rows; the recursion `outsAt1` giving these contents point by point (each point's sums over the point before's);
   the proof data `dat1` whose invariant carries the two scratch rows at the recursion's contents; the body obligation;
   and the entailments into the invariant before the first point and out of it after the last. -/
import proofs.«171122_j58480274703249_1_alg».proof.Proof.K.R1b
import proofs.«171122_j58480274703249_1_alg».proof.Proof.K.R1c
import proofs.«171122_j58480274703249_1_alg».proof.Proof.K.R1d

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Views through which the contents of the result rows and the scratch rows are stated. -/
abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view
abbrev VS1_0 : View sig .tc .vmem S1x128 .f32 := scM1_0.view
abbrev VS1_1 : View sig .tc .vmem S1x128 .f32 := scM1_1.view

/-- Away from the last point nothing is stored into the result rows (the windows are idle and not written back): a
    placeholder nothing consults. -/
def idle1_2 : Vec F S1x128 .f32 := VO1_2.read (Elt F) VO1_2.junk
def idle1_3 : Vec F S1x128 .f32 := VO1_3.read (Elt F) VO1_3.junk

/-- In case A the pieces stored into scratch 0 cover its row: every store writes the whole row. -/
theorem scover1_A_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) (y : S1x128.Idx) :
    ∃ pc ∈ (kernelRun1_A c i arg1 harg1 arg2 harg2 arg3 harg3 arg4 harg4 arg5 harg5 arg6 harg6 hc0 hc1 x0 x1).1, y ∈ pc.1.set :=
  View.cover_of_tiledL (kernelRun1_A c i arg1 harg1 arg2 harg2 arg3 harg3 arg4 harg4 arg5 harg5 arg6 harg6 hc0 hc1 x0 x1).1 S1x128.size (by sl_kernel_rfl) y

/-- What case A leaves there: its pieces read back. -/
def sout1_A_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 hc0 hc1 x0 x1).1)

/-- In case A the pieces stored into scratch 1 cover its row: every store writes the whole row. -/
theorem scover1_A_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) (y : S1x128.Idx) :
    ∃ pc ∈ (kernelRun1_A c i arg1 harg1 arg2 harg2 arg3 harg3 arg4 harg4 arg5 harg5 arg6 harg6 hc0 hc1 x0 x1).2.1, y ∈ pc.1.set :=
  View.cover_of_tiledL (kernelRun1_A c i arg1 harg1 arg2 harg2 arg3 harg3 arg4 harg4 arg5 harg5 arg6 harg6 hc0 hc1 x0 x1).2.1 S1x128.size (by sl_kernel_rfl) y

/-- What case A leaves there: its pieces read back. -/
def sout1_A_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 hc0 hc1 x0 x1).2.1)

/-- In case B the pieces stored into scratch 0 cover its row: every store writes the whole row. -/
theorem scover1_B_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) (y : S1x128.Idx) :
    ∃ pc ∈ (kernelRun1_B c i arg1 harg1 arg2 harg2 arg3 harg3 arg4 harg4 arg5 harg5 arg6 harg6 hc0 hc1 x0 x1 xs0 xs1).1, y ∈ pc.1.set :=
  View.cover_of_tiledL (kernelRun1_B c i arg1 harg1 arg2 harg2 arg3 harg3 arg4 harg4 arg5 harg5 arg6 harg6 hc0 hc1 x0 x1 xs0 xs1).1 S1x128.size (by sl_kernel_rfl) y

/-- What case B leaves there: its pieces read back. -/
def sout1_B_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).1)

/-- In case B the pieces stored into scratch 1 cover its row: every store writes the whole row. -/
theorem scover1_B_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) (y : S1x128.Idx) :
    ∃ pc ∈ (kernelRun1_B c i arg1 harg1 arg2 harg2 arg3 harg3 arg4 harg4 arg5 harg5 arg6 harg6 hc0 hc1 x0 x1 xs0 xs1).2.1, y ∈ pc.1.set :=
  View.cover_of_tiledL (kernelRun1_B c i arg1 harg1 arg2 harg2 arg3 harg3 arg4 harg4 arg5 harg5 arg6 harg6 hc0 hc1 x0 x1 xs0 xs1).2.1 S1x128.size (by sl_kernel_rfl) y

/-- What case B leaves there: its pieces read back. -/
def sout1_B_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.1)

/-- In case C the pieces stored into result window 2 cover its row: every store writes the whole row. -/
theorem cover1_C_2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x128.size (by sl_kernel_rfl) y

/-- What case C leaves there: its pieces read back. -/
def out1_C_2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)

/-- In case C the pieces stored into result window 3 cover its row: every store writes the whole row. -/
theorem cover1_C_3 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x128.size (by sl_kernel_rfl) y

/-- What case C leaves there: its pieces read back. -/
def out1_C_3 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)

/-- In case C the pieces stored into scratch 0 cover its row: every store writes the whole row. -/
theorem scover1_C_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x128.size (by sl_kernel_rfl) y

/-- What case C leaves there: its pieces read back. -/
def sout1_C_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)

/-- In case C the pieces stored into scratch 1 cover its row: every store writes the whole row. -/
theorem scover1_C_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x128.size (by sl_kernel_rfl) y

/-- What case C leaves there: its pieces read back. -/
def sout1_C_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

/-! ## What the result rows and the scratch rows hold after each point -/

/-- THE ACCUMULATION: after the body at point `n`, (result row 2, result row 3, scratch row 0, scratch row 1).
    Point 0 zeroes the scratch rows and adds block 0's column sums; a later point adds its block's column sums to what
    the point before left; the last point also writes mean and variance from the final sums. -/
def outsAt1 (c : Dev nD) : (n : ℕ) → n < cfg1.N → Vec F S1x128 .f32 × Vec F S1x128 .f32 × Vec F S1x128 .f32 × Vec F S1x128 .f32
  | 0, hn => (idle1_2 (F := F), idle1_3 (F := F), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩))
  | n + 1, hn =>
    if h1 : n + 1 = 19 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
      (idle1_2 (F := F), idle1_3 (F := F), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at the first point. -/
theorem outsAt1_A (c : Dev nD) (t : Fin cfg1.N) (h0 : t.val = 0) (h1 : ¬t.val = 19) :
    outsAt1 V c t.val t.isLt = (idle1_2 (F := F), idle1_3 (F := F), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

/-- `outsAt1` at a middle point: over what the point before left. -/
theorem outsAt1_B (c : Dev nD) (t : Fin cfg1.N) (h0 : ¬t.val = 0) (h1 : ¬t.val = 19) :
    outsAt1 V c t.val t.isLt = (idle1_2 (F := F), idle1_3 (F := F), sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : ¬t.val = 0) (h1 : t.val = 19) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before position `n`: before the first point the generator register at some state and the call's scoped rest (the two
    scratch rows at ANY contents: the first point zeroes them before any use); afterwards the two scratch rows at what the
    point before left in them (`outsAt1`'s scratch components), the generator register at some state, and the scoped
    rest but the two scratch rows. -/
def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop(owns (c : Thread nD τ) scM1_0 fullShare (outsAt1 V c n hn).2.2.1 ∗ owns (c : Thread nD τ) scM1_1 fullShare (outsAt1 V c n hn).2.2.2 ∗ (∃ r, prngReg c r) ∗ Pipeline.scopedRestBut (Ix := Unit) (Name := ℕ) (U := UR sig nD τ) (Lvl := ℕ) (Val := Elt F) spec1 c [cc1_scratch0, cc1_scratch1])

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) (Val := Elt F) spec1 c) := by
  subst hz; rfl

theorem PhiS1_succ (c : Dev nD) (n : ℕ) (hn : n < cfg1.N) :
    PhiS1 V c (n + 1) hn = iprop(owns (c : Thread nD τ) scM1_0 fullShare (outsAt1 V c n hn).2.2.1 ∗ owns (c : Thread nD τ) scM1_1 fullShare (outsAt1 V c n hn).2.2.2 ∗ (∃ r, prngReg c r) ∗ Pipeline.scopedRestBut (Ix := Unit) (Name := ℕ) (U := UR sig nD τ) (Lvl := ℕ) (Val := Elt F) spec1 c [cc1_scratch0, cc1_scratch1]) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.2.1 ∗ owns (c : Thread nD τ) scM1_1 fullShare (outsAt1 V c (n - 1) (by omega)).2.2.2 ∗ (∃ r, prngReg c r) ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

/-- The scoped rest with the two scratch rows as memrefs owned at some contents. -/
theorem scopedRest1_owns (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [scM1_0, scM1_1, owns_whole]; try rfl

/-! ## The pipeline's proof data -/

/-- The proof data of pipeline 1 on core `c`: the arrays as the region finds them (`V`); after the body at point `t`
    each input's buffer at its block and the result rows at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the scratch rows (at anything at the first point, else at what the point before left) and
    takes them back at this point's contents; the result rows are handed back untouched away from the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  have hN : t.val < 20 := lt_of_lt_of_eq t.isLt (show cfg1.N = 20 from N_1)
  by_cases h0 : t.val = 0
  · have h1 : ¬t.val = 19 := by omega
    rw [Dat.leavesExact_idle (dat1 V c) 2 t (idleAt1_2 t (fun h => h1 ((hcond1_1 t).mp h))) (noFlush1_2 t (fun h => h1 ((hcond1_1 t).mp h)))]
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A_0 sout1_A_1; (try dsimp only)
    rw [PhiS1_castSucc V c t, PhiS1_zero V c _ _ h0, scopedRest1_owns]
    iintro ⟨⟨Hg, ⟨HS0, HS1⟩, Hrest⟩, Ho, ⟨%d0, H0⟩, ⟨%d1, H1⟩, ⟨%d2, H2⟩, ⟨%d3, H3⟩⟩
    iapply ((kernelRun1_A c (grid1.coords t) _ _ _ _ _ _ _ _ _ _ _ _ ((hcond1_0 t).mpr h0) (fun h => h1 ((hcond1_1 t).mp h)) (iblk1 V c 0 t) (iblk1 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hg Hrest]
    · isplitl [HS0]
      · unfold owns; iexists _; isplitr
        swap; · iexact HS0
        ipureintro; exact View.read_writes_of_cover _ _ _ _ _ (scover1_A_0 _ _ _ _ _ _ _ _ _ _ _ _ _ _ _ _ _ _)
      isplitl [HS1]
      · unfold owns; iexists _; isplitr
        swap; · iexact HS1
        ipureintro; exact View.read_writes_of_cover _ _ _ _ _ (scover1_A_1 _ _ _ _ _ _ _ _ _ _ _ _ _ _ _ _ _ _)
      isplitl [Hg]; · iexact Hg
      iexact Hrest
    isplitl [Ho]; · iexact Ho
    isplitl [H0]; · iexact H0
    isplitl [H1]; · iexact H1
    isplitl [H2]; · iexists _; iexact H2
    iexists _; iexact H3
  · by_cases h1 : t.val = 19
    · rw [show (dat1 V c).leavesExact 2 t = owns (c : Thread nD τ) (ms1_2 t) fullShare ((dat1 V c).after 2 t) from by
        unfold Dat.leavesExact; rw [liveAt1_2 t ((hcond1_1 t).mpr h1)], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_2 out1_C_3 sout1_C_0 sout1_C_1; (try dsimp only)
      rw [PhiS1_castSucc V c t, PhiS1_pos V c _ _ h0]
      iintro ⟨⟨HS0, HS1, Hg, Hrest⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg Hrest]
      · isplitl [HS0]
        · unfold owns; iexists _; isplitr
          swap; · iexact HS0
          ipureintro; exact View.read_writes_of_cover _ _ _ _ _ (scover1_C_0 _ _ _ _ _ _ _ _ _ _ _ _ _ _ _ _ _ _ _ _)
        isplitl [HS1]
        · unfold owns; iexists _; isplitr
          swap; · iexact HS1
          ipureintro; exact View.read_writes_of_cover _ _ _ _ _ (scover1_C_1 _ _ _ _ _ _ _ _ _ _ _ _ _ _ _ _ _ _ _ _)
        isplitl [Hg]; · iexact Hg
        iexact Hrest
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 _ _ _ _ _ _ _ _ _ _ _ _ _ _ _ _ _ _ _ _)
      unfold owns; iexists _; isplitr
      swap; · iexact H3
      ipureintro; exact View.read_writes_of_cover _ _ _ _ _ (cover1_C_3 _ _ _ _ _ _ _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1; (try dsimp only)
      rw [PhiS1_castSucc V c t, PhiS1_pos V c _ _ h0]
      iintro ⟨⟨HS0, HS1, Hg, Hrest⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg Hrest]
      · isplitl [HS0]
        · unfold owns; iexists _; isplitr
          swap; · iexact HS0
          ipureintro; exact View.read_writes_of_cover _ _ _ _ _ (scover1_B_0 _ _ _ _ _ _ _ _ _ _ _ _ _ _ _ _ _ _ _ _)
        isplitl [HS1]
        · unfold owns; iexists _; isplitr
          swap; · iexact HS1
          ipureintro; exact View.read_writes_of_cover _ _ _ _ _ (scover1_B_1 _ _ _ _ _ _ _ _ _ _ _ _ _ _ _ _ _ _ _ _)
        isplitl [Hg]; · iexact Hg
        iexact Hrest
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region — the generator register at some state and the call's scoped rest — is the invariant
    before the first point. -/
theorem hin1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives them back: the scratch rows' named contents are forgotten. -/
theorem hout1 (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), scopedRest1_owns]
  iintro ⟨HS0, HS1, Hg, Hrest⟩
  isplitl [Hg]; · iexact Hg
  isplitl [HS0 HS1]
  · isplitl [HS0]; · iexists _; iexact HS0
    iexists _; iexact HS1
  iexact Hrest

end Cert.Kernel.Hand

end
-- ==== Proof.K.R4a.lean ====
/- Region 4 (the column-statistics kernel over a grid of 20 row blocks): what its three control cases share.
   The windows' blocks read off the arrays as the region finds them; the two branch conditions in closed form
   (the first point zeroes the two running sums, the last point writes mean and variance); where the two
   result windows are idle; the staging and scratch memrefs the body is called with. -/
import proofs.«171122_j58480274703249_1_alg».proof.Proof.Gen.Kernel.Launch
import proofs.«171122_j58480274703249_1_alg».proof.Proof.Gen.Kernel.Skeleton
import proofs.«171122_j58480274703249_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The first conditional's condition (the point is the first), from the grid coordinates. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- The second conditional's condition (the point is the last). -/
abbrev cond4_1 (i : grid4.Coords) : Prop := k4_cond2 i = 1#1
theorem hcond4_1 : ∀ t : Fin cfg4.N, cond4_1 (grid4.coords t) ↔ t.val = 19 :=
  (by decide +kernel : ∀ t : Fin grid4.N, cond4_1 (grid4.coords t) ↔ t.val = 19)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Away from the last point the two result windows are idle and not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
/-- At the last point they are live. -/
theorem liveAt4_2 : ∀ t : Fin cfg4.N, cond4_1 (grid4.coords t) → cfg4.idle 2 (grid4.coords t) = false := by decide +kernel
theorem liveAt4_3 : ∀ t : Fin cfg4.N, cond4_1 (grid4.coords t) → cfg4.idle 3 (grid4.coords t) = false := by decide +kernel

/-! ## The memrefs the body is called with -/

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
/-- The two scratch operands (the running column sums of the rows and of their squares): whole scoped buffers. -/
abbrev scM4_0 : Memref sig .tc .vmem S1x128 .f32 := Memref.whole cc4_scratch0
abbrev scM4_1 : Memref sig .tc .vmem S1x128 .f32 := Memref.whole cc4_scratch1

/-- The whole-row access every store and load of a `1×128` memref makes. -/
abbrev r4row : Rect S1x128 := Rect.unit (s := S1x128) ![0, 0] S1x128.size inb_S1x128_S1x128_0_0
abbrev r4blk : Rect S5000x128 := Rect.unit (s := S5000x128) ![0, 0] S5000x128.size inb_S5000x128_S5000x128_0_0

end Cert.Kernel.Hand

end
-- ==== Proof.K.R4b.lean ====
/- Region 4, the FIRST grid point: the first conditional is taken (the two running sums are zeroed), the last is not.
   On whole memrefs — the two inputs at their blocks, the two result buffers at contents handed back untouched, the two
   scratch buffers at anything — the body runs to the continuation with the scratch buffers holding the pieces its stores
   wrote (the zero row, then zero plus the block's column sums of z and of z*z, z = block + bias row). -/
import proofs.«171122_j58480274703249_1_alg».proof.Proof.K.R4a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun4_A (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i)
    (x0 : Vec F S5000x128 .f32) (x1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.K.R4c.lean ====
/- Region 4, a MIDDLE grid point: neither conditional is taken. On whole memrefs — the two inputs at their blocks,
   the two result buffers at contents handed back untouched, the two scratch buffers at what the point before left
   (the running column sums) — the body runs to the continuation with the scratch buffers holding the pieces its stores wrote
   (the running sums plus the block's column sums of z and of z*z, z = block + bias row). -/
import proofs.«171122_j58480274703249_1_alg».proof.Proof.K.R4a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun4_B (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i)
    (x0 : Vec F S5000x128 .f32) (x1 : Vec F S1x128 .f32) (xs0 xs1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.K.R4d.lean ====
/- Region 4, the LAST grid point: the first conditional is not taken, the last is (mean and variance are written).
   On whole memrefs — the two inputs at their blocks, the two result buffers at anything, the two scratch buffers at what
   the point before left — the body runs to the continuation with the scratch buffers holding the pieces its stores wrote
   (the final column sums S and Q) and the result buffers theirs (S/100000, and Q/100000 minus its square). -/
import proofs.«171122_j58480274703249_1_alg».proof.Proof.K.R4a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun4_C (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i)
    (x0 : Vec F S5000x128 .f32) (x1 : Vec F S1x128 .f32) (xs0 xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, ?_, ?_, fun E K => ?run⟩
  case run =>
    simp only [cc4__bn_stats_kernel_eq_skeleton]; unfold cc4__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.K.R4.lean ====
/- Region 4 (the column-statistics kernel: over 20 row blocks of z = block + bias row it accumulates the column sums
   S of z and Q of z*z in two scratch rows carried from point to point, and at the last point writes mean = S/100000 and
   variance = Q/100000 - mean*mean), stated at the buffer contents `V` the region is entered with.
   Per control case (first / middle / last point) what the body's stores leave in the two scratch rows and the two result
   rows; the recursion `outsAt4` giving these contents point by point (each point's sums over the point before's);
   the proof data `dat4` whose invariant carries the two scratch rows at the recursion's contents; the body obligation;
   and the entailments into the invariant before the first point and out of it after the last. -/
import proofs.«171122_j58480274703249_1_alg».proof.Proof.K.R4b
import proofs.«171122_j58480274703249_1_alg».proof.Proof.K.R4c
import proofs.«171122_j58480274703249_1_alg».proof.Proof.K.R4d

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Views through which the contents of the result rows and the scratch rows are stated. -/
abbrev VO4_2 : View sig .tc .vmem S1x128 .f32 := (Memref.whole cc4_stg2_0 : Memref sig .tc .vmem S1x128 .f32).view
abbrev VO4_3 : View sig .tc .vmem S1x128 .f32 := (Memref.whole cc4_stg3_0 : Memref sig .tc .vmem S1x128 .f32).view
abbrev VS4_0 : View sig .tc .vmem S1x128 .f32 := scM4_0.view
abbrev VS4_1 : View sig .tc .vmem S1x128 .f32 := scM4_1.view

/-- Away from the last point nothing is stored into the result rows (the windows are idle and not written back): a
    placeholder nothing consults. -/
def idle4_2 : Vec F S1x128 .f32 := VO4_2.read (Elt F) VO4_2.junk
def idle4_3 : Vec F S1x128 .f32 := VO4_3.read (Elt F) VO4_3.junk

/-- In case A the pieces stored into scratch 0 cover its row: every store writes the whole row. -/
theorem scover4_A_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) (y : S1x128.Idx) :
    ∃ pc ∈ (kernelRun4_A c i arg1 harg1 arg2 harg2 arg3 harg3 arg4 harg4 arg5 harg5 arg6 harg6 hc0 hc1 x0 x1).1, y ∈ pc.1.set :=
  View.cover_of_tiledL (kernelRun4_A c i arg1 harg1 arg2 harg2 arg3 harg3 arg4 harg4 arg5 harg5 arg6 harg6 hc0 hc1 x0 x1).1 S1x128.size (by sl_kernel_rfl) y

/-- What case A leaves there: its pieces read back. -/
def sout4_A_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 hc0 hc1 x0 x1).1)

/-- In case A the pieces stored into scratch 1 cover its row: every store writes the whole row. -/
theorem scover4_A_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) (y : S1x128.Idx) :
    ∃ pc ∈ (kernelRun4_A c i arg1 harg1 arg2 harg2 arg3 harg3 arg4 harg4 arg5 harg5 arg6 harg6 hc0 hc1 x0 x1).2.1, y ∈ pc.1.set :=
  View.cover_of_tiledL (kernelRun4_A c i arg1 harg1 arg2 harg2 arg3 harg3 arg4 harg4 arg5 harg5 arg6 harg6 hc0 hc1 x0 x1).2.1 S1x128.size (by sl_kernel_rfl) y

/-- What case A leaves there: its pieces read back. -/
def sout4_A_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 hc0 hc1 x0 x1).2.1)

/-- In case B the pieces stored into scratch 0 cover its row: every store writes the whole row. -/
theorem scover4_B_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) (y : S1x128.Idx) :
    ∃ pc ∈ (kernelRun4_B c i arg1 harg1 arg2 harg2 arg3 harg3 arg4 harg4 arg5 harg5 arg6 harg6 hc0 hc1 x0 x1 xs0 xs1).1, y ∈ pc.1.set :=
  View.cover_of_tiledL (kernelRun4_B c i arg1 harg1 arg2 harg2 arg3 harg3 arg4 harg4 arg5 harg5 arg6 harg6 hc0 hc1 x0 x1 xs0 xs1).1 S1x128.size (by sl_kernel_rfl) y

/-- What case B leaves there: its pieces read back. -/
def sout4_B_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 hc0 hc1 x0 x1 xs0 xs1).1)

/-- In case B the pieces stored into scratch 1 cover its row: every store writes the whole row. -/
theorem scover4_B_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) (y : S1x128.Idx) :
    ∃ pc ∈ (kernelRun4_B c i arg1 harg1 arg2 harg2 arg3 harg3 arg4 harg4 arg5 harg5 arg6 harg6 hc0 hc1 x0 x1 xs0 xs1).2.1, y ∈ pc.1.set :=
  View.cover_of_tiledL (kernelRun4_B c i arg1 harg1 arg2 harg2 arg3 harg3 arg4 harg4 arg5 harg5 arg6 harg6 hc0 hc1 x0 x1 xs0 xs1).2.1 S1x128.size (by sl_kernel_rfl) y

/-- What case B leaves there: its pieces read back. -/
def sout4_B_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 hc0 hc1 x0 x1 xs0 xs1).2.1)

/-- In case C the pieces stored into result window 2 cover its row: every store writes the whole row. -/
theorem cover4_C_2 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).1, y ∈ pc.1.set :=
  View.cover_of_tiledL (kernelRun4_C c i arg1 harg1 arg2 harg2 arg3 harg3 arg4 harg4 arg5 harg5 arg6 harg6 hc0 hc1 x0 x1 xs0 xs1).1 S1x128.size (by sl_kernel_rfl) y

/-- What case C leaves there: its pieces read back. -/
def out4_C_2 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VO4_2.read (Elt F) (VO4_2.writes (Elt F) VO4_2.junk (kernelRun4_C c i arg1 harg1 arg2 harg2 arg3 harg3 arg4 harg4 arg5 harg5 arg6 harg6 hc0 hc1 x0 x1 xs0 xs1).1)

/-- In case C the pieces stored into result window 3 cover its row: every store writes the whole row. -/
theorem cover4_C_3 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).2.1, y ∈ pc.1.set :=
  View.cover_of_tiledL (kernelRun4_C c i arg1 harg1 arg2 harg2 arg3 harg3 arg4 harg4 arg5 harg5 arg6 harg6 hc0 hc1 x0 x1 xs0 xs1).2.1 S1x128.size (by sl_kernel_rfl) y

/-- What case C leaves there: its pieces read back. -/
def out4_C_3 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VO4_3.read (Elt F) (VO4_3.writes (Elt F) VO4_3.junk (kernelRun4_C c i arg1 harg1 arg2 harg2 arg3 harg3 arg4 harg4 arg5 harg5 arg6 harg6 hc0 hc1 x0 x1 xs0 xs1).2.1)

/-- In case C the pieces stored into scratch 0 cover its row: every store writes the whole row. -/
theorem scover4_C_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).2.2.1, y ∈ pc.1.set :=
  View.cover_of_tiledL (kernelRun4_C c i arg1 harg1 arg2 harg2 arg3 harg3 arg4 harg4 arg5 harg5 arg6 harg6 hc0 hc1 x0 x1 xs0 xs1).2.2.1 S1x128.size (by sl_kernel_rfl) y

/-- What case C leaves there: its pieces read back. -/
def sout4_C_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 hc0 hc1 x0 x1 xs0 xs1).2.2.1)

/-- In case C the pieces stored into scratch 1 cover its row: every store writes the whole row. -/
theorem scover4_C_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).2.2.2.1, y ∈ pc.1.set :=
  View.cover_of_tiledL (kernelRun4_C c i arg1 harg1 arg2 harg2 arg3 harg3 arg4 harg4 arg5 harg5 arg6 harg6 hc0 hc1 x0 x1 xs0 xs1).2.2.2.1 S1x128.size (by sl_kernel_rfl) y

/-- What case C leaves there: its pieces read back. -/
def sout4_C_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 hc0 hc1 x0 x1 xs0 xs1).2.2.2.1)

/-! ## What the result rows and the scratch rows hold after each point -/

/-- THE ACCUMULATION: after the body at point `n`, (result row 2, result row 3, scratch row 0, scratch row 1).
    Point 0 zeroes the scratch rows and adds block 0's column sums; a later point adds its block's column sums to what
    the point before left; the last point also writes mean and variance from the final sums. -/
def outsAt4 (c : Dev nD) : (n : ℕ) → n < cfg4.N → Vec F S1x128 .f32 × Vec F S1x128 .f32 × Vec F S1x128 .f32 × Vec F S1x128 .f32
  | 0, hn => (idle4_2 (F := F), idle4_3 (F := F), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩))
  | n + 1, hn =>
    if h1 : n + 1 = 19 then
      (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2)
    else
      (idle4_2 (F := F), idle4_3 (F := F), sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2)

/-- `outsAt4` at the first point. -/
theorem outsAt4_A (c : Dev nD) (t : Fin cfg4.N) (h0 : t.val = 0) (h1 : ¬t.val = 19) :
    outsAt4 V c t.val t.isLt = (idle4_2 (F := F), idle4_3 (F := F), sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t), sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact absurd h0 (Nat.succ_ne_zero n)

/-- `outsAt4` at a middle point: over what the point before left. -/
theorem outsAt4_B (c : Dev nD) (t : Fin cfg4.N) (h0 : ¬t.val = 0) (h1 : ¬t.val = 19) :
    outsAt4 V c t.val t.isLt = (idle4_2 (F := F), idle4_3 (F := F), sout4_B_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt4` at the last point: over what the point before left. -/
theorem outsAt4_C (c : Dev nD) (t : Fin cfg4.N) (h0 : ¬t.val = 0) (h1 : t.val = 19) :
    outsAt4 V c t.val t.isLt = (out4_C_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before position `n`: before the first point the generator register at some state and the call's scoped rest (the two
    scratch rows at ANY contents: the first point zeroes them before any use); afterwards the two scratch rows at what the
    point before left in them (`outsAt4`'s scratch components), the generator register at some state, and the scoped
    rest but the two scratch rows. -/
def PhiS4 (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop(owns (c : Thread nD τ) scM4_0 fullShare (outsAt4 V c n hn).2.2.1 ∗ owns (c : Thread nD τ) scM4_1 fullShare (outsAt4 V c n hn).2.2.2 ∗ (∃ r, prngReg c r) ∗ Pipeline.scopedRestBut (Ix := Unit) (Name := ℕ) (U := UR sig nD τ) (Lvl := ℕ) (Val := Elt F) spec4 c [cc4_scratch0, cc4_scratch1])

theorem PhiS4_zero (c : Dev nD) (n : ℕ) (h : n ≤ cfg4.N) (hz : n = 0) :
    PhiS4 V c n h = iprop((∃ r, prngReg c r) ∗ Pipeline.scopedRest (Ix := Unit) (Name := ℕ) (U := UR sig nD τ) (Lvl := ℕ) (Val := Elt F) spec4 c) := by
  subst hz; rfl

theorem PhiS4_succ (c : Dev nD) (n : ℕ) (hn : n < cfg4.N) :
    PhiS4 V c (n + 1) hn = iprop(owns (c : Thread nD τ) scM4_0 fullShare (outsAt4 V c n hn).2.2.1 ∗ owns (c : Thread nD τ) scM4_1 fullShare (outsAt4 V c n hn).2.2.2 ∗ (∃ r, prngReg c r) ∗ Pipeline.scopedRestBut (Ix := Unit) (Name := ℕ) (U := UR sig nD τ) (Lvl := ℕ) (Val := Elt F) spec4 c [cc4_scratch0, cc4_scratch1]) := rfl

theorem PhiS4_pos (c : Dev nD) (n : ℕ) (h : n ≤ cfg4.N) (hz : n ≠ 0) :
    PhiS4 V c n h = iprop(owns (c : Thread nD τ) scM4_0 fullShare (outsAt4 V c (n - 1) (by omega)).2.2.1 ∗ owns (c : Thread nD τ) scM4_1 fullShare (outsAt4 V c (n - 1) (by omega)).2.2.2 ∗ (∃ r, prngReg c r) ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-- The scoped rest with the two scratch rows as memrefs owned at some contents. -/
theorem scopedRest4_owns (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

/-! ## The pipeline's proof data -/

/-- The proof data of pipeline 4 on core `c`: the arrays as the region finds them (`V`); after the body at point `t`
    each input's buffer at its block and the result rows at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; the closed forms say which case the point is in; the
    invariant hands the body the scratch rows (at anything at the first point, else at what the point before left) and
    takes them back at this point's contents; the result rows are handed back untouched away from the last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  have hN : t.val < 20 := lt_of_lt_of_eq t.isLt (show cfg4.N = 20 from N_4)
  by_cases h0 : t.val = 0
  · have h1 : ¬t.val = 19 := by omega
    rw [Dat.leavesExact_idle (dat4 V c) 2 t (idleAt4_2 t (fun h => h1 ((hcond4_1 t).mp h))) (noFlush4_2 t (fun h => h1 ((hcond4_1 t).mp h)))]
    rw [Dat.leavesExact_idle (dat4 V c) 3 t (idleAt4_3 t (fun h => h1 ((hcond4_1 t).mp h))) (noFlush4_3 t (fun h => h1 ((hcond4_1 t).mp h)))]
    rw [outsAt4_A V c t h0 h1]
    unfold sout4_A_0 sout4_A_1; (try dsimp only)
    rw [PhiS4_castSucc V c t, PhiS4_zero V c _ _ h0, scopedRest4_owns]
    iintro ⟨⟨Hg, ⟨HS0, HS1⟩, Hrest⟩, Ho, ⟨%d0, H0⟩, ⟨%d1, H1⟩, ⟨%d2, H2⟩, ⟨%d3, H3⟩⟩
    iapply ((kernelRun4_A c (grid4.coords t) _ _ _ _ _ _ _ _ _ _ _ _ ((hcond4_0 t).mpr h0) (fun h => h1 ((hcond4_1 t).mp h)) (iblk4 V c 0 t) (iblk4 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hg Hrest]
    · isplitl [HS0]
      · unfold owns; iexists _; isplitr
        swap; · iexact HS0
        ipureintro; exact View.read_writes_of_cover _ _ _ _ _ (scover4_A_0 _ _ _ _ _ _ _ _ _ _ _ _ _ _ _ _ _ _)
      isplitl [HS1]
      · unfold owns; iexists _; isplitr
        swap; · iexact HS1
        ipureintro; exact View.read_writes_of_cover _ _ _ _ _ (scover4_A_1 _ _ _ _ _ _ _ _ _ _ _ _ _ _ _ _ _ _)
      isplitl [Hg]; · iexact Hg
      iexact Hrest
    isplitl [Ho]; · iexact Ho
    isplitl [H0]; · iexact H0
    isplitl [H1]; · iexact H1
    isplitl [H2]; · iexists _; iexact H2
    iexists _; iexact H3
  · by_cases h1 : t.val = 19
    · rw [show (dat4 V c).leavesExact 2 t = owns (c : Thread nD τ) (ms4_2 t) fullShare ((dat4 V c).after 2 t) from by
        unfold Dat.leavesExact; rw [liveAt4_2 t ((hcond4_1 t).mpr h1)], after4_2]
      rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold out4_C_2 out4_C_3 sout4_C_0 sout4_C_1; (try dsimp only)
      rw [PhiS4_castSucc V c t, PhiS4_pos V c _ _ h0]
      iintro ⟨⟨HS0, HS1, Hg, Hrest⟩, Ho, ⟨%d0, H0⟩, ⟨%d1, H1⟩, ⟨%d2, H2⟩, ⟨%d3, H3⟩⟩
      iapply ((kernelRun4_C c (grid4.coords t) _ _ _ _ _ _ _ _ _ _ _ _ (fun h => h0 ((hcond4_0 t).mp h)) ((hcond4_1 t).mpr h1) (iblk4 V c 0 t) (iblk4 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg Hrest]
      · isplitl [HS0]
        · unfold owns; iexists _; isplitr
          swap; · iexact HS0
          ipureintro; exact View.read_writes_of_cover _ _ _ _ _ (scover4_C_0 _ _ _ _ _ _ _ _ _ _ _ _ _ _ _ _ _ _ _ _)
        isplitl [HS1]
        · unfold owns; iexists _; isplitr
          swap; · iexact HS1
          ipureintro; exact View.read_writes_of_cover _ _ _ _ _ (scover4_C_1 _ _ _ _ _ _ _ _ _ _ _ _ _ _ _ _ _ _ _ _)
        isplitl [Hg]; · iexact Hg
        iexact Hrest
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_C_2 _ _ _ _ _ _ _ _ _ _ _ _ _ _ _ _ _ _ _ _)
      unfold owns; iexists _; isplitr
      swap; · iexact H3
      ipureintro; exact View.read_writes_of_cover _ _ _ _ _ (cover4_C_3 _ _ _ _ _ _ _ _ _ _ _ _ _ _ _ _ _ _ _ _)
    · rw [Dat.leavesExact_idle (dat4 V c) 2 t (idleAt4_2 t (fun h => h1 ((hcond4_1 t).mp h))) (noFlush4_2 t (fun h => h1 ((hcond4_1 t).mp h)))]
      rw [Dat.leavesExact_idle (dat4 V c) 3 t (idleAt4_3 t (fun h => h1 ((hcond4_1 t).mp h))) (noFlush4_3 t (fun h => h1 ((hcond4_1 t).mp h)))]
      rw [outsAt4_B V c t h0 h1]
      unfold sout4_B_0 sout4_B_1; (try dsimp only)
      rw [PhiS4_castSucc V c t, PhiS4_pos V c _ _ h0]
      iintro ⟨⟨HS0, HS1, Hg, Hrest⟩, Ho, ⟨%d0, H0⟩, ⟨%d1, H1⟩, ⟨%d2, H2⟩, ⟨%d3, H3⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg Hrest]
      · isplitl [HS0]
        · unfold owns; iexists _; isplitr
          swap; · iexact HS0
          ipureintro; exact View.read_writes_of_cover _ _ _ _ _ (scover4_B_0 _ _ _ _ _ _ _ _ _ _ _ _ _ _ _ _ _ _ _ _)
        isplitl [HS1]
        · unfold owns; iexists _; isplitr
          swap; · iexact HS1
          ipureintro; exact View.read_writes_of_cover _ _ _ _ _ (scover4_B_1 _ _ _ _ _ _ _ _ _ _ _ _ _ _ _ _ _ _ _ _)
        isplitl [Hg]; · iexact Hg
        iexact Hrest
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region — the generator register at some state and the call's scoped rest — is the invariant
    before the first point. -/
theorem hin4 (c : Dev nD) : iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives them back: the scratch rows' named contents are forgotten. -/
theorem hout4 (c : Dev nD) : (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega), scopedRest4_owns]
  iintro ⟨HS0, HS1, Hg, Hrest⟩
  isplitl [Hg]; · iexact Hg
  isplitl [HS0 HS1]
  · isplitl [HS0]; · iexists _; iexact HS0
    iexists _; iexact HS1
  iexact Hrest

end Cert.Kernel.Hand

end
-- ==== Proof.K.Run.lean ====
/-
  The whole run of the program: the TensorCore's unscoped buffers followed through the fourteen items of @main.

  @main is six stretches of host operations and eight kernel regions.  Starting from the launch memory, a host
  stretch leaves the buffers at the operations' results, and a region leaves its output arrays at what its grid
  points wrote back and every other buffer untouched.  Every weakly fair execution terminates without a fault, and
  at the end every unscoped buffer holds exactly the contents this fold gives it.  No item writes an argument, so
  the arguments end as launched.
-/
import proofs.«171122_j58480274703249_1_alg».proof.Proof.K.RegOf
import proofs.«171122_j58480274703249_1_alg».proof.Proof.K.A0
import proofs.«171122_j58480274703249_1_alg».proof.Proof.K.A2
import proofs.«171122_j58480274703249_1_alg».proof.Proof.K.A3
import proofs.«171122_j58480274703249_1_alg».proof.Proof.K.A5
import proofs.«171122_j58480274703249_1_alg».proof.Proof.K.A6
import proofs.«171122_j58480274703249_1_alg».proof.Proof.K.A7
import proofs.«171122_j58480274703249_1_alg».proof.Proof.K.R1
import proofs.«171122_j58480274703249_1_alg».proof.Proof.K.R4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers between the items -/

/-- At launch. -/
abbrev W0 : Dev nD → Valuation τ sig (Elt F) := fun c b => m (c, b)
/-- After the first host stretch (the degree count and the edge normalisation). -/
abbrev W1 : Dev nD → Valuation τ sig (Elt F) := fun c => StableHlo.after hostOps0 (W0 m c)
abbrev W2 : Dev nD → Valuation τ sig (Elt F) := fun c => StableHlo.after hostOps0_1 (W1 m c)
/-- Entry of region 0, the first layer's product. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
def W4 : Dev nD → Valuation τ sig (Elt F) := stepW (p := 0) (dat0 (V3 m)) (W3 m)
/-- After the first layer's gather, edge scaling and scatter-add: entry of region 1, the column statistics. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
def W6 : Dev nD → Valuation τ sig (Elt F) := stepW (p := 1) (dat1 (V5 m)) (W5 m)
abbrev V6 : (c : Dev nD) → (b : Ref sig .tc) → Buf (Elt F) ((c : Thread nD τ).loc b) := fun c b => W6 m c b
def W7 : Dev nD → Valuation τ sig (Elt F) := stepW (p := 2) (dat2 (V6 m)) (W6 m)
abbrev V7 : (c : Dev nD) → (b : Ref sig .tc) → Buf (Elt F) ((c : Thread nD τ).loc b) := fun c b => W7 m c b
def W8 : Dev nD → Valuation τ sig (Elt F) := stepW (p := 3) (dat3 (V7 m)) (W7 m)
abbrev W9 : Dev nD → Valuation τ sig (Elt F) := fun c => StableHlo.after hostOps4 (W8 m c)
abbrev V9 : (c : Dev nD) → (b : Ref sig .tc) → Buf (Elt F) ((c : Thread nD τ).loc b) := fun c b => W9 m c b
def W10 : Dev nD → Valuation τ sig (Elt F) := stepW (p := 4) (dat4 (V9 m)) (W9 m)
abbrev V10 : (c : Dev nD) → (b : Ref sig .tc) → Buf (Elt F) ((c : Thread nD τ).loc b) := fun c b => W10 m c b
def W11 : Dev nD → Valuation τ sig (Elt F) := stepW (p := 5) (dat5 (V10 m)) (W10 m)
abbrev V11 : (c : Dev nD) → (b : Ref sig .tc) → Buf (Elt F) ((c : Thread nD τ).loc b) := fun c b => W11 m c b
def W12 : Dev nD → Valuation τ sig (Elt F) := stepW (p := 6) (dat6 (V11 m)) (W11 m)
abbrev W13 : Dev nD → Valuation τ sig (Elt F) := fun c => StableHlo.after hostOps7 (W12 m c)
abbrev V13 : (c : Dev nD) → (b : Ref sig .tc) → Buf (Elt F) ((c : Thread nD τ).loc b) := fun c b => W13 m c b
/-- At the return. -/
def W14 : Dev nD → Valuation τ sig (Elt F) := stepW (p := 7) (dat7 (V13 m)) (W13 m)

/-! ## The proof data of the eight pipelines, each at its region's entry contents -/

def pdats : (p : Fin 8) → (c : Dev nD) → Dat τ (Elt F) Unit ℕ (UR sig nD τ) ℕ (Pipeline.pin (pcfgs (F := F)) Gen.adm p) c
  | ⟨0, _⟩ => fun c => dat0 (V3 m) c
  | ⟨1, _⟩ => fun c => dat1 (V5 m) c
  | ⟨2, _⟩ => fun c => dat2 (V6 m) c
  | ⟨3, _⟩ => fun c => dat3 (V7 m) c
  | ⟨4, _⟩ => fun c => dat4 (V9 m) c
  | ⟨5, _⟩ => fun c => dat5 (V10 m) c
  | ⟨6, _⟩ => fun c => dat6 (V11 m) c
  | ⟨7, _⟩ => fun c => dat7 (V13 m) c

/-! ## The regions as segments -/

theorem not_img {p : Fin 8} {b : Ref sig .tc} (hb : b ∉ Finset.univ.image (Pipeline.arrRef (cfgs p).spec)) (w : Fin (cfgs p).W) :
    Pipeline.arrRef (cfgs p).spec w ≠ b := fun e => hb (Finset.mem_image.mpr ⟨w, Finset.mem_univ _, e⟩)

def reg0 : Pipeline.RegionSeg (pcfgs (F := F)) Gen.adm (pdats m) () defs₀ 𝒱₀ L lv 0 :=
  regOf (pdats m) 0 launch0 (W3 m) (W4 m) (fun c => body_obligation0 (V3 m) c) (fun _ _ => rfl) (fun _ _ => rfl) (fun _ _ => rfl)
    (fun c w => A_eq0 (V3 m) c w) (fun c => classA_in 0 c) (fun c => classA_out 0 c)
    (fun c w => (stepW_arr (p := 0) (dat0 (V3 m)) (W3 m) launch0 c w).symm)
    (fun c b hb => stepW_of_ne (p := 0) (dat0 (V3 m)) (W3 m) c b (not_img hb))
def reg1 : Pipeline.RegionSeg (pcfgs (F := F)) Gen.adm (pdats m) () defs₀ 𝒱₀ L lv 1 :=
  regOf (pdats m) 1 launch1 (W5 m) (W6 m) (fun c => body_obligation1 (V5 m) c) (fun _ _ => rfl) (fun _ _ => rfl) (fun _ _ => rfl)
    (fun c w => A_eq1 (V5 m) c w) (fun c => hin1 (V5 m) c) (fun c => hout1 (V5 m) c)
    (fun c w => (stepW_arr (p := 1) (dat1 (V5 m)) (W5 m) launch1 c w).symm)
    (fun c b hb => stepW_of_ne (p := 1) (dat1 (V5 m)) (W5 m) c b (not_img hb))
def reg2 : Pipeline.RegionSeg (pcfgs (F := F)) Gen.adm (pdats m) () defs₀ 𝒱₀ L lv 2 :=
  regOf (pdats m) 2 launch2 (W6 m) (W7 m) (fun c => body_obligation2 (V6 m) c) (fun _ _ => rfl) (fun _ _ => rfl) (fun _ _ => rfl)
    (fun c w => A_eq2 (V6 m) c w) (fun c => classA_in 2 c) (fun c => classA_out 2 c)
    (fun c w => (stepW_arr (p := 2) (dat2 (V6 m)) (W6 m) launch2 c w).symm)
    (fun c b hb => stepW_of_ne (p := 2) (dat2 (V6 m)) (W6 m) c b (not_img hb))
def reg3 : Pipeline.RegionSeg (pcfgs (F := F)) Gen.adm (pdats m) () defs₀ 𝒱₀ L lv 3 :=
  regOf (pdats m) 3 launch3 (W7 m) (W8 m) (fun c => body_obligation3 (V7 m) c) (fun _ _ => rfl) (fun _ _ => rfl) (fun _ _ => rfl)
    (fun c w => A_eq3 (V7 m) c w) (fun c => classA_in 3 c) (fun c => classA_out 3 c)
    (fun c w => (stepW_arr (p := 3) (dat3 (V7 m)) (W7 m) launch3 c w).symm)
    (fun c b hb => stepW_of_ne (p := 3) (dat3 (V7 m)) (W7 m) c b (not_img hb))
def reg4 : Pipeline.RegionSeg (pcfgs (F := F)) Gen.adm (pdats m) () defs₀ 𝒱₀ L lv 4 :=
  regOf (pdats m) 4 launch4 (W9 m) (W10 m) (fun c => body_obligation4 (V9 m) c) (fun _ _ => rfl) (fun _ _ => rfl) (fun _ _ => rfl)
    (fun c w => A_eq4 (V9 m) c w) (fun c => hin4 (V9 m) c) (fun c => hout4 (V9 m) c)
    (fun c w => (stepW_arr (p := 4) (dat4 (V9 m)) (W9 m) launch4 c w).symm)
    (fun c b hb => stepW_of_ne (p := 4) (dat4 (V9 m)) (W9 m) c b (not_img hb))
def reg5 : Pipeline.RegionSeg (pcfgs (F := F)) Gen.adm (pdats m) () defs₀ 𝒱₀ L lv 5 :=
  regOf (pdats m) 5 launch5 (W10 m) (W11 m) (fun c => body_obligation5 (V10 m) c) (fun _ _ => rfl) (fun _ _ => rfl) (fun _ _ => rfl)
    (fun c w => A_eq5 (V10 m) c w) (fun c => classA_in 5 c) (fun c => classA_out 5 c)
    (fun c w => (stepW_arr (p := 5) (dat5 (V10 m)) (W10 m) launch5 c w).symm)
    (fun c b hb => stepW_of_ne (p := 5) (dat5 (V10 m)) (W10 m) c b (not_img hb))
def reg6 : Pipeline.RegionSeg (pcfgs (F := F)) Gen.adm (pdats m) () defs₀ 𝒱₀ L lv 6 :=
  regOf (pdats m) 6 launch6 (W11 m) (W12 m) (fun c => body_obligation6 (V11 m) c) (fun _ _ => rfl) (fun _ _ => rfl) (fun _ _ => rfl)
    (fun c w => A_eq6 (V11 m) c w) (fun c => classA_in 6 c) (fun c => classA_out 6 c)
    (fun c w => (stepW_arr (p := 6) (dat6 (V11 m)) (W11 m) launch6 c w).symm)
    (fun c b hb => stepW_of_ne (p := 6) (dat6 (V11 m)) (W11 m) c b (not_img hb))
def reg7 : Pipeline.RegionSeg (pcfgs (F := F)) Gen.adm (pdats m) () defs₀ 𝒱₀ L lv 7 :=
  regOf (pdats m) 7 launch7 (W13 m) (W14 m) (fun c => body_obligation7 (V13 m) c) (fun _ _ => rfl) (fun _ _ => rfl) (fun _ _ => rfl)
    (fun c w => A_eq7 (V13 m) c w) (fun c => classA_in 7 c) (fun c => classA_out 7 c)
    (fun c w => (stepW_arr (p := 7) (dat7 (V13 m)) (W13 m) launch7 c w).symm)
    (fun c b hb => stepW_of_ne (p := 7) (dat7 (V13 m)) (W13 m) c b (not_img hb))

/-! ## The host stretches as segments -/

/-- A host stretch from the contents `W`: it leaves every unscoped buffer at the operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's fourteen items in order. -/
abbrev segs : List (Pipeline.Seg (pcfgs (F := F)) Gen.adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m), .region (reg2 m), .region (reg3 m),
    .host (hseg hostOps4 hostOps4_sub hostOps4_fresh (W8 m)),
    .region (reg4 m), .region (reg5 m), .region (reg6 m),
    .host (hseg hostOps7 hostOps7_sub hostOps7_fresh (W12 m)),
    .region (reg7 m) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what is owed: every unscoped buffer at the last contents, the generator register
    at some state. -/
abbrev Tₙ (c : Dev nD) : sProp 𝕄 := iprop(StableHlo.held (c : Thread nD τ) (Pipeline.ucRefs τ sig) (W14 m c) ∗ ∃ r, prngReg c r)

/-! ## The run -/

variable (ρ : Dev nD → PrngReg)

set_option backward.isDefEq.respectTransparency.types false in
/-- Every weakly fair execution of @main from memory `m` with zero counters terminates, nothing faulting, and every
    final memory holds each unscoped buffer of each TensorCore at the contents the fold `W14` gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) Gen.adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0, StableHlo.seq hostOps0_1, StableHlo.seq hostOps0_2,
          Prog.lift (.customCall (Pipeline.entry 0) ()),
          StableHlo.seq hostOps1,
          Prog.lift (.customCall (Pipeline.entry 1) ()), Prog.lift (.customCall (Pipeline.entry 2) ()), Prog.lift (.customCall (Pipeline.entry 3) ()),
          StableHlo.seq hostOps4,
          Prog.lift (.customCall (Pipeline.entry 4) ()), Prog.lift (.customCall (Pipeline.entry 5) ()), Prog.lift (.customCall (Pipeline.entry 6) ()),
          StableHlo.seq hostOps7,
          Prog.lift (.customCall (Pipeline.entry 7) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W14 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

end Cert.Kernel.Hand

end
-- ==== Proof.K.Frame.lean ====
/-
  The arguments end as launched.

  The fold of the buffers through @main only ever changes a buffer that some host operation writes or that is an
  output array of some region.  The twelve arguments are none of these, so at the end each holds its launch contents.
-/
import proofs.«171122_j58480274703249_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Each region's output arrays -/

theorem outs0 : ∀ w : Fin cfg0.W, (cfg0.win w).isOut = true → Pipeline.arrRef spec0 w = main_v39 := by decide
theorem outs1 : ∀ w : Fin cfg1.W, (cfg1.win w).isOut = true → Pipeline.arrRef spec1 w = main_v53_0 ∨ Pipeline.arrRef spec1 w = main_v53_1 := by decide
theorem outs2 : ∀ w : Fin cfg2.W, (cfg2.win w).isOut = true → Pipeline.arrRef spec2 w = main_v54 := by decide
theorem outs3 : ∀ w : Fin cfg3.W, (cfg3.win w).isOut = true → Pipeline.arrRef spec3 w = main_v55 := by decide
theorem outs4 : ∀ w : Fin cfg4.W, (cfg4.win w).isOut = true → Pipeline.arrRef spec4 w = main_v69_0 ∨ Pipeline.arrRef spec4 w = main_v69_1 := by decide
theorem outs5 : ∀ w : Fin cfg5.W, (cfg5.win w).isOut = true → Pipeline.arrRef spec5 w = main_v70 := by decide
theorem outs6 : ∀ w : Fin cfg6.W, (cfg6.win w).isOut = true → Pipeline.arrRef spec6 w = main_v71 := by decide
theorem outs7 : ∀ w : Fin cfg7.W, (cfg7.win w).isOut = true → Pipeline.arrRef spec7 w = main_v85 := by decide

/-- A buffer that no host operation writes and that is no region's output array ends as launched. -/
theorem W14_of (c : Dev nD) (r : Ref sig .tc)
    (h0 : r ∉ hostOps0_W) (h1 : r ∉ hostOps0_1_W) (h2 : r ∉ hostOps0_2_W) (h4 : r ∉ hostOps1_W) (h8 : r ∉ hostOps4_W)
    (h12 : r ∉ hostOps7_W)
    (ho : r ∉ ([main_v39, main_v53_0, main_v53_1, main_v54, main_v55, main_v69_0, main_v69_1, main_v70, main_v71, main_v85] : List (Ref sig .tc))) :
    W14 m c (Proc.devRef .tc r) = m ((c : Thread nD τ).loc r) := by
  have e14 : W14 m c (Proc.devRef .tc r) = W13 m c (Proc.devRef .tc r) :=
    stepW_keep (p := 7) (dat7 (V13 m)) (W13 m) launch7 (A_eq7 (V13 m)) c r fun w hw e => ho (by rw [show r = main_v85 from e.symm.trans (outs7 w hw)]; decide)
  have e13 : W13 m c (Proc.devRef .tc r) = W12 m c (Proc.devRef .tc r) := StableHlo.after_of_writes_sub hostOps7 _ hostOps7_writes h12
  have e12 : W12 m c (Proc.devRef .tc r) = W11 m c (Proc.devRef .tc r) :=
    stepW_keep (p := 6) (dat6 (V11 m)) (W11 m) launch6 (A_eq6 (V11 m)) c r fun w hw e => ho (by rw [show r = main_v71 from e.symm.trans (outs6 w hw)]; decide)
  have e11 : W11 m c (Proc.devRef .tc r) = W10 m c (Proc.devRef .tc r) :=
    stepW_keep (p := 5) (dat5 (V10 m)) (W10 m) launch5 (A_eq5 (V10 m)) c r fun w hw e => ho (by rw [show r = main_v70 from e.symm.trans (outs5 w hw)]; decide)
  have e10 : W10 m c (Proc.devRef .tc r) = W9 m c (Proc.devRef .tc r) :=
    stepW_keep (p := 4) (dat4 (V9 m)) (W9 m) launch4 (A_eq4 (V9 m)) c r fun w hw e => ho (by
      rcases outs4 w hw with h | h
      · rw [show r = main_v69_0 from e.symm.trans h]; decide
      · rw [show r = main_v69_1 from e.symm.trans h]; decide)
  have e9 : W9 m c (Proc.devRef .tc r) = W8 m c (Proc.devRef .tc r) := StableHlo.after_of_writes_sub hostOps4 _ hostOps4_writes h8
  have e8 : W8 m c (Proc.devRef .tc r) = W7 m c (Proc.devRef .tc r) :=
    stepW_keep (p := 3) (dat3 (V7 m)) (W7 m) launch3 (A_eq3 (V7 m)) c r fun w hw e => ho (by rw [show r = main_v55 from e.symm.trans (outs3 w hw)]; decide)
  have e7 : W7 m c (Proc.devRef .tc r) = W6 m c (Proc.devRef .tc r) :=
    stepW_keep (p := 2) (dat2 (V6 m)) (W6 m) launch2 (A_eq2 (V6 m)) c r fun w hw e => ho (by rw [show r = main_v54 from e.symm.trans (outs2 w hw)]; decide)
  have e6 : W6 m c (Proc.devRef .tc r) = W5 m c (Proc.devRef .tc r) :=
    stepW_keep (p := 1) (dat1 (V5 m)) (W5 m) launch1 (A_eq1 (V5 m)) c r fun w hw e => ho (by
      rcases outs1 w hw with h | h
      · rw [show r = main_v53_0 from e.symm.trans h]; decide
      · rw [show r = main_v53_1 from e.symm.trans h]; decide)
  have e5 : W5 m c (Proc.devRef .tc r) = W4 m c (Proc.devRef .tc r) := StableHlo.after_of_writes_sub hostOps1 _ hostOps1_writes h4
  have e4 : W4 m c (Proc.devRef .tc r) = W3 m c (Proc.devRef .tc r) :=
    stepW_keep (p := 0) (dat0 (V3 m)) (W3 m) launch0 (A_eq0 (V3 m)) c r fun w hw e => ho (by rw [show r = main_v39 from e.symm.trans (outs0 w hw)]; decide)
  have e3 : W3 m c (Proc.devRef .tc r) = W2 m c (Proc.devRef .tc r) := StableHlo.after_of_writes_sub hostOps0_2 _ hostOps0_2_writes h2
  have e2 : W2 m c (Proc.devRef .tc r) = W1 m c (Proc.devRef .tc r) := StableHlo.after_of_writes_sub hostOps0_1 _ hostOps0_1_writes h1
  have e1 : W1 m c (Proc.devRef .tc r) = W0 m c (Proc.devRef .tc r) := StableHlo.after_of_writes_sub hostOps0 _ hostOps0_writes h0
  rw [e14, e13, e12, e11, e10, e9, e8, e7, e6, e5, e4, e3, e2, e1]

variable (ρ : Dev nD → PrngReg)

/-- Every weakly fair execution terminates without a fault; the result buffer ends at the fold's contents and the
    twelve arguments end as launched. -/
theorem run_result : θ_run defs (onTc (τ := τ) (main (F := F))) ⟨m, fun _ => 0, ρ⟩ (fun r => ∀ c : Dev nD,
      r.2.mem ((c.tc : Thread nD τ).loc main_v85) = W14 m c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v85 (by decide)),
     (h c _ (mem_uc main_arg0 (by decide))).trans (W14_of m c main_arg0 (by decide) (by decide) (by decide) (by decide) (by decide) (by decide) (by decide)),
     (h c _ (mem_uc main_arg1 (by decide))).trans (W14_of m c main_arg1 (by decide) (by decide) (by decide) (by decide) (by decide) (by decide) (by decide)),
     (h c _ (mem_uc main_arg2 (by decide))).trans (W14_of m c main_arg2 (by decide) (by decide) (by decide) (by decide) (by decide) (by decide) (by decide)),
     (h c _ (mem_uc main_arg3 (by decide))).trans (W14_of m c main_arg3 (by decide) (by decide) (by decide) (by decide) (by decide) (by decide) (by decide)),
     (h c _ (mem_uc main_arg4 (by decide))).trans (W14_of m c main_arg4 (by decide) (by decide) (by decide) (by decide) (by decide) (by decide) (by decide)),
     (h c _ (mem_uc main_arg5 (by decide))).trans (W14_of m c main_arg5 (by decide) (by decide) (by decide) (by decide) (by decide) (by decide) (by decide)),
     (h c _ (mem_uc main_arg6 (by decide))).trans (W14_of m c main_arg6 (by decide) (by decide) (by decide) (by decide) (by decide) (by decide) (by decide)),
     (h c _ (mem_uc main_arg7 (by decide))).trans (W14_of m c main_arg7 (by decide) (by decide) (by decide) (by decide) (by decide) (by decide) (by decide)),
     (h c _ (mem_uc main_arg8 (by decide))).trans (W14_of m c main_arg8 (by decide) (by decide) (by decide) (by decide) (by decide) (by decide) (by decide)),
     (h c _ (mem_uc main_arg9 (by decide))).trans (W14_of m c main_arg9 (by decide) (by decide) (by decide) (by decide) (by decide) (by decide) (by decide)),
     (h c _ (mem_uc main_arg10 (by decide))).trans (W14_of m c main_arg10 (by decide) (by decide) (by decide) (by decide) (by decide) (by decide) (by decide)),
     (h c _ (mem_uc main_arg11 (by decide))).trans (W14_of m c main_arg11 (by decide) (by decide) (by decide) (by decide) (by decide) (by decide) (by decide))⟩)
    (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.Kernel.Hand

end
-- ==== Proof.KI.RegOf.lean ====
/-
  One kernel region of the program as a segment of its run, for ANY of its eight pallas_calls at once.

  Between two items of @main a TensorCore holds every unscoped buffer whole at known contents, its generator
  register at some state, and owes nothing.  A region takes its windows' arrays out of those buffers, runs its
  pipeline over the grid, and puts the arrays back at what the write-backs leave; every other unscoped buffer is
  untouched.  What a region needs from its kernel is stated here as hypotheses: the body obligation of its proof
  data, that the data hold each array whole at the entry contents and owe nothing, the invariant entered from
  (and left at) the generator register beside the scoped buffers no window stages, and the exit contents array
  by array.
-/
import proofs.«171122_j58480274703249_1_alg».proof.Proof.Gen.KernelIdeal.Launch
import proofs.«171122_j58480274703249_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No variant, no level: no core of this program ever waits on another. -/
abbrev 𝒱₀ : Variants := Variants.none
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 := iprop((∃ r, prngReg c r) ∗ ∃ W, owes (c : Thread nD τ) (0 : CellTallies nD τ sig Unit) W)

/-- A valuation of the device's references read at the TensorCore's own. -/
abbrev atTc (c : Dev nD) (W : Valuation τ sig (Elt F)) : (b : Ref sig .tc) → Buf (Elt F) ((c : Thread nD τ).loc b) := fun b => W b

variable (pdats : (p : Fin 8) → (c : Dev nD) → Dat τ (Elt F) Unit ℕ (UR sig nD τ) ℕ (Pipeline.pin (pcfgs (F := F)) Gen.adm p) c)

set_option backward.isDefEq.respectTransparency.types false in
/-- Region `p` entered with every unscoped buffer at `Wp` and left with them at `Wq`. -/
def regOf (p : Fin 8) (lp : Pipeline.LaunchFacts (nD := nD) (τ := τ) cfgs p)
    (Wp Wq : Dev nD → Valuation τ sig (Elt F))
    (hbody : ∀ c, BodyObligation (pdats p c) (defs₀ (F := F)) Variants.none () Set.univ)
    (hq : ∀ c w, (pdats p c).q w = fullShare)
    (howed : ∀ c t, (pdats p c).owed t = 0)
    (hrec : ∀ c t, (pdats p c).recorded t = Set.univ)
    (hA : ∀ c w, (pdats p c).A w = atTc c (Wp c) (Pipeline.arrRef (cfgs p).spec w))
    (hin : ∀ c, iprop((∃ r, prngReg c r) ∗ Pipeline.scopedRest (cfgs p).spec c) ⊢ (pdats p c).Φ 0)
    (hout : ∀ c, (pdats p c).Φ (Fin.last (cfgs p).N) ⊢ (iprop((∃ r, prngReg c r) ∗ Pipeline.scopedRest (cfgs p).spec c) : sProp 𝕄))
    (hF : ∀ c w, (pdats p c).arrAt w (cfgs p).N = atTc c (Wq c) (Pipeline.arrRef (cfgs p).spec w))
    (hrest : ∀ c b, b ∉ Finset.univ.image (Pipeline.arrRef (cfgs p).spec) → atTc c (Wq c) b = atTc c (Wp c) b) :
    Pipeline.RegionSeg (pcfgs (F := F)) Gen.adm pdats () defs₀ 𝒱₀ L lv p where
  win := lp.win.to₀
  block_pos := lp.block_pos
  stage_whole := lp.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wp c) ∗ R c)
  post c := iprop(StableHlo.held (c : Thread nD τ) (Pipeline.ucRefs τ sig) (Wq c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc c (Wp c))
  hentry c := by
    rw [Pipeline.ownSems0_none]
    have hsplit := Pipeline.arrays_of_unscopedBufs (p := p) (pcfgs (F := F)) Gen.adm pdats lp.win lp.arr_whole c
      ((pdats p c).share_full (hq c)) (atTc c (Wp c)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl ((hrec c 0).symm ▸ Set.mem_univ x)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lp.win lp.arr_whole c pdats ((pdats p c).share_full (hq c))
      (atTc c (Wp c)) (atTc c (Wq c)) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-- The class invariant of a body that keeps nothing between points is entered from, and left at, the generator
    register beside the scoped buffers no window stages. -/
theorem classA_in (p : Fin 8) (c : Dev nD) :
    (iprop((∃ r, prngReg c r) ∗ Pipeline.scopedRest (cfgs p).spec c) : sProp 𝕄) ⊢ Pipeline.ΦA (cfgs p).spec c := by
  unfold Pipeline.ΦA
  iintro ⟨Hp, Hr⟩
  isplitl [Hr]; · iexact Hr
  iexact Hp

theorem classA_out (p : Fin 8) (c : Dev nD) :
    (Pipeline.ΦA (cfgs p).spec c : sProp 𝕄) ⊢ iprop((∃ r, prngReg c r) ∗ Pipeline.scopedRest (cfgs p).spec c) := by
  unfold Pipeline.ΦA
  iintro ⟨Hr, Hp⟩
  isplitl [Hp]; · iexact Hp
  iexact Hr

/-! ## The buffers after a region -/

section Step

variable {p : Fin 8} (dat : (c : Dev nD) → Dat τ (Elt F) Unit ℕ (UR sig nD τ) ℕ (cfgs p) c)
  (Wp : Dev nD → Valuation τ sig (Elt F))

/-- The unscoped buffers after region `p`, entered at `Wp`: the region's arrays at what its write-backs leave
    (an input array as entered, an output array with every flushed block folded in), every other buffer as entered. -/
def stepW (c : Dev nD) : Valuation τ sig (Elt F) :=
  Pipeline.withArrays (cfgs p).spec c (Wp c) fun w => (dat c).arrAt w (cfgs p).N

theorem stepW_arr (lp : Pipeline.LaunchFacts (nD := nD) (τ := τ) cfgs p) (c : Dev nD) (w : Fin (cfgs p).W) :
    stepW dat Wp c (Proc.devRef .tc (Pipeline.arrRef (cfgs p).spec w)) = (dat c).arrAt w (cfgs p).N := by
  unfold stepW; exact Pipeline.withArrays_arr (cfgs p).spec lp.win.arr_inj c _ _ w

theorem stepW_of_ne (c : Dev nD) (b : Ref sig .tc) (hb : ∀ w, Pipeline.arrRef (cfgs p).spec w ≠ b) :
    stepW dat Wp c (Proc.devRef .tc b) = Wp c (Proc.devRef .tc b) := by
  unfold stepW; exact Pipeline.withArrays_of_ne (cfgs p).spec c _ _ b hb

/-- A buffer that is no OUTPUT array of the region holds after it what it held before: an input array is read
    and never written back, any other buffer is not touched. -/
theorem stepW_keep (lp : Pipeline.LaunchFacts (nD := nD) (τ := τ) cfgs p)
    (hA : ∀ c w, (dat c).A w = atTc c (Wp c) (Pipeline.arrRef (cfgs p).spec w))
    (c : Dev nD) (b : Ref sig .tc) (hb : ∀ w, ((cfgs p).win w).isOut = true → Pipeline.arrRef (cfgs p).spec w ≠ b) :
    stepW dat Wp c (Proc.devRef .tc b) = Wp c (Proc.devRef .tc b) := by
  by_cases h : ∃ w, Pipeline.arrRef (cfgs p).spec w = b
  · obtain ⟨w, rfl⟩ := h
    have hw : ((cfgs p).win w).isOut = false := by
      cases hio : ((cfgs p).win w).isOut
      · rfl
      · exact absurd rfl (hb w hio)
    rw [stepW_arr dat Wp lp c w]
    exact ((dat c).arrAt_in w hw _).trans (hA c w)
  · exact stepW_of_ne dat Wp c b fun w e => h ⟨w, e⟩

end Step

end Cert.KernelIdeal.Hand

end
-- ==== Proof.KI.A0.lean ====
/- The class-A half of region 0, a matmul pallas_call on the grid (20,): at each point the body reads the
   5000x128 row block of the left factor and the 128x128 right factor, rounds both to bf16, multiplies them with f32
   accumulation from zero and stores the 5000x128 product into the output block. Stated at a parameter `V`, the
   TensorCore's buffer contents when the region is entered: each window's block at a point, the output buffer after
   the body as a function of the input blocks, the body's triple, the pipeline's proof data and its body
   obligation. -/
import proofs.«171122_j58480274703249_1_alg».proof.Proof.Gen.KernelIdeal.Launch
import proofs.«171122_j58480274703249_1_alg».proof.Proof.Gen.KernelIdeal.Skeleton
import proofs.«171122_j58480274703249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks are long (5000 rows): membership in a block's rectangle is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of the left factor) holds its block at every point, fetched there or not, for any proof data whose
    array is `V`'s and whose body leaves the block in place: where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right factor, one block for the whole grid) holds its block at every point, fetched there or not, for any proof data whose
    array is `V`'s and whose body leaves the block in place: where it is not fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-! ## What the body leaves in the output window's buffer -/

/-- Window 2's staging buffer after the body: one store of the whole block, the product of the row block (rounded to
    bf16) with the right factor (rounded to bf16), accumulated in f32 from zero. -/
def out0_2 (x0 : Vec F S5000x128 .f32) (x1 : Vec F S128x128 .f32) : Vec F S5000x128 .f32 :=
  View.canon [⟨r0_0, k0_pay1 (View.ld x0 r0_0) (View.ld x1 r0_1)⟩]

/-- The one store is of the whole block, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `xW` and the output's at anything, runs to
    the continuation holding the inputs' as they were and the output's at `out0_2` of the inputs'. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them (`V`); after the body at
    point `t` each input's buffer at its block and the output's at `out0_2` of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.A2.lean ====
/- The class-A half of region 2, a batch-norm-and-relu pallas_call on the grid (20,): at each point the body reads a
   5000x128 row block x and five 1x128 rows (a bias b, a mean m, a variance v, a scale g and a shift h), and stores
   max(((x + b) - m) * rsqrt(v + 1e-5) * g + h, 0), the rows broadcast along the rows of the block, into the 5000x128
   output block. Stated at a parameter `V`, the TensorCore's buffer contents when the region is entered: each
   window's block at a point, the output buffer after the body as a function of the input blocks, the body's
   triple, the pipeline's proof data and its body obligation. -/
import proofs.«171122_j58480274703249_1_alg».proof.Proof.Gen.KernelIdeal.Launch
import proofs.«171122_j58480274703249_1_alg».proof.Proof.Gen.KernelIdeal.Skeleton
import proofs.«171122_j58480274703249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks are long (5000 rows): membership in a block's rectangle is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the row block) holds its block at every point, fetched there or not, for any proof data whose
    array is `V`'s and whose body leaves the block in place: where it is not fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the bias row, one block for the whole grid) holds its block at every point, fetched there or not, for any proof data whose
    array is `V`'s and whose body leaves the block in place: where it is not fetched its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the mean row, one block for the whole grid) holds its block at every point, fetched there or not, for any proof data whose
    array is `V`'s and whose body leaves the block in place: where it is not fetched its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the variance row, one block for the whole grid) holds its block at every point, fetched there or not, for any proof data whose
    array is `V`'s and whose body leaves the block in place: where it is not fetched its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the scale row, one block for the whole grid) holds its block at every point, fetched there or not, for any proof data whose
    array is `V`'s and whose body leaves the block in place: where it is not fetched its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the shift row, one block for the whole grid) holds its block at every point, fetched there or not, for any proof data whose
    array is `V`'s and whose body leaves the block in place: where it is not fetched its block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- Window 6's staging buffer after the body: one store of the whole block, the normalised, scaled, shifted
    and clamped row block (the variance row is the payload's third argument, the mean row its fourth). -/
def out2_6 (x0 : Vec F S5000x128 .f32) (x1 : Vec F S1x128 .f32) (x2 : Vec F S1x128 .f32) (x3 : Vec F S1x128 .f32) (x4 : Vec F S1x128 .f32) (x5 : Vec F S1x128 .f32) : Vec F S5000x128 .f32 :=
  View.canon [⟨r2_0, k2_pay1 (View.ld x0 r2_0) (View.ld x1 r2_1) (View.ld x3 r2_1) (View.ld x2 r2_1) (View.ld x4 r2_1) (View.ld x5 r2_1)⟩]

/-- The one store is of the whole block, so it covers it. -/
theorem cover2_6 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents `xW` and the output's at anything, runs to
    the continuation holding the inputs' as they were and the output's at `out2_6` of the inputs'. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_relu_kernel i arg1 harg1 arg2 harg2 arg3 harg3 arg4 harg4 arg5 harg5 arg6 harg6 arg7 harg7) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of this pipeline on core `c`: the arrays as the region finds them (`V`); after the body at
    point `t` each input's buffer at its block and the output's at `out2_6` of the input blocks; the invariant is
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.A3.lean ====
/- The class-A half of region 3, a matmul pallas_call on the grid (20,): at each point the body reads the
   5000x128 row block of the left factor and the 128x128 right factor, rounds both to bf16, multiplies them with f32
   accumulation from zero and stores the 5000x128 product into the output block. Stated at a parameter `V`, the
   TensorCore's buffer contents when the region is entered: each window's block at a point, the output buffer after
   the body as a function of the input blocks, the body's triple, the pipeline's proof data and its body
   obligation. -/
import proofs.«171122_j58480274703249_1_alg».proof.Proof.Gen.KernelIdeal.Launch
import proofs.«171122_j58480274703249_1_alg».proof.Proof.Gen.KernelIdeal.Skeleton
import proofs.«171122_j58480274703249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks are long (5000 rows): membership in a block's rectangle is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 3, at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block of the left factor) holds its block at every point, fetched there or not, for any proof data whose
    array is `V`'s and whose body leaves the block in place: where it is not fetched its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the right factor, one block for the whole grid) holds its block at every point, fetched there or not, for any proof data whose
    array is `V`'s and whose body leaves the block in place: where it is not fetched its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0

/-! ## What the body leaves in the output window's buffer -/

/-- Window 2's staging buffer after the body: one store of the whole block, the product of the row block (rounded to
    bf16) with the right factor (rounded to bf16), accumulated in f32 from zero. -/
def out3_2 (x0 : Vec F S5000x128 .f32) (x1 : Vec F S128x128 .f32) : Vec F S5000x128 .f32 :=
  View.canon [⟨r3_0, k3_pay1 (View.ld x0 r3_0) (View.ld x1 r3_1)⟩]

/-- The one store is of the whole block, so it covers it. -/
theorem cover3_2 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `xW` and the output's at anything, runs to
    the continuation holding the inputs' as they were and the output's at `out3_2` of the inputs'. -/
theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them (`V`); after the body at
    point `t` each input's buffer at its block and the output's at `out3_2` of the input blocks; the invariant is
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.A5.lean ====
/- The class-A half of region 5, a batch-norm-and-relu pallas_call on the grid (20,): at each point the body reads a
   5000x128 row block x and five 1x128 rows (a bias b, a mean m, a variance v, a scale g and a shift h), and stores
   max(((x + b) - m) * rsqrt(v + 1e-5) * g + h, 0), the rows broadcast along the rows of the block, into the 5000x128
   output block. Stated at a parameter `V`, the TensorCore's buffer contents when the region is entered: each
   window's block at a point, the output buffer after the body as a function of the input blocks, the body's
   triple, the pipeline's proof data and its body obligation. -/
import proofs.«171122_j58480274703249_1_alg».proof.Proof.Gen.KernelIdeal.Launch
import proofs.«171122_j58480274703249_1_alg».proof.Proof.Gen.KernelIdeal.Skeleton
import proofs.«171122_j58480274703249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks are long (5000 rows): membership in a block's rectangle is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 5, at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the row block) holds its block at every point, fetched there or not, for any proof data whose
    array is `V`'s and whose body leaves the block in place: where it is not fetched its block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the bias row, one block for the whole grid) holds its block at every point, fetched there or not, for any proof data whose
    array is `V`'s and whose body leaves the block in place: where it is not fetched its block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the mean row, one block for the whole grid) holds its block at every point, fetched there or not, for any proof data whose
    array is `V`'s and whose body leaves the block in place: where it is not fetched its block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3 (the variance row, one block for the whole grid) holds its block at every point, fetched there or not, for any proof data whose
    array is `V`'s and whose body leaves the block in place: where it is not fetched its block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4 (the scale row, one block for the whole grid) holds its block at every point, fetched there or not, for any proof data whose
    array is `V`'s and whose body leaves the block in place: where it is not fetched its block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5 (the shift row, one block for the whole grid) holds its block at every point, fetched there or not, for any proof data whose
    array is `V`'s and whose body leaves the block in place: where it is not fetched its block index has not moved. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 6's staging buffer after the body: one store of the whole block, the normalised, scaled, shifted
    and clamped row block (the variance row is the payload's third argument, the mean row its fourth). -/
def out5_6 (x0 : Vec F S5000x128 .f32) (x1 : Vec F S1x128 .f32) (x2 : Vec F S1x128 .f32) (x3 : Vec F S1x128 .f32) (x4 : Vec F S1x128 .f32) (x5 : Vec F S1x128 .f32) : Vec F S5000x128 .f32 :=
  View.canon [⟨r5_0, k5_pay1 (View.ld x0 r5_0) (View.ld x1 r5_1) (View.ld x3 r5_1) (View.ld x2 r5_1) (View.ld x4 r5_1) (View.ld x5 r5_1)⟩]

/-- The one store is of the whole block, so it covers it. -/
theorem cover5_6 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `xW` and the output's at anything, runs to
    the continuation holding the inputs' as they were and the output's at `out5_6` of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__bn_relu_kernel i arg1 harg1 arg2 harg2 arg3 harg3 arg4 harg4 arg5 harg5 arg6 harg6 arg7 harg7) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of this pipeline on core `c`: the arrays as the region finds them (`V`); after the body at
    point `t` each input's buffer at its block and the output's at `out5_6` of the input blocks; the invariant is
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the body's triple applies; the invariant and
    the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.A6.lean ====
/- The class-A half of region 6, a matmul pallas_call on the grid (20,): at each point the body reads the
   5000x128 row block of the left factor and the 128x128 right factor, rounds both to bf16, multiplies them with f32
   accumulation from zero and stores the 5000x128 product into the output block. Stated at a parameter `V`, the
   TensorCore's buffer contents when the region is entered: each window's block at a point, the output buffer after
   the body as a function of the input blocks, the body's triple, the pipeline's proof data and its body
   obligation. -/
import proofs.«171122_j58480274703249_1_alg».proof.Proof.Gen.KernelIdeal.Launch
import proofs.«171122_j58480274703249_1_alg».proof.Proof.Gen.KernelIdeal.Skeleton
import proofs.«171122_j58480274703249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks are long (5000 rows): membership in a block's rectangle is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 6, at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the row block of the left factor) holds its block at every point, fetched there or not, for any proof data whose
    array is `V`'s and whose body leaves the block in place: where it is not fetched its block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the right factor, one block for the whole grid) holds its block at every point, fetched there or not, for any proof data whose
    array is `V`'s and whose body leaves the block in place: where it is not fetched its block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0

/-! ## What the body leaves in the output window's buffer -/

/-- Window 2's staging buffer after the body: one store of the whole block, the product of the row block (rounded to
    bf16) with the right factor (rounded to bf16), accumulated in f32 from zero. -/
def out6_2 (x0 : Vec F S5000x128 .f32) (x1 : Vec F S128x128 .f32) : Vec F S5000x128 .f32 :=
  View.canon [⟨r6_0, k6_pay1 (View.ld x0 r6_0) (View.ld x1 r6_1)⟩]

/-- The one store is of the whole block, so it covers it. -/
theorem cover6_2 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 1000000 in
/-- The kernel body on whole staging memrefs, the inputs' at read contents `xW` and the output's at anything, runs to
    the continuation holding the inputs' as they were and the output's at `out6_2` of the inputs'. -/
theorem sound_kernel6 (c : Dev nD) (E : Set ℕ) (i : grid6.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of this pipeline on core `c`: the arrays as the region finds them (`V`); after the body at
    point `t` each input's buffer at its block and the output's at `out6_2` of the input blocks; the invariant is
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and
    the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.A7.lean ====
/- The class-A half of region 7, a bias-add pallas_call on the grid (20,): at each point the body reads a 5000x128
   row block and a 1x128 bias row, adds the row (broadcast along the rows) to the block and stores the 5000x128 sum
   into the output block. Stated at a parameter `V`, the TensorCore's buffer contents when the region is entered:
   each window's block at a point, the output buffer after the body as a function of the input blocks, the body's
   triple, the pipeline's proof data and its body obligation. -/
import proofs.«171122_j58480274703249_1_alg».proof.Proof.Gen.KernelIdeal.Launch
import proofs.«171122_j58480274703249_1_alg».proof.Proof.Gen.KernelIdeal.Skeleton
import proofs.«171122_j58480274703249_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks are long (5000 rows): membership in a block's rectangle is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 7, at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the row block) holds its block at every point, fetched there or not, for any proof data whose
    array is `V`'s and whose body leaves the block in place: where it is not fetched its block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the bias row, one block for the whole grid) holds its block at every point, fetched there or not, for any proof data whose
    array is `V`'s and whose body leaves the block in place: where it is not fetched its block index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x128 := Rect.unit (s := S5000x128) ![0, 0] S5000x128.size inb_S5000x128_S5000x128_0_0
abbrev r7_1 : Rect S1x128 := Rect.unit (s := S1x128) ![0, 0] S1x128.size inb_S1x128_S1x128_0_0

/-! ## What the body leaves in the output window's buffer -/

/-- Window 2's staging buffer after the body: one store of the whole block, the row block plus the bias row
    broadcast along the rows. -/
def out7_2 (x0 : Vec F S5000x128 .f32) (x1 : Vec F S1x128 .f32) : Vec F S5000x128 .f32 :=
  View.canon [⟨r7_0, k7_pay1 (View.ld x0 r7_0) (View.ld x1 r7_1)⟩]

/-- The one store is of the whole block, so it covers it. -/
theorem cover7_2 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel body on whole staging memrefs, the inputs' at read contents `xW` and the output's at anything, runs to
    the continuation holding the inputs' as they were and the output's at `out7_2` of the inputs'. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_add_kernel i arg1 harg1 arg2 harg2 arg3 harg3) K := by
  simp only [cc7__bias_add_kernel_eq_skeleton]; unfold cc7__bias_add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of this pipeline on core `c`: the arrays as the region finds them (`V`); after the body at
    point `t` each input's buffer at its block and the output's at `out7_2` of the input blocks; the invariant is
    the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so the body's triple applies; the invariant and
    the core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.R1a.lean ====
/- Region 1 (the column-statistics kernel over a grid of 20 row blocks): what its three control cases share.
   The windows' blocks read off the arrays as the region finds them; the two branch conditions in closed form
   (the first point zeroes the two running sums, the last point writes mean and variance); where the two
   result windows are idle; the staging and scratch memrefs the body is called with. -/
import proofs.«171122_j58480274703249_1_alg».proof.Proof.Gen.KernelIdeal.Launch
import proofs.«171122_j58480274703249_1_alg».proof.Proof.Gen.KernelIdeal.Skeleton
import proofs.«171122_j58480274703249_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (the point is the first), from the grid coordinates. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's condition (the point is the last). -/
abbrev cond1_1 (i : grid1.Coords) : Prop := k1_cond2 i = 1#1
theorem hcond1_1 : ∀ t : Fin cfg1.N, cond1_1 (grid1.coords t) ↔ t.val = 19 :=
  (by decide +kernel : ∀ t : Fin grid1.N, cond1_1 (grid1.coords t) ↔ t.val = 19)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the two result windows are idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last point they are live. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two scratch operands (the running column sums of the rows and of their squares): whole scoped buffers. -/
abbrev scM1_0 : Memref sig .tc .vmem S1x128 .f32 := Memref.whole cc1_scratch0
abbrev scM1_1 : Memref sig .tc .vmem S1x128 .f32 := Memref.whole cc1_scratch1

/-- The whole-row access every store and load of a `1×128` memref makes. -/
abbrev r1row : Rect S1x128 := Rect.unit (s := S1x128) ![0, 0] S1x128.size inb_S1x128_S1x128_0_0
abbrev r1blk : Rect S5000x128 := Rect.unit (s := S5000x128) ![0, 0] S5000x128.size inb_S5000x128_S5000x128_0_0

end Cert.KernelIdeal.Hand

end
-- ==== Proof.KI.R1b.lean ====
/- Region 1, the FIRST grid point: the first conditional is taken (the two running sums are zeroed), the last is not.
   On whole memrefs — the two inputs at their blocks, the two result buffers at contents handed back untouched, the two
   scratch buffers at anything — the body runs to the continuation with the scratch buffers holding the pieces its stores
   wrote (the zero row, then zero plus the block's column sums of z and of z*z, z = block + bias row). -/
import proofs.«171122_j58480274703249_1_alg».proof.Proof.KI.R1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S5000x128 .f32) (x1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.R1c.lean ====
/- Region 1, a MIDDLE grid point: neither conditional is taken. On whole memrefs — the two inputs at their blocks,
   the two result buffers at contents handed back untouched, the two scratch buffers at what the point before left
   (the running column sums) — the body runs to the continuation with the scratch buffers holding the pieces its stores wrote
   (the running sums plus the block's column sums of z and of z*z, z = block + bias row). -/
import proofs.«171122_j58480274703249_1_alg».proof.Proof.KI.R1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_B (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S5000x128 .f32) (x1 : Vec F S1x128 .f32) (xs0 xs1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.R1d.lean ====
/- Region 1, the LAST grid point: the first conditional is not taken, the last is (mean and variance are written).
   On whole memrefs — the two inputs at their blocks, the two result buffers at anything, the two scratch buffers at what
   the point before left — the body runs to the continuation with the scratch buffers holding the pieces its stores wrote
   (the final column sums S and Q) and the result buffers theirs (S/100000, and Q/100000 minus its square). -/
import proofs.«171122_j58480274703249_1_alg».proof.Proof.KI.R1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_C (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S5000x128 .f32) (x1 : Vec F S1x128 .f32) (xs0 xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.KI.R1.lean ====
/- Region 1 (the column-statistics kernel: over 20 row blocks of z = block + bias row it accumulates the column sums
   S of z and Q of z*z in two scratch rows carried from point to point, and at the last point writes mean = S/100000 and
   variance = Q/100000 - mean*mean), stated at the buffer contents `V` the region is entered with.
   Per control case (first / middle / last point) what the body's stores leave in the two scratch rows and the two result
   rows; the recursion `outsAt1` giving these contents point by point (each point's sums over the point before's);
   the proof data `dat1` whose invariant carries the two scratch rows at the recursion's contents; the body obligation;
   and the entailments into the invariant before the first point and out of it after the last. -/
import proofs.«171122_j58480274703249_1_alg».proof.Proof.KI.R1b
import proofs.«171122_j58480274703249_1_alg».proof.Proof.KI.R1c
import proofs.«171122_j58480274703249_1_alg».proof.Proof.KI.R1d

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Views through which the contents of the result rows and the scratch rows are stated. -/
abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view
abbrev VS1_0 : View sig .tc .vmem S1x128 .f32 := scM1_0.view
abbrev VS1_1 : View sig .tc .vmem S1x128 .f32 := scM1_1.view

/-- Away from the last point nothing is stored into the result rows (the windows are idle and not written back): a
    placeholder nothing consults. -/
def idle1_2 : Vec F S1x128 .f32 := VO1_2.read (Elt F) VO1_2.junk
def idle1_3 : Vec F S1x128 .f32 := VO1_3.read (Elt F) VO1_3.junk

/-- In case A the pieces stored into scratch 0 cover its row: every store writes the whole row. -/
theorem scover1_A_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) (y : S1x128.Idx) :
    ∃ pc ∈ (kernelRun1_A c i arg1 harg1 arg2 harg2 arg3 harg3 arg4 harg4 arg5 harg5 arg6 harg6 hc0 hc1 x0 x1).1, y ∈ pc.1.set :=
  View.cover_of_tiledL (kernelRun1_A c i arg1 harg1 arg2 harg2 arg3 harg3 arg4 harg4 arg5 harg5 arg6 harg6 hc0 hc1 x0 x1).1 S1x128.size (by sl_kernel_rfl) y

/-- What case A leaves there: its pieces read back. -/
def sout1_A_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 hc0 hc1 x0 x1).1)

/-- In case A the pieces stored into scratch 1 cover its row: every store writes the whole row. -/
theorem scover1_A_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) (y : S1x128.Idx) :
    ∃ pc ∈ (kernelRun1_A c i arg1 harg1 arg2 harg2 arg3 harg3 arg4 harg4 arg5 harg5 arg6 harg6 hc0 hc1 x0 x1).2.1, y ∈ pc.1.set :=
  View.cover_of_tiledL (kernelRun1_A c i arg1 harg1 arg2 harg2 arg3 harg3 arg4 harg4 arg5 harg5 arg6 harg6 hc0 hc1 x0 x1).2.1 S1x128.size (by sl_kernel_rfl) y

/-- What case A leaves there: its pieces read back. -/
def sout1_A_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 hc0 hc1 x0 x1).2.1)

/-- In case B the pieces stored into scratch 0 cover its row: every store writes the whole row. -/
theorem scover1_B_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) (y : S1x128.Idx) :
    ∃ pc ∈ (kernelRun1_B c i arg1 harg1 arg2 harg2 arg3 harg3 arg4 harg4 arg5 harg5 arg6 harg6 hc0 hc1 x0 x1 xs0 xs1).1, y ∈ pc.1.set :=
  View.cover_of_tiledL (kernelRun1_B c i arg1 harg1 arg2 harg2 arg3 harg3 arg4 harg4 arg5 harg5 arg6 harg6 hc0 hc1 x0 x1 xs0 xs1).1 S1x128.size (by sl_kernel_rfl) y

/-- What case B leaves there: its pieces read back. -/
def sout1_B_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).1)

/-- In case B the pieces stored into scratch 1 cover its row: every store writes the whole row. -/
theorem scover1_B_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) (y : S1x128.Idx) :
    ∃ pc ∈ (kernelRun1_B c i arg1 harg1 arg2 harg2 arg3 harg3 arg4 harg4 arg5 harg5 arg6 harg6 hc0 hc1 x0 x1 xs0 xs1).2.1, y ∈ pc.1.set :=
  View.cover_of_tiledL (kernelRun1_B c i arg1 harg1 arg2 harg2 arg3 harg3 arg4 harg4 arg5 harg5 arg6 harg6 hc0 hc1 x0 x1 xs0 xs1).2.1 S1x128.size (by sl_kernel_rfl) y

/-- What case B leaves there: its pieces read back. -/
def sout1_B_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.1)

/-- In case C the pieces stored into result window 2 cover its row: every store writes the whole row. -/
theorem cover1_C_2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x128.size (by sl_kernel_rfl) y

/-- What case C leaves there: its pieces read back. -/
def out1_C_2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)

/-- In case C the pieces stored into result window 3 cover its row: every store writes the whole row. -/
theorem cover1_C_3 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x128.size (by sl_kernel_rfl) y

/-- What case C leaves there: its pieces read back. -/
def out1_C_3 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)

/-- In case C the pieces stored into scratch 0 cover its row: every store writes the whole row. -/
theorem scover1_C_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x128.size (by sl_kernel_rfl) y

/-- What case C leaves there: its pieces read back. -/
def sout1_C_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)

/-- In case C the pieces stored into scratch 1 cover its row: every store writes the whole row. -/
theorem scover1_C_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x128.size (by sl_kernel_rfl) y

/-- What case C leaves there: its pieces read back. -/
def sout1_C_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

/-! ## What the result rows and the scratch rows hold after each point -/

/-- THE ACCUMULATION: after the body at point `n`, (result row 2, result row 3, scratch row 0, scratch row 1).
    Point 0 zeroes the scratch rows and adds block 0's column sums; a later point adds its block's column sums to what
    the point before left; the last point also writes mean and variance from the final sums. -/
def outsAt1 (c : Dev nD) : (n : ℕ) → n < cfg1.N → Vec F S1x128 .f32 × Vec F S1x128 .f32 × Vec F S1x128 .f32 × Vec F S1x128 .f32
  | 0, hn => (idle1_2 (F := F), idle1_3 (F := F), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩))
  | n + 1, hn =>
    if h1 : n + 1 = 19 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
      (idle1_2 (F := F), idle1_3 (F := F), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at the first point. -/
theorem outsAt1_A (c : Dev nD) (t : Fin cfg1.N) (h0 : t.val = 0) (h1 : ¬t.val = 19) :
    outsAt1 V c t.val t.isLt = (idle1_2 (F := F), idle1_3 (F := F), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

/-- `outsAt1` at a middle point: over what the point before left. -/
theorem outsAt1_B (c : Dev nD) (t : Fin cfg1.N) (h0 : ¬t.val = 0) (h1 : ¬t.val = 19) :
    outsAt1 V c t.val t.isLt = (idle1_2 (F := F), idle1_3 (F := F), sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : ¬t.val = 0) (h1 : t.val = 19) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before position `n`: before the first point the generator register at some state and the call's scoped rest (the two
    scratch rows at ANY contents: the first point zeroes them before any use); afterwards the two scratch rows at what the
    point before left in them (`outsAt1`'s scratch components), the generator register at some state, and the scoped
    rest but the two scratch rows. -/
def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop(owns (c : Thread nD τ) scM1_0 fullShare (outsAt1 V c n hn).2.2.1 ∗ owns (c : Thread nD τ) scM1_1 fullShare (outsAt1 V c n hn).2.2.2 ∗ (∃ r, prngReg c r) ∗ Pipeline.scopedRestBut (Ix := Unit) (Name := ℕ) (U := UR sig nD τ) (Lvl := ℕ) (Val := Elt F) spec1 c [cc1_scratch0, cc1_scratch1])

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) (Val := Elt F) spec1 c) := by
  subst hz; rfl

theorem PhiS1_succ (c : Dev nD) (n : ℕ) (hn : n < cfg1.N) :
    PhiS1 V c (n + 1) hn = iprop(owns (c : Thread nD τ) scM1_0 fullShare (outsAt1 V c n hn).2.2.1 ∗ owns (c : Thread nD τ) scM1_1 fullShare (outsAt1 V c n hn).2.2.2 ∗ (∃ r, prngReg c r) ∗ Pipeline.scopedRestBut (Ix := Unit) (Name := ℕ) (U := UR sig nD τ) (Lvl := ℕ) (Val := Elt F) spec1 c [cc1_scratch0, cc1_scratch1]) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.2.1 ∗ owns (c : Thread nD τ) scM1_1 fullShare (outsAt1 V c (n - 1) (by omega)).2.2.2 ∗ (∃ r, prngReg c r) ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

/-- The scoped rest with the two scratch rows as memrefs owned at some contents. -/
theorem scopedRest1_owns (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [scM1_0, scM1_1, owns_whole]; try rfl

/-! ## The pipeline's proof data -/

/-- The proof data of pipeline 1 on core `c`: the arrays as the region finds them (`V`); after the body at point `t`
    each input's buffer at its block and the result rows at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the scratch rows (at anything at the first point, else at what the point before left) and
    takes them back at this point's contents; the result rows are handed back untouched away from the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  have hN : t.val < 20 := lt_of_lt_of_eq t.isLt (show cfg1.N = 20 from N_1)
  by_cases h0 : t.val = 0
  · have h1 : ¬t.val = 19 := by omega
    rw [Dat.leavesExact_idle (dat1 V c) 2 t (idleAt1_2 t (fun h => h1 ((hcond1_1 t).mp h))) (noFlush1_2 t (fun h => h1 ((hcond1_1 t).mp h)))]
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A_0 sout1_A_1; (try dsimp only)
    rw [PhiS1_castSucc V c t, PhiS1_zero V c _ _ h0, scopedRest1_owns]
    iintro ⟨⟨Hg, ⟨HS0, HS1⟩, Hrest⟩, Ho, ⟨%d0, H0⟩, ⟨%d1, H1⟩, ⟨%d2, H2⟩, ⟨%d3, H3⟩⟩
    iapply ((kernelRun1_A c (grid1.coords t) _ _ _ _ _ _ _ _ _ _ _ _ ((hcond1_0 t).mpr h0) (fun h => h1 ((hcond1_1 t).mp h)) (iblk1 V c 0 t) (iblk1 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hg Hrest]
    · isplitl [HS0]
      · unfold owns; iexists _; isplitr
        swap; · iexact HS0
        ipureintro; exact View.read_writes_of_cover _ _ _ _ _ (scover1_A_0 _ _ _ _ _ _ _ _ _ _ _ _ _ _ _ _ _ _)
      isplitl [HS1]
      · unfold owns; iexists _; isplitr
        swap; · iexact HS1
        ipureintro; exact View.read_writes_of_cover _ _ _ _ _ (scover1_A_1 _ _ _ _ _ _ _ _ _ _ _ _ _ _ _ _ _ _)
      isplitl [Hg]; · iexact Hg
      iexact Hrest
    isplitl [Ho]; · iexact Ho
    isplitl [H0]; · iexact H0
    isplitl [H1]; · iexact H1
    isplitl [H2]; · iexists _; iexact H2
    iexists _; iexact H3
  · by_cases h1 : t.val = 19
    · rw [show (dat1 V c).leavesExact 2 t = owns (c : Thread nD τ) (ms1_2 t) fullShare ((dat1 V c).after 2 t) from by
        unfold Dat.leavesExact; rw [liveAt1_2 t ((hcond1_1 t).mpr h1)], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_2 out1_C_3 sout1_C_0 sout1_C_1; (try dsimp only)
      rw [PhiS1_castSucc V c t, PhiS1_pos V c _ _ h0]
      iintro ⟨⟨HS0, HS1, Hg, Hrest⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg Hrest]
      · isplitl [HS0]
        · unfold owns; iexists _; isplitr
          swap; · iexact HS0
          ipureintro; exact View.read_writes_of_cover _ _ _ _ _ (scover1_C_0 _ _ _ _ _ _ _ _ _ _ _ _ _ _ _ _ _ _ _ _)
        isplitl [HS1]
        · unfold owns; iexists _; isplitr
          swap; · iexact HS1
          ipureintro; exact View.read_writes_of_cover _ _ _ _ _ (scover1_C_1 _ _ _ _ _ _ _ _ _ _ _ _ _ _ _ _ _ _ _ _)
        isplitl [Hg]; · iexact Hg
        iexact Hrest
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 _ _ _ _ _ _ _ _ _ _ _ _ _ _ _ _ _ _ _ _)
      unfold owns; iexists _; isplitr
      swap; · iexact H3
      ipureintro; exact View.read_writes_of_cover _ _ _ _ _ (cover1_C_3 _ _ _ _ _ _ _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1; (try dsimp only)
      rw [PhiS1_castSucc V c t, PhiS1_pos V c _ _ h0]
      iintro ⟨⟨HS0, HS1, Hg, Hrest⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg Hrest]
      · isplitl [HS0]
        · unfold owns; iexists _; isplitr
          swap; · iexact HS0
          ipureintro; exact View.read_writes_of_cover _ _ _ _ _ (scover1_B_0 _ _ _ _ _ _ _ _ _ _ _ _ _ _ _ _ _ _ _ _)
        isplitl [HS1]
        · unfold owns; iexists _; isplitr
          swap; · iexact HS1
          ipureintro; exact View.read_writes_of_cover _ _ _ _ _ (scover1_B_1 _ _ _ _ _ _ _ _ _ _ _ _ _ _ _ _ _ _ _ _)
        isplitl [Hg]; · iexact Hg
        iexact Hrest
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region — the generator register at some state and the call's scoped rest — is the invariant
    before the first point. -/
theorem hin1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives them back: the scratch rows' named contents are forgotten. -/
theorem hout1 (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), scopedRest1_owns]
  iintro ⟨HS0, HS1, Hg, Hrest⟩
  isplitl [Hg]; · iexact Hg
  isplitl [HS0 HS1]
  · isplitl [HS0]; · iexists _; iexact HS0
    iexists _; iexact HS1
  iexact Hrest

end Cert.KernelIdeal.Hand

end
-- ==== Proof.KI.R4a.lean ====
/- Region 4 (the column-statistics kernel over a grid of 20 row blocks): what its three control cases share.
   The windows' blocks read off the arrays as the region finds them; the two branch conditions in closed form
   (the first point zeroes the two running sums, the last point writes mean and variance); where the two
   result windows are idle; the staging and scratch memrefs the body is called with. -/
import proofs.«171122_j58480274703249_1_alg».proof.Proof.Gen.KernelIdeal.Launch
import proofs.«171122_j58480274703249_1_alg».proof.Proof.Gen.KernelIdeal.Skeleton
import proofs.«171122_j58480274703249_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The first conditional's condition (the point is the first), from the grid coordinates. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- The second conditional's condition (the point is the last). -/
abbrev cond4_1 (i : grid4.Coords) : Prop := k4_cond2 i = 1#1
theorem hcond4_1 : ∀ t : Fin cfg4.N, cond4_1 (grid4.coords t) ↔ t.val = 19 :=
  (by decide +kernel : ∀ t : Fin grid4.N, cond4_1 (grid4.coords t) ↔ t.val = 19)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Away from the last point the two result windows are idle and not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
/-- At the last point they are live. -/
theorem liveAt4_2 : ∀ t : Fin cfg4.N, cond4_1 (grid4.coords t) → cfg4.idle 2 (grid4.coords t) = false := by decide +kernel
theorem liveAt4_3 : ∀ t : Fin cfg4.N, cond4_1 (grid4.coords t) → cfg4.idle 3 (grid4.coords t) = false := by decide +kernel

/-! ## The memrefs the body is called with -/

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
/-- The two scratch operands (the running column sums of the rows and of their squares): whole scoped buffers. -/
abbrev scM4_0 : Memref sig .tc .vmem S1x128 .f32 := Memref.whole cc4_scratch0
abbrev scM4_1 : Memref sig .tc .vmem S1x128 .f32 := Memref.whole cc4_scratch1

/-- The whole-row access every store and load of a `1×128` memref makes. -/
abbrev r4row : Rect S1x128 := Rect.unit (s := S1x128) ![0, 0] S1x128.size inb_S1x128_S1x128_0_0
abbrev r4blk : Rect S5000x128 := Rect.unit (s := S5000x128) ![0, 0] S5000x128.size inb_S5000x128_S5000x128_0_0

end Cert.KernelIdeal.Hand

end
-- ==== Proof.KI.R4b.lean ====
/- Region 4, the FIRST grid point: the first conditional is taken (the two running sums are zeroed), the last is not.
   On whole memrefs — the two inputs at their blocks, the two result buffers at contents handed back untouched, the two
   scratch buffers at anything — the body runs to the continuation with the scratch buffers holding the pieces its stores
   wrote (the zero row, then zero plus the block's column sums of z and of z*z, z = block + bias row). -/
import proofs.«171122_j58480274703249_1_alg».proof.Proof.KI.R4a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun4_A (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i)
    (x0 : Vec F S5000x128 .f32) (x1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.R4c.lean ====
/- Region 4, a MIDDLE grid point: neither conditional is taken. On whole memrefs — the two inputs at their blocks,
   the two result buffers at contents handed back untouched, the two scratch buffers at what the point before left
   (the running column sums) — the body runs to the continuation with the scratch buffers holding the pieces its stores wrote
   (the running sums plus the block's column sums of z and of z*z, z = block + bias row). -/
import proofs.«171122_j58480274703249_1_alg».proof.Proof.KI.R4a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun4_B (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i)
    (x0 : Vec F S5000x128 .f32) (x1 : Vec F S1x128 .f32) (xs0 xs1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.R4d.lean ====
/- Region 4, the LAST grid point: the first conditional is not taken, the last is (mean and variance are written).
   On whole memrefs — the two inputs at their blocks, the two result buffers at anything, the two scratch buffers at what
   the point before left — the body runs to the continuation with the scratch buffers holding the pieces its stores wrote
   (the final column sums S and Q) and the result buffers theirs (S/100000, and Q/100000 minus its square). -/
import proofs.«171122_j58480274703249_1_alg».proof.Proof.KI.R4a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun4_C (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i)
    (x0 : Vec F S5000x128 .f32) (x1 : Vec F S1x128 .f32) (xs0 xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, ?_, ?_, fun E K => ?run⟩
  case run =>
    simp only [cc4__bn_stats_kernel_eq_skeleton]; unfold cc4__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.KI.R4.lean ====
/- Region 4 (the column-statistics kernel: over 20 row blocks of z = block + bias row it accumulates the column sums
   S of z and Q of z*z in two scratch rows carried from point to point, and at the last point writes mean = S/100000 and
   variance = Q/100000 - mean*mean), stated at the buffer contents `V` the region is entered with.
   Per control case (first / middle / last point) what the body's stores leave in the two scratch rows and the two result
   rows; the recursion `outsAt4` giving these contents point by point (each point's sums over the point before's);
   the proof data `dat4` whose invariant carries the two scratch rows at the recursion's contents; the body obligation;
   and the entailments into the invariant before the first point and out of it after the last. -/
import proofs.«171122_j58480274703249_1_alg».proof.Proof.KI.R4b
import proofs.«171122_j58480274703249_1_alg».proof.Proof.KI.R4c
import proofs.«171122_j58480274703249_1_alg».proof.Proof.KI.R4d

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Views through which the contents of the result rows and the scratch rows are stated. -/
abbrev VO4_2 : View sig .tc .vmem S1x128 .f32 := (Memref.whole cc4_stg2_0 : Memref sig .tc .vmem S1x128 .f32).view
abbrev VO4_3 : View sig .tc .vmem S1x128 .f32 := (Memref.whole cc4_stg3_0 : Memref sig .tc .vmem S1x128 .f32).view
abbrev VS4_0 : View sig .tc .vmem S1x128 .f32 := scM4_0.view
abbrev VS4_1 : View sig .tc .vmem S1x128 .f32 := scM4_1.view

/-- Away from the last point nothing is stored into the result rows (the windows are idle and not written back): a
    placeholder nothing consults. -/
def idle4_2 : Vec F S1x128 .f32 := VO4_2.read (Elt F) VO4_2.junk
def idle4_3 : Vec F S1x128 .f32 := VO4_3.read (Elt F) VO4_3.junk

/-- In case A the pieces stored into scratch 0 cover its row: every store writes the whole row. -/
theorem scover4_A_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) (y : S1x128.Idx) :
    ∃ pc ∈ (kernelRun4_A c i arg1 harg1 arg2 harg2 arg3 harg3 arg4 harg4 arg5 harg5 arg6 harg6 hc0 hc1 x0 x1).1, y ∈ pc.1.set :=
  View.cover_of_tiledL (kernelRun4_A c i arg1 harg1 arg2 harg2 arg3 harg3 arg4 harg4 arg5 harg5 arg6 harg6 hc0 hc1 x0 x1).1 S1x128.size (by sl_kernel_rfl) y

/-- What case A leaves there: its pieces read back. -/
def sout4_A_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 hc0 hc1 x0 x1).1)

/-- In case A the pieces stored into scratch 1 cover its row: every store writes the whole row. -/
theorem scover4_A_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) (y : S1x128.Idx) :
    ∃ pc ∈ (kernelRun4_A c i arg1 harg1 arg2 harg2 arg3 harg3 arg4 harg4 arg5 harg5 arg6 harg6 hc0 hc1 x0 x1).2.1, y ∈ pc.1.set :=
  View.cover_of_tiledL (kernelRun4_A c i arg1 harg1 arg2 harg2 arg3 harg3 arg4 harg4 arg5 harg5 arg6 harg6 hc0 hc1 x0 x1).2.1 S1x128.size (by sl_kernel_rfl) y

/-- What case A leaves there: its pieces read back. -/
def sout4_A_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 hc0 hc1 x0 x1).2.1)

/-- In case B the pieces stored into scratch 0 cover its row: every store writes the whole row. -/
theorem scover4_B_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) (y : S1x128.Idx) :
    ∃ pc ∈ (kernelRun4_B c i arg1 harg1 arg2 harg2 arg3 harg3 arg4 harg4 arg5 harg5 arg6 harg6 hc0 hc1 x0 x1 xs0 xs1).1, y ∈ pc.1.set :=
  View.cover_of_tiledL (kernelRun4_B c i arg1 harg1 arg2 harg2 arg3 harg3 arg4 harg4 arg5 harg5 arg6 harg6 hc0 hc1 x0 x1 xs0 xs1).1 S1x128.size (by sl_kernel_rfl) y

/-- What case B leaves there: its pieces read back. -/
def sout4_B_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 hc0 hc1 x0 x1 xs0 xs1).1)

/-- In case B the pieces stored into scratch 1 cover its row: every store writes the whole row. -/
theorem scover4_B_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) (y : S1x128.Idx) :
    ∃ pc ∈ (kernelRun4_B c i arg1 harg1 arg2 harg2 arg3 harg3 arg4 harg4 arg5 harg5 arg6 harg6 hc0 hc1 x0 x1 xs0 xs1).2.1, y ∈ pc.1.set :=
  View.cover_of_tiledL (kernelRun4_B c i arg1 harg1 arg2 harg2 arg3 harg3 arg4 harg4 arg5 harg5 arg6 harg6 hc0 hc1 x0 x1 xs0 xs1).2.1 S1x128.size (by sl_kernel_rfl) y

/-- What case B leaves there: its pieces read back. -/
def sout4_B_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 hc0 hc1 x0 x1 xs0 xs1).2.1)

/-- In case C the pieces stored into result window 2 cover its row: every store writes the whole row. -/
theorem cover4_C_2 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).1, y ∈ pc.1.set :=
  View.cover_of_tiledL (kernelRun4_C c i arg1 harg1 arg2 harg2 arg3 harg3 arg4 harg4 arg5 harg5 arg6 harg6 hc0 hc1 x0 x1 xs0 xs1).1 S1x128.size (by sl_kernel_rfl) y

/-- What case C leaves there: its pieces read back. -/
def out4_C_2 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VO4_2.read (Elt F) (VO4_2.writes (Elt F) VO4_2.junk (kernelRun4_C c i arg1 harg1 arg2 harg2 arg3 harg3 arg4 harg4 arg5 harg5 arg6 harg6 hc0 hc1 x0 x1 xs0 xs1).1)

/-- In case C the pieces stored into result window 3 cover its row: every store writes the whole row. -/
theorem cover4_C_3 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).2.1, y ∈ pc.1.set :=
  View.cover_of_tiledL (kernelRun4_C c i arg1 harg1 arg2 harg2 arg3 harg3 arg4 harg4 arg5 harg5 arg6 harg6 hc0 hc1 x0 x1 xs0 xs1).2.1 S1x128.size (by sl_kernel_rfl) y

/-- What case C leaves there: its pieces read back. -/
def out4_C_3 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VO4_3.read (Elt F) (VO4_3.writes (Elt F) VO4_3.junk (kernelRun4_C c i arg1 harg1 arg2 harg2 arg3 harg3 arg4 harg4 arg5 harg5 arg6 harg6 hc0 hc1 x0 x1 xs0 xs1).2.1)

/-- In case C the pieces stored into scratch 0 cover its row: every store writes the whole row. -/
theorem scover4_C_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).2.2.1, y ∈ pc.1.set :=
  View.cover_of_tiledL (kernelRun4_C c i arg1 harg1 arg2 harg2 arg3 harg3 arg4 harg4 arg5 harg5 arg6 harg6 hc0 hc1 x0 x1 xs0 xs1).2.2.1 S1x128.size (by sl_kernel_rfl) y

/-- What case C leaves there: its pieces read back. -/
def sout4_C_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 hc0 hc1 x0 x1 xs0 xs1).2.2.1)

/-- In case C the pieces stored into scratch 1 cover its row: every store writes the whole row. -/
theorem scover4_C_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).2.2.2.1, y ∈ pc.1.set :=
  View.cover_of_tiledL (kernelRun4_C c i arg1 harg1 arg2 harg2 arg3 harg3 arg4 harg4 arg5 harg5 arg6 harg6 hc0 hc1 x0 x1 xs0 xs1).2.2.2.1 S1x128.size (by sl_kernel_rfl) y

/-- What case C leaves there: its pieces read back. -/
def sout4_C_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 hc0 hc1 x0 x1 xs0 xs1).2.2.2.1)

/-! ## What the result rows and the scratch rows hold after each point -/

/-- THE ACCUMULATION: after the body at point `n`, (result row 2, result row 3, scratch row 0, scratch row 1).
    Point 0 zeroes the scratch rows and adds block 0's column sums; a later point adds its block's column sums to what
    the point before left; the last point also writes mean and variance from the final sums. -/
def outsAt4 (c : Dev nD) : (n : ℕ) → n < cfg4.N → Vec F S1x128 .f32 × Vec F S1x128 .f32 × Vec F S1x128 .f32 × Vec F S1x128 .f32
  | 0, hn => (idle4_2 (F := F), idle4_3 (F := F), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩))
  | n + 1, hn =>
    if h1 : n + 1 = 19 then
      (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2)
    else
      (idle4_2 (F := F), idle4_3 (F := F), sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2)

/-- `outsAt4` at the first point. -/
theorem outsAt4_A (c : Dev nD) (t : Fin cfg4.N) (h0 : t.val = 0) (h1 : ¬t.val = 19) :
    outsAt4 V c t.val t.isLt = (idle4_2 (F := F), idle4_3 (F := F), sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t), sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact absurd h0 (Nat.succ_ne_zero n)

/-- `outsAt4` at a middle point: over what the point before left. -/
theorem outsAt4_B (c : Dev nD) (t : Fin cfg4.N) (h0 : ¬t.val = 0) (h1 : ¬t.val = 19) :
    outsAt4 V c t.val t.isLt = (idle4_2 (F := F), idle4_3 (F := F), sout4_B_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt4` at the last point: over what the point before left. -/
theorem outsAt4_C (c : Dev nD) (t : Fin cfg4.N) (h0 : ¬t.val = 0) (h1 : t.val = 19) :
    outsAt4 V c t.val t.isLt = (out4_C_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before position `n`: before the first point the generator register at some state and the call's scoped rest (the two
    scratch rows at ANY contents: the first point zeroes them before any use); afterwards the two scratch rows at what the
    point before left in them (`outsAt4`'s scratch components), the generator register at some state, and the scoped
    rest but the two scratch rows. -/
def PhiS4 (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop(owns (c : Thread nD τ) scM4_0 fullShare (outsAt4 V c n hn).2.2.1 ∗ owns (c : Thread nD τ) scM4_1 fullShare (outsAt4 V c n hn).2.2.2 ∗ (∃ r, prngReg c r) ∗ Pipeline.scopedRestBut (Ix := Unit) (Name := ℕ) (U := UR sig nD τ) (Lvl := ℕ) (Val := Elt F) spec4 c [cc4_scratch0, cc4_scratch1])

theorem PhiS4_zero (c : Dev nD) (n : ℕ) (h : n ≤ cfg4.N) (hz : n = 0) :
    PhiS4 V c n h = iprop((∃ r, prngReg c r) ∗ Pipeline.scopedRest (Ix := Unit) (Name := ℕ) (U := UR sig nD τ) (Lvl := ℕ) (Val := Elt F) spec4 c) := by
  subst hz; rfl

theorem PhiS4_succ (c : Dev nD) (n : ℕ) (hn : n < cfg4.N) :
    PhiS4 V c (n + 1) hn = iprop(owns (c : Thread nD τ) scM4_0 fullShare (outsAt4 V c n hn).2.2.1 ∗ owns (c : Thread nD τ) scM4_1 fullShare (outsAt4 V c n hn).2.2.2 ∗ (∃ r, prngReg c r) ∗ Pipeline.scopedRestBut (Ix := Unit) (Name := ℕ) (U := UR sig nD τ) (Lvl := ℕ) (Val := Elt F) spec4 c [cc4_scratch0, cc4_scratch1]) := rfl

theorem PhiS4_pos (c : Dev nD) (n : ℕ) (h : n ≤ cfg4.N) (hz : n ≠ 0) :
    PhiS4 V c n h = iprop(owns (c : Thread nD τ) scM4_0 fullShare (outsAt4 V c (n - 1) (by omega)).2.2.1 ∗ owns (c : Thread nD τ) scM4_1 fullShare (outsAt4 V c (n - 1) (by omega)).2.2.2 ∗ (∃ r, prngReg c r) ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-- The scoped rest with the two scratch rows as memrefs owned at some contents. -/
theorem scopedRest4_owns (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

/-! ## The pipeline's proof data -/

/-- The proof data of pipeline 4 on core `c`: the arrays as the region finds them (`V`); after the body at point `t`
    each input's buffer at its block and the result rows at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; the closed forms say which case the point is in; the
    invariant hands the body the scratch rows (at anything at the first point, else at what the point before left) and
    takes them back at this point's contents; the result rows are handed back untouched away from the last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  have hN : t.val < 20 := lt_of_lt_of_eq t.isLt (show cfg4.N = 20 from N_4)
  by_cases h0 : t.val = 0
  · have h1 : ¬t.val = 19 := by omega
    rw [Dat.leavesExact_idle (dat4 V c) 2 t (idleAt4_2 t (fun h => h1 ((hcond4_1 t).mp h))) (noFlush4_2 t (fun h => h1 ((hcond4_1 t).mp h)))]
    rw [Dat.leavesExact_idle (dat4 V c) 3 t (idleAt4_3 t (fun h => h1 ((hcond4_1 t).mp h))) (noFlush4_3 t (fun h => h1 ((hcond4_1 t).mp h)))]
    rw [outsAt4_A V c t h0 h1]
    unfold sout4_A_0 sout4_A_1; (try dsimp only)
    rw [PhiS4_castSucc V c t, PhiS4_zero V c _ _ h0, scopedRest4_owns]
    iintro ⟨⟨Hg, ⟨HS0, HS1⟩, Hrest⟩, Ho, ⟨%d0, H0⟩, ⟨%d1, H1⟩, ⟨%d2, H2⟩, ⟨%d3, H3⟩⟩
    iapply ((kernelRun4_A c (grid4.coords t) _ _ _ _ _ _ _ _ _ _ _ _ ((hcond4_0 t).mpr h0) (fun h => h1 ((hcond4_1 t).mp h)) (iblk4 V c 0 t) (iblk4 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hg Hrest]
    · isplitl [HS0]
      · unfold owns; iexists _; isplitr
        swap; · iexact HS0
        ipureintro; exact View.read_writes_of_cover _ _ _ _ _ (scover4_A_0 _ _ _ _ _ _ _ _ _ _ _ _ _ _ _ _ _ _)
      isplitl [HS1]
      · unfold owns; iexists _; isplitr
        swap; · iexact HS1
        ipureintro; exact View.read_writes_of_cover _ _ _ _ _ (scover4_A_1 _ _ _ _ _ _ _ _ _ _ _ _ _ _ _ _ _ _)
      isplitl [Hg]; · iexact Hg
      iexact Hrest
    isplitl [Ho]; · iexact Ho
    isplitl [H0]; · iexact H0
    isplitl [H1]; · iexact H1
    isplitl [H2]; · iexists _; iexact H2
    iexists _; iexact H3
  · by_cases h1 : t.val = 19
    · rw [show (dat4 V c).leavesExact 2 t = owns (c : Thread nD τ) (ms4_2 t) fullShare ((dat4 V c).after 2 t) from by
        unfold Dat.leavesExact; rw [liveAt4_2 t ((hcond4_1 t).mpr h1)], after4_2]
      rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold out4_C_2 out4_C_3 sout4_C_0 sout4_C_1; (try dsimp only)
      rw [PhiS4_castSucc V c t, PhiS4_pos V c _ _ h0]
      iintro ⟨⟨HS0, HS1, Hg, Hrest⟩, Ho, ⟨%d0, H0⟩, ⟨%d1, H1⟩, ⟨%d2, H2⟩, ⟨%d3, H3⟩⟩
      iapply ((kernelRun4_C c (grid4.coords t) _ _ _ _ _ _ _ _ _ _ _ _ (fun h => h0 ((hcond4_0 t).mp h)) ((hcond4_1 t).mpr h1) (iblk4 V c 0 t) (iblk4 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg Hrest]
      · isplitl [HS0]
        · unfold owns; iexists _; isplitr
          swap; · iexact HS0
          ipureintro; exact View.read_writes_of_cover _ _ _ _ _ (scover4_C_0 _ _ _ _ _ _ _ _ _ _ _ _ _ _ _ _ _ _ _ _)
        isplitl [HS1]
        · unfold owns; iexists _; isplitr
          swap; · iexact HS1
          ipureintro; exact View.read_writes_of_cover _ _ _ _ _ (scover4_C_1 _ _ _ _ _ _ _ _ _ _ _ _ _ _ _ _ _ _ _ _)
        isplitl [Hg]; · iexact Hg
        iexact Hrest
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_C_2 _ _ _ _ _ _ _ _ _ _ _ _ _ _ _ _ _ _ _ _)
      unfold owns; iexists _; isplitr
      swap; · iexact H3
      ipureintro; exact View.read_writes_of_cover _ _ _ _ _ (cover4_C_3 _ _ _ _ _ _ _ _ _ _ _ _ _ _ _ _ _ _ _ _)
    · rw [Dat.leavesExact_idle (dat4 V c) 2 t (idleAt4_2 t (fun h => h1 ((hcond4_1 t).mp h))) (noFlush4_2 t (fun h => h1 ((hcond4_1 t).mp h)))]
      rw [Dat.leavesExact_idle (dat4 V c) 3 t (idleAt4_3 t (fun h => h1 ((hcond4_1 t).mp h))) (noFlush4_3 t (fun h => h1 ((hcond4_1 t).mp h)))]
      rw [outsAt4_B V c t h0 h1]
      unfold sout4_B_0 sout4_B_1; (try dsimp only)
      rw [PhiS4_castSucc V c t, PhiS4_pos V c _ _ h0]
      iintro ⟨⟨HS0, HS1, Hg, Hrest⟩, Ho, ⟨%d0, H0⟩, ⟨%d1, H1⟩, ⟨%d2, H2⟩, ⟨%d3, H3⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg Hrest]
      · isplitl [HS0]
        · unfold owns; iexists _; isplitr
          swap; · iexact HS0
          ipureintro; exact View.read_writes_of_cover _ _ _ _ _ (scover4_B_0 _ _ _ _ _ _ _ _ _ _ _ _ _ _ _ _ _ _ _ _)
        isplitl [HS1]
        · unfold owns; iexists _; isplitr
          swap; · iexact HS1
          ipureintro; exact View.read_writes_of_cover _ _ _ _ _ (scover4_B_1 _ _ _ _ _ _ _ _ _ _ _ _ _ _ _ _ _ _ _ _)
        isplitl [Hg]; · iexact Hg
        iexact Hrest
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region — the generator register at some state and the call's scoped rest — is the invariant
    before the first point. -/
theorem hin4 (c : Dev nD) : iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives them back: the scratch rows' named contents are forgotten. -/
theorem hout4 (c : Dev nD) : (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega), scopedRest4_owns]
  iintro ⟨HS0, HS1, Hg, Hrest⟩
  isplitl [Hg]; · iexact Hg
  isplitl [HS0 HS1]
  · isplitl [HS0]; · iexists _; iexact HS0
    iexists _; iexact HS1
  iexact Hrest

end Cert.KernelIdeal.Hand

end
-- ==== Proof.KI.Run.lean ====
/-
  The whole run of the program: the TensorCore's unscoped buffers followed through the fourteen items of @main.

  @main is six stretches of host operations and eight kernel regions.  Starting from the launch memory, a host
  stretch leaves the buffers at the operations' results, and a region leaves its output arrays at what its grid
  points wrote back and every other buffer untouched.  Every weakly fair execution terminates without a fault, and
  at the end every unscoped buffer holds exactly the contents this fold gives it.  No item writes an argument, so
  the arguments end as launched.
-/
import proofs.«171122_j58480274703249_1_alg».proof.Proof.KI.RegOf
import proofs.«171122_j58480274703249_1_alg».proof.Proof.KI.A0
import proofs.«171122_j58480274703249_1_alg».proof.Proof.KI.A2
import proofs.«171122_j58480274703249_1_alg».proof.Proof.KI.A3
import proofs.«171122_j58480274703249_1_alg».proof.Proof.KI.A5
import proofs.«171122_j58480274703249_1_alg».proof.Proof.KI.A6
import proofs.«171122_j58480274703249_1_alg».proof.Proof.KI.A7
import proofs.«171122_j58480274703249_1_alg».proof.Proof.KI.R1
import proofs.«171122_j58480274703249_1_alg».proof.Proof.KI.R4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers between the items -/

/-- At launch. -/
abbrev W0 : Dev nD → Valuation τ sig (Elt F) := fun c b => m (c, b)
/-- After the first host stretch (the degree count and the edge normalisation). -/
abbrev W1 : Dev nD → Valuation τ sig (Elt F) := fun c => StableHlo.after hostOps0 (W0 m c)
abbrev W2 : Dev nD → Valuation τ sig (Elt F) := fun c => StableHlo.after hostOps0_1 (W1 m c)
/-- Entry of region 0, the first layer's product. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
def W4 : Dev nD → Valuation τ sig (Elt F) := stepW (p := 0) (dat0 (V3 m)) (W3 m)
/-- After the first layer's gather, edge scaling and scatter-add: entry of region 1, the column statistics. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
def W6 : Dev nD → Valuation τ sig (Elt F) := stepW (p := 1) (dat1 (V5 m)) (W5 m)
abbrev V6 : (c : Dev nD) → (b : Ref sig .tc) → Buf (Elt F) ((c : Thread nD τ).loc b) := fun c b => W6 m c b
def W7 : Dev nD → Valuation τ sig (Elt F) := stepW (p := 2) (dat2 (V6 m)) (W6 m)
abbrev V7 : (c : Dev nD) → (b : Ref sig .tc) → Buf (Elt F) ((c : Thread nD τ).loc b) := fun c b => W7 m c b
def W8 : Dev nD → Valuation τ sig (Elt F) := stepW (p := 3) (dat3 (V7 m)) (W7 m)
abbrev W9 : Dev nD → Valuation τ sig (Elt F) := fun c => StableHlo.after hostOps4 (W8 m c)
abbrev V9 : (c : Dev nD) → (b : Ref sig .tc) → Buf (Elt F) ((c : Thread nD τ).loc b) := fun c b => W9 m c b
def W10 : Dev nD → Valuation τ sig (Elt F) := stepW (p := 4) (dat4 (V9 m)) (W9 m)
abbrev V10 : (c : Dev nD) → (b : Ref sig .tc) → Buf (Elt F) ((c : Thread nD τ).loc b) := fun c b => W10 m c b
def W11 : Dev nD → Valuation τ sig (Elt F) := stepW (p := 5) (dat5 (V10 m)) (W10 m)
abbrev V11 : (c : Dev nD) → (b : Ref sig .tc) → Buf (Elt F) ((c : Thread nD τ).loc b) := fun c b => W11 m c b
def W12 : Dev nD → Valuation τ sig (Elt F) := stepW (p := 6) (dat6 (V11 m)) (W11 m)
abbrev W13 : Dev nD → Valuation τ sig (Elt F) := fun c => StableHlo.after hostOps7 (W12 m c)
abbrev V13 : (c : Dev nD) → (b : Ref sig .tc) → Buf (Elt F) ((c : Thread nD τ).loc b) := fun c b => W13 m c b
/-- At the return. -/
def W14 : Dev nD → Valuation τ sig (Elt F) := stepW (p := 7) (dat7 (V13 m)) (W13 m)

/-! ## The proof data of the eight pipelines, each at its region's entry contents -/

def pdats : (p : Fin 8) → (c : Dev nD) → Dat τ (Elt F) Unit ℕ (UR sig nD τ) ℕ (Pipeline.pin (pcfgs (F := F)) Gen.adm p) c
  | ⟨0, _⟩ => fun c => dat0 (V3 m) c
  | ⟨1, _⟩ => fun c => dat1 (V5 m) c
  | ⟨2, _⟩ => fun c => dat2 (V6 m) c
  | ⟨3, _⟩ => fun c => dat3 (V7 m) c
  | ⟨4, _⟩ => fun c => dat4 (V9 m) c
  | ⟨5, _⟩ => fun c => dat5 (V10 m) c
  | ⟨6, _⟩ => fun c => dat6 (V11 m) c
  | ⟨7, _⟩ => fun c => dat7 (V13 m) c

/-! ## The regions as segments -/

theorem not_img {p : Fin 8} {b : Ref sig .tc} (hb : b ∉ Finset.univ.image (Pipeline.arrRef (cfgs p).spec)) (w : Fin (cfgs p).W) :
    Pipeline.arrRef (cfgs p).spec w ≠ b := fun e => hb (Finset.mem_image.mpr ⟨w, Finset.mem_univ _, e⟩)

def reg0 : Pipeline.RegionSeg (pcfgs (F := F)) Gen.adm (pdats m) () defs₀ 𝒱₀ L lv 0 :=
  regOf (pdats m) 0 launch0 (W3 m) (W4 m) (fun c => body_obligation0 (V3 m) c) (fun _ _ => rfl) (fun _ _ => rfl) (fun _ _ => rfl)
    (fun c w => A_eq0 (V3 m) c w) (fun c => classA_in 0 c) (fun c => classA_out 0 c)
    (fun c w => (stepW_arr (p := 0) (dat0 (V3 m)) (W3 m) launch0 c w).symm)
    (fun c b hb => stepW_of_ne (p := 0) (dat0 (V3 m)) (W3 m) c b (not_img hb))
def reg1 : Pipeline.RegionSeg (pcfgs (F := F)) Gen.adm (pdats m) () defs₀ 𝒱₀ L lv 1 :=
  regOf (pdats m) 1 launch1 (W5 m) (W6 m) (fun c => body_obligation1 (V5 m) c) (fun _ _ => rfl) (fun _ _ => rfl) (fun _ _ => rfl)
    (fun c w => A_eq1 (V5 m) c w) (fun c => hin1 (V5 m) c) (fun c => hout1 (V5 m) c)
    (fun c w => (stepW_arr (p := 1) (dat1 (V5 m)) (W5 m) launch1 c w).symm)
    (fun c b hb => stepW_of_ne (p := 1) (dat1 (V5 m)) (W5 m) c b (not_img hb))
def reg2 : Pipeline.RegionSeg (pcfgs (F := F)) Gen.adm (pdats m) () defs₀ 𝒱₀ L lv 2 :=
  regOf (pdats m) 2 launch2 (W6 m) (W7 m) (fun c => body_obligation2 (V6 m) c) (fun _ _ => rfl) (fun _ _ => rfl) (fun _ _ => rfl)
    (fun c w => A_eq2 (V6 m) c w) (fun c => classA_in 2 c) (fun c => classA_out 2 c)
    (fun c w => (stepW_arr (p := 2) (dat2 (V6 m)) (W6 m) launch2 c w).symm)
    (fun c b hb => stepW_of_ne (p := 2) (dat2 (V6 m)) (W6 m) c b (not_img hb))
def reg3 : Pipeline.RegionSeg (pcfgs (F := F)) Gen.adm (pdats m) () defs₀ 𝒱₀ L lv 3 :=
  regOf (pdats m) 3 launch3 (W7 m) (W8 m) (fun c => body_obligation3 (V7 m) c) (fun _ _ => rfl) (fun _ _ => rfl) (fun _ _ => rfl)
    (fun c w => A_eq3 (V7 m) c w) (fun c => classA_in 3 c) (fun c => classA_out 3 c)
    (fun c w => (stepW_arr (p := 3) (dat3 (V7 m)) (W7 m) launch3 c w).symm)
    (fun c b hb => stepW_of_ne (p := 3) (dat3 (V7 m)) (W7 m) c b (not_img hb))
def reg4 : Pipeline.RegionSeg (pcfgs (F := F)) Gen.adm (pdats m) () defs₀ 𝒱₀ L lv 4 :=
  regOf (pdats m) 4 launch4 (W9 m) (W10 m) (fun c => body_obligation4 (V9 m) c) (fun _ _ => rfl) (fun _ _ => rfl) (fun _ _ => rfl)
    (fun c w => A_eq4 (V9 m) c w) (fun c => hin4 (V9 m) c) (fun c => hout4 (V9 m) c)
    (fun c w => (stepW_arr (p := 4) (dat4 (V9 m)) (W9 m) launch4 c w).symm)
    (fun c b hb => stepW_of_ne (p := 4) (dat4 (V9 m)) (W9 m) c b (not_img hb))
def reg5 : Pipeline.RegionSeg (pcfgs (F := F)) Gen.adm (pdats m) () defs₀ 𝒱₀ L lv 5 :=
  regOf (pdats m) 5 launch5 (W10 m) (W11 m) (fun c => body_obligation5 (V10 m) c) (fun _ _ => rfl) (fun _ _ => rfl) (fun _ _ => rfl)
    (fun c w => A_eq5 (V10 m) c w) (fun c => classA_in 5 c) (fun c => classA_out 5 c)
    (fun c w => (stepW_arr (p := 5) (dat5 (V10 m)) (W10 m) launch5 c w).symm)
    (fun c b hb => stepW_of_ne (p := 5) (dat5 (V10 m)) (W10 m) c b (not_img hb))
def reg6 : Pipeline.RegionSeg (pcfgs (F := F)) Gen.adm (pdats m) () defs₀ 𝒱₀ L lv 6 :=
  regOf (pdats m) 6 launch6 (W11 m) (W12 m) (fun c => body_obligation6 (V11 m) c) (fun _ _ => rfl) (fun _ _ => rfl) (fun _ _ => rfl)
    (fun c w => A_eq6 (V11 m) c w) (fun c => classA_in 6 c) (fun c => classA_out 6 c)
    (fun c w => (stepW_arr (p := 6) (dat6 (V11 m)) (W11 m) launch6 c w).symm)
    (fun c b hb => stepW_of_ne (p := 6) (dat6 (V11 m)) (W11 m) c b (not_img hb))
def reg7 : Pipeline.RegionSeg (pcfgs (F := F)) Gen.adm (pdats m) () defs₀ 𝒱₀ L lv 7 :=
  regOf (pdats m) 7 launch7 (W13 m) (W14 m) (fun c => body_obligation7 (V13 m) c) (fun _ _ => rfl) (fun _ _ => rfl) (fun _ _ => rfl)
    (fun c w => A_eq7 (V13 m) c w) (fun c => classA_in 7 c) (fun c => classA_out 7 c)
    (fun c w => (stepW_arr (p := 7) (dat7 (V13 m)) (W13 m) launch7 c w).symm)
    (fun c b hb => stepW_of_ne (p := 7) (dat7 (V13 m)) (W13 m) c b (not_img hb))

/-! ## The host stretches as segments -/

/-- A host stretch from the contents `W`: it leaves every unscoped buffer at the operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's fourteen items in order. -/
abbrev segs : List (Pipeline.Seg (pcfgs (F := F)) Gen.adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m), .region (reg2 m), .region (reg3 m),
    .host (hseg hostOps4 hostOps4_sub hostOps4_fresh (W8 m)),
    .region (reg4 m), .region (reg5 m), .region (reg6 m),
    .host (hseg hostOps7 hostOps7_sub hostOps7_fresh (W12 m)),
    .region (reg7 m) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what is owed: every unscoped buffer at the last contents, the generator register
    at some state. -/
abbrev Tₙ (c : Dev nD) : sProp 𝕄 := iprop(StableHlo.held (c : Thread nD τ) (Pipeline.ucRefs τ sig) (W14 m c) ∗ ∃ r, prngReg c r)

/-! ## The run -/

variable (ρ : Dev nD → PrngReg)

set_option backward.isDefEq.respectTransparency.types false in
/-- Every weakly fair execution of @main from memory `m` with zero counters terminates, nothing faulting, and every
    final memory holds each unscoped buffer of each TensorCore at the contents the fold `W14` gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) Gen.adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0, StableHlo.seq hostOps0_1, StableHlo.seq hostOps0_2,
          Prog.lift (.customCall (Pipeline.entry 0) ()),
          StableHlo.seq hostOps1,
          Prog.lift (.customCall (Pipeline.entry 1) ()), Prog.lift (.customCall (Pipeline.entry 2) ()), Prog.lift (.customCall (Pipeline.entry 3) ()),
          StableHlo.seq hostOps4,
          Prog.lift (.customCall (Pipeline.entry 4) ()), Prog.lift (.customCall (Pipeline.entry 5) ()), Prog.lift (.customCall (Pipeline.entry 6) ()),
          StableHlo.seq hostOps7,
          Prog.lift (.customCall (Pipeline.entry 7) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W14 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

end Cert.KernelIdeal.Hand

end
-- ==== Proof.KI.Frame.lean ====
/-
  The arguments end as launched.

  The fold of the buffers through @main only ever changes a buffer that some host operation writes or that is an
  output array of some region.  The twelve arguments are none of these, so at the end each holds its launch contents.
-/
import proofs.«171122_j58480274703249_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Each region's output arrays -/

theorem outs0 : ∀ w : Fin cfg0.W, (cfg0.win w).isOut = true → Pipeline.arrRef spec0 w = main_v39 := by decide
theorem outs1 : ∀ w : Fin cfg1.W, (cfg1.win w).isOut = true → Pipeline.arrRef spec1 w = main_v53_0 ∨ Pipeline.arrRef spec1 w = main_v53_1 := by decide
theorem outs2 : ∀ w : Fin cfg2.W, (cfg2.win w).isOut = true → Pipeline.arrRef spec2 w = main_v54 := by decide
theorem outs3 : ∀ w : Fin cfg3.W, (cfg3.win w).isOut = true → Pipeline.arrRef spec3 w = main_v55 := by decide
theorem outs4 : ∀ w : Fin cfg4.W, (cfg4.win w).isOut = true → Pipeline.arrRef spec4 w = main_v69_0 ∨ Pipeline.arrRef spec4 w = main_v69_1 := by decide
theorem outs5 : ∀ w : Fin cfg5.W, (cfg5.win w).isOut = true → Pipeline.arrRef spec5 w = main_v70 := by decide
theorem outs6 : ∀ w : Fin cfg6.W, (cfg6.win w).isOut = true → Pipeline.arrRef spec6 w = main_v71 := by decide
theorem outs7 : ∀ w : Fin cfg7.W, (cfg7.win w).isOut = true → Pipeline.arrRef spec7 w = main_v85 := by decide

/-- A buffer that no host operation writes and that is no region's output array ends as launched. -/
theorem W14_of (c : Dev nD) (r : Ref sig .tc)
    (h0 : r ∉ hostOps0_W) (h1 : r ∉ hostOps0_1_W) (h2 : r ∉ hostOps0_2_W) (h4 : r ∉ hostOps1_W) (h8 : r ∉ hostOps4_W)
    (h12 : r ∉ hostOps7_W)
    (ho : r ∉ ([main_v39, main_v53_0, main_v53_1, main_v54, main_v55, main_v69_0, main_v69_1, main_v70, main_v71, main_v85] : List (Ref sig .tc))) :
    W14 m c (Proc.devRef .tc r) = m ((c : Thread nD τ).loc r) := by
  have e14 : W14 m c (Proc.devRef .tc r) = W13 m c (Proc.devRef .tc r) :=
    stepW_keep (p := 7) (dat7 (V13 m)) (W13 m) launch7 (A_eq7 (V13 m)) c r fun w hw e => ho (by rw [show r = main_v85 from e.symm.trans (outs7 w hw)]; decide)
  have e13 : W13 m c (Proc.devRef .tc r) = W12 m c (Proc.devRef .tc r) := StableHlo.after_of_writes_sub hostOps7 _ hostOps7_writes h12
  have e12 : W12 m c (Proc.devRef .tc r) = W11 m c (Proc.devRef .tc r) :=
    stepW_keep (p := 6) (dat6 (V11 m)) (W11 m) launch6 (A_eq6 (V11 m)) c r fun w hw e => ho (by rw [show r = main_v71 from e.symm.trans (outs6 w hw)]; decide)
  have e11 : W11 m c (Proc.devRef .tc r) = W10 m c (Proc.devRef .tc r) :=
    stepW_keep (p := 5) (dat5 (V10 m)) (W10 m) launch5 (A_eq5 (V10 m)) c r fun w hw e => ho (by rw [show r = main_v70 from e.symm.trans (outs5 w hw)]; decide)
  have e10 : W10 m c (Proc.devRef .tc r) = W9 m c (Proc.devRef .tc r) :=
    stepW_keep (p := 4) (dat4 (V9 m)) (W9 m) launch4 (A_eq4 (V9 m)) c r fun w hw e => ho (by
      rcases outs4 w hw with h | h
      · rw [show r = main_v69_0 from e.symm.trans h]; decide
      · rw [show r = main_v69_1 from e.symm.trans h]; decide)
  have e9 : W9 m c (Proc.devRef .tc r) = W8 m c (Proc.devRef .tc r) := StableHlo.after_of_writes_sub hostOps4 _ hostOps4_writes h8
  have e8 : W8 m c (Proc.devRef .tc r) = W7 m c (Proc.devRef .tc r) :=
    stepW_keep (p := 3) (dat3 (V7 m)) (W7 m) launch3 (A_eq3 (V7 m)) c r fun w hw e => ho (by rw [show r = main_v55 from e.symm.trans (outs3 w hw)]; decide)
  have e7 : W7 m c (Proc.devRef .tc r) = W6 m c (Proc.devRef .tc r) :=
    stepW_keep (p := 2) (dat2 (V6 m)) (W6 m) launch2 (A_eq2 (V6 m)) c r fun w hw e => ho (by rw [show r = main_v54 from e.symm.trans (outs2 w hw)]; decide)
  have e6 : W6 m c (Proc.devRef .tc r) = W5 m c (Proc.devRef .tc r) :=
    stepW_keep (p := 1) (dat1 (V5 m)) (W5 m) launch1 (A_eq1 (V5 m)) c r fun w hw e => ho (by
      rcases outs1 w hw with h | h
      · rw [show r = main_v53_0 from e.symm.trans h]; decide
      · rw [show r = main_v53_1 from e.symm.trans h]; decide)
  have e5 : W5 m c (Proc.devRef .tc r) = W4 m c (Proc.devRef .tc r) := StableHlo.after_of_writes_sub hostOps1 _ hostOps1_writes h4
  have e4 : W4 m c (Proc.devRef .tc r) = W3 m c (Proc.devRef .tc r) :=
    stepW_keep (p := 0) (dat0 (V3 m)) (W3 m) launch0 (A_eq0 (V3 m)) c r fun w hw e => ho (by rw [show r = main_v39 from e.symm.trans (outs0 w hw)]; decide)
  have e3 : W3 m c (Proc.devRef .tc r) = W2 m c (Proc.devRef .tc r) := StableHlo.after_of_writes_sub hostOps0_2 _ hostOps0_2_writes h2
  have e2 : W2 m c (Proc.devRef .tc r) = W1 m c (Proc.devRef .tc r) := StableHlo.after_of_writes_sub hostOps0_1 _ hostOps0_1_writes h1
  have e1 : W1 m c (Proc.devRef .tc r) = W0 m c (Proc.devRef .tc r) := StableHlo.after_of_writes_sub hostOps0 _ hostOps0_writes h0
  rw [e14, e13, e12, e11, e10, e9, e8, e7, e6, e5, e4, e3, e2, e1]

variable (ρ : Dev nD → PrngReg)

/-- Every weakly fair execution terminates without a fault; the result buffer ends at the fold's contents and the
    twelve arguments end as launched. -/
theorem run_result : θ_run defs (onTc (τ := τ) (main (F := F))) ⟨m, fun _ => 0, ρ⟩ (fun r => ∀ c : Dev nD,
      r.2.mem ((c.tc : Thread nD τ).loc main_v85) = W14 m c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v85 (by decide)),
     (h c _ (mem_uc main_arg0 (by decide))).trans (W14_of m c main_arg0 (by decide) (by decide) (by decide) (by decide) (by decide) (by decide) (by decide)),
     (h c _ (mem_uc main_arg1 (by decide))).trans (W14_of m c main_arg1 (by decide) (by decide) (by decide) (by decide) (by decide) (by decide) (by decide)),
     (h c _ (mem_uc main_arg2 (by decide))).trans (W14_of m c main_arg2 (by decide) (by decide) (by decide) (by decide) (by decide) (by decide) (by decide)),
     (h c _ (mem_uc main_arg3 (by decide))).trans (W14_of m c main_arg3 (by decide) (by decide) (by decide) (by decide) (by decide) (by decide) (by decide)),
     (h c _ (mem_uc main_arg4 (by decide))).trans (W14_of m c main_arg4 (by decide) (by decide) (by decide) (by decide) (by decide) (by decide) (by decide)),
     (h c _ (mem_uc main_arg5 (by decide))).trans (W14_of m c main_arg5 (by decide) (by decide) (by decide) (by decide) (by decide) (by decide) (by decide)),
     (h c _ (mem_uc main_arg6 (by decide))).trans (W14_of m c main_arg6 (by decide) (by decide) (by decide) (by decide) (by decide) (by decide) (by decide)),
     (h c _ (mem_uc main_arg7 (by decide))).trans (W14_of m c main_arg7 (by decide) (by decide) (by decide) (by decide) (by decide) (by decide) (by decide)),
     (h c _ (mem_uc main_arg8 (by decide))).trans (W14_of m c main_arg8 (by decide) (by decide) (by decide) (by decide) (by decide) (by decide) (by decide)),
     (h c _ (mem_uc main_arg9 (by decide))).trans (W14_of m c main_arg9 (by decide) (by decide) (by decide) (by decide) (by decide) (by decide) (by decide)),
     (h c _ (mem_uc main_arg10 (by decide))).trans (W14_of m c main_arg10 (by decide) (by decide) (by decide) (by decide) (by decide) (by decide) (by decide)),
     (h c _ (mem_uc main_arg11 (by decide))).trans (W14_of m c main_arg11 (by decide) (by decide) (by decide) (by decide) (by decide) (by decide) (by decide))⟩)
    (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.KernelIdeal.Hand

end
-- ==== Proof.KI.Keep.lean ====
/-
  What an item of @main does not write, it keeps.

  One equation per item: a buffer that a host stretch's operations do not write, or that is no output array of a
  region, holds after the item what it held before.  Chained, they carry a buffer's contents from the item that
  wrote it to the item that reads it.
-/
import proofs.«171122_j58480274703249_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

theorem keep1 (b : Ref sig .tc) (h : b ∉ hostOps0_W) : W1 m c (Proc.devRef .tc b) = W0 m c (Proc.devRef .tc b) :=
  StableHlo.after_of_writes_sub hostOps0 _ hostOps0_writes h
theorem keep2 (b : Ref sig .tc) (h : b ∉ hostOps0_1_W) : W2 m c (Proc.devRef .tc b) = W1 m c (Proc.devRef .tc b) :=
  StableHlo.after_of_writes_sub hostOps0_1 _ hostOps0_1_writes h
theorem keep3 (b : Ref sig .tc) (h : b ∉ hostOps0_2_W) : W3 m c (Proc.devRef .tc b) = W2 m c (Proc.devRef .tc b) :=
  StableHlo.after_of_writes_sub hostOps0_2 _ hostOps0_2_writes h
theorem keep4 (b : Ref sig .tc) (h : b ∉ ([main_v39] : List (Ref sig .tc))) :
    W4 m c (Proc.devRef .tc b) = W3 m c (Proc.devRef .tc b) :=
  stepW_keep (p := 0) (dat0 (V3 m)) (W3 m) launch0 (A_eq0 (V3 m)) c b fun w hw e => h (by
    rw [show b = main_v39 from e.symm.trans (outs0 w hw)]; decide)
theorem keep5 (b : Ref sig .tc) (h : b ∉ hostOps1_W) : W5 m c (Proc.devRef .tc b) = W4 m c (Proc.devRef .tc b) :=
  StableHlo.after_of_writes_sub hostOps1 _ hostOps1_writes h
theorem keep6 (b : Ref sig .tc) (h : b ∉ ([main_v53_0, main_v53_1] : List (Ref sig .tc))) :
    W6 m c (Proc.devRef .tc b) = W5 m c (Proc.devRef .tc b) :=
  stepW_keep (p := 1) (dat1 (V5 m)) (W5 m) launch1 (A_eq1 (V5 m)) c b fun w hw e => h (by
    rcases outs1 w hw with h' | h'
    · rw [show b = main_v53_0 from e.symm.trans h']; decide
    · rw [show b = main_v53_1 from e.symm.trans h']; decide)
theorem keep7 (b : Ref sig .tc) (h : b ∉ ([main_v54] : List (Ref sig .tc))) :
    W7 m c (Proc.devRef .tc b) = W6 m c (Proc.devRef .tc b) :=
  stepW_keep (p := 2) (dat2 (V6 m)) (W6 m) launch2 (A_eq2 (V6 m)) c b fun w hw e => h (by
    rw [show b = main_v54 from e.symm.trans (outs2 w hw)]; decide)
theorem keep8 (b : Ref sig .tc) (h : b ∉ ([main_v55] : List (Ref sig .tc))) :
    W8 m c (Proc.devRef .tc b) = W7 m c (Proc.devRef .tc b) :=
  stepW_keep (p := 3) (dat3 (V7 m)) (W7 m) launch3 (A_eq3 (V7 m)) c b fun w hw e => h (by
    rw [show b = main_v55 from e.symm.trans (outs3 w hw)]; decide)
theorem keep9 (b : Ref sig .tc) (h : b ∉ hostOps4_W) : W9 m c (Proc.devRef .tc b) = W8 m c (Proc.devRef .tc b) :=
  StableHlo.after_of_writes_sub hostOps4 _ hostOps4_writes h
theorem keep10 (b : Ref sig .tc) (h : b ∉ ([main_v69_0, main_v69_1] : List (Ref sig .tc))) :
    W10 m c (Proc.devRef .tc b) = W9 m c (Proc.devRef .tc b) :=
  stepW_keep (p := 4) (dat4 (V9 m)) (W9 m) launch4 (A_eq4 (V9 m)) c b fun w hw e => h (by
    rcases outs4 w hw with h' | h'
    · rw [show b = main_v69_0 from e.symm.trans h']; decide
    · rw [show b = main_v69_1 from e.symm.trans h']; decide)
theorem keep11 (b : Ref sig .tc) (h : b ∉ ([main_v70] : List (Ref sig .tc))) :
    W11 m c (Proc.devRef .tc b) = W10 m c (Proc.devRef .tc b) :=
  stepW_keep (p := 5) (dat5 (V10 m)) (W10 m) launch5 (A_eq5 (V10 m)) c b fun w hw e => h (by
    rw [show b = main_v70 from e.symm.trans (outs5 w hw)]; decide)
theorem keep12 (b : Ref sig .tc) (h : b ∉ ([main_v71] : List (Ref sig .tc))) :
    W12 m c (Proc.devRef .tc b) = W11 m c (Proc.devRef .tc b) :=
  stepW_keep (p := 6) (dat6 (V11 m)) (W11 m) launch6 (A_eq6 (V11 m)) c b fun w hw e => h (by
    rw [show b = main_v71 from e.symm.trans (outs6 w hw)]; decide)
theorem keep13 (b : Ref sig .tc) (h : b ∉ hostOps7_W) : W13 m c (Proc.devRef .tc b) = W12 m c (Proc.devRef .tc b) :=
  StableHlo.after_of_writes_sub hostOps7 _ hostOps7_writes h
theorem keep14 (b : Ref sig .tc) (h : b ∉ ([main_v85] : List (Ref sig .tc))) :
    W14 m c (Proc.devRef .tc b) = W13 m c (Proc.devRef .tc b) :=
  stepW_keep (p := 7) (dat7 (V13 m)) (W13 m) launch7 (A_eq7 (V13 m)) c b fun w hw e => h (by
    rw [show b = main_v85 from e.symm.trans (outs7 w hw)]; decide)

end Cert.KernelIdeal.Hand

end
-- ==== Proof.KI.HostForms.lean ====
/- The host part of the kernel program as functions of the edge list.
   The graph part is kept as the composition of host operations the program applies, unread:
   the edge list's two rows with the 100000 self loops appended (kerSrc, kerDst), the wrap of a
   negative index (kerWrap), the degree as a scatter-add of ones over the targets (kerDeg), its
   guarded reciprocal square root (kerDis), the edge weight dis[src] * dis[dst] (kerNorm), and
   the aggregation of a layer's product: gather its rows at the sources, scale each by the edge
   weight, scatter-add into zeros at the targets (kerAgg).  aggOf is the same aggregation with the
   sources, the targets and the edge weights as parameters. -/
import proofs.«171122_j58480274703249_1_alg».proof.KernelIdeal

noncomputable section

namespace Cert.KernelIdeal.Hand

open Cert.KernelIdeal Idealize.ShloMosaic

variable [Facts₀]
open Facts₀

variable {F : FTy → Type} [FloatOps F]

/-- Row `r` (0: sources, 1: targets is `kerDst`) of the edge list, flattened, with the self loops
    0 … 99999 appended: the sources. -/
def kerSrc (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets: row 1 of the edge list, flattened, with the self loops appended. -/
def kerDst (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative index has 100000 added (the wrap jnp applies before a gather). -/
def kerWrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- An index list as the one-column index array a gather or scatter takes. -/
def kerCol (v : IVec S1700000 32) : IVec S1700000x1 32 :=
  broadcastInDim S1700000x1 ![0] bcast_S1700000_S1700000x1_0 v

/-- The degree: ones scatter-added into zeros at the targets. -/
def kerDeg (ei : IVec S2x1600000 32) : FVec F S100000 .f32 :=
  Host.scatterAdd scatter_S100000_S1700000x1_S1700000_n_0_0_1
    (broadcastInDim S100000 ![] bcast_S_S100000 (constant S_ .f32 0x00000000#32))
    (kerCol (kerDst ei))
    (broadcastInDim S1700000 ![] bcast_S_S1700000 (constant S_ .f32 0x3F800000#32))

/-- Where the degree is positive the reciprocal square root of max (degree, 1), elsewhere 0. -/
def kerDis (ei : IVec S2x1600000 32) : FVec F S100000 .f32 :=
  select (cmpf .ogt (kerDeg (F := F) ei) (broadcastInDim S100000 ![] bcast_S_S100000 (constant S_ .f32 0x00000000#32)))
    (Host.rsqrt (maximumf (kerDeg (F := F) ei) (broadcastInDim S100000 ![] bcast_S_S100000 (constant S_ .f32 0x3F800000#32))))
    (broadcastInDim S100000 ![] bcast_S_S100000 (constant S_ .f32 0x00000000#32))

/-- The edge weight: dis at the source times dis at the target. -/
def kerNorm (ei : IVec S2x1600000 32) : FVec F S1700000 .f32 :=
  mulf (Host.gather gather_S100000_S1700000x1_S1700000_n_0_n_n_0_1_1 (kerDis (F := F) ei) (kerCol (kerWrap (kerSrc ei))))
    (Host.gather gather_S100000_S1700000x1_S1700000_n_0_n_n_0_1_1 (kerDis (F := F) ei) (kerCol (kerWrap (kerDst ei))))

/-- The aggregation of a layer's product `hw`: its rows gathered at the sources, each scaled by its
    edge weight, scatter-added into zeros at the targets. -/
def kerAgg (ei : IVec S2x1600000 32) (hw : FVec F S100000x128 .f32) : FVec F S100000x128 .f32 :=
  Host.scatterAdd scatter_S100000x128_S1700000x1_S1700000x128_1_0_0_1
    (broadcastInDim S100000x128 ![] bcast_S_S100000x128 (constant S_ .f32 0x00000000#32))
    (kerCol (kerDst ei))
    (mulf (Host.gather gather_S100000x128_S1700000x1_S1700000x128_1_0_n_n_0_1_1128 hw (kerCol (kerWrap (kerSrc ei))))
      (broadcastInDim S1700000x128 ![0, 1] bcast_S1700000x1_S1700000x128_0_1
        (broadcastInDim S1700000x1 ![0] bcast_S1700000_S1700000x1_0 (kerNorm (F := F) ei))))

/-- The aggregation of a layer's product `hw` along given sources `row`, targets `col` and edge weights
    `norm`: the rows of `hw` gathered at the (wrapped) sources, each scaled by its edge weight,
    scatter-added into zeros at the targets. -/
def aggOf (row col : IVec S1700000 32) (norm : FVec F S1700000 .f32) (hw : FVec F S100000x128 .f32) : FVec F S100000x128 .f32 :=
  Host.scatterAdd scatter_S100000x128_S1700000x1_S1700000x128_1_0_0_1
    (broadcastInDim S100000x128 ![] bcast_S_S100000x128 (constant S_ .f32 0x00000000#32))
    (kerCol col)
    (mulf (Host.gather gather_S100000x128_S1700000x1_S1700000x128_1_0_n_n_0_1_1128 hw (kerCol (kerWrap row)))
      (broadcastInDim S1700000x128 ![0, 1] bcast_S1700000x1_S1700000x128_0_1
        (broadcastInDim S1700000x1 ![0] bcast_S1700000_S1700000x1_0 norm)))

/-- The aggregation over the edge list is `aggOf` at the edge list's sources, targets and weights. -/
theorem kerAgg_eq_aggOf (ei : IVec S2x1600000 32) (hw : FVec F S100000x128 .f32) :
    kerAgg (F := F) ei hw = aggOf (kerSrc ei) (kerDst ei) (kerNorm (F := F) ei) hw := rfl

end Cert.KernelIdeal.Hand

end
-- ==== Proof.KI.HostOps.lean ====
/- The kernel program's host stretches read as values, from arbitrary buffer contents.
   Each stretch is a list of host operations; what a result buffer holds after the stretch is the
   composition of the operations that lead to it, applied to the contents of the buffers the stretch
   reads and does not write.  First stretch: the edge list's sources and targets with the self loops
   appended, the degree's positivity mask, the reciprocal square root of max (degree, 1), and a zero.
   Second stretch: the select of these three (the guarded reciprocal square root).  Third stretch: the
   edge weight dis[src] * dis[dst] and the seven parameter rows as 1 x 128 arrays.  The three later
   stretches: the aggregation of a layer's product along the sources, targets and edge weights. -/
import proofs.«171122_j58480274703249_1_alg».proof.Proof.Gen.KernelIdeal.Launch
import proofs.«171122_j58480274703249_1_alg».proof.Proof.KI.HostForms
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable (V : Valuation τ sig (Elt Ideal))

/-! ## The first stretch: sources, targets, and the pieces of the guarded reciprocal square root -/

/-- The sources after the first stretch. -/
theorem after0_src :
    (StableHlo.after hostOps0 V (Proc.devRef .tc main_v3) : IVec S1700000 32) = kerSrc (V (Proc.devRef .tc main_arg1)) := by
  after_results_simp
  rfl

/-- The targets after the first stretch. -/
theorem after0_dst :
    (StableHlo.after hostOps0 V (Proc.devRef .tc main_v6) : IVec S1700000 32) = kerDst (V (Proc.devRef .tc main_arg1)) := by
  after_results_simp
  rfl

/-- Where the degree is positive. -/
theorem after0_pos :
    (StableHlo.after hostOps0 V (Proc.devRef .tc main_v12) : IVec S100000 1) =
      cmpf .ogt (kerDeg (F := Ideal) (V (Proc.devRef .tc main_arg1)))
        (broadcastInDim S100000 ![] bcast_S_S100000 (constant (F := Ideal) S_ .f32 0x00000000#32)) := by
  after_results_simp
  rfl

/-- The reciprocal square root of max (degree, 1). -/
theorem after0_rsqrt :
    (StableHlo.after hostOps0 V (Proc.devRef .tc main_v15) : FVec Ideal S100000 .f32) =
      Host.rsqrt (maximumf (kerDeg (F := Ideal) (V (Proc.devRef .tc main_arg1)))
        (broadcastInDim S100000 ![] bcast_S_S100000 (constant (F := Ideal) S_ .f32 0x3F800000#32))) := by
  after_results_simp
  rfl

/-- The zero the select falls back to. -/
theorem after0_zero :
    (StableHlo.after hostOps0 V (Proc.devRef .tc main_cst_3) : FVec Ideal S_ .f32) = constant (F := Ideal) S_ .f32 0x00000000#32 := by
  after_results_simp

/-! ## The second stretch: the select -/

/-- The guarded reciprocal square root, from the mask, the root and the zero. -/
theorem after01_dis :
    (StableHlo.after hostOps0_1 V (Proc.devRef .tc main_v16) : FVec Ideal S100000 .f32) =
      select (V (Proc.devRef .tc main_v12)) (V (Proc.devRef .tc main_v15))
        (broadcastInDim S100000 ![] bcast_S_S100000 (V (Proc.devRef .tc main_cst_3) : FVec Ideal S_ .f32)) := by
  after_results_simp
  rfl

/-! ## The third stretch: the edge weight and the parameter rows -/

/-- The edge weight: dis gathered at the wrapped sources times dis gathered at the wrapped targets. -/
theorem after02_norm :
    (StableHlo.after hostOps0_2 V (Proc.devRef .tc main_v31) : FVec Ideal S1700000 .f32) =
      (mulf (Host.gather gather_S100000_S1700000x1_S1700000_n_0_n_n_0_1_1 (V (Proc.devRef .tc main_v16) : FVec Ideal S100000 .f32)
            (kerCol (kerWrap (V (Proc.devRef .tc main_v3)))))
        (Host.gather gather_S100000_S1700000x1_S1700000_n_0_n_n_0_1_1 (V (Proc.devRef .tc main_v16) : FVec Ideal S100000 .f32)
            (kerCol (kerWrap (V (Proc.devRef .tc main_v6))))) : FVec Ideal S1700000 .f32) := by
  after_results_simp
  rfl

/-- The parameter row b1 as a 1 x 128 array. -/
theorem after02_b1 :
    (StableHlo.after hostOps0_2 V (Proc.devRef .tc main_v32) : FVec Ideal S1x128 .f32) =
      shapeCast S1x128 (V (Proc.devRef .tc main_arg3)) shapeCasts_S128_S1x128 := by
  after_results_simp
  rfl
theorem after02_b1_at (j : Fin 128) :
    (StableHlo.after hostOps0_2 V (Proc.devRef .tc main_v32) : FVec Ideal S1x128 .f32) (ix2 0 j) =
      (V (Proc.devRef .tc main_arg3) : FVec Ideal S128 .f32) (ix1 j) := by
  rw [after02_b1]
  exact shapeCast_a_1a_apply _ _ 0 j

/-- The parameter row b2 as a 1 x 128 array. -/
theorem after02_b2 :
    (StableHlo.after hostOps0_2 V (Proc.devRef .tc main_v33) : FVec Ideal S1x128 .f32) =
      shapeCast S1x128 (V (Proc.devRef .tc main_arg5)) shapeCasts_S128_S1x128 := by
  after_results_simp
  rfl
theorem after02_b2_at (j : Fin 128) :
    (StableHlo.after hostOps0_2 V (Proc.devRef .tc main_v33) : FVec Ideal S1x128 .f32) (ix2 0 j) =
      (V (Proc.devRef .tc main_arg5) : FVec Ideal S128 .f32) (ix1 j) := by
  rw [after02_b2]
  exact shapeCast_a_1a_apply _ _ 0 j

/-- The parameter row b3 as a 1 x 128 array. -/
theorem after02_b3 :
    (StableHlo.after hostOps0_2 V (Proc.devRef .tc main_v34) : FVec Ideal S1x128 .f32) =
      shapeCast S1x128 (V (Proc.devRef .tc main_arg7)) shapeCasts_S128_S1x128 := by
  after_results_simp
  rfl
theorem after02_b3_at (j : Fin 128) :
    (StableHlo.after hostOps0_2 V (Proc.devRef .tc main_v34) : FVec Ideal S1x128 .f32) (ix2 0 j) =
      (V (Proc.devRef .tc main_arg7) : FVec Ideal S128 .f32) (ix1 j) := by
  rw [after02_b3]
  exact shapeCast_a_1a_apply _ _ 0 j

/-- The parameter row g1 as a 1 x 128 array. -/
theorem after02_g1 :
    (StableHlo.after hostOps0_2 V (Proc.devRef .tc main_v35) : FVec Ideal S1x128 .f32) =
      shapeCast S1x128 (V (Proc.devRef .tc main_arg8)) shapeCasts_S128_S1x128 := by
  after_results_simp
  rfl
theorem after02_g1_at (j : Fin 128) :
    (StableHlo.after hostOps0_2 V (Proc.devRef .tc main_v35) : FVec Ideal S1x128 .f32) (ix2 0 j) =
      (V (Proc.devRef .tc main_arg8) : FVec Ideal S128 .f32) (ix1 j) := by
  rw [after02_g1]
  exact shapeCast_a_1a_apply _ _ 0 j

/-- The parameter row be1 as a 1 x 128 array. -/
theorem after02_be1 :
    (StableHlo.after hostOps0_2 V (Proc.devRef .tc main_v36) : FVec Ideal S1x128 .f32) =
      shapeCast S1x128 (V (Proc.devRef .tc main_arg9)) shapeCasts_S128_S1x128 := by
  after_results_simp
  rfl
theorem after02_be1_at (j : Fin 128) :
    (StableHlo.after hostOps0_2 V (Proc.devRef .tc main_v36) : FVec Ideal S1x128 .f32) (ix2 0 j) =
      (V (Proc.devRef .tc main_arg9) : FVec Ideal S128 .f32) (ix1 j) := by
  rw [after02_be1]
  exact shapeCast_a_1a_apply _ _ 0 j

/-- The parameter row g2 as a 1 x 128 array. -/
theorem after02_g2 :
    (StableHlo.after hostOps0_2 V (Proc.devRef .tc main_v37) : FVec Ideal S1x128 .f32) =
      shapeCast S1x128 (V (Proc.devRef .tc main_arg10)) shapeCasts_S128_S1x128 := by
  after_results_simp
  rfl
theorem after02_g2_at (j : Fin 128) :
    (StableHlo.after hostOps0_2 V (Proc.devRef .tc main_v37) : FVec Ideal S1x128 .f32) (ix2 0 j) =
      (V (Proc.devRef .tc main_arg10) : FVec Ideal S128 .f32) (ix1 j) := by
  rw [after02_g2]
  exact shapeCast_a_1a_apply _ _ 0 j

/-- The parameter row be2 as a 1 x 128 array. -/
theorem after02_be2 :
    (StableHlo.after hostOps0_2 V (Proc.devRef .tc main_v38) : FVec Ideal S1x128 .f32) =
      shapeCast S1x128 (V (Proc.devRef .tc main_arg11)) shapeCasts_S128_S1x128 := by
  after_results_simp
  rfl
theorem after02_be2_at (j : Fin 128) :
    (StableHlo.after hostOps0_2 V (Proc.devRef .tc main_v38) : FVec Ideal S1x128 .f32) (ix2 0 j) =
      (V (Proc.devRef .tc main_arg11) : FVec Ideal S128 .f32) (ix1 j) := by
  rw [after02_be2]
  exact shapeCast_a_1a_apply _ _ 0 j

/-! ## The three aggregations -/

/-- The aggregation of the product in main_v39, along the sources, targets and edge weights the stretch reads. -/
theorem after1_agg :
    (StableHlo.after hostOps1 V (Proc.devRef .tc main_v52) : FVec Ideal S100000x128 .f32) =
      aggOf (F := Ideal) (V (Proc.devRef .tc main_v3)) (V (Proc.devRef .tc main_v6)) (V (Proc.devRef .tc main_v31)) (V (Proc.devRef .tc main_v39)) := by
  after_results_simp
  rfl

/-- The aggregation of the product in main_v55, along the sources, targets and edge weights the stretch reads. -/
theorem after4_agg :
    (StableHlo.after hostOps4 V (Proc.devRef .tc main_v68) : FVec Ideal S100000x128 .f32) =
      aggOf (F := Ideal) (V (Proc.devRef .tc main_v3)) (V (Proc.devRef .tc main_v6)) (V (Proc.devRef .tc main_v31)) (V (Proc.devRef .tc main_v55)) := by
  after_results_simp
  rfl

/-- The aggregation of the product in main_v71, along the sources, targets and edge weights the stretch reads. -/
theorem after7_agg :
    (StableHlo.after hostOps7 V (Proc.devRef .tc main_v84) : FVec Ideal S100000x128 .f32) =
      aggOf (F := Ideal) (V (Proc.devRef .tc main_v3)) (V (Proc.devRef .tc main_v6)) (V (Proc.devRef .tc main_v31)) (V (Proc.devRef .tc main_v71)) := by
  after_results_simp
  rfl

end Cert.KernelIdeal.Hand

end
-- ==== Proof.KI.HostRead.lean ====
/- The kernel program's host stretches read at the run's buffer contents.
   Between the fourteen items of the program the TensorCore's buffers are W0 … W14.  Each result of a
   host stretch is the stretch's operations applied to the contents at the stretch's entry; a buffer a
   later stretch reads and does not write is read from the earlier contents.  So the sources and
   targets are the edge list's rows with the self loops appended, the edge weight is
   dis[src] * dis[dst] for the guarded reciprocal square root dis of the degree, the seven parameter
   rows are the parameter vectors as 1 x 128 arrays, and each layer's aggregation is the scatter-add
   at the targets of the product's rows gathered at the sources and scaled by the edge weights. -/
import proofs.«171122_j58480274703249_1_alg».proof.Proof.KI.Run
import proofs.«171122_j58480274703249_1_alg».proof.Proof.KI.HostForms
import proofs.«171122_j58480274703249_1_alg».proof.Proof.KI.HostOps

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable (m : (ℓ : Loc nD τ sig) → Buf (Elt Ideal) ℓ) (c : Dev nD)

/-! ## What a stretch does not write -/

theorem W1_keep (r : Ref sig .tc) (h : r ∉ hostOps0_W) : W1 m c (Proc.devRef .tc r) = W0 m c (Proc.devRef .tc r) :=
  StableHlo.after_of_writes_sub hostOps0 _ hostOps0_writes h
theorem W2_keep (r : Ref sig .tc) (h : r ∉ hostOps0_1_W) : W2 m c (Proc.devRef .tc r) = W1 m c (Proc.devRef .tc r) :=
  StableHlo.after_of_writes_sub hostOps0_1 _ hostOps0_1_writes h
theorem W3_keep (r : Ref sig .tc) (h : r ∉ hostOps0_2_W) : W3 m c (Proc.devRef .tc r) = W2 m c (Proc.devRef .tc r) :=
  StableHlo.after_of_writes_sub hostOps0_2 _ hostOps0_2_writes h

/-! ## Sources, targets, edge weights -/

/-- The sources at the first region's entry. -/
theorem read_src : (W3 m c (Proc.devRef .tc main_v3) : IVec S1700000 32) = kerSrc (W0 m c (Proc.devRef .tc main_arg1)) :=
  (W3_keep m c main_v3 (by decide)).trans <| (W2_keep m c main_v3 (by decide)).trans <| after0_src (W0 m c)

/-- The targets at the first region's entry. -/
theorem read_dst : (W3 m c (Proc.devRef .tc main_v6) : IVec S1700000 32) = kerDst (W0 m c (Proc.devRef .tc main_arg1)) :=
  (W3_keep m c main_v6 (by decide)).trans <| (W2_keep m c main_v6 (by decide)).trans <| after0_dst (W0 m c)

/-- The guarded reciprocal square root of the degree, after the second stretch. -/
theorem read_dis : (W2 m c (Proc.devRef .tc main_v16) : FVec Ideal S100000 .f32) = kerDis (F := Ideal) (W0 m c (Proc.devRef .tc main_arg1)) := by
  have e12 : (W1 m c (Proc.devRef .tc main_v12) : IVec S100000 1) = _ := after0_pos (W0 m c)
  have e15 : (W1 m c (Proc.devRef .tc main_v15) : FVec Ideal S100000 .f32) = _ := after0_rsqrt (W0 m c)
  have e0 : (W1 m c (Proc.devRef .tc main_cst_3) : FVec Ideal S_ .f32) = _ := after0_zero (W0 m c)
  refine (after01_dis (W1 m c)).trans ?_
  rw [e12, e15, e0]
  rfl

/-- The edge weights at the first region's entry. -/
theorem read_norm : (W3 m c (Proc.devRef .tc main_v31) : FVec Ideal S1700000 .f32) = kerNorm (F := Ideal) (W0 m c (Proc.devRef .tc main_arg1)) := by
  have e3 : (W2 m c (Proc.devRef .tc main_v3) : IVec S1700000 32) = kerSrc (W0 m c (Proc.devRef .tc main_arg1)) :=
    (W2_keep m c main_v3 (by decide)).trans (after0_src (W0 m c))
  have e6 : (W2 m c (Proc.devRef .tc main_v6) : IVec S1700000 32) = kerDst (W0 m c (Proc.devRef .tc main_arg1)) :=
    (W2_keep m c main_v6 (by decide)).trans (after0_dst (W0 m c))
  refine (after02_norm (W2 m c)).trans ?_
  rw [read_dis m c, e3, e6]
  rfl

/-! ## The parameter rows -/

/-- The parameter row b1 at the first region's entry, whole and at an index. -/
theorem read_b1 :
    (W3 m c (Proc.devRef .tc main_v32) : FVec Ideal S1x128 .f32) = shapeCast S1x128 (W0 m c (Proc.devRef .tc main_arg3)) shapeCasts_S128_S1x128 := by
  have e : W2 m c (Proc.devRef .tc main_arg3) = W0 m c (Proc.devRef .tc main_arg3) :=
    (W2_keep m c main_arg3 (by decide)).trans (W1_keep m c main_arg3 (by decide))
  refine (after02_b1 (W2 m c)).trans ?_
  rw [e]
theorem read_b1_at (j : Fin 128) :
    (W3 m c (Proc.devRef .tc main_v32) : FVec Ideal S1x128 .f32) (ix2 0 j) = (W0 m c (Proc.devRef .tc main_arg3) : FVec Ideal S128 .f32) (ix1 j) := by
  rw [read_b1]
  exact shapeCast_a_1a_apply _ _ 0 j

/-- The parameter row b2 at the first region's entry, whole and at an index. -/
theorem read_b2 :
    (W3 m c (Proc.devRef .tc main_v33) : FVec Ideal S1x128 .f32) = shapeCast S1x128 (W0 m c (Proc.devRef .tc main_arg5)) shapeCasts_S128_S1x128 := by
  have e : W2 m c (Proc.devRef .tc main_arg5) = W0 m c (Proc.devRef .tc main_arg5) :=
    (W2_keep m c main_arg5 (by decide)).trans (W1_keep m c main_arg5 (by decide))
  refine (after02_b2 (W2 m c)).trans ?_
  rw [e]
theorem read_b2_at (j : Fin 128) :
    (W3 m c (Proc.devRef .tc main_v33) : FVec Ideal S1x128 .f32) (ix2 0 j) = (W0 m c (Proc.devRef .tc main_arg5) : FVec Ideal S128 .f32) (ix1 j) := by
  rw [read_b2]
  exact shapeCast_a_1a_apply _ _ 0 j

/-- The parameter row b3 at the first region's entry, whole and at an index. -/
theorem read_b3 :
    (W3 m c (Proc.devRef .tc main_v34) : FVec Ideal S1x128 .f32) = shapeCast S1x128 (W0 m c (Proc.devRef .tc main_arg7)) shapeCasts_S128_S1x128 := by
  have e : W2 m c (Proc.devRef .tc main_arg7) = W0 m c (Proc.devRef .tc main_arg7) :=
    (W2_keep m c main_arg7 (by decide)).trans (W1_keep m c main_arg7 (by decide))
  refine (after02_b3 (W2 m c)).trans ?_
  rw [e]
theorem read_b3_at (j : Fin 128) :
    (W3 m c (Proc.devRef .tc main_v34) : FVec Ideal S1x128 .f32) (ix2 0 j) = (W0 m c (Proc.devRef .tc main_arg7) : FVec Ideal S128 .f32) (ix1 j) := by
  rw [read_b3]
  exact shapeCast_a_1a_apply _ _ 0 j

/-- The parameter row g1 at the first region's entry, whole and at an index. -/
theorem read_g1 :
    (W3 m c (Proc.devRef .tc main_v35) : FVec Ideal S1x128 .f32) = shapeCast S1x128 (W0 m c (Proc.devRef .tc main_arg8)) shapeCasts_S128_S1x128 := by
  have e : W2 m c (Proc.devRef .tc main_arg8) = W0 m c (Proc.devRef .tc main_arg8) :=
    (W2_keep m c main_arg8 (by decide)).trans (W1_keep m c main_arg8 (by decide))
  refine (after02_g1 (W2 m c)).trans ?_
  rw [e]
theorem read_g1_at (j : Fin 128) :
    (W3 m c (Proc.devRef .tc main_v35) : FVec Ideal S1x128 .f32) (ix2 0 j) = (W0 m c (Proc.devRef .tc main_arg8) : FVec Ideal S128 .f32) (ix1 j) := by
  rw [read_g1]
  exact shapeCast_a_1a_apply _ _ 0 j

/-- The parameter row be1 at the first region's entry, whole and at an index. -/
theorem read_be1 :
    (W3 m c (Proc.devRef .tc main_v36) : FVec Ideal S1x128 .f32) = shapeCast S1x128 (W0 m c (Proc.devRef .tc main_arg9)) shapeCasts_S128_S1x128 := by
  have e : W2 m c (Proc.devRef .tc main_arg9) = W0 m c (Proc.devRef .tc main_arg9) :=
    (W2_keep m c main_arg9 (by decide)).trans (W1_keep m c main_arg9 (by decide))
  refine (after02_be1 (W2 m c)).trans ?_
  rw [e]
theorem read_be1_at (j : Fin 128) :
    (W3 m c (Proc.devRef .tc main_v36) : FVec Ideal S1x128 .f32) (ix2 0 j) = (W0 m c (Proc.devRef .tc main_arg9) : FVec Ideal S128 .f32) (ix1 j) := by
  rw [read_be1]
  exact shapeCast_a_1a_apply _ _ 0 j

/-- The parameter row g2 at the first region's entry, whole and at an index. -/
theorem read_g2 :
    (W3 m c (Proc.devRef .tc main_v37) : FVec Ideal S1x128 .f32) = shapeCast S1x128 (W0 m c (Proc.devRef .tc main_arg10)) shapeCasts_S128_S1x128 := by
  have e : W2 m c (Proc.devRef .tc main_arg10) = W0 m c (Proc.devRef .tc main_arg10) :=
    (W2_keep m c main_arg10 (by decide)).trans (W1_keep m c main_arg10 (by decide))
  refine (after02_g2 (W2 m c)).trans ?_
  rw [e]
theorem read_g2_at (j : Fin 128) :
    (W3 m c (Proc.devRef .tc main_v37) : FVec Ideal S1x128 .f32) (ix2 0 j) = (W0 m c (Proc.devRef .tc main_arg10) : FVec Ideal S128 .f32) (ix1 j) := by
  rw [read_g2]
  exact shapeCast_a_1a_apply _ _ 0 j

/-- The parameter row be2 at the first region's entry, whole and at an index. -/
theorem read_be2 :
    (W3 m c (Proc.devRef .tc main_v38) : FVec Ideal S1x128 .f32) = shapeCast S1x128 (W0 m c (Proc.devRef .tc main_arg11)) shapeCasts_S128_S1x128 := by
  have e : W2 m c (Proc.devRef .tc main_arg11) = W0 m c (Proc.devRef .tc main_arg11) :=
    (W2_keep m c main_arg11 (by decide)).trans (W1_keep m c main_arg11 (by decide))
  refine (after02_be2 (W2 m c)).trans ?_
  rw [e]
theorem read_be2_at (j : Fin 128) :
    (W3 m c (Proc.devRef .tc main_v38) : FVec Ideal S1x128 .f32) (ix2 0 j) = (W0 m c (Proc.devRef .tc main_arg11) : FVec Ideal S128 .f32) (ix1 j) := by
  rw [read_be2]
  exact shapeCast_a_1a_apply _ _ 0 j

/-! ## The three aggregations -/

/-- The first layer's aggregation. -/
theorem read_agg1 :
    (W5 m c (Proc.devRef .tc main_v52) : FVec Ideal S100000x128 .f32) =
      aggOf (F := Ideal) (W4 m c (Proc.devRef .tc main_v3)) (W4 m c (Proc.devRef .tc main_v6)) (W4 m c (Proc.devRef .tc main_v31)) (W4 m c (Proc.devRef .tc main_v39)) :=
  after1_agg (W4 m c)

/-- The second layer's aggregation. -/
theorem read_agg2 :
    (W9 m c (Proc.devRef .tc main_v68) : FVec Ideal S100000x128 .f32) =
      aggOf (F := Ideal) (W8 m c (Proc.devRef .tc main_v3)) (W8 m c (Proc.devRef .tc main_v6)) (W8 m c (Proc.devRef .tc main_v31)) (W8 m c (Proc.devRef .tc main_v55)) :=
  after4_agg (W8 m c)

/-- The third layer's aggregation. -/
theorem read_agg3 :
    (W13 m c (Proc.devRef .tc main_v84) : FVec Ideal S100000x128 .f32) =
      aggOf (F := Ideal) (W12 m c (Proc.devRef .tc main_v3)) (W12 m c (Proc.devRef .tc main_v6)) (W12 m c (Proc.devRef .tc main_v31)) (W12 m c (Proc.devRef .tc main_v71)) :=
  after7_agg (W12 m c)

end Cert.KernelIdeal.Hand

end
-- ==== Proof.Ref.Forms.lean ====
/- Index-level forms of the reference network's dense stages over the literal shapes
   [100000, 128], [128, 128] and [128], on the extended reals.
   refMM   : the product, entry (r, c) the sum over k of h (r, k) * w (k, c);
   refBias : a row vector added to every row;
   refMean : per column, (0 + the sum over the 100000 rows) divided by the literal 100000;
   refVar  : per column, (0 + the sum over the rows of the squared deviation from refMean)
             divided by the literal 100000 (the biased variance);
   refBN   : ((z - mean) * rsqrt (var + eps)) * g + be, column statistics broadcast over rows;
   refRelu : max _ 0.
   Every association is the one in which the reference applies its operations; the two
   float literals 100000 and 1e-5 stay as the patterns they are printed as. -/
import Idealize.ShloMosaic.Lib.ValueIdx

noncomputable section

open scoped BigOperators

namespace Cert.ReferenceIdeal.Hand

open Idealize.ShloMosaic Idealize.ShloMosaic.ValueIdx

/-- A [100000, 128] array of extended reals. -/
abbrev Arr : Type := (⟨2, ![100000, 128]⟩ : Shape).Idx → EReal
/-- A [128, 128] matrix of extended reals. -/
abbrev Mat : Type := (⟨2, ![128, 128]⟩ : Shape).Idx → EReal
/-- A [128] row of extended reals. -/
abbrev Row : Type := (⟨1, ![128]⟩ : Shape).Idx → EReal

/-- The pattern of +0.0 denotes the extended real 0. -/
theorem ofBits_zero : Ideal.ofBits .f32 0x00000000#32 = 0 := by simp [Ideal.ofBits, Ideal.ieee]

/-- The matrix product: entry (r, c) is the sum over k of h (r, k) * w (k, c). -/
def refMM (h : Arr) (w : Mat) : Arr :=
  fun i => ∑ k : Fin 128, h (ix2 (i 0) k) * w (ix2 k (i 1))

/-- A row vector added to every row. -/
def refBias (z : Arr) (b : Row) : Arr :=
  fun i => z i + b (ix1 (i 1))

/-- The column mean: zero plus the sum over the rows, divided by the literal 100000. -/
def refMean (z : Arr) : Row :=
  fun j => Ideal.div (0 + ∑ r : Fin 100000, z (ix2 r (j 0))) (Ideal.ofBits .f32 0x47C35000#32)

/-- The biased column variance: zero plus the sum over the rows of the squared deviation from the
    column mean, divided by the literal 100000. -/
def refVar (z : Arr) : Row :=
  fun j => Ideal.div
    (0 + ∑ r : Fin 100000, (z (ix2 r (j 0)) - refMean z j) * (z (ix2 r (j 0)) - refMean z j))
    (Ideal.ofBits .f32 0x47C35000#32)

/-- Batch normalization with scale g and shift be: the deviation from the column mean times the
    reciprocal square root of (column variance + the literal 1e-5), times g, plus be. -/
def refBN (z : Arr) (g be : Row) : Arr :=
  fun i => (z i - refMean z (ix1 (i 1)))
      * Ideal.rsqrt (refVar z (ix1 (i 1)) + Ideal.ofBits .f32 0x3727C5AC#32)
      * g (ix1 (i 1)) + be (ix1 (i 1))

/-- The rectifier: the maximum with 0. -/
def refRelu (y : Arr) : Arr :=
  fun i => max (y i) 0

end Cert.ReferenceIdeal.Hand

end
-- ==== Proof.LibFinite.lean ====
/-
  Finite extended reals: the entries of a table that are real numbers, and the operations that keep them so.

  An extended real is FINITE when it is the image of a real. Sums (binary and over a finite index set),
  differences, products and maxima of finite values are finite, and each is the image of the real sum,
  difference, product, maximum; the quotient by a nonzero real is finite; the reciprocal square root of a
  positive real is a positive real. These are the steps by which finiteness of a program's inputs is carried
  through its arithmetic to the place where an algebraic law (one that fails at the infinities) is used.
-/
import Idealize.ShloMosaic.PureOps.Ideal
import Mathlib.Algebra.BigOperators.Ring.Finset
import Mathlib.Tactic.FieldSimp
import Mathlib.Tactic.Positivity

namespace Cert.LibFinite

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.neg {x : EReal} (hx : IsReal x) : IsReal (-x) := by
  obtain ⟨a, rfl⟩ := hx; exact ⟨-a, (EReal.coe_neg a).symm⟩

/-- A finite sum of finite values is finite. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero real is finite. -/
theorem IsReal.div_coe {x : EReal} (hx : IsReal x) {n : ℝ} (hn : n ≠ 0) : IsReal (Ideal.div x (n : EReal)) := by
  obtain ⟨a, rfl⟩ := hx
  rw [Ideal.div_coe hn]; exact ⟨a * (1 / n), (EReal.coe_mul _ _).symm⟩

/-- The reciprocal square root of a positive real is a positive real. -/
theorem rsqrt_pos {r : ℝ} (hr : 0 < r) : ∃ s : ℝ, 0 < s ∧ Ideal.rsqrt (r : EReal) = (s : EReal) := by
  refine ⟨(Real.sqrt r)⁻¹, inv_pos.mpr (Real.sqrt_pos.mpr hr), ?_⟩
  show (if r < 0 then (⊥ : EReal) else if r = 0 then ⊤ else ((Real.sqrt r)⁻¹ : ℝ)) = _
  rw [if_neg (not_lt.mpr hr.le), if_neg hr.ne']

theorem isReal_rsqrt_pos {r : ℝ} (hr : 0 < r) : IsReal (Ideal.rsqrt (r : EReal)) := by
  obtain ⟨s, -, hs⟩ := rsqrt_pos hr; exact ⟨s, hs⟩

/-- A finite table, as a table of reals. -/
theorem exists_real {ι : Type*} (f : ι → EReal) (h : ∀ i, IsReal (f i)) : ∃ g : ι → ℝ, ∀ i, f i = (g i : EReal) :=
  ⟨fun i => (h i).choose, fun i => (h i).choose_spec⟩

/-- A value strictly between the two infinities in absolute value is finite: |x| < +∞ means x is a real. -/
theorem isReal_of_abs_lt_top {x : EReal} (h : max x (-x) < ⊤) : IsReal x := by
  induction x using EReal.rec with
  | bot => simp at h
  | coe r => exact ⟨r, rfl⟩
  | top => simp at h

end Cert.LibFinite
-- ==== Proof.LibMoments.lean ====
/-
  Second moments on the extended reals. For finitely many REAL entries x i (an extended-real table all of
  whose entries are finite) and their count n > 0:

    max (Σ x² / n − (Σ x / n)·(Σ x / n)) 0  =  Σ (x − Σ x / n)·(x − Σ x / n) / n

  — the "mean of squares minus squared mean, clamped at zero" form of a variance equals the "mean squared
  deviation" form. Over the reals the two are one polynomial identity (expand the square, use Σ 1 = n) and the
  common value is a sum of squares over a positive number, so the clamp is the identity; the extended-real
  statement follows because every operation involved (sum, product, difference, quotient by the nonzero real
  n) sends finite values to the finite value the reals give. Finiteness is NEEDED: at an infinite entry the
  left side is ⊤ − ⊤ = ⊥, clamped to 0, while the right side is ⊤.
  The quotient is Ideal.div (the quotient of the ideal float instance), so the statement applies verbatim to
  a batch-normalisation's statistics computed either way.
-/
import Idealize.ShloMosaic.PureOps.Ideal
import Mathlib.Algebra.BigOperators.Ring.Finset
import Mathlib.Algebra.Order.BigOperators.Ring.Finset
import Mathlib.Tactic.FieldSimp
import Mathlib.Tactic.Ring
import Mathlib.Tactic.Positivity

namespace Cert.LibMoments

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real, in the ideal instance, is the real quotient. -/
theorem div_coe_coe (a : ℝ) {n : ℝ} (hn : n ≠ 0) : Ideal.div (a : EReal) (n : EReal) = ((a / n : ℝ) : EReal) := by
  rw [Ideal.div_coe hn, ← EReal.coe_mul]; congr 1; field_simp

/-- Over the reals: mean of squares minus squared mean is the mean squared deviation. -/
theorem real_moments {ι : Type*} [Fintype ι] (x : ι → ℝ) {n : ℝ} (hn : n = (Fintype.card ι : ℝ)) (h0 : n ≠ 0) :
    (∑ i, x i * x i) / n - (∑ i, x i) / n * ((∑ i, x i) / n)
      = (∑ i, (x i - (∑ j, x j) / n) * (x i - (∑ j, x j) / n)) / n := by
  have hexp : ∀ i, (x i - (∑ j, x j) / n) * (x i - (∑ j, x j) / n)
      = x i * x i - 2 * ((∑ j, x j) / n) * x i + ((∑ j, x j) / n) * ((∑ j, x j) / n) := fun i => by ring
  simp only [hexp, Finset.sum_add_distrib, Finset.sum_sub_distrib, ← Finset.mul_sum, Finset.sum_const,
    Finset.card_univ, nsmul_eq_mul, ← hn]
  field_simp
  ring

/-- … and that common value is not negative. -/
theorem real_moments_nonneg {ι : Type*} [Fintype ι] (x : ι → ℝ) {n : ℝ} (hn : n = (Fintype.card ι : ℝ)) (h0 : 0 < n) :
    0 ≤ (∑ i, x i * x i) / n - (∑ i, x i) / n * ((∑ i, x i) / n) := by
  rw [real_moments x hn h0.ne']
  exact div_nonneg (Finset.sum_nonneg fun i _ => mul_self_nonneg _) h0.le

/-- The two forms of the variance of finitely many finite entries agree on the extended reals. -/
theorem moments {ι : Type*} [Fintype ι] (x : ι → ℝ) {n : ℝ} (hn : n = (Fintype.card ι : ℝ)) (h0 : 0 < n) :
    max (Ideal.div (∑ i, (x i : EReal) * (x i : EReal)) (n : EReal)
          - Ideal.div (∑ i, (x i : EReal)) (n : EReal) * Ideal.div (∑ i, (x i : EReal)) (n : EReal)) 0
      = Ideal.div (∑ i, ((x i : EReal) - Ideal.div (∑ j, (x j : EReal)) (n : EReal))
          * ((x i : EReal) - Ideal.div (∑ j, (x j : EReal)) (n : EReal))) (n : EReal) := by
  have hs : (∑ i, (x i : EReal)) = ((∑ i, x i : ℝ) : EReal) := (coe_sum _ _).symm
  have hq : (∑ i, (x i : EReal) * (x i : EReal)) = ((∑ i, x i * x i : ℝ) : EReal) := by
    rw [coe_sum]; exact Finset.sum_congr rfl fun i _ => (EReal.coe_mul _ _).symm
  rw [hs, hq, div_coe_coe _ h0.ne', div_coe_coe _ h0.ne']
  have hd : (∑ i, ((x i : EReal) - (((∑ j, x j) / n : ℝ) : EReal)) * ((x i : EReal) - (((∑ j, x j) / n : ℝ) : EReal)))
      = ((∑ i, (x i - (∑ j, x j) / n) * (x i - (∑ j, x j) / n) : ℝ) : EReal) := by
    rw [coe_sum]; exact Finset.sum_congr rfl fun i _ => by rw [← EReal.coe_sub, ← EReal.coe_mul]
  rw [hd, div_coe_coe _ h0.ne', ← EReal.coe_mul, ← EReal.coe_sub, ← real_moments x hn h0.ne']
  exact max_eq_left (by exact_mod_cast real_moments_nonneg x hn h0)

end Cert.LibMoments
-- ==== Proof.LibBatchNorm.lean ====
/-
  Batch statistics: the two ways of computing a column's mean and variance agree on finite entries.

  From the column total s and the total of squares q of n finite entries the kernel's host code computes the mean s / n
  and the variance max (q / n − (s / n)²) 0; the reference computes the mean (0 + Σ y) / n and the variance
  (0 + Σ (y − mean)²) / n. The means are one value; the variances are equal because the entries are real numbers
  (LibMoments), and the common value is a non-negative real. Also: the literal 100000.0.
-/
import proofs.«171122_j58480274703249_1_alg».proof.Proof.LibMoments
import proofs.«171122_j58480274703249_1_alg».proof.Proof.LibFinite
import Mathlib.Tactic.NormNum
import Mathlib.Tactic.Positivity

noncomputable section

open scoped BigOperators

namespace Cert.LibBatchNorm

open Idealize.ShloMosaic Cert.LibFinite

/-- The float literal 0x47C35000 is 100000. -/
theorem ofBits_100000 : Ideal.ofBits .f32 0x47C35000#32 = ((100000 : ℝ) : EReal) := by
  simp [Ideal.ofBits, Ideal.ieee]
  rw [← EReal.coe_mul]; norm_num

/-- The two variance forms of n finite entries agree. -/
theorem var_eq {n : ℕ} (y : Fin n → EReal) (hy : ∀ r, IsReal (y r)) (hn : 0 < n) (N : EReal) (hN : N = ((n : ℝ) : EReal)) :
    max (Ideal.div (∑ r, y r * y r) N - Ideal.div (∑ r, y r) N * Ideal.div (∑ r, y r) N) 0
      = Ideal.div (0 + ∑ r, (y r - Ideal.div (0 + ∑ r', y r') N) * (y r - Ideal.div (0 + ∑ r', y r') N)) N := by
  obtain ⟨x, hx⟩ := exists_real y hy
  have hyx : y = fun r => (x r : EReal) := funext hx
  subst hyx hN
  simp only [zero_add]
  exact Cert.LibMoments.moments x (by simp) (by exact_mod_cast hn)

/-- The kernel's variance of n finite entries is a non-negative real. -/
theorem var_nonneg {n : ℕ} (y : Fin n → EReal) (hy : ∀ r, IsReal (y r)) (hn : 0 < n) (N : EReal) (hN : N = ((n : ℝ) : EReal)) :
    ∃ v : ℝ, 0 ≤ v ∧ max (Ideal.div (∑ r, y r * y r) N - Ideal.div (∑ r, y r) N * Ideal.div (∑ r, y r) N) 0 = (v : EReal) := by
  have hn0 : (n : ℝ) ≠ 0 := by exact_mod_cast hn.ne'
  have h1 : IsReal (Ideal.div (∑ r, y r * y r) N - Ideal.div (∑ r, y r) N * Ideal.div (∑ r, y r) N) := by
    subst hN
    exact ((isReal_sum _ _ fun r _ => (hy r).mul (hy r)).div_coe hn0).sub
      (((isReal_sum _ _ fun r _ => hy r).div_coe hn0).mul ((isReal_sum _ _ fun r _ => hy r).div_coe hn0))
  obtain ⟨a, ha⟩ := h1
  refine ⟨max a 0, le_max_right _ _, ?_⟩
  rw [ha]
  rcases le_total a 0 with h | h
  · rw [max_eq_right h, max_eq_right (by exact_mod_cast h)]; rfl
  · rw [max_eq_left h, max_eq_left (by exact_mod_cast h)]

/-- The mean of n finite entries is finite. -/
theorem mean_real {n : ℕ} (y : Fin n → EReal) (hy : ∀ r, IsReal (y r)) (hn : 0 < n) (N : EReal) (hN : N = ((n : ℝ) : EReal)) :
    IsReal (Ideal.div (∑ r, y r) N) := by
  subst hN
  exact (isReal_sum _ _ fun r _ => hy r).div_coe (by exact_mod_cast hn.ne')

end Cert.LibBatchNorm

end
-- ==== Proof.LibGcnBn.lean ====
/-
  The algebra of a graph-convolution layer followed by a batch normalisation, on the extended reals, for data that
  are real numbers. Each statement says that the vector unit's spelling and the host's spelling are the coercion of ONE
  real number: that is their equality, and it is also the finiteness the next stage needs.

  * `agg_real`: the aggregation  (sum_k a_k (z_k s_k)) s_r + b  against  (sum_k ((s_r a_k) s_k) z_k) + b.
  * `bn_real`: the normalisation with the variance as  mean of squares - square of mean  and a reciprocal root
    against the variance as  mean of squared deviations  and a division by the root.
  * `pow_neg_half`: on a positive real the power -1/2 is the reciprocal root; `diag_fix`: a (1 - e) + e for e in {0, 1}.
-/
import Idealize.ShloMosaic.PureOps.Ideal

noncomputable section

namespace Cert.LibGcnBn

open Idealize.ShloMosaic

/-! ## The literals -/

theorem ofBits_one : Ideal.ofBits .f32 0x3F800000#32 = 1 := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num

/-- The small constant under the roots is a positive real. -/
theorem ofBits_eps : ∃ ε : ℝ, 0 < ε ∧ Ideal.ofBits .f32 0x3727C5AC#32 = (ε : EReal) := by
  refine ⟨(2 ^ 23 + 2606508 : ℕ) * (2 : ℝ) ^ ((110 : ℤ) - 127 - 23), by positivity, ?_⟩
  simp [Ideal.ofBits, Ideal.ieee, -EReal.coe_mul]

/-! ## Sums of real numbers in the extended reals -/

theorem coe_sum {ι : Type} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- A plain product of real tables, entry by entry. -/
theorem dot_real {n : ℕ} (x w : Fin n → ℝ) :
    (∑ k, (x k : EReal) * (w k : EReal)) = ((∑ k, x k * w k : ℝ) : EReal) := by
  rw [coe_sum]; exact Finset.sum_congr rfl fun k _ => (EReal.coe_mul _ _).symm

/-! ## The diagonal forced to one -/

theorem diag_fix (a : EReal) (p : Prop) [Decidable p] :
    a * ((1 : EReal) - (if p then 1 else 0)) + (if p then 1 else 0) = if p then 1 else a := by
  have h11 : (1 : EReal) - 1 = 0 := by rw [← EReal.coe_one, ← EReal.coe_sub, sub_self, EReal.coe_zero]
  by_cases h : p
  · rw [if_pos h, if_pos h, h11, mul_zero, zero_add]
  · rw [if_neg h, if_neg h, sub_zero, mul_one, add_zero]

/-! ## The degree normaliser -/

theorem pow_neg_half (d : ℝ) (hd : 0 < d) :
    Ideal.pow (d : EReal) ((-(1 / 2) : ℝ) : EReal) = Ideal.rsqrt (d : EReal) := by
  rw [Ideal.pow_coe_coe, Ideal.rsqrt_coe, if_neg (not_lt.mpr hd.le), if_neg hd.ne']
  congr 1
  show d ^ (-(1 / 2) : ℝ) = (Real.sqrt d)⁻¹
  rw [Real.rpow_neg hd.le, Real.sqrt_eq_rpow]

theorem rsqrt_real (d : ℝ) (hd : 0 < d) : Ideal.rsqrt (d : EReal) = (((Real.sqrt d)⁻¹ : ℝ) : EReal) := by
  rw [Ideal.rsqrt_coe, if_neg (not_lt.mpr hd.le), if_neg hd.ne']

/-! ## One aggregation -/

theorem agg_real {n : ℕ} (a z s : Fin n → ℝ) (sr b : ℝ) :
    ∃ y : ℝ, (∑ k, (a k : EReal) * ((z k : EReal) * (s k : EReal))) * (sr : EReal) + (b : EReal) = (y : EReal)
      ∧ (∑ k, (((sr : EReal) * (a k : EReal)) * (s k : EReal)) * (z k : EReal)) + (b : EReal) = (y : EReal) := by
  refine ⟨(∑ k, a k * (z k * s k)) * sr + b, ?_, ?_⟩
  · rw [EReal.coe_add, EReal.coe_mul, coe_sum]
    simp only [EReal.coe_mul]
  · rw [EReal.coe_add, show (∑ k, a k * (z k * s k)) * sr = ∑ k, ((sr * a k) * s k) * z k from by
      rw [Finset.sum_mul]; exact Finset.sum_congr rfl fun k _ => by ring, coe_sum]
    simp only [EReal.coe_mul]

/-! ## One batch normalisation -/

theorem var_forms {n : ℕ} (h : Fin n → ℝ) (N : ℝ) (hN : N = (n : ℝ)) (hn : 0 < n) :
    (∑ r, h r * h r) * (1 / N) - ((∑ r, h r) * (1 / N)) * ((∑ r, h r) * (1 / N))
      = (∑ r, (h r - (∑ r, h r) * (1 / N)) * (h r - (∑ r, h r) * (1 / N))) * (1 / N) := by
  have hN0 : N ≠ 0 := by rw [hN]; exact_mod_cast hn.ne'
  set S := ∑ r, h r with hS
  have e : (∑ r, (h r - S * (1 / N)) * (h r - S * (1 / N)))
      = (∑ r, h r * h r) - 2 * (S * (1 / N)) * S + (n : ℝ) * ((S * (1 / N)) * (S * (1 / N))) := by
    have : ∀ r, (h r - S * (1 / N)) * (h r - S * (1 / N)) = h r * h r - 2 * (S * (1 / N)) * h r + (S * (1 / N)) * (S * (1 / N)) :=
      fun r => by ring
    simp only [this, Finset.sum_add_distrib, Finset.sum_sub_distrib, ← Finset.mul_sum, Finset.sum_const, Finset.card_univ,
      Fintype.card_fin, nsmul_eq_mul, ← hS]
    ring
  rw [e, ← hN]
  field_simp
  ring

theorem bn_real {n : ℕ} (h : Fin n → ℝ) (N ε g be : ℝ) (hN : N = (n : ℝ)) (hn : 0 < n) (hε : 0 < ε) (r : Fin n) :
    ∃ y : ℝ,
      ((g : EReal) * ((h r : EReal) - Ideal.div (∑ r, (h r : EReal)) (N : EReal)))
          * Ideal.rsqrt ((Ideal.div (∑ r, (h r : EReal) * (h r : EReal)) (N : EReal)
              - Ideal.div (∑ r, (h r : EReal)) (N : EReal) * Ideal.div (∑ r, (h r : EReal)) (N : EReal)) + (ε : EReal))
          + (be : EReal) = (y : EReal)
      ∧ Ideal.div ((g : EReal) * ((h r : EReal) - Ideal.div (0 + ∑ r, (h r : EReal)) (N : EReal)))
            (Ideal.sqrt (Ideal.div (0 + ∑ r, ((h r : EReal) - Ideal.div (0 + ∑ r, (h r : EReal)) (N : EReal))
                * ((h r : EReal) - Ideal.div (0 + ∑ r, (h r : EReal)) (N : EReal))) (N : EReal) + (ε : EReal)))
          + (be : EReal) = (y : EReal) := by
  have hN0 : N ≠ 0 := by rw [hN]; exact_mod_cast hn.ne'
  have hNpos : 0 < N := by rw [hN]; exact_mod_cast hn
  obtain ⟨μ, hμ⟩ : ∃ μ : ℝ, μ = (∑ r, h r) * (1 / N) := ⟨_, rfl⟩
  obtain ⟨v, hv⟩ : ∃ v : ℝ, v = (∑ r, (h r - μ) * (h r - μ)) * (1 / N) := ⟨_, rfl⟩
  have hv' : v = (∑ r, h r * h r) * (1 / N) - μ * μ := by
    rw [hv, hμ]; exact (var_forms h N hN hn).symm
  have hv0 : 0 ≤ v := by
    rw [hv]; exact mul_nonneg (Finset.sum_nonneg fun r _ => mul_self_nonneg _) (by positivity)
  have hvε : 0 < v + ε := by linarith
  have emu : Ideal.div (∑ r, (h r : EReal)) (N : EReal) = (μ : EReal) := by
    rw [Ideal.div_coe hN0, hμ]; simp only [EReal.coe_mul, coe_sum]
  have emu0 : Ideal.div (0 + ∑ r, (h r : EReal)) (N : EReal) = (μ : EReal) := by rw [zero_add, emu]
  have evK : Ideal.div (∑ r, (h r : EReal) * (h r : EReal)) (N : EReal) - (μ : EReal) * (μ : EReal) = (v : EReal) := by
    rw [Ideal.div_coe hN0, hv']; simp only [EReal.coe_sub, EReal.coe_mul, coe_sum]
  have evR : Ideal.div (0 + ∑ r, ((h r : EReal) - (μ : EReal)) * ((h r : EReal) - (μ : EReal))) (N : EReal) = (v : EReal) := by
    rw [zero_add, Ideal.div_coe hN0, hv]; simp only [EReal.coe_sub, EReal.coe_mul, coe_sum]
  have hs0 : Real.sqrt (v + ε) ≠ 0 := (Real.sqrt_pos.mpr hvε).ne'
  refine ⟨g * (h r - μ) * (Real.sqrt (v + ε))⁻¹ + be, ?_, ?_⟩
  · rw [emu, evK, ← EReal.coe_add, rsqrt_real _ hvε]; simp only [EReal.coe_sub, EReal.coe_mul, EReal.coe_add]
  · rw [emu0, evR, ← EReal.coe_add, Ideal.sqrt_coe, if_neg (not_lt.mpr hvε.le), Ideal.div_coe hs0, one_div]
    simp only [EReal.coe_sub, EReal.coe_mul, EReal.coe_add]

end Cert.LibGcnBn

end
-- ==== Proof.Bridge.Stats.lean ====
/-
  The one identity between the two batch normalisations.

  For a column of REAL numbers z_1 .. z_n (n = 100000), the mean of the squares minus the squared mean is the
  mean of the squared deviations.  On the extended reals this needs the entries to be real; the two means
  themselves agree with no hypothesis (0 + s = s).  Once mean and variance agree, the two normalisations are the
  same expression.
-/
import proofs.«171122_j58480274703249_1_alg».proof.Proof.Ref.Forms
import proofs.«171122_j58480274703249_1_alg».proof.Proof.LibFinite
import proofs.«171122_j58480274703249_1_alg».proof.Proof.LibMoments
import proofs.«171122_j58480274703249_1_alg».proof.Proof.LibBatchNorm
import proofs.«171122_j58480274703249_1_alg».proof.Proof.LibGcnBn

noncomputable section

namespace Cert.Bridge

open Idealize.ShloMosaic Idealize.ShloMosaic.ValueIdx Cert.LibFinite Cert.ReferenceIdeal.Hand

/-- The column mean as the kernel's statistics pass leaves it: the sum over the rows, divided by the row count. -/
def kMean (z : Arr) (j : Fin 128) : EReal :=
  Ideal.div (∑ r : Fin 100000, z (ix2 r j)) (Ideal.ofBits .f32 0x47C35000#32)

/-- The column variance as the kernel's statistics pass leaves it: mean of squares minus squared mean. -/
def kVar (z : Arr) (j : Fin 128) : EReal :=
  Ideal.div (∑ r : Fin 100000, z (ix2 r j) * z (ix2 r j)) (Ideal.ofBits .f32 0x47C35000#32) - kMean z j * kMean z j

theorem kMean_eq (z : Arr) (j : Fin 128) : kMean z j = refMean z (ix1 j) := by
  unfold kMean refMean
  rw [zero_add]

theorem kVar_eq (z : Arr) (hz : ∀ i, IsReal (z i)) (j : Fin 128) : kVar z j = refVar z (ix1 j) := by
  obtain ⟨x, hx⟩ := exists_real (fun r : Fin 100000 => z (ix2 r j)) (fun r => hz _)
  have hN : Ideal.ofBits .f32 0x47C35000#32 = ((100000 : ℝ) : EReal) := Cert.LibBatchNorm.ofBits_100000
  have h0 : (100000 : ℝ) ≠ 0 := by norm_num
  have hm : refMean z (ix1 j) = (((∑ r, x r) / 100000 : ℝ) : EReal) := by
    rw [← kMean_eq]; unfold kMean
    rw [hN, show (∑ r : Fin 100000, z (ix2 r j)) = ∑ r, (x r : EReal) from Finset.sum_congr rfl fun r _ => hx r,
      ← Cert.LibMoments.coe_sum]
    exact Cert.LibMoments.div_coe_coe _ h0
  unfold kVar refVar
  rw [kMean_eq, hm, hN, zero_add,
    show (∑ r : Fin 100000, z (ix2 r j) * z (ix2 r j)) = ∑ r, ((x r * x r : ℝ) : EReal) from
      Finset.sum_congr rfl fun r _ => by rw [show z (ix2 r j) = (x r : EReal) from hx r, EReal.coe_mul],
    show (∑ r : Fin 100000, (z (ix2 r ((ix1 j) 0)) - (((∑ r, x r) / 100000 : ℝ) : EReal)) * (z (ix2 r ((ix1 j) 0)) - (((∑ r, x r) / 100000 : ℝ) : EReal)))
        = ∑ r, (((x r - (∑ r, x r) / 100000) * (x r - (∑ r, x r) / 100000) : ℝ) : EReal) from
      Finset.sum_congr rfl fun r _ => by
        rw [show z (ix2 r ((ix1 j) 0)) = (x r : EReal) from hx r, ← EReal.coe_sub, ← EReal.coe_mul],
    ← Cert.LibMoments.coe_sum, ← Cert.LibMoments.coe_sum, Cert.LibMoments.div_coe_coe _ h0, Cert.LibMoments.div_coe_coe _ h0,
    ← EReal.coe_mul, ← EReal.coe_sub]
  congr 1
  exact Cert.LibMoments.real_moments x (by simp) h0

end Cert.Bridge

end
-- ==== Proof.Bridge.Layer.lean ====
/-
  One layer, and three.

  With the column statistics identified (the variance identity needs real entries), the kernel's normalise-and-
  rectify pass and the reference's are the same function of z.  Real entries stay real through a product with
  real weights, through any aggregation that keeps real tables real, through adding a real bias, and through the
  normalisation (the variance is a nonnegative real, the small constant under the root is positive, so the
  reciprocal root is a positive real).  Hence the three layers agree.
-/
import proofs.«171122_j58480274703249_1_alg».proof.Proof.Bridge.Stats

noncomputable section

namespace Cert.Bridge

open Idealize.ShloMosaic Idealize.ShloMosaic.ValueIdx Cert.LibFinite Cert.ReferenceIdeal.Hand

/-- The kernel's normalise-and-rectify pass over z, from the statistics its own reduction pass leaves. -/
def kBNRelu (z : Arr) (g be : Row) : Arr := fun i =>
  max ((((z i - kMean z (i 1)) * Ideal.rsqrt (kVar z (i 1) + Ideal.ofBits .f32 0x3727C5AC#32)) * g (ix1 (i 1))) + be (ix1 (i 1))) 0

theorem kBNRelu_eq (z : Arr) (g be : Row) (hz : ∀ i, IsReal (z i)) : kBNRelu z g be = refRelu (refBN z g be) := by
  funext i
  obtain ⟨p, q, rfl⟩ : ∃ (p : Fin 100000) (q : Fin 128), i = ix2 p q := ⟨i 0, i 1, eq_ix2 i⟩
  show max ((((z (ix2 p q) - kMean z q) * Ideal.rsqrt (kVar z q + Ideal.ofBits .f32 0x3727C5AC#32)) * g (ix1 q)) + be (ix1 q)) 0
    = max ((((z (ix2 p q) - refMean z (ix1 q)) * Ideal.rsqrt (refVar z (ix1 q) + Ideal.ofBits .f32 0x3727C5AC#32)) * g (ix1 q)) + be (ix1 q)) 0
  rw [kMean_eq, kVar_eq z hz]

/-! ## Real entries stay real -/

theorem isReal_refMM (h : Arr) (w : Mat) (hh : ∀ i, IsReal (h i)) (hw : ∀ i, IsReal (w i)) (i) : IsReal (refMM h w i) :=
  isReal_sum _ _ fun k _ => (hh _).mul (hw _)

theorem isReal_refBias (z : Arr) (b : Row) (hz : ∀ i, IsReal (z i)) (hb : ∀ j, IsReal (b j)) (i) : IsReal (refBias z b i) :=
  (hz i).add (hb _)

theorem isReal_refMean (z : Arr) (hz : ∀ i, IsReal (z i)) (j) : IsReal (refMean z j) := by
  unfold refMean
  rw [zero_add, Cert.LibBatchNorm.ofBits_100000]
  exact (isReal_sum _ _ fun r _ => hz _).div_coe (by norm_num)

/-- The reference's column variance of real entries is a nonnegative real. -/
theorem refVar_nonneg (z : Arr) (hz : ∀ i, IsReal (z i)) (j) : ∃ v : ℝ, 0 ≤ v ∧ refVar z j = (v : EReal) := by
  obtain ⟨x, hx⟩ := exists_real (fun r : Fin 100000 => z (ix2 r (j 0))) (fun r => hz _)
  obtain ⟨μ, hμ⟩ := isReal_refMean z hz j
  refine ⟨(∑ r, (x r - μ) * (x r - μ)) / 100000, div_nonneg (Finset.sum_nonneg fun r _ => mul_self_nonneg _) (by norm_num), ?_⟩
  unfold refVar
  rw [hμ, zero_add, Cert.LibBatchNorm.ofBits_100000,
    show (∑ r : Fin 100000, (z (ix2 r (j 0)) - (μ : EReal)) * (z (ix2 r (j 0)) - (μ : EReal))) = ∑ r, (((x r - μ) * (x r - μ) : ℝ) : EReal) from
      Finset.sum_congr rfl fun r _ => by rw [show z (ix2 r (j 0)) = (x r : EReal) from hx r, ← EReal.coe_sub, ← EReal.coe_mul],
    ← Cert.LibMoments.coe_sum]
  exact Cert.LibMoments.div_coe_coe _ (by norm_num)

theorem isReal_refBNRelu (z : Arr) (g be : Row) (hz : ∀ i, IsReal (z i)) (hg : ∀ j, IsReal (g j)) (hbe : ∀ j, IsReal (be j)) (i) :
    IsReal (refRelu (refBN z g be) i) := by
  obtain ⟨p, q, rfl⟩ : ∃ (p : Fin 100000) (q : Fin 128), i = ix2 p q := ⟨i 0, i 1, eq_ix2 i⟩
  obtain ⟨v, hv0, hv⟩ := refVar_nonneg z hz (ix1 q)
  obtain ⟨ε, hε, heps⟩ := Cert.LibGcnBn.ofBits_eps
  show IsReal (max ((((z (ix2 p q) - refMean z (ix1 q)) * Ideal.rsqrt (refVar z (ix1 q) + Ideal.ofBits .f32 0x3727C5AC#32)) * g (ix1 q)) + be (ix1 q)) 0)
  rw [hv, heps, ← EReal.coe_add]
  exact ((((hz _).sub (isReal_refMean z hz _)).mul (isReal_rsqrt_pos (by linarith))).mul (hg _)).add (hbe _) |>.max isReal_zero

/-! ## Three layers -/

/-- The network as the kernel computes it, over an aggregation `agg` shared by the two programs. -/
def KerNet (agg : Arr → Arr) (x : Arr) (W1 : Mat) (b1 : Row) (W2 : Mat) (b2 : Row) (W3 : Mat) (b3 : Row) (g1 be1 g2 be2 : Row) : Arr :=
  refBias (agg (refMM (kBNRelu (refBias (agg (refMM (kBNRelu (refBias (agg (refMM x W1)) b1) g1 be1) W2)) b2) g2 be2) W3)) b3

/-- The network as the reference computes it. -/
def RNet (agg : Arr → Arr) (x : Arr) (W1 : Mat) (b1 : Row) (W2 : Mat) (b2 : Row) (W3 : Mat) (b3 : Row) (g1 be1 g2 be2 : Row) : Arr :=
  refBias (agg (refMM (refRelu (refBN (refBias (agg (refMM (refRelu (refBN (refBias (agg (refMM x W1)) b1) g1 be1)) W2)) b2) g2 be2)) W3)) b3

theorem net_eq (agg : Arr → Arr) (hagg : ∀ h : Arr, (∀ i, IsReal (h i)) → ∀ i, IsReal (agg h i))
    (x : Arr) (W1 : Mat) (b1 : Row) (W2 : Mat) (b2 : Row) (W3 : Mat) (b3 : Row) (g1 be1 g2 be2 : Row)
    (hx : ∀ i, IsReal (x i)) (hW1 : ∀ i, IsReal (W1 i)) (hb1 : ∀ j, IsReal (b1 j)) (hW2 : ∀ i, IsReal (W2 i)) (hb2 : ∀ j, IsReal (b2 j))
    (hg1 : ∀ j, IsReal (g1 j)) (hbe1 : ∀ j, IsReal (be1 j)) :
    KerNet agg x W1 b1 W2 b2 W3 b3 g1 be1 g2 be2 = RNet agg x W1 b1 W2 b2 W3 b3 g1 be1 g2 be2 := by
  have hz1 : ∀ i, IsReal (refBias (agg (refMM x W1)) b1 i) :=
    isReal_refBias _ _ (hagg _ (isReal_refMM x W1 hx hW1)) hb1
  have e1 : kBNRelu (refBias (agg (refMM x W1)) b1) g1 be1 = refRelu (refBN (refBias (agg (refMM x W1)) b1) g1 be1) :=
    kBNRelu_eq _ _ _ hz1
  have hy1 : ∀ i, IsReal (refRelu (refBN (refBias (agg (refMM x W1)) b1) g1 be1) i) := isReal_refBNRelu _ _ _ hz1 hg1 hbe1
  have hz2 : ∀ i, IsReal (refBias (agg (refMM (refRelu (refBN (refBias (agg (refMM x W1)) b1) g1 be1)) W2)) b2 i) :=
    isReal_refBias _ _ (hagg _ (isReal_refMM _ W2 hy1 hW2)) hb2
  unfold KerNet RNet
  rw [e1, kBNRelu_eq _ _ _ hz2]

end Cert.Bridge

end
-- ==== Proof.KI.StageAgg.lean ====
/-
  The aggregation stages of the kernel program.

  After each product the host gathers the rows at the edge sources, scales them by the edge weights and scatter-adds
  them at the edge targets.  Sources, targets and weights were computed once, before the first region, from the edge
  list; no later item writes them, so at each of the three aggregations they are still what the first stretches made.
-/
import proofs.«171122_j58480274703249_1_alg».proof.Proof.KI.Keep
import proofs.«171122_j58480274703249_1_alg».proof.Proof.KI.HostRead
import proofs.«171122_j58480274703249_1_alg».proof.Proof.Bridge.Layer

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx Cert.ReferenceIdeal.Hand Cert.Bridge

variable (m : (ℓ : Loc nD τ sig) → Buf (Elt Ideal) ℓ) (c : Dev nD)

/-- The first aggregation, of the first product. -/
theorem st_agg1 (H : Arr) (hH : (W4 m c (Proc.devRef .tc main_v39) : Arr) = H) :
    (W5 m c (Proc.devRef .tc main_v52) : Arr) = kerAgg (F := Ideal) (W0 m c (Proc.devRef .tc main_arg1)) H := by
  rw [read_agg1, keep4 _ _ main_v3 (by decide), keep4 _ _ main_v6 (by decide), keep4 _ _ main_v31 (by decide),
    read_src, read_dst, read_norm, hH, ← kerAgg_eq_aggOf]

/-- The second aggregation. -/
theorem st_agg2 (H : Arr) (hH : (W8 m c (Proc.devRef .tc main_v55) : Arr) = H) :
    (W9 m c (Proc.devRef .tc main_v68) : Arr) = kerAgg (F := Ideal) (W0 m c (Proc.devRef .tc main_arg1)) H := by
  rw [read_agg2,
    keep8 _ _ main_v3 (by decide), keep7 _ _ main_v3 (by decide), keep6 _ _ main_v3 (by decide), keep5 _ _ main_v3 (by decide), keep4 _ _ main_v3 (by decide),
    keep8 _ _ main_v6 (by decide), keep7 _ _ main_v6 (by decide), keep6 _ _ main_v6 (by decide), keep5 _ _ main_v6 (by decide), keep4 _ _ main_v6 (by decide),
    keep8 _ _ main_v31 (by decide), keep7 _ _ main_v31 (by decide), keep6 _ _ main_v31 (by decide), keep5 _ _ main_v31 (by decide), keep4 _ _ main_v31 (by decide),
    read_src, read_dst, read_norm, hH, ← kerAgg_eq_aggOf]

/-- The third aggregation. -/
theorem st_agg3 (H : Arr) (hH : (W12 m c (Proc.devRef .tc main_v71) : Arr) = H) :
    (W13 m c (Proc.devRef .tc main_v84) : Arr) = kerAgg (F := Ideal) (W0 m c (Proc.devRef .tc main_arg1)) H := by
  rw [read_agg3,
    keep12 _ _ main_v3 (by decide), keep11 _ _ main_v3 (by decide), keep10 _ _ main_v3 (by decide), keep9 _ _ main_v3 (by decide),
    keep8 _ _ main_v3 (by decide), keep7 _ _ main_v3 (by decide), keep6 _ _ main_v3 (by decide), keep5 _ _ main_v3 (by decide), keep4 _ _ main_v3 (by decide),
    keep12 _ _ main_v6 (by decide), keep11 _ _ main_v6 (by decide), keep10 _ _ main_v6 (by decide), keep9 _ _ main_v6 (by decide),
    keep8 _ _ main_v6 (by decide), keep7 _ _ main_v6 (by decide), keep6 _ _ main_v6 (by decide), keep5 _ _ main_v6 (by decide), keep4 _ _ main_v6 (by decide),
    keep12 _ _ main_v31 (by decide), keep11 _ _ main_v31 (by decide), keep10 _ _ main_v31 (by decide), keep9 _ _ main_v31 (by decide),
    keep8 _ _ main_v31 (by decide), keep7 _ _ main_v31 (by decide), keep6 _ _ main_v31 (by decide), keep5 _ _ main_v31 (by decide), keep4 _ _ main_v31 (by decide),
    read_src, read_dst, read_norm, hH, ← kerAgg_eq_aggOf]

end Cert.KernelIdeal.Hand

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.KI.Val0.lean ====
/- The value region 0 (a matmul) leaves, as one function of the arrays it finds: the 100000x128 output array is the
   matrix product of the 100000x128 left array with the 128x128 right array, entry (r, j) the sum over k of
   left(r, k) * right(k, j). Point t of the grid writes back rows 5000 t .. 5000 t + 4999, which is the restriction of
   that function to those rows, and the twenty blocks cover the array. At the ideal number model, where the entries
   are extended reals, rounding to bf16 is the identity and the accumulation from zero is the plain sum. -/
import proofs.«171122_j58480274703249_1_alg».proof.Proof.KI.A0
import proofs.«171122_j58480274703249_1_alg».proof.Proof.LibDot
import Idealize.ShloMosaic.Lib.Pipeline.Value
import Idealize.ShloMosaic.PureOps.Ideal.Laws
import Idealize.ShloMosaic.Lib.ValueIdx
import Idealize.ShloMosaic.Lib.ValueLayout

-- the blocks are long (5000 rows): membership in a block's rectangle is looked at coordinate by coordinate
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

-- the TensorCore's buffer contents when the region is entered, at the ideal (extended-real) number model
variable (V : (c : Dev nD) → (b : Ref sig .tc) → Buf (Elt Ideal) ((c : Thread nD τ).loc b))

theorem hz0 : (![0, 0] : Fin 2 → Nat) = fun _ => 0 := funext fun a => by fin_cases a <;> rfl

/-- The whole-array function: the matrix product, entry (r, j) the sum over k of left(r, k) * right(k, j). -/
abbrev G0 (x : S100000x128.Idx → EReal) (w : S128x128.Idx → EReal) : S100000x128.Idx → EReal :=
  fun i => ∑ k : Fin 128, x (ix2 (i 0) k) * w (ix2 k (i 1))

/-! ## The product at an index -/

theorem lhs0_0 (i : S5000x128.Idx) (q : (dot_S5000x128_S128x128_S5000x128_1_0_0_1_n_n).contr.Idx) :
    ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide), dif_pos (show (0 : Fin S5000x128.rank) ∈ (dot_S5000x128_S128x128_S5000x128_1_0_0_1_n_n).lhsNonContracting by decide)]
  rfl
theorem lhs0_1 (i : S5000x128.Idx) (q : (dot_S5000x128_S128x128_S5000x128_1_0_0_1_n_n).contr.Idx) :
    ((dot_S5000x128_S128x128_S5000x128_1_0_0_1_n_n).lhsIdx i q 1).val = (q ⟨0, by decide⟩).val :=
  (dot_S5000x128_S128x128_S5000x128_1_0_0_1_n_n).lhsIdx_val_of_single rfl i q
theorem rhs0_0 (i : S5000x128.Idx) (q : (dot_S5000x128_S128x128_S5000x128_1_0_0_1_n_n).contr.Idx) :
    ((dot_S5000x128_S128x128_S5000x128_1_0_0_1_n_n).rhsIdx i q 0).val = (q ⟨0, by decide⟩).val :=
  (dot_S5000x128_S128x128_S5000x128_1_0_0_1_n_n).rhsIdx_val_of_single rfl i q
theorem rhs0_1 (i : S5000x128.Idx) (q : (dot_S5000x128_S128x128_S5000x128_1_0_0_1_n_n).contr.Idx) :
    ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide), dif_pos (show (1 : Fin S128x128.rank) ∈ (dot_S5000x128_S128x128_S5000x128_1_0_0_1_n_n).rhsNonContracting by decide)]
  rfl

/-- The body's payload at an index: rounding to bf16 is the identity on extended reals, and the product accumulated
    from zero is the sum over the contracted axis. -/
theorem pay0_apply (x0 : S5000x128.Idx → EReal) (x1 : S128x128.Idx → EReal) (p : Fin 5000) (q : Fin 128) :
    k0_pay1 (F := Ideal) x0 x1 (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  simp only [truncf_apply]
  exact Cert.Sage.LibDot.sum_plain dot_S5000x128_S128x128_S5000x128_1_0_0_1_n_n rfl rfl lhs0_0 lhs0_1 rhs0_0 rhs0_1 x0 x1 p q

/-! ## From blocks to the array -/

/-- The index maps over the grid: the row block of the left factor and the output block move together, one block
    of 5000 rows per point; the right factor stays at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input blocks at point `t`, read along row `p` and column `q` of the block, are the arrays read along the row
    and the column of the output block's index: a block's row is 5000 t plus the row inside the block. -/
theorem blk0_eq (x : S100000x128.Idx → EReal) (w : S128x128.Idx → EReal) (t : Fin cfg0.N) (p : Fin 5000) (q : Fin 128) :
    (∑ k : Fin 128, x (((cfg0.win 0).blk t).view.emb (ix2 p k)) * w (((cfg0.win 1).blk t).view.emb (ix2 k q)))
      = G0 x w (((cfg0.win 2).blk t).view.emb (ix2 p q)) := by
  obtain ⟨e0, e1, e2, e3, e4, e5⟩ := idx_facts0 t
  show _ = ∑ k : Fin 128, x (ix2 ((((cfg0.win 2).blk t).view.emb (ix2 p q)) 0) k) * w (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]
  rfl

/-- What point `t` writes back is block `t` of the whole-array product. -/
theorem flushed0_eq (c : Dev nD) (t : Fin cfg0.N) :
    (dat0 V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = _
  rw [pay0_apply]
  exact blk0_eq (V c main_arg0) (V c main_arg2) t p q

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v39).slice (win0_2.rect t)).set ↔ _
  rw [View.set_slice_whole, Rect.mem_set_unit]
  exact Iff.rfl

/-- Every row is covered: row `r` lies in the block of point `r / 5000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by omega⟩, flush0_2 _, ?_⟩
  rw [mem_blk0]
  obtain ⟨e0, e1, e2, e3, e4, e5⟩ := idx_facts0 ⟨(i 0).val / 5000, by omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 128 ≤ (i 1).val ∧ (i 1).val < win0_2.index _ (1 : Fin 2) * 128 + 128; rw [e5]; omega

/-- THE ARRAY the region leaves: the matrix product of the two arrays it finds. -/
theorem val0 (c : Dev nD) : (dat0 V c).arrAt 2 cfg0.N = G0 (V c main_arg0) (V c main_arg2) :=
  (dat0 V c).arrAt_eq_of_cover 2 _ (fun t _ => flushed0_eq V c t) cover0

end Cert.KernelIdeal.Hand

end
-- ==== Proof.KI.Val2.lean ====
/- The value region 2 (batch norm and relu) leaves, as one function of the arrays it finds: entry (r, j) of the
   100000x128 output array is max(((x(r, j) + b(j)) - mu(j)) * rsqrt(var(j) + 1e-5) * g(j) + be(j), 0) for the array
   x and the five rows b, mu, var, g, be. Point t of the grid writes back rows 5000 t .. 5000 t + 4999, which is the
   restriction of that function to those rows, and the twenty blocks cover the array. At the ideal number model,
   where the entries are extended reals; the two float literals stay as the words the program prints. -/
import proofs.«171122_j58480274703249_1_alg».proof.Proof.KI.A2
import Idealize.ShloMosaic.Lib.Pipeline.Value
import Idealize.ShloMosaic.PureOps.Ideal.Laws
import Idealize.ShloMosaic.Lib.ValueIdx
import Idealize.ShloMosaic.Lib.ValueLayout

-- the blocks are long (5000 rows): membership in a block's rectangle is looked at coordinate by coordinate
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

-- the TensorCore's buffer contents when the region is entered, at the ideal (extended-real) number model
variable (V : (c : Dev nD) → (b : Ref sig .tc) → Buf (Elt Ideal) ((c : Thread nD τ).loc b))

theorem hz2 : (![0, 0] : Fin 2 → Nat) = fun _ => 0 := funext fun a => by fin_cases a <;> rfl

/-- The whole-array function: an array x with a bias row b added, centred by a mean row mu, scaled by the inverse
    square root of a variance row var plus 1e-5, scaled by a row g, shifted by a row be, and clamped below at zero;
    every row enters at the entry in the same column. -/
abbrev G2 (x : S100000x128.Idx → EReal) (b mu var g be : S1x128.Idx → EReal) : S100000x128.Idx → EReal :=
  fun i => max ((((x i + b (ix2 0 (i 1))) - mu (ix2 0 (i 1))) * Ideal.rsqrt (var (ix2 0 (i 1)) + Ideal.ofBits .f32 0x3727C5AC#32))
    * g (ix2 0 (i 1)) + be (ix2 0 (i 1))) (Ideal.ofBits .f32 0x00000000#32)

/-- A row repeated down the 5000 rows of a block: entry (r, j) is the row's entry j. -/
theorem bcast_row2 (x : FVec Ideal S1x128 .f32) (j : S5000x128.Idx) :
    broadcastTo S5000x128 x broadcasts_S1x128_S5000x128 j = x (ix2 0 (j 1)) :=
  broadcastTo_apply x broadcasts_S1x128_S5000x128 j (ix2 0 (j 1)) (fun a => by match a with | ⟨0, _⟩ => rfl | ⟨1, _⟩ => rfl)

/-- The body's payload at an index (the payload takes the variance row before the mean row). -/
theorem pay2_apply (x : Vec Ideal S5000x128 .f32) (b var mu g be : Vec Ideal S1x128 .f32) (j : S5000x128.Idx) :
    k2_pay1 x b var mu g be j
      = max ((((x j + b (ix2 0 (j 1))) - mu (ix2 0 (j 1))) * Ideal.rsqrt (var (ix2 0 (j 1)) + Ideal.ofBits .f32 0x3727C5AC#32))
        * g (ix2 0 (j 1)) + be (ix2 0 (j 1))) (Ideal.ofBits .f32 0x00000000#32) := by
  unfold k2_pay1
  simp only [maximumf_apply, addf_apply, mulf_apply, subf_apply, shapeCast_self, bcast_row2, broadcast_apply]
  rfl

/-- The index maps over the grid: the row block and the output block move together, one block of 5000 rows per
    point; the five rows stay at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The input blocks at point `t`, read at an index of the block, are the arrays read where the output block's
    index lies: a block's row is 5000 t plus the row inside the block, and each row window is the whole row. -/
theorem blk2_eq (x : S100000x128.Idx → EReal) (b mu var g be : S1x128.Idx → EReal) (t : Fin cfg2.N) (j : S5000x128.Idx) :
    max ((((x (((cfg2.win 0).blk t).view.emb j) + b (((cfg2.win 1).blk t).view.emb (ix2 0 (j 1)))) - mu (((cfg2.win 2).blk t).view.emb (ix2 0 (j 1))))
        * Ideal.rsqrt (var (((cfg2.win 3).blk t).view.emb (ix2 0 (j 1))) + Ideal.ofBits .f32 0x3727C5AC#32))
        * g (((cfg2.win 4).blk t).view.emb (ix2 0 (j 1))) + be (((cfg2.win 5).blk t).view.emb (ix2 0 (j 1)))) (Ideal.ofBits .f32 0x00000000#32)
      = G2 x b mu var g be (((cfg2.win 6).blk t).view.emb j) := by
  obtain ⟨e00, e01, e10, e11, e20, e21, e30, e31, e40, e41, e50, e51, e60, e61⟩ := idx_facts2 t
  have h0 : ((cfg2.win 0).blk t).view.emb j = ((cfg2.win 6).blk t).view.emb j := by
    funext a; apply Fin.ext
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * (j 1).val = win2_6.index t (1 : Fin 2) * 128 + 1 * (j 1).val; omega
  have h1 : ((cfg2.win 1).blk t).view.emb (ix2 0 (j 1)) = ix2 0 ((((cfg2.win 6).blk t).view.emb j) 1) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_6.index t (1 : Fin 2) * 128 + 1 * (j 1).val; omega
  have h2 : ((cfg2.win 2).blk t).view.emb (ix2 0 (j 1)) = ix2 0 ((((cfg2.win 6).blk t).view.emb j) 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_6.index t (1 : Fin 2) * 128 + 1 * (j 1).val; omega
  have h3 : ((cfg2.win 3).blk t).view.emb (ix2 0 (j 1)) = ix2 0 ((((cfg2.win 6).blk t).view.emb j) 1) := by
    funext a; apply Fin.ext
    match a with
    | ⟨0, _⟩ => show win2_3.index t (0 : Fin 2) * 1 + 1 * 0 = 0; omega
    | ⟨1, _⟩ => show win2_3.index t (1 : Fin 2) * 128 + 1 * (j 1).val = win2_6.index t (1 : Fin 2) * 128 + 1 * (j 1).val; omega
  have h4 : ((cfg2.win 4).blk t).view.emb (ix2 0 (j 1)) = ix2 0 ((((cfg2.win 6).blk t).view.emb j) 1) := by
    funext a; apply Fin.ext
    match a with
    | ⟨0, _⟩ => show win2_4.index t (0 : Fin 2) * 1 + 1 * 0 = 0; omega
    | ⟨1, _⟩ => show win2_4.index t (1 : Fin 2) * 128 + 1 * (j 1).val = win2_6.index t (1 : Fin 2) * 128 + 1 * (j 1).val; omega
  have h5 : ((cfg2.win 5).blk t).view.emb (ix2 0 (j 1)) = ix2 0 ((((cfg2.win 6).blk t).view.emb j) 1) := by
    funext a; apply Fin.ext
    match a with
    | ⟨0, _⟩ => show win2_5.index t (0 : Fin 2) * 1 + 1 * 0 = 0; omega
    | ⟨1, _⟩ => show win2_5.index t (1 : Fin 2) * 128 + 1 * (j 1).val = win2_6.index t (1 : Fin 2) * 128 + 1 * (j 1).val; omega
  rw [h0, h1, h2, h3, h4, h5]
  rfl

/-- What point `t` writes back is block `t` of the whole-array function. -/
theorem flushed2_eq (c : Dev nD) (t : Fin cfg2.N) :
    (dat2 V c).flushed 6 t = ((cfg2.win 6).blk t).view.read (Elt Ideal)
      (G2 (V c main_v52) (V c main_v32) (V c main_v53_0) (V c main_v53_1) (V c main_v35) (V c main_v36)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S1x128) hz2]
  funext j
  show k2_pay1 (iblk2 V c 0 t) (iblk2 V c 1 t) (iblk2 V c 3 t) (iblk2 V c 2 t) (iblk2 V c 4 t) (iblk2 V c 5 t) j = _
  rw [pay2_apply]
  exact blk2_eq (V c main_v52) (V c main_v32) (V c main_v53_0) (V c main_v53_1) (V c main_v35) (V c main_v36) t j

/-- An index of the array is in point `t`'s block iff each coordinate is in the block's range on its axis. -/
theorem mem_blk2 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v54).slice (win2_6.rect t)).set ↔ _
  rw [View.set_slice_whole, Rect.mem_set_unit]
  exact Iff.rfl

/-- Every row is covered: row `r` lies in the block of point `r / 5000`. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  refine ⟨⟨(i 0).val / 5000, by omega⟩, flush2_6 _, ?_⟩
  rw [mem_blk2]
  obtain ⟨e00, e01, e10, e11, e20, e21, e30, e31, e40, e41, e50, e51, e60, e61⟩ := idx_facts2 ⟨(i 0).val / 5000, by omega⟩
  intro a
  match a with
  | ⟨0, _⟩ => show win2_6.index _ (0 : Fin 2) * 5000 ≤ (i 0).val ∧ (i 0).val < win2_6.index _ (0 : Fin 2) * 5000 + 5000; rw [e60]; show (i 0).val / 5000 * 5000 ≤ _ ∧ _ < (i 0).val / 5000 * 5000 + 5000; omega
  | ⟨1, _⟩ => show win2_6.index _ (1 : Fin 2) * 128 ≤ (i 1).val ∧ (i 1).val < win2_6.index _ (1 : Fin 2) * 128 + 128; rw [e61]; omega

/-- THE ARRAY the region leaves: the normalised, scaled, shifted and clamped array. -/
theorem val2 (c : Dev nD) : (dat2 V c).arrAt 6 cfg2.N
    = G2 (V c main_v52) (V c main_v32) (V c main_v53_0) (V c main_v53_1) (V c main_v35) (V c main_v36) :=
  (dat2 V c).arrAt_eq_of_cover 6 _ (fun t _ => flushed2_eq V c t) cover2

end Cert.KernelIdeal.Hand

end
-- ==== Proof.KI.Val3.lean ====
/- The value region 3 (a matmul) leaves, as one function of the arrays it finds: the 100000x128 output array is the
   matrix product of the 100000x128 left array with the 128x128 right array, entry (r, j) the sum over k of
   left(r, k) * right(k, j). Point t of the grid writes back rows 5000 t .. 5000 t + 4999, which is the restriction of
   that function to those rows, and the twenty blocks cover the array. At the ideal number model, where the entries
   are extended reals, rounding to bf16 is the identity and the accumulation from zero is the plain sum. -/
import proofs.«171122_j58480274703249_1_alg».proof.Proof.KI.A3
import proofs.«171122_j58480274703249_1_alg».proof.Proof.LibDot
import Idealize.ShloMosaic.Lib.Pipeline.Value
import Idealize.ShloMosaic.PureOps.Ideal.Laws
import Idealize.ShloMosaic.Lib.ValueIdx
import Idealize.ShloMosaic.Lib.ValueLayout

-- the blocks are long (5000 rows): membership in a block's rectangle is looked at coordinate by coordinate
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

-- the TensorCore's buffer contents when the region is entered, at the ideal (extended-real) number model
variable (V : (c : Dev nD) → (b : Ref sig .tc) → Buf (Elt Ideal) ((c : Thread nD τ).loc b))

theorem hz3 : (![0, 0] : Fin 2 → Nat) = fun _ => 0 := funext fun a => by fin_cases a <;> rfl

/-- The whole-array function: the matrix product, entry (r, j) the sum over k of left(r, k) * right(k, j). -/
abbrev G3 (x : S100000x128.Idx → EReal) (w : S128x128.Idx → EReal) : S100000x128.Idx → EReal :=
  fun i => ∑ k : Fin 128, x (ix2 (i 0) k) * w (ix2 k (i 1))

/-! ## The product at an index -/

theorem lhs3_0 (i : S5000x128.Idx) (q : (dot_S5000x128_S128x128_S5000x128_1_0_0_1_n_n).contr.Idx) :
    ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide), dif_pos (show (0 : Fin S5000x128.rank) ∈ (dot_S5000x128_S128x128_S5000x128_1_0_0_1_n_n).lhsNonContracting by decide)]
  rfl
theorem lhs3_1 (i : S5000x128.Idx) (q : (dot_S5000x128_S128x128_S5000x128_1_0_0_1_n_n).contr.Idx) :
    ((dot_S5000x128_S128x128_S5000x128_1_0_0_1_n_n).lhsIdx i q 1).val = (q ⟨0, by decide⟩).val :=
  (dot_S5000x128_S128x128_S5000x128_1_0_0_1_n_n).lhsIdx_val_of_single rfl i q
theorem rhs3_0 (i : S5000x128.Idx) (q : (dot_S5000x128_S128x128_S5000x128_1_0_0_1_n_n).contr.Idx) :
    ((dot_S5000x128_S128x128_S5000x128_1_0_0_1_n_n).rhsIdx i q 0).val = (q ⟨0, by decide⟩).val :=
  (dot_S5000x128_S128x128_S5000x128_1_0_0_1_n_n).rhsIdx_val_of_single rfl i q
theorem rhs3_1 (i : S5000x128.Idx) (q : (dot_S5000x128_S128x128_S5000x128_1_0_0_1_n_n).contr.Idx) :
    ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide), dif_pos (show (1 : Fin S128x128.rank) ∈ (dot_S5000x128_S128x128_S5000x128_1_0_0_1_n_n).rhsNonContracting by decide)]
  rfl

/-- The body's payload at an index: the cast to the same shape and the rounding to bf16 are the identity on extended
    reals, and the product accumulated from zero is the sum over the contracted axis. -/
theorem pay3_apply (x0 : S5000x128.Idx → EReal) (x1 : S128x128.Idx → EReal) (p : Fin 5000) (q : Fin 128) :
    k3_pay1 (F := Ideal) x0 x1 (ix2 p q) = ∑ k : Fin 128, x0 (ix2 p k) * x1 (ix2 k q) := by
  unfold k3_pay1
  refine (Ideal.matmul_constant_zero_apply dot_S5000x128_S128x128_S5000x128_1_0_0_1_n_n none _ _ (ix2 p q)).trans ?_
  simp only [truncf_apply, shapeCast_self]
  exact Cert.Sage.LibDot.sum_plain dot_S5000x128_S128x128_S5000x128_1_0_0_1_n_n rfl rfl lhs3_0 lhs3_1 rhs3_0 rhs3_1 x0 x1 p q

/-! ## From blocks to the array -/

/-- The index maps over the grid: the row block of the left factor and the output block move together, one block
    of 5000 rows per point; the right factor stays at block 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input blocks at point `t`, read along row `p` and column `q` of the block, are the arrays read along the row
    and the column of the output block's index: a block's row is 5000 t plus the row inside the block. -/
theorem blk3_eq (x : S100000x128.Idx → EReal) (w : S128x128.Idx → EReal) (t : Fin cfg3.N) (p : Fin 5000) (q : Fin 128) :
    (∑ k : Fin 128, x (((cfg3.win 0).blk t).view.emb (ix2 p k)) * w (((cfg3.win 1).blk t).view.emb (ix2 k q)))
      = G3 x w (((cfg3.win 2).blk t).view.emb (ix2 p q)) := by
  obtain ⟨e0, e1, e2, e3, e4, e5⟩ := idx_facts3 t
  show _ = ∑ k : Fin 128, x (ix2 ((((cfg3.win 2).blk t).view.emb (ix2 p q)) 0) k) * w (ix2 k ((((cfg3.win 2).blk t).view.emb (ix2 p q)) 1))
  refine Finset.sum_congr rfl fun k _ => ?_
  have h0 : ((cfg3.win 0).blk t).view.emb (ix2 p k) = ix2 ((((cfg3.win 2).blk t).view.emb (ix2 p q)) 0) k := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * k.val = k.val; omega
  have h1 : ((cfg3.win 1).blk t).view.emb (ix2 k q) = ix2 k ((((cfg3.win 2).blk t).view.emb (ix2 p q)) 1) := by
    funext a; apply Fin.ext
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  rw [h0, h1]
  rfl

/-- What point `t` writes back is block `t` of the whole-array product. -/
theorem flushed3_eq (c : Dev nD) (t : Fin cfg3.N) :
    (dat3 V c).flushed 2 t = ((cfg3.win 2).blk t).view.read (Elt Ideal) (G3 (V c main_v54) (V c main_arg4)) := by
  show (cfg3.win 2).cut (grid3.coords t) ((dat3 V c).after 2 t) = _
  rw [after3_2]
  unfold out3_2
  rw [View.canon_unit_zero hz3]
  simp only [View.ld_unit_zero (S := S5000x128) hz3, View.ld_unit_zero (S := S128x128) hz3]
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (ix2 p q) = _
  rw [pay3_apply]
  exact blk3_eq (V c main_v54) (V c main_arg4) t p q

/-- An index of the array is in point `t`'s block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v55).slice (win3_2.rect t)).set ↔ _
  rw [View.set_slice_whole, Rect.mem_set_unit]
  exact Iff.rfl

/-- Every row is covered: row `r` lies in the block of point `r / 5000`. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  refine ⟨⟨(i 0).val / 5000, by omega⟩, flush3_2 _, ?_⟩
  rw [mem_blk3]
  obtain ⟨e0, e1, e2, e3, e4, e5⟩ := idx_facts3 ⟨(i 0).val / 5000, by omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ _ ∧ _ < (i 0).val / 5000 * 5000 + 5000; omega
  | ⟨1, _⟩ => show win3_2.index _ (1 : Fin 2) * 128 ≤ (i 1).val ∧ (i 1).val < win3_2.index _ (1 : Fin 2) * 128 + 128; rw [e5]; omega

/-- THE ARRAY the region leaves: the matrix product of the two arrays it finds. -/
theorem val3 (c : Dev nD) : (dat3 V c).arrAt 2 cfg3.N = G3 (V c main_v54) (V c main_arg4) :=
  (dat3 V c).arrAt_eq_of_cover 2 _ (fun t _ => flushed3_eq V c t) cover3

end Cert.KernelIdeal.Hand

end
-- ==== Proof.KI.Val5.lean ====
/- The value region 5 (batch norm and relu) leaves, as one function of the arrays it finds: entry (r, j) of the
   100000x128 output array is max(((x(r, j) + b(j)) - mu(j)) * rsqrt(var(j) + 1e-5) * g(j) + be(j), 0) for the array
   x and the five rows b, mu, var, g, be. Point t of the grid writes back rows 5000 t .. 5000 t + 4999, which is the
   restriction of that function to those rows, and the twenty blocks cover the array. At the ideal number model,
   where the entries are extended reals; the two float literals stay as the words the program prints. -/
import proofs.«171122_j58480274703249_1_alg».proof.Proof.KI.A5
import Idealize.ShloMosaic.Lib.Pipeline.Value
import Idealize.ShloMosaic.PureOps.Ideal.Laws
import Idealize.ShloMosaic.Lib.ValueIdx
import Idealize.ShloMosaic.Lib.ValueLayout

-- the blocks are long (5000 rows): membership in a block's rectangle is looked at coordinate by coordinate
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

-- the TensorCore's buffer contents when the region is entered, at the ideal (extended-real) number model
variable (V : (c : Dev nD) → (b : Ref sig .tc) → Buf (Elt Ideal) ((c : Thread nD τ).loc b))

theorem hz5 : (![0, 0] : Fin 2 → Nat) = fun _ => 0 := funext fun a => by fin_cases a <;> rfl

/-- The whole-array function: an array x with a bias row b added, centred by a mean row mu, scaled by the inverse
    square root of a variance row var plus 1e-5, scaled by a row g, shifted by a row be, and clamped below at zero;
    every row enters at the entry in the same column. -/
abbrev G5 (x : S100000x128.Idx → EReal) (b mu var g be : S1x128.Idx → EReal) : S100000x128.Idx → EReal :=
  fun i => max ((((x i + b (ix2 0 (i 1))) - mu (ix2 0 (i 1))) * Ideal.rsqrt (var (ix2 0 (i 1)) + Ideal.ofBits .f32 0x3727C5AC#32))
    * g (ix2 0 (i 1)) + be (ix2 0 (i 1))) (Ideal.ofBits .f32 0x00000000#32)

/-- A row repeated down the 5000 rows of a block: entry (r, j) is the row's entry j. -/
theorem bcast_row5 (x : FVec Ideal S1x128 .f32) (j : S5000x128.Idx) :
    broadcastTo S5000x128 x broadcasts_S1x128_S5000x128 j = x (ix2 0 (j 1)) :=
  broadcastTo_apply x broadcasts_S1x128_S5000x128 j (ix2 0 (j 1)) (fun a => by match a with | ⟨0, _⟩ => rfl | ⟨1, _⟩ => rfl)

/-- The body's payload at an index (the payload takes the variance row before the mean row). -/
theorem pay5_apply (x : Vec Ideal S5000x128 .f32) (b var mu g be : Vec Ideal S1x128 .f32) (j : S5000x128.Idx) :
    k5_pay1 x b var mu g be j
      = max ((((x j + b (ix2 0 (j 1))) - mu (ix2 0 (j 1))) * Ideal.rsqrt (var (ix2 0 (j 1)) + Ideal.ofBits .f32 0x3727C5AC#32))
        * g (ix2 0 (j 1)) + be (ix2 0 (j 1))) (Ideal.ofBits .f32 0x00000000#32) := by
  unfold k5_pay1
  simp only [maximumf_apply, addf_apply, mulf_apply, subf_apply, shapeCast_self, bcast_row5, broadcast_apply]
  rfl

/-- The index maps over the grid: the row block and the output block move together, one block of 5000 rows per
    point; the five rows stay at block 0. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The input blocks at point `t`, read at an index of the block, are the arrays read where the output block's
    index lies: a block's row is 5000 t plus the row inside the block, and each row window is the whole row. -/
theorem blk5_eq (x : S100000x128.Idx → EReal) (b mu var g be : S1x128.Idx → EReal) (t : Fin cfg5.N) (j : S5000x128.Idx) :
    max ((((x (((cfg5.win 0).blk t).view.emb j) + b (((cfg5.win 1).blk t).view.emb (ix2 0 (j 1)))) - mu (((cfg5.win 2).blk t).view.emb (ix2 0 (j 1))))
        * Ideal.rsqrt (var (((cfg5.win 3).blk t).view.emb (ix2 0 (j 1))) + Ideal.ofBits .f32 0x3727C5AC#32))
        * g (((cfg5.win 4).blk t).view.emb (ix2 0 (j 1))) + be (((cfg5.win 5).blk t).view.emb (ix2 0 (j 1)))) (Ideal.ofBits .f32 0x00000000#32)
      = G5 x b mu var g be (((cfg5.win 6).blk t).view.emb j) := by
  obtain ⟨e00, e01, e10, e11, e20, e21, e30, e31, e40, e41, e50, e51, e60, e61⟩ := idx_facts5 t
  have h0 : ((cfg5.win 0).blk t).view.emb j = ((cfg5.win 6).blk t).view.emb j := by
    funext a; apply Fin.ext
    match a with
    | ⟨0, _⟩ => show win5_0.index t (0 : Fin 2) * 5000 + 1 * (j 0).val = win5_6.index t (0 : Fin 2) * 5000 + 1 * (j 0).val; omega
    | ⟨1, _⟩ => show win5_0.index t (1 : Fin 2) * 128 + 1 * (j 1).val = win5_6.index t (1 : Fin 2) * 128 + 1 * (j 1).val; omega
  have h1 : ((cfg5.win 1).blk t).view.emb (ix2 0 (j 1)) = ix2 0 ((((cfg5.win 6).blk t).view.emb j) 1) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_6.index t (1 : Fin 2) * 128 + 1 * (j 1).val; omega
  have h2 : ((cfg5.win 2).blk t).view.emb (ix2 0 (j 1)) = ix2 0 ((((cfg5.win 6).blk t).view.emb j) 1) := by
    funext a; apply Fin.ext
    match a with
    | ⟨0, _⟩ => show win5_2.index t (0 : Fin 2) * 1 + 1 * 0 = 0; omega
    | ⟨1, _⟩ => show win5_2.index t (1 : Fin 2) * 128 + 1 * (j 1).val = win5_6.index t (1 : Fin 2) * 128 + 1 * (j 1).val; omega
  have h3 : ((cfg5.win 3).blk t).view.emb (ix2 0 (j 1)) = ix2 0 ((((cfg5.win 6).blk t).view.emb j) 1) := by
    funext a; apply Fin.ext
    match a with
    | ⟨0, _⟩ => show win5_3.index t (0 : Fin 2) * 1 + 1 * 0 = 0; omega
    | ⟨1, _⟩ => show win5_3.index t (1 : Fin 2) * 128 + 1 * (j 1).val = win5_6.index t (1 : Fin 2) * 128 + 1 * (j 1).val; omega
  have h4 : ((cfg5.win 4).blk t).view.emb (ix2 0 (j 1)) = ix2 0 ((((cfg5.win 6).blk t).view.emb j) 1) := by
    funext a; apply Fin.ext
    match a with
    | ⟨0, _⟩ => show win5_4.index t (0 : Fin 2) * 1 + 1 * 0 = 0; omega
    | ⟨1, _⟩ => show win5_4.index t (1 : Fin 2) * 128 + 1 * (j 1).val = win5_6.index t (1 : Fin 2) * 128 + 1 * (j 1).val; omega
  have h5 : ((cfg5.win 5).blk t).view.emb (ix2 0 (j 1)) = ix2 0 ((((cfg5.win 6).blk t).view.emb j) 1) := by
    funext a; apply Fin.ext
    match a with
    | ⟨0, _⟩ => show win5_5.index t (0 : Fin 2) * 1 + 1 * 0 = 0; omega
    | ⟨1, _⟩ => show win5_5.index t (1 : Fin 2) * 128 + 1 * (j 1).val = win5_6.index t (1 : Fin 2) * 128 + 1 * (j 1).val; omega
  rw [h0, h1, h2, h3, h4, h5]
  rfl

/-- What point `t` writes back is block `t` of the whole-array function. -/
theorem flushed5_eq (c : Dev nD) (t : Fin cfg5.N) :
    (dat5 V c).flushed 6 t = ((cfg5.win 6).blk t).view.read (Elt Ideal)
      (G5 (V c main_v68) (V c main_v33) (V c main_v69_0) (V c main_v69_1) (V c main_v37) (V c main_v38)) := by
  show (cfg5.win 6).cut (grid5.coords t) ((dat5 V c).after 6 t) = _
  rw [after5_6]
  unfold out5_6
  rw [View.canon_unit_zero hz5]
  simp only [View.ld_unit_zero (S := S5000x128) hz5, View.ld_unit_zero (S := S1x128) hz5]
  funext j
  show k5_pay1 (iblk5 V c 0 t) (iblk5 V c 1 t) (iblk5 V c 3 t) (iblk5 V c 2 t) (iblk5 V c 4 t) (iblk5 V c 5 t) j = _
  rw [pay5_apply]
  exact blk5_eq (V c main_v68) (V c main_v33) (V c main_v69_0) (V c main_v69_1) (V c main_v37) (V c main_v38) t j

/-- An index of the array is in point `t`'s block iff each coordinate is in the block's range on its axis. -/
theorem mem_blk5 (t : Fin cfg5.N) (i : S100000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v70).slice (win5_6.rect t)).set ↔ _
  rw [View.set_slice_whole, Rect.mem_set_unit]
  exact Iff.rfl

/-- Every row is covered: row `r` lies in the block of point `r / 5000`. -/
theorem cover5 (i : S100000x128.Idx) : ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 20 := N_5
  refine ⟨⟨(i 0).val / 5000, by omega⟩, flush5_6 _, ?_⟩
  rw [mem_blk5]
  obtain ⟨e00, e01, e10, e11, e20, e21, e30, e31, e40, e41, e50, e51, e60, e61⟩ := idx_facts5 ⟨(i 0).val / 5000, by omega⟩
  intro a
  match a with
  | ⟨0, _⟩ => show win5_6.index _ (0 : Fin 2) * 5000 ≤ (i 0).val ∧ (i 0).val < win5_6.index _ (0 : Fin 2) * 5000 + 5000; rw [e60]; show (i 0).val / 5000 * 5000 ≤ _ ∧ _ < (i 0).val / 5000 * 5000 + 5000; omega
  | ⟨1, _⟩ => show win5_6.index _ (1 : Fin 2) * 128 ≤ (i 1).val ∧ (i 1).val < win5_6.index _ (1 : Fin 2) * 128 + 128; rw [e61]; omega

/-- THE ARRAY the region leaves: the normalised, scaled, shifted and clamped array. -/
theorem val5 (c : Dev nD) : (dat5 V c).arrAt 6 cfg5.N
    = G5 (V c main_v68) (V c main_v33) (V c main_v69_0) (V c main_v69_1) (V c main_v37) (V c main_v38) :=
  (dat5 V c).arrAt_eq_of_cover 6 _ (fun t _ => flushed5_eq V c t) cover5

end Cert.KernelIdeal.Hand

end
-- ==== Proof.KI.Val6.lean ====
/- The value region 6 (a matmul) leaves, as one function of the arrays it finds: the 100000x128 output array is the
   matrix product of the 100000x128 left array with the 128x128 right array, entry (r, j) the sum over k of
   left(r, k) * right(k, j). Point t of the grid writes back rows 5000 t .. 5000 t + 4999, which is the restriction of
   that function to those rows, and the twenty blocks cover the array. At the ideal number model, where the entries
   are extended reals, rounding to bf16 is the identity and the accumulation from zero is the plain sum. -/
import proofs.«171122_j58480274703249_1_alg».proof.Proof.KI.A6
import proofs.«171122_j58480274703249_1_alg».proof.Proof.LibDot
import Idealize.ShloMosaic.Lib.Pipeline.Value
import Idealize.ShloMosaic.PureOps.Ideal.Laws
import Idealize.ShloMosaic.Lib.ValueIdx
import Idealize.ShloMosaic.Lib.ValueLayout

-- the blocks are long (5000 rows): membership in a block's rectangle is looked at coordinate by coordinate
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

-- the TensorCore's buffer contents when the region is entered, at the ideal (extended-real) number model
variable (V : (c : Dev nD) → (b : Ref sig .tc) → Buf (Elt Ideal) ((c : Thread nD τ).loc b))

theorem hz6 : (![0, 0] : Fin 2 → Nat) = fun _ => 0 := funext fun a => by fin_cases a <;> rfl

/-- The whole-array function: the matrix product, entry (r, j) the sum over k of left(r, k) * right(k, j). -/
abbrev G6 (x : S100000x128.Idx → EReal) (w : S128x128.Idx → EReal) : S100000x128.Idx → EReal :=
  fun i => ∑ k : Fin 128, x (ix2 (i 0) k) * w (ix2 k (i 1))

/-! ## The product at an index -/

theorem lhs6_0 (i : S5000x128.Idx) (q : (dot_S5000x128_S128x128_S5000x128_1_0_0_1_n_n).contr.Idx) :
    ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide), dif_pos (show (0 : Fin S5000x128.rank) ∈ (dot_S5000x128_S128x128_S5000x128_1_0_0_1_n_n).lhsNonContracting by decide)]
  rfl
theorem lhs6_1 (i : S5000x128.Idx) (q : (dot_S5000x128_S128x128_S5000x128_1_0_0_1_n_n).contr.Idx) :
    ((dot_S5000x128_S128x128_S5000x128_1_0_0_1_n_n).lhsIdx i q 1).val = (q ⟨0, by decide⟩).val :=
  (dot_S5000x128_S128x128_S5000x128_1_0_0_1_n_n).lhsIdx_val_of_single rfl i q
theorem rhs6_0 (i : S5000x128.Idx) (q : (dot_S5000x128_S128x128_S5000x128_1_0_0_1_n_n).contr.Idx) :
    ((dot_S5000x128_S128x128_S5000x128_1_0_0_1_n_n).rhsIdx i q 0).val = (q ⟨0, by decide⟩).val :=
  (dot_S5000x128_S128x128_S5000x128_1_0_0_1_n_n).rhsIdx_val_of_single rfl i q
theorem rhs6_1 (i : S5000x128.Idx) (q : (dot_S5000x128_S128x128_S5000x128_1_0_0_1_n_n).contr.Idx) :
    ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide), dif_pos (show (1 : Fin S128x128.rank) ∈ (dot_S5000x128_S128x128_S5000x128_1_0_0_1_n_n).rhsNonContracting by decide)]
  rfl

/-- The body's payload at an index: the cast to the same shape and the rounding to bf16 are the identity on extended
    reals, and the product accumulated from zero is the sum over the contracted axis. -/
theorem pay6_apply (x0 : S5000x128.Idx → EReal) (x1 : S128x128.Idx → EReal) (p : Fin 5000) (q : Fin 128) :
    k6_pay1 (F := Ideal) x0 x1 (ix2 p q) = ∑ k : Fin 128, x0 (ix2 p k) * x1 (ix2 k q) := by
  unfold k6_pay1
  refine (Ideal.matmul_constant_zero_apply dot_S5000x128_S128x128_S5000x128_1_0_0_1_n_n none _ _ (ix2 p q)).trans ?_
  simp only [truncf_apply, shapeCast_self]
  exact Cert.Sage.LibDot.sum_plain dot_S5000x128_S128x128_S5000x128_1_0_0_1_n_n rfl rfl lhs6_0 lhs6_1 rhs6_0 rhs6_1 x0 x1 p q

/-! ## From blocks to the array -/

/-- The index maps over the grid: the row block of the left factor and the output block move together, one block
    of 5000 rows per point; the right factor stays at block 0. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The input blocks at point `t`, read along row `p` and column `q` of the block, are the arrays read along the row
    and the column of the output block's index: a block's row is 5000 t plus the row inside the block. -/
theorem blk6_eq (x : S100000x128.Idx → EReal) (w : S128x128.Idx → EReal) (t : Fin cfg6.N) (p : Fin 5000) (q : Fin 128) :
    (∑ k : Fin 128, x (((cfg6.win 0).blk t).view.emb (ix2 p k)) * w (((cfg6.win 1).blk t).view.emb (ix2 k q)))
      = G6 x w (((cfg6.win 2).blk t).view.emb (ix2 p q)) := by
  obtain ⟨e0, e1, e2, e3, e4, e5⟩ := idx_facts6 t
  show _ = ∑ k : Fin 128, x (ix2 ((((cfg6.win 2).blk t).view.emb (ix2 p q)) 0) k) * w (ix2 k ((((cfg6.win 2).blk t).view.emb (ix2 p q)) 1))
  refine Finset.sum_congr rfl fun k _ => ?_
  have h0 : ((cfg6.win 0).blk t).view.emb (ix2 p k) = ix2 ((((cfg6.win 2).blk t).view.emb (ix2 p q)) 0) k := by
    funext a; apply Fin.ext
    match a with
    | ⟨0, _⟩ => show win6_0.index t (0 : Fin 2) * 5000 + 1 * p.val = win6_2.index t (0 : Fin 2) * 5000 + 1 * p.val; omega
    | ⟨1, _⟩ => show win6_0.index t (1 : Fin 2) * 128 + 1 * k.val = k.val; omega
  have h1 : ((cfg6.win 1).blk t).view.emb (ix2 k q) = ix2 k ((((cfg6.win 2).blk t).view.emb (ix2 p q)) 1) := by
    funext a; apply Fin.ext
    match a with
    | ⟨0, _⟩ => show win6_1.index t (0 : Fin 2) * 128 + 1 * k.val = k.val; omega
    | ⟨1, _⟩ => show win6_1.index t (1 : Fin 2) * 128 + 1 * q.val = win6_2.index t (1 : Fin 2) * 128 + 1 * q.val; omega
  rw [h0, h1]
  rfl

/-- What point `t` writes back is block `t` of the whole-array product. -/
theorem flushed6_eq (c : Dev nD) (t : Fin cfg6.N) :
    (dat6 V c).flushed 2 t = ((cfg6.win 2).blk t).view.read (Elt Ideal) (G6 (V c main_v70) (V c main_arg6)) := by
  show (cfg6.win 2).cut (grid6.coords t) ((dat6 V c).after 2 t) = _
  rw [after6_2]
  unfold out6_2
  rw [View.canon_unit_zero hz6]
  simp only [View.ld_unit_zero (S := S5000x128) hz6, View.ld_unit_zero (S := S128x128) hz6]
  funext j
  obtain ⟨p, q, rfl⟩ : ∃ (p : Fin 5000) (q : Fin 128), j = ix2 p q := ⟨j 0, j 1, eq_ix2 j⟩
  show k6_pay1 (F := Ideal) (iblk6 V c 0 t) (iblk6 V c 1 t) (ix2 p q) = _
  rw [pay6_apply]
  exact blk6_eq (V c main_v70) (V c main_arg6) t p q

/-- An index of the array is in point `t`'s block iff each coordinate is in the block's range on its axis. -/
theorem mem_blk6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v71).slice (win6_2.rect t)).set ↔ _
  rw [View.set_slice_whole, Rect.mem_set_unit]
  exact Iff.rfl

/-- Every row is covered: row `r` lies in the block of point `r / 5000`. -/
theorem cover6 (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  refine ⟨⟨(i 0).val / 5000, by omega⟩, flush6_2 _, ?_⟩
  rw [mem_blk6]
  obtain ⟨e0, e1, e2, e3, e4, e5⟩ := idx_facts6 ⟨(i 0).val / 5000, by omega⟩
  intro a
  match a with
  | ⟨0, _⟩ => show win6_2.index _ (0 : Fin 2) * 5000 ≤ (i 0).val ∧ (i 0).val < win6_2.index _ (0 : Fin 2) * 5000 + 5000; rw [e4]; show (i 0).val / 5000 * 5000 ≤ _ ∧ _ < (i 0).val / 5000 * 5000 + 5000; omega
  | ⟨1, _⟩ => show win6_2.index _ (1 : Fin 2) * 128 ≤ (i 1).val ∧ (i 1).val < win6_2.index _ (1 : Fin 2) * 128 + 128; rw [e5]; omega

/-- THE ARRAY the region leaves: the matrix product of the two arrays it finds. -/
theorem val6 (c : Dev nD) : (dat6 V c).arrAt 2 cfg6.N = G6 (V c main_v70) (V c main_arg6) :=
  (dat6 V c).arrAt_eq_of_cover 2 _ (fun t _ => flushed6_eq V c t) cover6

end Cert.KernelIdeal.Hand

end
-- ==== Proof.KI.Val7.lean ====
/- The value region 7 (the bias add) leaves, as one function of the arrays it finds: every entry of the 100000x128
   output array is the input array's entry plus the bias row's entry in the same column. Point t of the grid writes
   back rows 5000 t .. 5000 t + 4999, which is the restriction of that function to those rows, and the twenty blocks
   cover the array. At the ideal number model, where the entries are extended reals. -/
import proofs.«171122_j58480274703249_1_alg».proof.Proof.KI.A7
import Idealize.ShloMosaic.Lib.Pipeline.Value
import Idealize.ShloMosaic.Lib.ValueIdx
import Idealize.ShloMosaic.Lib.ValueLayout

-- the blocks are long (5000 rows): membership in a block's rectangle is looked at coordinate by coordinate
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

-- the TensorCore's buffer contents when the region is entered, at the ideal (extended-real) number model
variable (V : (c : Dev nD) → (b : Ref sig .tc) → Buf (Elt Ideal) ((c : Thread nD τ).loc b))

theorem hz7 : (![0, 0] : Fin 2 → Nat) = fun _ => 0 := funext fun a => by fin_cases a <;> rfl

/-- The whole-array function: an array plus a row, the row's entry in the same column added to every entry. -/
abbrev G7 (x : S100000x128.Idx → EReal) (b : S1x128.Idx → EReal) : S100000x128.Idx → EReal :=
  fun i => x i + b (ix2 0 (i 1))

/-- The body's payload at an index: the block's entry plus the bias row's entry in the same column. -/
theorem pay7_apply (x0 : Vec Ideal S5000x128 .f32) (x1 : Vec Ideal S1x128 .f32) (j : S5000x128.Idx) :
    k7_pay1 x0 x1 j = x0 j + x1 (ix2 0 (j 1)) := by
  unfold k7_pay1
  simp only [addf_apply, shapeCast_self]
  rw [broadcastTo_apply x1 broadcasts_S1x128_S5000x128 j (ix2 0 (j 1))
    (fun a => by match a with | ⟨0, _⟩ => rfl | ⟨1, _⟩ => rfl)]

/-- The index maps over the grid: the row block and the output block move together, one block of 5000 rows per
    point; the bias row stays at block 0. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The input blocks at point `t`, read at an index of the block, are the arrays read where the output block's
    index lies: a block's row is 5000 t plus the row inside the block. -/
theorem blk7_eq (x : S100000x128.Idx → EReal) (b : S1x128.Idx → EReal) (t : Fin cfg7.N) (j : S5000x128.Idx) :
    x (((cfg7.win 0).blk t).view.emb j) + b (((cfg7.win 1).blk t).view.emb (ix2 0 (j 1)))
      = G7 x b (((cfg7.win 2).blk t).view.emb j) := by
  obtain ⟨e0, e1, e2, e3, e4, e5⟩ := idx_facts7 t
  have h0 : ((cfg7.win 0).blk t).view.emb j = ((cfg7.win 2).blk t).view.emb j := by
    funext a; apply Fin.ext
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 128 + 1 * (j 1).val = win7_2.index t (1 : Fin 2) * 128 + 1 * (j 1).val; omega
  have h1 : ((cfg7.win 1).blk t).view.emb (ix2 0 (j 1)) = ix2 0 ((((cfg7.win 2).blk t).view.emb j) 1) := by
    funext a; apply Fin.ext
    match a with
    | ⟨0, _⟩ => show win7_1.index t (0 : Fin 2) * 1 + 1 * 0 = 0; omega
    | ⟨1, _⟩ => show win7_1.index t (1 : Fin 2) * 128 + 1 * (j 1).val = win7_2.index t (1 : Fin 2) * 128 + 1 * (j 1).val; omega
  show _ = x (((cfg7.win 2).blk t).view.emb j) + b (ix2 0 ((((cfg7.win 2).blk t).view.emb j) 1))
  rw [h0, h1]
  rfl

/-- What point `t` writes back is block `t` of the whole-array sum. -/
theorem flushed7_eq (c : Dev nD) (t : Fin cfg7.N) :
    (dat7 V c).flushed 2 t = ((cfg7.win 2).blk t).view.read (Elt Ideal) (G7 (V c main_v84) (V c main_v34)) := by
  show (cfg7.win 2).cut (grid7.coords t) ((dat7 V c).after 2 t) = _
  rw [after7_2]
  unfold out7_2
  rw [View.canon_unit_zero hz7]
  simp only [View.ld_unit_zero (S := S5000x128) hz7, View.ld_unit_zero (S := S1x128) hz7]
  funext j
  show k7_pay1 (iblk7 V c 0 t) (iblk7 V c 1 t) j = _
  rw [pay7_apply]
  exact blk7_eq (V c main_v84) (V c main_v34) t j

/-- An index of the array is in point `t`'s block iff each coordinate is in the block's range on its axis. -/
theorem mem_blk7 (t : Fin cfg7.N) (i : S100000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v85).slice (win7_2.rect t)).set ↔ _
  rw [View.set_slice_whole, Rect.mem_set_unit]
  exact Iff.rfl

/-- Every row is covered: row `r` lies in the block of point `r / 5000`. -/
theorem cover7 (i : S100000x128.Idx) : ∃ t : Fin cfg7.N, (cfg7.win 2).flush t = true ∧ i ∈ ((cfg7.win 2).blk t).view.set := by
  have hi0 : (i 0).val < 100000 := (i 0).isLt
  have hi1 : (i 1).val < 128 := (i 1).isLt
  have hN : cfg7.N = 20 := N_7
  refine ⟨⟨(i 0).val / 5000, by omega⟩, flush7_2 _, ?_⟩
  rw [mem_blk7]
  obtain ⟨e0, e1, e2, e3, e4, e5⟩ := idx_facts7 ⟨(i 0).val / 5000, by omega⟩
  intro a
  match a with
  | ⟨0, _⟩ => show win7_2.index _ (0 : Fin 2) * 5000 ≤ (i 0).val ∧ (i 0).val < win7_2.index _ (0 : Fin 2) * 5000 + 5000; rw [e4]; show (i 0).val / 5000 * 5000 ≤ _ ∧ _ < (i 0).val / 5000 * 5000 + 5000; omega
  | ⟨1, _⟩ => show win7_2.index _ (1 : Fin 2) * 128 ≤ (i 1).val ∧ (i 1).val < win7_2.index _ (1 : Fin 2) * 128 + 128; rw [e5]; omega

/-- THE ARRAY the region leaves: the input array plus the bias row, row by row. -/
theorem val7 (c : Dev nD) : (dat7 V c).arrAt 2 cfg7.N = G7 (V c main_v84) (V c main_v34) :=
  (dat7 V c).arrAt_eq_of_cover 2 _ (fun t _ => flushed7_eq V c t) cover7

end Cert.KernelIdeal.Hand

end
-- ==== Proof.Bridge.KerForms.lean ====
/-
  The kernel's per-region values in the vocabulary of the layer.

  The regions read their bias, scale, shift, mean and variance from one-row tables [1,128]; entry (0, j) of such a
  table is entry j of the vector it was laid out from.  With that, what the statistics pass leaves is the column
  mean and the mean-of-squares variance of z = a + b, what the normalise-and-rectify pass leaves is the layer's
  activation, and what the last pass leaves is a + b.
-/
import proofs.«171122_j58480274703249_1_alg».proof.Proof.Bridge.Layer

noncomputable section

namespace Cert.Bridge

open Idealize.ShloMosaic Idealize.ShloMosaic.ValueIdx Cert.LibFinite Cert.ReferenceIdeal.Hand

/-- A one-row table [1,128]. -/
abbrev Row2 : Type := (⟨2, ![1, 128]⟩ : Shape).Idx → EReal

theorem bias_form (a : Arr) (b2 : Row2) (b : Row) (hb : ∀ j : Fin 128, b2 (ix2 0 j) = b (ix1 j)) :
    (fun i : (⟨2, ![100000, 128]⟩ : Shape).Idx => a i + b2 (ix2 0 (i 1))) = refBias a b := by
  funext i
  obtain ⟨p, q, rfl⟩ : ∃ (p : Fin 100000) (q : Fin 128), i = ix2 p q := ⟨i 0, i 1, eq_ix2 i⟩
  show a (ix2 p q) + b2 (ix2 0 q) = a (ix2 p q) + b (ix1 q)
  rw [hb]

theorem mean_form (a : Arr) (b2 : Row2) (b : Row) (hb : ∀ j : Fin 128, b2 (ix2 0 j) = b (ix1 j)) (j : Fin 128) :
    Ideal.div (∑ r : Fin 100000, (a (ix2 r j) + b2 (ix2 (0 : Fin 1) j))) (Ideal.ofBits .f32 0x47C35000#32) = kMean (refBias a b) j := by
  show _ = Ideal.div (∑ r : Fin 100000, (a (ix2 r j) + b (ix1 j))) (Ideal.ofBits .f32 0x47C35000#32)
  rw [hb]

theorem var_form (a : Arr) (b2 : Row2) (b : Row) (hb : ∀ j : Fin 128, b2 (ix2 0 j) = b (ix1 j)) (j : Fin 128) :
    Ideal.div (∑ r : Fin 100000, (a (ix2 r j) + b2 (ix2 (0 : Fin 1) j)) * (a (ix2 r j) + b2 (ix2 (0 : Fin 1) j))) (Ideal.ofBits .f32 0x47C35000#32)
      - Ideal.div (∑ r : Fin 100000, (a (ix2 r j) + b2 (ix2 (0 : Fin 1) j))) (Ideal.ofBits .f32 0x47C35000#32)
        * Ideal.div (∑ r : Fin 100000, (a (ix2 r j) + b2 (ix2 (0 : Fin 1) j))) (Ideal.ofBits .f32 0x47C35000#32)
      = kVar (refBias a b) j := by
  show _ = Ideal.div (∑ r : Fin 100000, (a (ix2 r j) + b (ix1 j)) * (a (ix2 r j) + b (ix1 j))) (Ideal.ofBits .f32 0x47C35000#32)
      - Ideal.div (∑ r : Fin 100000, (a (ix2 r j) + b (ix1 j))) (Ideal.ofBits .f32 0x47C35000#32)
        * Ideal.div (∑ r : Fin 100000, (a (ix2 r j) + b (ix1 j))) (Ideal.ofBits .f32 0x47C35000#32)
  rw [hb]

theorem bnrelu_form (a : Arr) (b2 mu2 var2 g2 be2 : Row2) (b g be : Row)
    (hb : ∀ j : Fin 128, b2 (ix2 0 j) = b (ix1 j)) (hg : ∀ j : Fin 128, g2 (ix2 0 j) = g (ix1 j)) (hbe : ∀ j : Fin 128, be2 (ix2 0 j) = be (ix1 j))
    (hmu : ∀ j : Fin 128, mu2 (ix2 0 j) = kMean (refBias a b) j) (hvar : ∀ j : Fin 128, var2 (ix2 0 j) = kVar (refBias a b) j) :
    (fun i : (⟨2, ![100000, 128]⟩ : Shape).Idx =>
      max ((((a i + b2 (ix2 0 (i 1))) - mu2 (ix2 0 (i 1))) * Ideal.rsqrt (var2 (ix2 0 (i 1)) + Ideal.ofBits .f32 0x3727C5AC#32))
        * g2 (ix2 0 (i 1)) + be2 (ix2 0 (i 1))) (Ideal.ofBits .f32 0x00000000#32))
      = kBNRelu (refBias a b) g be := by
  funext i
  obtain ⟨p, q, rfl⟩ : ∃ (p : Fin 100000) (q : Fin 128), i = ix2 p q := ⟨i 0, i 1, eq_ix2 i⟩
  show max ((((a (ix2 p q) + b2 (ix2 0 q)) - mu2 (ix2 0 q)) * Ideal.rsqrt (var2 (ix2 0 q) + Ideal.ofBits .f32 0x3727C5AC#32))
        * g2 (ix2 0 q) + be2 (ix2 0 q)) (Ideal.ofBits .f32 0x00000000#32)
    = max ((((a (ix2 p q) + b (ix1 q)) - kMean (refBias a b) q) * Ideal.rsqrt (kVar (refBias a b) q + Ideal.ofBits .f32 0x3727C5AC#32))
        * g (ix1 q) + be (ix1 q)) 0
  rw [hb, hg, hbe, hmu, hvar, ofBits_zero]

end Cert.Bridge

end
-- ==== Proof.KI.StageA.lean ====
/- Each class A region's output array, read through the run's fold of buffer contents, with every operand traced
   back to where it was written: a weight matrix and a parameter vector to the launch contents (no item writes an
   argument), a one-row parameter table to the vector it was laid out from, an activation array to what the
   previous item left. The three products are the reference's matrix product of their operands, the two
   normalise-and-rectify passes are the layer's activation of their input plus its bias given the column mean and
   variance rows, and the last pass is its input plus the last bias. At the ideal number model. -/
import proofs.«171122_j58480274703249_1_alg».proof.Proof.KI.Keep
import proofs.«171122_j58480274703249_1_alg».proof.Proof.KI.HostRead
import proofs.«171122_j58480274703249_1_alg».proof.Proof.KI.Val0
import proofs.«171122_j58480274703249_1_alg».proof.Proof.KI.Val2
import proofs.«171122_j58480274703249_1_alg».proof.Proof.KI.Val3
import proofs.«171122_j58480274703249_1_alg».proof.Proof.KI.Val5
import proofs.«171122_j58480274703249_1_alg».proof.Proof.KI.Val6
import proofs.«171122_j58480274703249_1_alg».proof.Proof.KI.Val7
import proofs.«171122_j58480274703249_1_alg».proof.Proof.Bridge.KerForms

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx Cert.ReferenceIdeal.Hand Cert.Bridge
open scoped BigOperators

variable (m : (ℓ : Loc nD τ sig) → Buf (Elt Ideal) ℓ) (c : Dev nD)

/-! ## The three products -/

/-- The first product: the input array times the first weight matrix, both as launched. -/
theorem st_mm1 : (W4 m c (Proc.devRef .tc main_v39) : Arr)
    = refMM (W0 m c (Proc.devRef .tc main_arg0)) (W0 m c (Proc.devRef .tc main_arg2)) := by
  have e0 : V3 m c main_arg0 = W0 m c (Proc.devRef .tc main_arg0) := (keep3 m c main_arg0 (by decide)).trans ((keep2 m c main_arg0 (by decide)).trans ((keep1 m c main_arg0 (by decide))))
  have e2 : V3 m c main_arg2 = W0 m c (Proc.devRef .tc main_arg2) := (keep3 m c main_arg2 (by decide)).trans ((keep2 m c main_arg2 (by decide)).trans ((keep1 m c main_arg2 (by decide))))
  have h := (stepW_arr (p := 0) (dat0 (V3 m)) (W3 m) launch0 c 2).trans (val0 (V3 m) c)
  rw [e0, e2] at h
  exact h

/-- The second product: what the first normalise-and-rectify pass left times the second weight matrix as launched. -/
theorem st_mm2 (Y : Arr) (hY : (W7 m c (Proc.devRef .tc main_v54) : Arr) = Y) :
    (W8 m c (Proc.devRef .tc main_v55) : Arr) = refMM Y (W0 m c (Proc.devRef .tc main_arg4)) := by
  have e0 : V7 m c main_v54 = Y := hY
  have e2 : V7 m c main_arg4 = W0 m c (Proc.devRef .tc main_arg4) := (keep7 m c main_arg4 (by decide)).trans ((keep6 m c main_arg4 (by decide)).trans ((keep5 m c main_arg4 (by decide)).trans ((keep4 m c main_arg4 (by decide)).trans ((keep3 m c main_arg4 (by decide)).trans ((keep2 m c main_arg4 (by decide)).trans ((keep1 m c main_arg4 (by decide))))))))
  have h := (stepW_arr (p := 3) (dat3 (V7 m)) (W7 m) launch3 c 2).trans (val3 (V7 m) c)
  rw [e0, e2] at h
  exact h

/-- The third product: what the second normalise-and-rectify pass left times the third weight matrix as launched. -/
theorem st_mm3 (Y : Arr) (hY : (W11 m c (Proc.devRef .tc main_v70) : Arr) = Y) :
    (W12 m c (Proc.devRef .tc main_v71) : Arr) = refMM Y (W0 m c (Proc.devRef .tc main_arg6)) := by
  have e0 : V11 m c main_v70 = Y := hY
  have e2 : V11 m c main_arg6 = W0 m c (Proc.devRef .tc main_arg6) := (keep11 m c main_arg6 (by decide)).trans ((keep10 m c main_arg6 (by decide)).trans ((keep9 m c main_arg6 (by decide)).trans ((keep8 m c main_arg6 (by decide)).trans ((keep7 m c main_arg6 (by decide)).trans ((keep6 m c main_arg6 (by decide)).trans ((keep5 m c main_arg6 (by decide)).trans ((keep4 m c main_arg6 (by decide)).trans ((keep3 m c main_arg6 (by decide)).trans ((keep2 m c main_arg6 (by decide)).trans ((keep1 m c main_arg6 (by decide))))))))))))
  have h := (stepW_arr (p := 6) (dat6 (V11 m)) (W11 m) launch6 c 2).trans (val6 (V11 m) c)
  rw [e0, e2] at h
  exact h

/-! ## The two normalise-and-rectify passes -/

/-- The first pass: the layer's activation of its input plus the first bias, given that the statistics pass before
    it left the column mean and variance of that sum. -/
theorem st_bn1 (A : Arr) (hA : (W5 m c (Proc.devRef .tc main_v52) : Arr) = A)
    (hmu : ∀ j : Fin 128, (W6 m c (Proc.devRef .tc main_v53_0) : Row2) (ix2 0 j) = kMean (refBias A (W0 m c (Proc.devRef .tc main_arg3))) j)
    (hvar : ∀ j : Fin 128, (W6 m c (Proc.devRef .tc main_v53_1) : Row2) (ix2 0 j) = kVar (refBias A (W0 m c (Proc.devRef .tc main_arg3))) j) :
    (W7 m c (Proc.devRef .tc main_v54) : Arr)
      = kBNRelu (refBias A (W0 m c (Proc.devRef .tc main_arg3))) (W0 m c (Proc.devRef .tc main_arg8)) (W0 m c (Proc.devRef .tc main_arg9)) := by
  have ex : V6 m c main_v52 = A := (keep6 m c main_v52 (by decide)).trans hA
  have eb : V6 m c main_v32 = W3 m c (Proc.devRef .tc main_v32) := (keep6 m c main_v32 (by decide)).trans ((keep5 m c main_v32 (by decide)).trans ((keep4 m c main_v32 (by decide))))
  have eg : V6 m c main_v35 = W3 m c (Proc.devRef .tc main_v35) := (keep6 m c main_v35 (by decide)).trans ((keep5 m c main_v35 (by decide)).trans ((keep4 m c main_v35 (by decide))))
  have ebe : V6 m c main_v36 = W3 m c (Proc.devRef .tc main_v36) := (keep6 m c main_v36 (by decide)).trans ((keep5 m c main_v36 (by decide)).trans ((keep4 m c main_v36 (by decide))))
  have h := (stepW_arr (p := 2) (dat2 (V6 m)) (W6 m) launch2 c 6).trans (val2 (V6 m) c)
  rw [ex] at h
  refine h.trans ?_
  exact bnrelu_form A (V6 m c main_v32) (V6 m c main_v53_0) (V6 m c main_v53_1) (V6 m c main_v35) (V6 m c main_v36)
    (W0 m c (Proc.devRef .tc main_arg3)) (W0 m c (Proc.devRef .tc main_arg8)) (W0 m c (Proc.devRef .tc main_arg9))
    (fun j => (congrFun eb (ix2 0 j)).trans (read_b1_at m c j))
    (fun j => (congrFun eg (ix2 0 j)).trans (read_g1_at m c j))
    (fun j => (congrFun ebe (ix2 0 j)).trans (read_be1_at m c j))
    hmu hvar

/-- The second pass, likewise with the second layer's bias, scale and shift. -/
theorem st_bn2 (A : Arr) (hA : (W9 m c (Proc.devRef .tc main_v68) : Arr) = A)
    (hmu : ∀ j : Fin 128, (W10 m c (Proc.devRef .tc main_v69_0) : Row2) (ix2 0 j) = kMean (refBias A (W0 m c (Proc.devRef .tc main_arg5))) j)
    (hvar : ∀ j : Fin 128, (W10 m c (Proc.devRef .tc main_v69_1) : Row2) (ix2 0 j) = kVar (refBias A (W0 m c (Proc.devRef .tc main_arg5))) j) :
    (W11 m c (Proc.devRef .tc main_v70) : Arr)
      = kBNRelu (refBias A (W0 m c (Proc.devRef .tc main_arg5))) (W0 m c (Proc.devRef .tc main_arg10)) (W0 m c (Proc.devRef .tc main_arg11)) := by
  have ex : V10 m c main_v68 = A := (keep10 m c main_v68 (by decide)).trans hA
  have eb : V10 m c main_v33 = W3 m c (Proc.devRef .tc main_v33) := (keep10 m c main_v33 (by decide)).trans ((keep9 m c main_v33 (by decide)).trans ((keep8 m c main_v33 (by decide)).trans ((keep7 m c main_v33 (by decide)).trans ((keep6 m c main_v33 (by decide)).trans ((keep5 m c main_v33 (by decide)).trans ((keep4 m c main_v33 (by decide))))))))
  have eg : V10 m c main_v37 = W3 m c (Proc.devRef .tc main_v37) := (keep10 m c main_v37 (by decide)).trans ((keep9 m c main_v37 (by decide)).trans ((keep8 m c main_v37 (by decide)).trans ((keep7 m c main_v37 (by decide)).trans ((keep6 m c main_v37 (by decide)).trans ((keep5 m c main_v37 (by decide)).trans ((keep4 m c main_v37 (by decide))))))))
  have ebe : V10 m c main_v38 = W3 m c (Proc.devRef .tc main_v38) := (keep10 m c main_v38 (by decide)).trans ((keep9 m c main_v38 (by decide)).trans ((keep8 m c main_v38 (by decide)).trans ((keep7 m c main_v38 (by decide)).trans ((keep6 m c main_v38 (by decide)).trans ((keep5 m c main_v38 (by decide)).trans ((keep4 m c main_v38 (by decide))))))))
  have h := (stepW_arr (p := 5) (dat5 (V10 m)) (W10 m) launch5 c 6).trans (val5 (V10 m) c)
  rw [ex] at h
  refine h.trans ?_
  exact bnrelu_form A (V10 m c main_v33) (V10 m c main_v69_0) (V10 m c main_v69_1) (V10 m c main_v37) (V10 m c main_v38)
    (W0 m c (Proc.devRef .tc main_arg5)) (W0 m c (Proc.devRef .tc main_arg10)) (W0 m c (Proc.devRef .tc main_arg11))
    (fun j => (congrFun eb (ix2 0 j)).trans (read_b2_at m c j))
    (fun j => (congrFun eg (ix2 0 j)).trans (read_g2_at m c j))
    (fun j => (congrFun ebe (ix2 0 j)).trans (read_be2_at m c j))
    hmu hvar

/-! ## The last pass -/

/-- The output: what the last aggregation left plus the last bias. -/
theorem st_out (A : Arr) (hA : (W13 m c (Proc.devRef .tc main_v84) : Arr) = A) :
    (W14 m c (Proc.devRef .tc main_v85) : Arr) = refBias A (W0 m c (Proc.devRef .tc main_arg7)) := by
  have ex : V13 m c main_v84 = A := hA
  have eb : V13 m c main_v34 = W3 m c (Proc.devRef .tc main_v34) := (keep13 m c main_v34 (by decide)).trans ((keep12 m c main_v34 (by decide)).trans ((keep11 m c main_v34 (by decide)).trans ((keep10 m c main_v34 (by decide)).trans ((keep9 m c main_v34 (by decide)).trans ((keep8 m c main_v34 (by decide)).trans ((keep7 m c main_v34 (by decide)).trans ((keep6 m c main_v34 (by decide)).trans ((keep5 m c main_v34 (by decide)).trans ((keep4 m c main_v34 (by decide)))))))))))
  have h := (stepW_arr (p := 7) (dat7 (V13 m)) (W13 m) launch7 c 2).trans (val7 (V13 m) c)
  rw [ex] at h
  refine h.trans ?_
  exact bias_form A (V13 m c main_v34) (W0 m c (Proc.devRef .tc main_arg7))
    (fun j => (congrFun eb (ix2 0 j)).trans (read_b3_at m c j))

end Cert.KernelIdeal.Hand

end
-- ==== Proof.KI.Val1a.lean ====
/- Region 1: the pieces its three control cases leave, read back as values of the body's arithmetic, and the running
   column sums they give point by point.
   Each case's stores cover the whole row they write, so what a case leaves in a scratch row or a result row is the payload
   of its last store there, whose loads read whole buffers: the first point leaves zero plus block 0's column sums of
   z and of z*z (z = block + bias row), a later point the sums so far plus its block's, and the last point also the mean
   (sum/100000) and the variance (sum of squares/100000 minus the mean's square). Hence the scratch rows after point n
   are a two-component running sum, by induction on the point. -/
import proofs.«171122_j58480274703249_1_alg».proof.Proof.KI.R1
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

theorem hz2 : (![0, 0] : Fin 2 → Nat) = fun _ => 0 := funext fun a => by fin_cases a <;> rfl

section Pieces
variable {F : FTy → Type} [FloatOps F]

/-! ## What each case's found pieces are, as values of the body's arithmetic -/

/-- A middle point leaves in scratch row 0 the running column sum plus this block's column sums. -/
theorem sB1_0 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : ¬cond1_0 i) (hc1 : ¬cond1_1 i)
    (x0 : Vec F S5000x128 .f32) (x1 xs0 xs1 : Vec F S1x128 .f32) :
    sout1_B_0 c i a1 h1 a2 h2 a3 h3 a4 h4 a5 h5 a6 h6 hc0 hc1 x0 x1 xs0 xs1 = k1_pay4 x0 x1 xs0 := by
  unfold sout1_B_0
  rw [View.read_writes_eq_canon _ _ _ (scover1_B_0 c i a1 h1 a2 h2 a3 h3 a4 h4 a5 h5 a6 h6 hc0 hc1 x0 x1 xs0 xs1)]
  unfold kernelRun1_B
  dsimp only
  rw [View.canon_unit_zero hz2]
  simp only [View.readAt_eq_ld, h1.read_unread, h2.read_unread, h5.read_unread, View.ld_unit_zero (S := S5000x128) hz2, View.ld_unit_zero (S := S1x128) hz2]

theorem sB1_1 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : ¬cond1_0 i) (hc1 : ¬cond1_1 i)
    (x0 : Vec F S5000x128 .f32) (x1 xs0 xs1 : Vec F S1x128 .f32) :
    sout1_B_1 c i a1 h1 a2 h2 a3 h3 a4 h4 a5 h5 a6 h6 hc0 hc1 x0 x1 xs0 xs1 = k1_pay5 x0 x1 xs1 := by
  unfold sout1_B_1
  rw [View.read_writes_eq_canon _ _ _ (scover1_B_1 c i a1 h1 a2 h2 a3 h3 a4 h4 a5 h5 a6 h6 hc0 hc1 x0 x1 xs0 xs1)]
  unfold kernelRun1_B
  dsimp only
  rw [View.canon_unit_zero hz2]
  simp only [View.readAt_eq_ld, h1.read_unread, h2.read_unread, h6.read_unread, View.ld_unit_zero (S := S5000x128) hz2, View.ld_unit_zero (S := S1x128) hz2]

/-- The first point zeroes the scratch rows, reads the zero row back, and leaves zero plus block 0's column sums. -/
theorem sA1_0 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : cond1_0 i) (hc1 : ¬cond1_1 i)
    (x0 : Vec F S5000x128 .f32) (x1 : Vec F S1x128 .f32) :
    sout1_A_0 c i a1 h1 a2 h2 a3 h3 a4 h4 a5 h5 a6 h6 hc0 hc1 x0 x1 = k1_pay4 x0 x1 k1_pay1 := by
  unfold sout1_A_0
  rw [View.read_writes_eq_canon _ _ _ (scover1_A_0 c i a1 h1 a2 h2 a3 h3 a4 h4 a5 h5 a6 h6 hc0 hc1 x0 x1)]
  unfold kernelRun1_A
  dsimp only
  sl_unfold_words
  rw [View.canon_cons_unit_zero (S := S1x128) hz2, View.readCov_unit_zero (S := S1x128) _ hz2]
  simp only [View.readAt_eq_ld, h1.read_unread, h2.read_unread, View.ld_unit_zero (S := S5000x128) hz2, View.ld_unit_zero (S := S1x128) hz2]

theorem sA1_1 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : cond1_0 i) (hc1 : ¬cond1_1 i)
    (x0 : Vec F S5000x128 .f32) (x1 : Vec F S1x128 .f32) :
    sout1_A_1 c i a1 h1 a2 h2 a3 h3 a4 h4 a5 h5 a6 h6 hc0 hc1 x0 x1 = k1_pay5 x0 x1 k1_pay2 := by
  unfold sout1_A_1
  rw [View.read_writes_eq_canon _ _ _ (scover1_A_1 c i a1 h1 a2 h2 a3 h3 a4 h4 a5 h5 a6 h6 hc0 hc1 x0 x1)]
  unfold kernelRun1_A
  dsimp only
  sl_unfold_words
  rw [View.canon_cons_unit_zero (S := S1x128) hz2, View.readCov_unit_zero (S := S1x128) _ hz2]
  simp only [View.readAt_eq_ld, h1.read_unread, h2.read_unread, View.ld_unit_zero (S := S5000x128) hz2, View.ld_unit_zero (S := S1x128) hz2]

/-- The last point adds its block's column sums likewise, -/
theorem sC1_0 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : ¬cond1_0 i) (hc1 : cond1_1 i)
    (x0 : Vec F S5000x128 .f32) (x1 xs0 xs1 : Vec F S1x128 .f32) :
    sout1_C_0 c i a1 h1 a2 h2 a3 h3 a4 h4 a5 h5 a6 h6 hc0 hc1 x0 x1 xs0 xs1 = k1_pay4 x0 x1 xs0 := by
  unfold sout1_C_0
  rw [View.read_writes_eq_canon _ _ _ (scover1_C_0 c i a1 h1 a2 h2 a3 h3 a4 h4 a5 h5 a6 h6 hc0 hc1 x0 x1 xs0 xs1)]
  unfold kernelRun1_C
  dsimp only
  sl_unfold_words
  rw [View.canon_unit_zero hz2]
  simp only [View.readAt_eq_ld, h1.read_unread, h2.read_unread, h5.read_unread, View.ld_unit_zero (S := S5000x128) hz2, View.ld_unit_zero (S := S1x128) hz2]

theorem sC1_1 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : ¬cond1_0 i) (hc1 : cond1_1 i)
    (x0 : Vec F S5000x128 .f32) (x1 xs0 xs1 : Vec F S1x128 .f32) :
    sout1_C_1 c i a1 h1 a2 h2 a3 h3 a4 h4 a5 h5 a6 h6 hc0 hc1 x0 x1 xs0 xs1 = k1_pay5 x0 x1 xs1 := by
  unfold sout1_C_1
  rw [View.read_writes_eq_canon _ _ _ (scover1_C_1 c i a1 h1 a2 h2 a3 h3 a4 h4 a5 h5 a6 h6 hc0 hc1 x0 x1 xs0 xs1)]
  unfold kernelRun1_C
  dsimp only
  sl_unfold_words
  rw [View.canon_unit_zero hz2]
  simp only [View.readAt_eq_ld, h1.read_unread, h2.read_unread, h6.read_unread, View.ld_unit_zero (S := S5000x128) hz2, View.ld_unit_zero (S := S1x128) hz2]

/-- and writes the mean from the final column sum, the variance from both final sums. -/
theorem oC1_2 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : ¬cond1_0 i) (hc1 : cond1_1 i)
    (x0 : Vec F S5000x128 .f32) (x1 xs0 xs1 : Vec F S1x128 .f32) :
    out1_C_2 c i a1 h1 a2 h2 a3 h3 a4 h4 a5 h5 a6 h6 hc0 hc1 x0 x1 xs0 xs1 = k1_pay6 (k1_pay4 x0 x1 xs0) := by
  unfold out1_C_2
  rw [View.read_writes_eq_canon _ _ _ (cover1_C_2 c i a1 h1 a2 h2 a3 h3 a4 h4 a5 h5 a6 h6 hc0 hc1 x0 x1 xs0 xs1)]
  unfold kernelRun1_C
  dsimp only
  sl_unfold_words
  rw [View.canon_unit_zero hz2, View.readCov_unit_zero (S := S1x128) _ hz2]
  simp only [View.readAt_eq_ld, h1.read_unread, h2.read_unread, h5.read_unread, View.ld_unit_zero (S := S5000x128) hz2, View.ld_unit_zero (S := S1x128) hz2]

theorem oC1_3 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : ¬cond1_0 i) (hc1 : cond1_1 i)
    (x0 : Vec F S5000x128 .f32) (x1 xs0 xs1 : Vec F S1x128 .f32) :
    out1_C_3 c i a1 h1 a2 h2 a3 h3 a4 h4 a5 h5 a6 h6 hc0 hc1 x0 x1 xs0 xs1 = k1_pay7 (k1_pay4 x0 x1 xs0) (k1_pay5 x0 x1 xs1) := by
  unfold out1_C_3
  rw [View.read_writes_eq_canon _ _ _ (cover1_C_3 c i a1 h1 a2 h2 a3 h3 a4 h4 a5 h5 a6 h6 hc0 hc1 x0 x1 xs0 xs1)]
  unfold kernelRun1_C
  dsimp only
  sl_unfold_words
  rw [View.canon_unit_zero hz2, View.readCov_unit_zero (S := S1x128) _ hz2, View.readCov_unit_zero (S := S1x128) _ hz2]
  simp only [View.readAt_eq_ld, h1.read_unread, h2.read_unread, h5.read_unread, h6.read_unread, View.ld_unit_zero (S := S5000x128) hz2, View.ld_unit_zero (S := S1x128) hz2]

end Pieces

section Sums
variable {F : FTy → Type} [FloatOps F]
variable (V : (c : Dev nD) → (b : Ref sig .tc) → Buf (Elt F) ((c : Thread nD τ).loc b))

/-- The running column sums (of z, of z*z) after point `n`: zero plus block 0's, then one block's per point. -/
def sums1 (c : Dev nD) : (n : ℕ) → n < cfg1.N → Vec F S1x128 .f32 × Vec F S1x128 .f32
  | 0, h => (k1_pay4 (iblk1 V c 0 ⟨0, h⟩) (iblk1 V c 1 ⟨0, h⟩) k1_pay1, k1_pay5 (iblk1 V c 0 ⟨0, h⟩) (iblk1 V c 1 ⟨0, h⟩) k1_pay2)
  | n + 1, h => (k1_pay4 (iblk1 V c 0 ⟨n + 1, h⟩) (iblk1 V c 1 ⟨n + 1, h⟩) (sums1 c n (Nat.lt_of_succ_lt h)).1,
      k1_pay5 (iblk1 V c 0 ⟨n + 1, h⟩) (iblk1 V c 1 ⟨n + 1, h⟩) (sums1 c n (Nat.lt_of_succ_lt h)).2)

theorem sums1_zero (c : Dev nD) (h : 0 < cfg1.N) :
    sums1 V c 0 h = (k1_pay4 (iblk1 V c 0 ⟨0, h⟩) (iblk1 V c 1 ⟨0, h⟩) k1_pay1, k1_pay5 (iblk1 V c 0 ⟨0, h⟩) (iblk1 V c 1 ⟨0, h⟩) k1_pay2) := rfl

theorem sums1_succ (c : Dev nD) (n : ℕ) (h : n + 1 < cfg1.N) :
    sums1 V c (n + 1) h = (k1_pay4 (iblk1 V c 0 ⟨n + 1, h⟩) (iblk1 V c 1 ⟨n + 1, h⟩) (sums1 V c n (Nat.lt_of_succ_lt h)).1,
      k1_pay5 (iblk1 V c 0 ⟨n + 1, h⟩) (iblk1 V c 1 ⟨n + 1, h⟩) (sums1 V c n (Nat.lt_of_succ_lt h)).2) := rfl

/-- The scratch rows after point `n` ARE the running sums — by induction on the point. -/
theorem outsAt1_sums (c : Dev nD) : ∀ (n : ℕ) (h : n < cfg1.N), (outsAt1 V c n h).2.2 = sums1 V c n h
  | 0, h => by
    have e := outsAt1_A V c ⟨0, h⟩ rfl (fun e => absurd e (by decide : ¬(0 : ℕ) = 19))
    rw [show outsAt1 V c 0 h = _ from e]
    dsimp only
    rw [sA1_0, sA1_1]
    rfl
  | n + 1, h => by
    have ih := outsAt1_sums c n (Nat.lt_of_succ_lt h)
    have h0 : ¬(⟨n + 1, h⟩ : Fin cfg1.N).val = 0 := Nat.succ_ne_zero n
    have e1 : (outsAt1 V c ((⟨n + 1, h⟩ : Fin cfg1.N).val - 1) (Nat.lt_of_le_of_lt (Nat.sub_le _ _) (⟨n + 1, h⟩ : Fin cfg1.N).isLt)).2.2
        = sums1 V c n (Nat.lt_of_succ_lt h) := ih
    by_cases h1 : n + 1 = 19
    · rw [show outsAt1 V c (n + 1) h = _ from outsAt1_C V c ⟨n + 1, h⟩ h0 h1]
      dsimp only
      rw [sC1_0, sC1_1]
      exact Prod.ext (congrArg (k1_pay4 _ _) (congrArg Prod.fst e1)) (congrArg (k1_pay5 _ _) (congrArg Prod.snd e1))
    · rw [show outsAt1 V c (n + 1) h = _ from outsAt1_B V c ⟨n + 1, h⟩ h0 h1]
      dsimp only
      rw [sB1_0, sB1_1]
      exact Prod.ext (congrArg (k1_pay4 _ _) (congrArg Prod.fst e1)) (congrArg (k1_pay5 _ _) (congrArg Prod.snd e1))

/-- The last point's result rows: the mean and the variance of the final sums. -/
theorem outsAt1_last (c : Dev nD) (h : 19 < cfg1.N) :
    (outsAt1 V c 19 h).1 = k1_pay6 (sums1 V c 19 h).1
      ∧ (outsAt1 V c 19 h).2.1 = k1_pay7 (sums1 V c 19 h).1 (sums1 V c 19 h).2 := by
  have h0 : ¬(⟨19, h⟩ : Fin cfg1.N).val = 0 := (by decide : ¬(19 : ℕ) = 0)
  have e1 : (outsAt1 V c ((⟨19, h⟩ : Fin cfg1.N).val - 1) (Nat.lt_of_le_of_lt (Nat.sub_le _ _) (⟨19, h⟩ : Fin cfg1.N).isLt)).2.2
      = sums1 V c 18 (Nat.lt_of_succ_lt h) := outsAt1_sums V c 18 _
  rw [show outsAt1 V c 19 h = _ from outsAt1_C V c ⟨19, h⟩ h0 rfl]
  dsimp only
  rw [oC1_2, oC1_3, sums1_succ V c 18 h]
  dsimp only
  exact ⟨congrArg k1_pay6 (congrArg (k1_pay4 _ _) (congrArg Prod.fst e1)),
    congrArg₂ k1_pay7 (congrArg (k1_pay4 _ _) (congrArg Prod.fst e1)) (congrArg (k1_pay5 _ _) (congrArg Prod.snd e1))⟩

end Sums

end Cert.KernelIdeal.Hand

end
-- ==== Proof.LibBlocks.lean ====
/-
  Sums and maxima over the rows of a tall table, taken block of rows by block of rows.

  A table of n = a·b rows is cut into a consecutive blocks of b rows; row i lies in block i / b at position
  i % b, and block t, position r is row b·t + r. In a commutative monoid a sum over all rows is the sum over the
  blocks of the sums over each block's rows, and in a complete lattice the supremum over all rows is the supremum
  over the blocks of each block's supremum: both are re-indexings along the bijection (t, r) ↦ b·t + r, and
  neither needs any finiteness of the entries (only associativity and commutativity are used).
  Also: a running total that starts from a seed and adds one block's contribution per step is the seed plus
  the sum of the contributions so far (and likewise for a running maximum), by induction on the step.
-/
import Mathlib.Algebra.BigOperators.Fin
import Mathlib.Algebra.BigOperators.Group.Finset.Basic
import Mathlib.Order.CompleteLattice.Finset
import Mathlib.Data.Fintype.Lattice
import Mathlib.Tactic.Ring
import Mathlib.Logic.Equiv.Fin.Basic
import Mathlib.Data.Fintype.BigOperators

namespace Cert.LibBlocks

/-- Row b·t + r of a table of n = a·b rows. -/
def row {a b n : ℕ} (h : a * b = n) (t : Fin a) (r : Fin b) : Fin n :=
  ⟨b * t.val + r.val, by
    have := t.isLt; have := r.isLt
    calc b * t.val + r.val < b * t.val + b := by omega
      _ = b * (t.val + 1) := by ring
      _ ≤ b * a := Nat.mul_le_mul_left _ (by omega)
      _ = n := by rw [Nat.mul_comm]; exact h⟩

@[simp] theorem row_val {a b n : ℕ} (h : a * b = n) (t : Fin a) (r : Fin b) : (row h t r).val = b * t.val + r.val := rfl

/-- The rows are exactly the block positions: (t, r) ↦ b·t + r is a bijection from blocks × positions. -/
def rowEquiv {a b n : ℕ} (h : a * b = n) : Fin a × Fin b ≃ Fin n :=
  finProdFinEquiv.trans (finCongr h)

theorem rowEquiv_apply {a b n : ℕ} (h : a * b = n) (t : Fin a) (r : Fin b) : rowEquiv h (t, r) = row h t r := by
  apply Fin.ext
  simp [rowEquiv, row, Nat.add_comm]

/-- A sum over all rows is the sum over the blocks of each block's sum. -/
theorem sum_rows {M : Type*} [AddCommMonoid M] {a b n : ℕ} (h : a * b = n) (f : Fin n → M) :
    ∑ i, f i = ∑ t : Fin a, ∑ r : Fin b, f (row h t r) := by
  rw [← Fintype.sum_prod_type' (f := fun t r => f (row h t r))]
  exact (Fintype.sum_equiv (rowEquiv h) (fun p => f (row h p.1 p.2)) f
    (fun p => by rw [← rowEquiv_apply])).symm

/-- A supremum over all rows is the supremum over the blocks of each block's supremum. -/
theorem sup_rows {L : Type*} [CompleteLattice L] {a b n : ℕ} (h : a * b = n) (f : Fin n → L) :
    Finset.univ.sup f = Finset.univ.sup fun t : Fin a => Finset.univ.sup fun r : Fin b => f (row h t r) := by
  simp only [Finset.sup_univ_eq_iSup]
  rw [← (rowEquiv h).iSup_comp (g := f), iSup_prod]
  exact iSup_congr fun t => iSup_congr fun r => by rw [rowEquiv_apply]

/-- A running total: seeded at step 0 with the seed plus the first contribution, then one contribution per step. -/
theorem running_sum {M : Type*} [AddCommMonoid M] (seed : M) (g acc : ℕ → M)
    (h0 : acc 0 = seed + g 0) (hs : ∀ n, acc (n + 1) = acc n + g (n + 1)) (n : ℕ) :
    acc n = seed + ∑ u ∈ Finset.range (n + 1), g u := by
  induction n with
  | zero => simp [h0]
  | succ n ih => rw [hs, ih, Finset.sum_range_succ _ (n + 1), add_assoc]

/-- A running maximum, likewise. -/
theorem running_sup {L : Type*} [SemilatticeSup L] [OrderBot L] (seed : L) (g acc : ℕ → L)
    (h0 : acc 0 = seed ⊔ g 0) (hs : ∀ n, acc (n + 1) = acc n ⊔ g (n + 1)) (n : ℕ) :
    acc n = seed ⊔ (Finset.range (n + 1)).sup g := by
  induction n with
  | zero => simp [h0]
  | succ n ih => rw [hs, ih, Finset.range_add_one (n := n + 1), Finset.sup_insert, sup_assoc, sup_comm (g (n + 1))]

/-- The sum over the first a naturals is the sum over Fin a. -/
theorem sum_range_fin {M : Type*} [AddCommMonoid M] (a : ℕ) (g : ℕ → M) :
    ∑ u ∈ Finset.range a, g u = ∑ t : Fin a, g t.val := (Fin.sum_univ_eq_sum_range g a).symm

/-- The supremum over the first a naturals is the supremum over Fin a. -/
theorem sup_range_fin {L : Type*} [SemilatticeSup L] [OrderBot L] (a : ℕ) (g : ℕ → L) :
    (Finset.range a).sup g = Finset.univ.sup fun t : Fin a => g t.val := by
  apply le_antisymm
  · refine Finset.sup_le fun u hu => ?_
    exact Finset.le_sup (f := fun t : Fin a => g t.val) (Finset.mem_univ (⟨u, Finset.mem_range.mp hu⟩ : Fin a))
  · refine Finset.sup_le fun t _ => ?_
    exact Finset.le_sup (f := g) (Finset.mem_range.mpr t.isLt)

end Cert.LibBlocks
-- ==== Proof.KI.Val1.lean ====
/- Region 1: the values it leaves in its two result arrays, at the ideal (extended-real) reading.
   With z r j = x r j + b j (row r of the 100000 x 128 input plus the bias row), the first result array ends holding
   (sum over all rows r of z r j) / 100000 and the second (sum over r of z r j * z r j) / 100000 minus the square of the
   first. The two scratch rows are running sums: point t adds the column sums of its block of 5000 rows, starting from
   zero, so after the last point they hold the sum over the 20 blocks of the block sums; addition on the extended
   reals is commutative and associative, so that is the one sum over the 100000 rows (no finiteness is used). Both
   result windows are written back once, after the last point, and their one block is the whole [1,128] array. -/
import proofs.«171122_j58480274703249_1_alg».proof.Proof.KI.Val1a
import proofs.«171122_j58480274703249_1_alg».proof.Proof.LibBlocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

section Pointwise
open Idealize.ShloMosaic.ValueIdx

/-- The lane reduction's source index over lane `j` at row `k`. -/
theorem lift1_eq (j : Fin 128) (k : Fin 5000) :
    (reduces_S5000x128_S128 : S5000x128.Reduces [0] S128).lift (ix1 j) k = ix2 k j := by
  funext a
  match a with
  | ⟨0, _⟩ => exact Fin.ext rfl
  | ⟨1, _⟩ => exact Fin.ext rfl

/-- z = block + bias row, at row `r`, lane `j`. -/
theorem pay3_1_apply (x0 : Vec Ideal S5000x128 .f32) (x1 : Vec Ideal S1x128 .f32) (r : Fin 5000) (j : Fin 128) :
    (k1_pay3 x0 x1 : FVec Ideal S5000x128 .f32) (ix2 r j) = (x0 (ix2 r j) : EReal) + x1 (ix2 (0 : Fin 1) j) := by
  unfold k1_pay3
  show (shapeCast S5000x128 x0 shapeCasts_S5000x128_S5000x128 (ix2 r j) : EReal)
      + broadcastTo S5000x128 (shapeCast S1x128 x1 shapeCasts_S1x128_S1x128) broadcasts_S1x128_S5000x128 (ix2 r j) = _
  refine congrArg₂ (· + ·) (congrFun (shapeCast_self x0 _) _) ?_
  refine (broadcastTo_1b_ab_apply (shapeCast S1x128 x1 shapeCasts_S1x128_S1x128) broadcasts_S1x128_S5000x128 r j).trans ?_
  exact congrFun (shapeCast_self x1 _) _

/-- The zero row. -/
theorem pay1_1_apply (j : Fin 128) : (k1_pay1 : FVec Ideal S1x128 .f32) (ix2 (0 : Fin 1) j) = (0 : EReal) := by
  unfold k1_pay1
  refine (congrFun (shapeCast_self _ _) _).trans ?_
  exact Ideal.ofBits_zero_f32
theorem pay2_1_apply (j : Fin 128) : (k1_pay2 : FVec Ideal S1x128 .f32) (ix2 (0 : Fin 1) j) = (0 : EReal) := by
  unfold k1_pay2
  refine (congrFun (shapeCast_self _ _) _).trans ?_
  exact Ideal.ofBits_zero_f32

/-- One point's step of the first running sum, at lane `j`: the sum so far plus the block's column sum of z. -/
theorem pay4_1_apply (x0 : Vec Ideal S5000x128 .f32) (x1 acc : Vec Ideal S1x128 .f32) (j : Fin 128) :
    (k1_pay4 x0 x1 acc : FVec Ideal S1x128 .f32) (ix2 (0 : Fin 1) j)
      = (acc (ix2 (0 : Fin 1) j) : EReal) + ∑ r : Fin 5000, ((x0 (ix2 r j) : EReal) + x1 (ix2 (0 : Fin 1) j)) := by
  unfold k1_pay4
  refine (congrFun (shapeCast_self _ _) _).trans ?_
  refine congrArg (fun s : EReal => (acc (ix2 (0 : Fin 1) j) : EReal) + s) ?_
  refine (shapeCast_a_1a_apply _ shapeCasts_S128_S1x128 (0 : Fin 1) j).trans ?_
  refine (Ideal.multiReduction_add_single (k1_pay3 x0 x1) _ reduces_S5000x128_S128 _ _ (ix1 j)).trans ?_
  refine Finset.sum_congr rfl fun r _ => ?_
  rw [lift1_eq j r]
  exact pay3_1_apply x0 x1 r j

/-- One point's step of the second running sum: plus the block's column sum of z*z. -/
theorem pay5_1_apply (x0 : Vec Ideal S5000x128 .f32) (x1 acc : Vec Ideal S1x128 .f32) (j : Fin 128) :
    (k1_pay5 x0 x1 acc : FVec Ideal S1x128 .f32) (ix2 (0 : Fin 1) j)
      = (acc (ix2 (0 : Fin 1) j) : EReal) + ∑ r : Fin 5000, (((x0 (ix2 r j) : EReal) + x1 (ix2 (0 : Fin 1) j)) * ((x0 (ix2 r j) : EReal) + x1 (ix2 (0 : Fin 1) j))) := by
  unfold k1_pay5
  refine (congrFun (shapeCast_self _ _) _).trans ?_
  refine congrArg (fun s : EReal => (acc (ix2 (0 : Fin 1) j) : EReal) + s) ?_
  refine (shapeCast_a_1a_apply _ shapeCasts_S128_S1x128 (0 : Fin 1) j).trans ?_
  refine (Ideal.multiReduction_add_single (mulf (k1_pay3 x0 x1) (k1_pay3 x0 x1)) _ reduces_S5000x128_S128 _ _ (ix1 j)).trans ?_
  refine Finset.sum_congr rfl fun r _ => ?_
  rw [lift1_eq j r]
  exact congrArg₂ (· * ·) (pay3_1_apply x0 x1 r j) (pay3_1_apply x0 x1 r j)

/-- The divisor: the f32 word of 100000. -/
abbrev N1 : EReal := Ideal.ofBits .f32 0x47C35000#32

/-- The mean row from the final sum; the variance row from both. -/
theorem pay6_1_apply (s : Vec Ideal S1x128 .f32) (i : S1x128.Idx) :
    (k1_pay6 s : FVec Ideal S1x128 .f32) i = Ideal.div (s i) N1 := rfl
theorem pay7_1_apply (s q : Vec Ideal S1x128 .f32) (i : S1x128.Idx) :
    (k1_pay7 s q : FVec Ideal S1x128 .f32) i = Ideal.div (q i) N1 - Ideal.div (s i) N1 * Ideal.div (s i) N1 := rfl

end Pointwise

section Values
variable (V : (c : Dev nD) → (b : Ref sig .tc) → Buf (Elt Ideal) ((c : Thread nD τ).loc b))

/-! ## The blocks, read off the arrays -/

/-- The region's input array and its bias row, as the region finds them, as functions into the extended reals. -/
def xin1 (c : Dev nD) : S100000x128.Idx → EReal := V c main_v52
def bias1 (c : Dev nD) : S1x128.Idx → EReal := V c main_v32
theorem xin1_def (c : Dev nD) : xin1 V c = V c main_v52 := rfl
theorem bias1_def (c : Dev nD) : bias1 V c = V c main_v32 := rfl

theorem rows1 : 20 * 5000 = 100000 := rfl

/-- The index maps, decided over the grid: point `t` stages row block `t` of the input and the one bias row. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- Block `t` of the input at (r, j) is the input at row 5000 t + r. -/
theorem iblk1_0_apply (c : Dev nD) (t : Fin cfg1.N) (ht : t.val < 20) (r : Fin 5000) (j : Fin 128) :
    ((iblk1 V c 0 t : Vec Ideal S5000x128 .f32) (ix2 r j) : EReal)
      = xin1 V c (ix2 (LibBlocks.row rows1 ⟨t.val, ht⟩ r) j) := by
  unfold iblk1 xin1
  rw [View.read_apply]
  show (V c main_v52 : S100000x128.Idx → EReal) _ = _
  congr 1
  funext a
  apply Fin.ext
  match a with
  | ⟨0, _⟩ =>
    show win1_0.index t 0 * 5000 + 1 * r.val = 5000 * t.val + r.val
    rw [(idx1_0 t).1]; omega
  | ⟨1, _⟩ =>
    show win1_0.index t 1 * 128 + 1 * j.val = j.val
    rw [(idx1_0 t).2]; omega

/-- The bias window's block is the bias row at every point. -/
theorem iblk1_1_apply (c : Dev nD) (t : Fin cfg1.N) (j : Fin 128) :
    ((iblk1 V c 1 t : Vec Ideal S1x128 .f32) (ix2 (0 : Fin 1) j) : EReal)
      = bias1 V c (ix2 (0 : Fin 1) j) := by
  unfold iblk1 bias1
  rw [View.read_apply]
  show (V c main_v32 : S1x128.Idx → EReal) _ = _
  congr 1
  funext a
  apply Fin.ext
  match a with
  | ⟨0, _⟩ =>
    show win1_1.index t 0 * 1 + 1 * 0 = 0
    rw [(idx1_1 t).1]
  | ⟨1, _⟩ =>
    show win1_1.index t 1 * 128 + 1 * j.val = j.val
    rw [(idx1_1 t).2]; omega

/-! ## The running sums, lane by lane -/

/-- z r j: row `r` of the input plus the bias row, at lane `j`. -/
def z1 (c : Dev nD) (r : Fin 100000) (j : Fin 128) : EReal :=
  xin1 V c (ix2 r j) + bias1 V c (ix2 (0 : Fin 1) j)

theorem z1_def (c : Dev nD) (r : Fin 100000) (j : Fin 128) :
    z1 V c r j = xin1 V c (ix2 r j) + bias1 V c (ix2 (0 : Fin 1) j) := rfl

/-- Block `u`'s column sum of z, and of z*z, at lane `j` (zero past the grid). -/
def bsum1 (c : Dev nD) (j : Fin 128) (u : ℕ) : EReal :=
  if hu : u < 20 then ∑ r : Fin 5000, z1 V c (LibBlocks.row rows1 ⟨u, hu⟩ r) j else 0
def bsq1 (c : Dev nD) (j : Fin 128) (u : ℕ) : EReal :=
  if hu : u < 20 then ∑ r : Fin 5000, z1 V c (LibBlocks.row rows1 ⟨u, hu⟩ r) j * z1 V c (LibBlocks.row rows1 ⟨u, hu⟩ r) j else 0

/-- A block's z at (r, j), read off the arrays. -/
theorem zblk1 (c : Dev nD) (t : Fin cfg1.N) (ht : t.val < 20) (r : Fin 5000) (j : Fin 128)
    (x0 : Vec Ideal S5000x128 .f32) (x1 : Vec Ideal S1x128 .f32) (e0 : x0 = iblk1 V c 0 t) (e1 : x1 = iblk1 V c 1 t) :
    (x0 (ix2 r j) : EReal) + x1 (ix2 (0 : Fin 1) j) = z1 V c (LibBlocks.row rows1 ⟨t.val, ht⟩ r) j := by
  subst e0 e1
  exact congrArg₂ (· + ·) (iblk1_0_apply V c t ht r j) (iblk1_1_apply V c t j)

/-- After point `n` the first running sum at lane `j` is the sum of the first n+1 blocks' column sums of z. -/
theorem sums1_fst (c : Dev nD) (j : Fin 128) : ∀ (n : ℕ) (h : n < cfg1.N),
    ((sums1 V c n h).1 (ix2 (0 : Fin 1) j) : EReal) = ∑ u ∈ Finset.range (n + 1), bsum1 V c j u
  | 0, h => by
    refine (pay4_1_apply (iblk1 V c 0 ⟨0, h⟩) (iblk1 V c 1 ⟨0, h⟩) (k1_pay1 (F := Ideal)) j).trans ?_
    rw [pay1_1_apply, zero_add, Finset.sum_range_one]
    unfold bsum1
    rw [dif_pos (by decide : (0 : ℕ) < 20)]
    exact Finset.sum_congr rfl fun r _ => zblk1 V c ⟨0, h⟩ (by decide : (0 : ℕ) < 20) r j _ _ rfl rfl
  | n + 1, h => by
    have hn : n + 1 < 20 := lt_of_lt_of_eq h N_1
    refine (pay4_1_apply (iblk1 V c 0 ⟨n + 1, h⟩) (iblk1 V c 1 ⟨n + 1, h⟩) (sums1 V c n (Nat.lt_of_succ_lt h)).1 j).trans ?_
    rw [sums1_fst c j n (Nat.lt_of_succ_lt h), Finset.sum_range_succ (bsum1 V c j) (n + 1)]
    refine congrArg _ ?_
    unfold bsum1
    rw [dif_pos hn]
    exact Finset.sum_congr rfl fun r _ => zblk1 V c ⟨n + 1, h⟩ hn r j _ _ rfl rfl

/-- The second likewise, of z*z. -/
theorem sums1_snd (c : Dev nD) (j : Fin 128) : ∀ (n : ℕ) (h : n < cfg1.N),
    ((sums1 V c n h).2 (ix2 (0 : Fin 1) j) : EReal) = ∑ u ∈ Finset.range (n + 1), bsq1 V c j u
  | 0, h => by
    refine (pay5_1_apply (iblk1 V c 0 ⟨0, h⟩) (iblk1 V c 1 ⟨0, h⟩) (k1_pay2 (F := Ideal)) j).trans ?_
    rw [pay2_1_apply, zero_add, Finset.sum_range_one]
    unfold bsq1
    rw [dif_pos (by decide : (0 : ℕ) < 20)]
    exact Finset.sum_congr rfl fun r _ => congrArg₂ (· * ·) (zblk1 V c ⟨0, h⟩ (by decide : (0 : ℕ) < 20) r j _ _ rfl rfl) (zblk1 V c ⟨0, h⟩ (by decide : (0 : ℕ) < 20) r j _ _ rfl rfl)
  | n + 1, h => by
    have hn : n + 1 < 20 := lt_of_lt_of_eq h N_1
    refine (pay5_1_apply (iblk1 V c 0 ⟨n + 1, h⟩) (iblk1 V c 1 ⟨n + 1, h⟩) (sums1 V c n (Nat.lt_of_succ_lt h)).2 j).trans ?_
    rw [sums1_snd c j n (Nat.lt_of_succ_lt h), Finset.sum_range_succ (bsq1 V c j) (n + 1)]
    refine congrArg _ ?_
    unfold bsq1
    rw [dif_pos hn]
    exact Finset.sum_congr rfl fun r _ => congrArg₂ (· * ·) (zblk1 V c ⟨n + 1, h⟩ hn r j _ _ rfl rfl) (zblk1 V c ⟨n + 1, h⟩ hn r j _ _ rfl rfl)

/-- The last point of the grid. -/
abbrev tl1 : Fin cfg1.N := ⟨19, (by rw [show cfg1.N = 20 from N_1]; decide)⟩

/-- After the last point the running sums are the sums over all 100000 rows: twenty block sums regrouped. -/
theorem total1_fst (c : Dev nD) (j : Fin 128) :
    ((sums1 V c 19 tl1.isLt).1 (ix2 (0 : Fin 1) j) : EReal) = ∑ r : Fin 100000, z1 V c r j := by
  rw [sums1_fst V c j 19 tl1.isLt]
  show ∑ u ∈ Finset.range 20, bsum1 V c j u = _
  rw [LibBlocks.sum_range_fin 20 (bsum1 V c j), LibBlocks.sum_rows rows1 (fun r => z1 V c r j)]
  refine Finset.sum_congr rfl fun t _ => ?_
  unfold bsum1
  rw [dif_pos t.isLt]

theorem total1_snd (c : Dev nD) (j : Fin 128) :
    ((sums1 V c 19 tl1.isLt).2 (ix2 (0 : Fin 1) j) : EReal) = ∑ r : Fin 100000, z1 V c r j * z1 V c r j := by
  rw [sums1_snd V c j 19 tl1.isLt]
  show ∑ u ∈ Finset.range 20, bsq1 V c j u = _
  rw [LibBlocks.sum_range_fin 20 (bsq1 V c j), LibBlocks.sum_rows rows1 (fun r => z1 V c r j * z1 V c r j)]
  refine Finset.sum_congr rfl fun t _ => ?_
  unfold bsq1
  rw [dif_pos t.isLt]

/-! ## The result arrays -/

/-- What the last point writes: the mean row and the variance row of the final sums. -/
def mean1 (c : Dev nD) : Buf (Elt Ideal) ((c : Thread nD τ).loc main_v53_0) :=
  k1_pay6 (sums1 V c 19 tl1.isLt).1
def var1 (c : Dev nD) : Buf (Elt Ideal) ((c : Thread nD τ).loc main_v53_1) :=
  k1_pay7 (sums1 V c 19 tl1.isLt).1 (sums1 V c 19 tl1.isLt).2

/-- The one write-back of result window 2, at the last point, writes the mean row: block (0, 0) of the [1,128] array
    read through zero offsets is the array. -/
theorem flushed1_2_eq (c : Dev nD) (t : Fin cfg1.N) (hf : (cfg1.win 2).flush t = true) :
    (dat1 V c).flushed 2 t = ((cfg1.win 2).blk t).view.read (Elt Ideal) (mean1 V c) := by
  have hN : cfg1.N = 20 := N_1
  have h19 : t.val = 19 := by have := (flush1_2 t).mp hf; have := t.isLt; omega
  obtain rfl : t = tl1 := Fin.ext h19
  show (cfg1.win 2).cut (grid1.coords tl1) ((dat1 V c).after 2 tl1) = _
  rw [after1_2]
  rw [show (outsAt1 V c tl1.val tl1.isLt).1 = _ from (outsAt1_last V c tl1.isLt).1]
  have hz' : (fun a => win1_2.index tl1 a * main_v53_0.ty.shape.size a) = fun _ => 0 := funext fun a => by fin_cases a <;> decide +kernel
  exact (Memref.read_access_unit_zero (Elt Ideal) main_v53_0 hz' (fun a => by rw [congrFun hz' a]; simp) (mean1 V c)).symm

/-- So that result array ends holding the mean row. -/
theorem final1_2 (c : Dev nD) : (dat1 V c).arrAt 2 cfg1.N = mean1 V c :=
  (dat1 V c).arrAt_eq_of_cover 2 (mean1 V c) (flushed1_2_eq V c) fun i => ⟨tl1, (flush1_2 tl1).mpr rfl, by
      show i ∈ ((View.whole main_v53_0).slice (win1_2.rect tl1)).set
      rw [View.set_slice_whole, Rect.mem_set_unit]
      intro a
      have h0 : (i 0 : Nat) < 1 := (i 0).isLt
      have h1 : (i 1 : Nat) < 128 := (i 1).isLt
      match a with
      | ⟨0, _⟩ => show win1_2.index tl1 0 * win1_2.size 0 ≤ (i 0 : Nat) ∧ (i 0 : Nat) < win1_2.index tl1 0 * win1_2.size 0 + win1_2.xsize (grid1.coords tl1) 0
                  rw [show win1_2.index tl1 0 * win1_2.size 0 = 0 from by decide +kernel, show win1_2.xsize (grid1.coords tl1) 0 = 1 from by decide +kernel]; omega
      | ⟨1, _⟩ => show win1_2.index tl1 1 * win1_2.size 1 ≤ (i 1 : Nat) ∧ (i 1 : Nat) < win1_2.index tl1 1 * win1_2.size 1 + win1_2.xsize (grid1.coords tl1) 1
                  rw [show win1_2.index tl1 1 * win1_2.size 1 = 0 from by decide +kernel, show win1_2.xsize (grid1.coords tl1) 1 = 128 from by decide +kernel]; omega⟩

/-- The one write-back of result window 3, at the last point, writes the var row: block (0, 0) of the [1,128] array
    read through zero offsets is the array. -/
theorem flushed1_3_eq (c : Dev nD) (t : Fin cfg1.N) (hf : (cfg1.win 3).flush t = true) :
    (dat1 V c).flushed 3 t = ((cfg1.win 3).blk t).view.read (Elt Ideal) (var1 V c) := by
  have hN : cfg1.N = 20 := N_1
  have h19 : t.val = 19 := by have := (flush1_3 t).mp hf; have := t.isLt; omega
  obtain rfl : t = tl1 := Fin.ext h19
  show (cfg1.win 3).cut (grid1.coords tl1) ((dat1 V c).after 3 tl1) = _
  rw [after1_3]
  rw [show (outsAt1 V c tl1.val tl1.isLt).2.1 = _ from (outsAt1_last V c tl1.isLt).2]
  have hz' : (fun a => win1_3.index tl1 a * main_v53_1.ty.shape.size a) = fun _ => 0 := funext fun a => by fin_cases a <;> decide +kernel
  exact (Memref.read_access_unit_zero (Elt Ideal) main_v53_1 hz' (fun a => by rw [congrFun hz' a]; simp) (var1 V c)).symm

/-- So that result array ends holding the var row. -/
theorem final1_3 (c : Dev nD) : (dat1 V c).arrAt 3 cfg1.N = var1 V c :=
  (dat1 V c).arrAt_eq_of_cover 3 (var1 V c) (flushed1_3_eq V c) fun i => ⟨tl1, (flush1_3 tl1).mpr rfl, by
      show i ∈ ((View.whole main_v53_1).slice (win1_3.rect tl1)).set
      rw [View.set_slice_whole, Rect.mem_set_unit]
      intro a
      have h0 : (i 0 : Nat) < 1 := (i 0).isLt
      have h1 : (i 1 : Nat) < 128 := (i 1).isLt
      match a with
      | ⟨0, _⟩ => show win1_3.index tl1 0 * win1_3.size 0 ≤ (i 0 : Nat) ∧ (i 0 : Nat) < win1_3.index tl1 0 * win1_3.size 0 + win1_3.xsize (grid1.coords tl1) 0
                  rw [show win1_3.index tl1 0 * win1_3.size 0 = 0 from by decide +kernel, show win1_3.xsize (grid1.coords tl1) 0 = 1 from by decide +kernel]; omega
      | ⟨1, _⟩ => show win1_3.index tl1 1 * win1_3.size 1 ≤ (i 1 : Nat) ∧ (i 1 : Nat) < win1_3.index tl1 1 * win1_3.size 1 + win1_3.xsize (grid1.coords tl1) 1
                  rw [show win1_3.index tl1 1 * win1_3.size 1 = 0 from by decide +kernel, show win1_3.xsize (grid1.coords tl1) 1 = 128 from by decide +kernel]; omega⟩

/-- THE MEAN: the first result array ends holding, at lane j, the sum of z over all rows divided by 100000. -/
theorem val1_mean (c : Dev nD) :
    (dat1 V c).arrAt 2 cfg1.N = fun i => Ideal.div (∑ r : Fin 100000, z1 V c r (i 1)) N1 := by
  rw [final1_2]
  funext i
  obtain ⟨u, j, rfl⟩ : ∃ (u : Fin 1) (j : Fin 128), i = ix2 u j := ⟨i 0, i 1, eq_ix2 i⟩
  obtain rfl : u = 0 := Subsingleton.elim _ _
  show Ideal.div ((sums1 V c 19 tl1.isLt).1 (ix2 (0 : Fin 1) j)) N1 = Ideal.div (∑ r : Fin 100000, z1 V c r j) N1
  rw [total1_fst]

/-- THE VARIANCE: the second ends holding the sum of z*z over all rows divided by 100000, minus the mean's square. -/
theorem val1_var (c : Dev nD) :
    (dat1 V c).arrAt 3 cfg1.N = fun i => Ideal.div (∑ r : Fin 100000, z1 V c r (i 1) * z1 V c r (i 1)) N1
      - Ideal.div (∑ r : Fin 100000, z1 V c r (i 1)) N1 * Ideal.div (∑ r : Fin 100000, z1 V c r (i 1)) N1 := by
  rw [final1_3]
  funext i
  obtain ⟨u, j, rfl⟩ : ∃ (u : Fin 1) (j : Fin 128), i = ix2 u j := ⟨i 0, i 1, eq_ix2 i⟩
  obtain rfl : u = 0 := Subsingleton.elim _ _
  show Ideal.div ((sums1 V c 19 tl1.isLt).2 (ix2 (0 : Fin 1) j)) N1
      - Ideal.div ((sums1 V c 19 tl1.isLt).1 (ix2 (0 : Fin 1) j)) N1 * Ideal.div ((sums1 V c 19 tl1.isLt).1 (ix2 (0 : Fin 1) j)) N1 = _
  rw [total1_fst, total1_snd]
  rfl

end Values

end Cert.KernelIdeal.Hand

end
-- ==== Proof.KI.Val4a.lean ====
/- Region 4: the pieces its three control cases leave, read back as values of the body's arithmetic, and the running
   column sums they give point by point.
   Each case's stores cover the whole row they write, so what a case leaves in a scratch row or a result row is the payload
   of its last store there, whose loads read whole buffers: the first point leaves zero plus block 0's column sums of
   z and of z*z (z = block + bias row), a later point the sums so far plus its block's, and the last point also the mean
   (sum/100000) and the variance (sum of squares/100000 minus the mean's square). Hence the scratch rows after point n
   are a two-component running sum, by induction on the point. -/
import proofs.«171122_j58480274703249_1_alg».proof.Proof.KI.R4
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

theorem hz2_4 : (![0, 0] : Fin 2 → Nat) = fun _ => 0 := funext fun a => by fin_cases a <;> rfl

section Pieces
variable {F : FTy → Type} [FloatOps F]

/-! ## What each case's found pieces are, as values of the body's arithmetic -/

/-- A middle point leaves in scratch row 0 the running column sum plus this block's column sums. -/
theorem sB4_0 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : ¬cond4_0 i) (hc1 : ¬cond4_1 i)
    (x0 : Vec F S5000x128 .f32) (x1 xs0 xs1 : Vec F S1x128 .f32) :
    sout4_B_0 c i a1 h1 a2 h2 a3 h3 a4 h4 a5 h5 a6 h6 hc0 hc1 x0 x1 xs0 xs1 = k4_pay4 x0 x1 xs0 := by
  unfold sout4_B_0
  rw [View.read_writes_eq_canon _ _ _ (scover4_B_0 c i a1 h1 a2 h2 a3 h3 a4 h4 a5 h5 a6 h6 hc0 hc1 x0 x1 xs0 xs1)]
  unfold kernelRun4_B
  dsimp only
  rw [View.canon_unit_zero hz2_4]
  simp only [View.readAt_eq_ld, h1.read_unread, h2.read_unread, h5.read_unread, View.ld_unit_zero (S := S5000x128) hz2_4, View.ld_unit_zero (S := S1x128) hz2_4]

theorem sB4_1 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : ¬cond4_0 i) (hc1 : ¬cond4_1 i)
    (x0 : Vec F S5000x128 .f32) (x1 xs0 xs1 : Vec F S1x128 .f32) :
    sout4_B_1 c i a1 h1 a2 h2 a3 h3 a4 h4 a5 h5 a6 h6 hc0 hc1 x0 x1 xs0 xs1 = k4_pay5 x0 x1 xs1 := by
  unfold sout4_B_1
  rw [View.read_writes_eq_canon _ _ _ (scover4_B_1 c i a1 h1 a2 h2 a3 h3 a4 h4 a5 h5 a6 h6 hc0 hc1 x0 x1 xs0 xs1)]
  unfold kernelRun4_B
  dsimp only
  rw [View.canon_unit_zero hz2_4]
  simp only [View.readAt_eq_ld, h1.read_unread, h2.read_unread, h6.read_unread, View.ld_unit_zero (S := S5000x128) hz2_4, View.ld_unit_zero (S := S1x128) hz2_4]

/-- The first point zeroes the scratch rows, reads the zero row back, and leaves zero plus block 0's column sums. -/
theorem sA4_0 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : cond4_0 i) (hc1 : ¬cond4_1 i)
    (x0 : Vec F S5000x128 .f32) (x1 : Vec F S1x128 .f32) :
    sout4_A_0 c i a1 h1 a2 h2 a3 h3 a4 h4 a5 h5 a6 h6 hc0 hc1 x0 x1 = k4_pay4 x0 x1 k4_pay1 := by
  unfold sout4_A_0
  rw [View.read_writes_eq_canon _ _ _ (scover4_A_0 c i a1 h1 a2 h2 a3 h3 a4 h4 a5 h5 a6 h6 hc0 hc1 x0 x1)]
  unfold kernelRun4_A
  dsimp only
  sl_unfold_words
  rw [View.canon_cons_unit_zero (S := S1x128) hz2_4, View.readCov_unit_zero (S := S1x128) _ hz2_4]
  simp only [View.readAt_eq_ld, h1.read_unread, h2.read_unread, View.ld_unit_zero (S := S5000x128) hz2_4, View.ld_unit_zero (S := S1x128) hz2_4]

theorem sA4_1 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : cond4_0 i) (hc1 : ¬cond4_1 i)
    (x0 : Vec F S5000x128 .f32) (x1 : Vec F S1x128 .f32) :
    sout4_A_1 c i a1 h1 a2 h2 a3 h3 a4 h4 a5 h5 a6 h6 hc0 hc1 x0 x1 = k4_pay5 x0 x1 k4_pay2 := by
  unfold sout4_A_1
  rw [View.read_writes_eq_canon _ _ _ (scover4_A_1 c i a1 h1 a2 h2 a3 h3 a4 h4 a5 h5 a6 h6 hc0 hc1 x0 x1)]
  unfold kernelRun4_A
  dsimp only
  sl_unfold_words
  rw [View.canon_cons_unit_zero (S := S1x128) hz2_4, View.readCov_unit_zero (S := S1x128) _ hz2_4]
  simp only [View.readAt_eq_ld, h1.read_unread, h2.read_unread, View.ld_unit_zero (S := S5000x128) hz2_4, View.ld_unit_zero (S := S1x128) hz2_4]

/-- The last point adds its block's column sums likewise, -/
theorem sC4_0 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : ¬cond4_0 i) (hc1 : cond4_1 i)
    (x0 : Vec F S5000x128 .f32) (x1 xs0 xs1 : Vec F S1x128 .f32) :
    sout4_C_0 c i a1 h1 a2 h2 a3 h3 a4 h4 a5 h5 a6 h6 hc0 hc1 x0 x1 xs0 xs1 = k4_pay4 x0 x1 xs0 := by
  unfold sout4_C_0
  rw [View.read_writes_eq_canon _ _ _ (scover4_C_0 c i a1 h1 a2 h2 a3 h3 a4 h4 a5 h5 a6 h6 hc0 hc1 x0 x1 xs0 xs1)]
  unfold kernelRun4_C
  dsimp only
  sl_unfold_words
  rw [View.canon_unit_zero hz2_4]
  simp only [View.readAt_eq_ld, h1.read_unread, h2.read_unread, h5.read_unread, View.ld_unit_zero (S := S5000x128) hz2_4, View.ld_unit_zero (S := S1x128) hz2_4]

theorem sC4_1 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : ¬cond4_0 i) (hc1 : cond4_1 i)
    (x0 : Vec F S5000x128 .f32) (x1 xs0 xs1 : Vec F S1x128 .f32) :
    sout4_C_1 c i a1 h1 a2 h2 a3 h3 a4 h4 a5 h5 a6 h6 hc0 hc1 x0 x1 xs0 xs1 = k4_pay5 x0 x1 xs1 := by
  unfold sout4_C_1
  rw [View.read_writes_eq_canon _ _ _ (scover4_C_1 c i a1 h1 a2 h2 a3 h3 a4 h4 a5 h5 a6 h6 hc0 hc1 x0 x1 xs0 xs1)]
  unfold kernelRun4_C
  dsimp only
  sl_unfold_words
  rw [View.canon_unit_zero hz2_4]
  simp only [View.readAt_eq_ld, h1.read_unread, h2.read_unread, h6.read_unread, View.ld_unit_zero (S := S5000x128) hz2_4, View.ld_unit_zero (S := S1x128) hz2_4]

/-- and writes the mean from the final column sum, the variance from both final sums. -/
theorem oC4_2 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : ¬cond4_0 i) (hc1 : cond4_1 i)
    (x0 : Vec F S5000x128 .f32) (x1 xs0 xs1 : Vec F S1x128 .f32) :
    out4_C_2 c i a1 h1 a2 h2 a3 h3 a4 h4 a5 h5 a6 h6 hc0 hc1 x0 x1 xs0 xs1 = k4_pay6 (k4_pay4 x0 x1 xs0) := by
  unfold out4_C_2
  rw [View.read_writes_eq_canon _ _ _ (cover4_C_2 c i a1 h1 a2 h2 a3 h3 a4 h4 a5 h5 a6 h6 hc0 hc1 x0 x1 xs0 xs1)]
  unfold kernelRun4_C
  dsimp only
  sl_unfold_words
  rw [View.canon_unit_zero hz2_4, View.readCov_unit_zero (S := S1x128) _ hz2_4]
  simp only [View.readAt_eq_ld, h1.read_unread, h2.read_unread, h5.read_unread, View.ld_unit_zero (S := S5000x128) hz2_4, View.ld_unit_zero (S := S1x128) hz2_4]

theorem oC4_3 (c : Dev nD) (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (hc0 : ¬cond4_0 i) (hc1 : cond4_1 i)
    (x0 : Vec F S5000x128 .f32) (x1 xs0 xs1 : Vec F S1x128 .f32) :
    out4_C_3 c i a1 h1 a2 h2 a3 h3 a4 h4 a5 h5 a6 h6 hc0 hc1 x0 x1 xs0 xs1 = k4_pay7 (k4_pay4 x0 x1 xs0) (k4_pay5 x0 x1 xs1) := by
  unfold out4_C_3
  rw [View.read_writes_eq_canon _ _ _ (cover4_C_3 c i a1 h1 a2 h2 a3 h3 a4 h4 a5 h5 a6 h6 hc0 hc1 x0 x1 xs0 xs1)]
  unfold kernelRun4_C
  dsimp only
  sl_unfold_words
  rw [View.canon_unit_zero hz2_4, View.readCov_unit_zero (S := S1x128) _ hz2_4, View.readCov_unit_zero (S := S1x128) _ hz2_4]
  simp only [View.readAt_eq_ld, h1.read_unread, h2.read_unread, h5.read_unread, h6.read_unread, View.ld_unit_zero (S := S5000x128) hz2_4, View.ld_unit_zero (S := S1x128) hz2_4]

end Pieces

section Sums
variable {F : FTy → Type} [FloatOps F]
variable (V : (c : Dev nD) → (b : Ref sig .tc) → Buf (Elt F) ((c : Thread nD τ).loc b))

/-- The running column sums (of z, of z*z) after point `n`: zero plus block 0's, then one block's per point. -/
def sums4 (c : Dev nD) : (n : ℕ) → n < cfg4.N → Vec F S1x128 .f32 × Vec F S1x128 .f32
  | 0, h => (k4_pay4 (iblk4 V c 0 ⟨0, h⟩) (iblk4 V c 1 ⟨0, h⟩) k4_pay1, k4_pay5 (iblk4 V c 0 ⟨0, h⟩) (iblk4 V c 1 ⟨0, h⟩) k4_pay2)
  | n + 1, h => (k4_pay4 (iblk4 V c 0 ⟨n + 1, h⟩) (iblk4 V c 1 ⟨n + 1, h⟩) (sums4 c n (Nat.lt_of_succ_lt h)).1,
      k4_pay5 (iblk4 V c 0 ⟨n + 1, h⟩) (iblk4 V c 1 ⟨n + 1, h⟩) (sums4 c n (Nat.lt_of_succ_lt h)).2)

theorem sums4_zero (c : Dev nD) (h : 0 < cfg4.N) :
    sums4 V c 0 h = (k4_pay4 (iblk4 V c 0 ⟨0, h⟩) (iblk4 V c 1 ⟨0, h⟩) k4_pay1, k4_pay5 (iblk4 V c 0 ⟨0, h⟩) (iblk4 V c 1 ⟨0, h⟩) k4_pay2) := rfl

theorem sums4_succ (c : Dev nD) (n : ℕ) (h : n + 1 < cfg4.N) :
    sums4 V c (n + 1) h = (k4_pay4 (iblk4 V c 0 ⟨n + 1, h⟩) (iblk4 V c 1 ⟨n + 1, h⟩) (sums4 V c n (Nat.lt_of_succ_lt h)).1,
      k4_pay5 (iblk4 V c 0 ⟨n + 1, h⟩) (iblk4 V c 1 ⟨n + 1, h⟩) (sums4 V c n (Nat.lt_of_succ_lt h)).2) := rfl

/-- The scratch rows after point `n` ARE the running sums — by induction on the point. -/
theorem outsAt4_sums (c : Dev nD) : ∀ (n : ℕ) (h : n < cfg4.N), (outsAt4 V c n h).2.2 = sums4 V c n h
  | 0, h => by
    have e := outsAt4_A V c ⟨0, h⟩ rfl (fun e => absurd e (by decide : ¬(0 : ℕ) = 19))
    rw [show outsAt4 V c 0 h = _ from e]
    dsimp only
    rw [sA4_0, sA4_1]
    rfl
  | n + 1, h => by
    have ih := outsAt4_sums c n (Nat.lt_of_succ_lt h)
    have h0 : ¬(⟨n + 1, h⟩ : Fin cfg4.N).val = 0 := Nat.succ_ne_zero n
    have e1 : (outsAt4 V c ((⟨n + 1, h⟩ : Fin cfg4.N).val - 1) (Nat.lt_of_le_of_lt (Nat.sub_le _ _) (⟨n + 1, h⟩ : Fin cfg4.N).isLt)).2.2
        = sums4 V c n (Nat.lt_of_succ_lt h) := ih
    by_cases h1 : n + 1 = 19
    · rw [show outsAt4 V c (n + 1) h = _ from outsAt4_C V c ⟨n + 1, h⟩ h0 h1]
      dsimp only
      rw [sC4_0, sC4_1]
      exact Prod.ext (congrArg (k4_pay4 _ _) (congrArg Prod.fst e1)) (congrArg (k4_pay5 _ _) (congrArg Prod.snd e1))
    · rw [show outsAt4 V c (n + 1) h = _ from outsAt4_B V c ⟨n + 1, h⟩ h0 h1]
      dsimp only
      rw [sB4_0, sB4_1]
      exact Prod.ext (congrArg (k4_pay4 _ _) (congrArg Prod.fst e1)) (congrArg (k4_pay5 _ _) (congrArg Prod.snd e1))

/-- The last point's result rows: the mean and the variance of the final sums. -/
theorem outsAt4_last (c : Dev nD) (h : 19 < cfg4.N) :
    (outsAt4 V c 19 h).1 = k4_pay6 (sums4 V c 19 h).1
      ∧ (outsAt4 V c 19 h).2.1 = k4_pay7 (sums4 V c 19 h).1 (sums4 V c 19 h).2 := by
  have h0 : ¬(⟨19, h⟩ : Fin cfg4.N).val = 0 := (by decide : ¬(19 : ℕ) = 0)
  have e1 : (outsAt4 V c ((⟨19, h⟩ : Fin cfg4.N).val - 1) (Nat.lt_of_le_of_lt (Nat.sub_le _ _) (⟨19, h⟩ : Fin cfg4.N).isLt)).2.2
      = sums4 V c 18 (Nat.lt_of_succ_lt h) := outsAt4_sums V c 18 _
  rw [show outsAt4 V c 19 h = _ from outsAt4_C V c ⟨19, h⟩ h0 rfl]
  dsimp only
  rw [oC4_2, oC4_3, sums4_succ V c 18 h]
  dsimp only
  exact ⟨congrArg k4_pay6 (congrArg (k4_pay4 _ _) (congrArg Prod.fst e1)),
    congrArg₂ k4_pay7 (congrArg (k4_pay4 _ _) (congrArg Prod.fst e1)) (congrArg (k4_pay5 _ _) (congrArg Prod.snd e1))⟩

end Sums

end Cert.KernelIdeal.Hand

end
-- ==== Proof.KI.Val4.lean ====
/- Region 4: the values it leaves in its two result arrays, at the ideal (extended-real) reading.
   With z r j = x r j + b j (row r of the 100000 x 128 input plus the bias row), the first result array ends holding
   (sum over all rows r of z r j) / 100000 and the second (sum over r of z r j * z r j) / 100000 minus the square of the
   first. The two scratch rows are running sums: point t adds the column sums of its block of 5000 rows, starting from
   zero, so after the last point they hold the sum over the 20 blocks of the block sums; addition on the extended
   reals is commutative and associative, so that is the one sum over the 100000 rows (no finiteness is used). Both
   result windows are written back once, after the last point, and their one block is the whole [1,128] array. -/
import proofs.«171122_j58480274703249_1_alg».proof.Proof.KI.Val4a
import proofs.«171122_j58480274703249_1_alg».proof.Proof.LibBlocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

section Pointwise
open Idealize.ShloMosaic.ValueIdx

/-- The lane reduction's source index over lane `j` at row `k`. -/
theorem lift4_eq (j : Fin 128) (k : Fin 5000) :
    (reduces_S5000x128_S128 : S5000x128.Reduces [0] S128).lift (ix1 j) k = ix2 k j := by
  funext a
  match a with
  | ⟨0, _⟩ => exact Fin.ext rfl
  | ⟨1, _⟩ => exact Fin.ext rfl

/-- z = block + bias row, at row `r`, lane `j`. -/
theorem pay3_4_apply (x0 : Vec Ideal S5000x128 .f32) (x1 : Vec Ideal S1x128 .f32) (r : Fin 5000) (j : Fin 128) :
    (k4_pay3 x0 x1 : FVec Ideal S5000x128 .f32) (ix2 r j) = (x0 (ix2 r j) : EReal) + x1 (ix2 (0 : Fin 1) j) := by
  unfold k4_pay3
  show (shapeCast S5000x128 x0 shapeCasts_S5000x128_S5000x128 (ix2 r j) : EReal)
      + broadcastTo S5000x128 (shapeCast S1x128 x1 shapeCasts_S1x128_S1x128) broadcasts_S1x128_S5000x128 (ix2 r j) = _
  refine congrArg₂ (· + ·) (congrFun (shapeCast_self x0 _) _) ?_
  refine (broadcastTo_1b_ab_apply (shapeCast S1x128 x1 shapeCasts_S1x128_S1x128) broadcasts_S1x128_S5000x128 r j).trans ?_
  exact congrFun (shapeCast_self x1 _) _

/-- The zero row. -/
theorem pay1_4_apply (j : Fin 128) : (k4_pay1 : FVec Ideal S1x128 .f32) (ix2 (0 : Fin 1) j) = (0 : EReal) := by
  unfold k4_pay1
  refine (congrFun (shapeCast_self _ _) _).trans ?_
  exact Ideal.ofBits_zero_f32
theorem pay2_4_apply (j : Fin 128) : (k4_pay2 : FVec Ideal S1x128 .f32) (ix2 (0 : Fin 1) j) = (0 : EReal) := by
  unfold k4_pay2
  refine (congrFun (shapeCast_self _ _) _).trans ?_
  exact Ideal.ofBits_zero_f32

/-- One point's step of the first running sum, at lane `j`: the sum so far plus the block's column sum of z. -/
theorem pay4_4_apply (x0 : Vec Ideal S5000x128 .f32) (x1 acc : Vec Ideal S1x128 .f32) (j : Fin 128) :
    (k4_pay4 x0 x1 acc : FVec Ideal S1x128 .f32) (ix2 (0 : Fin 1) j)
      = (acc (ix2 (0 : Fin 1) j) : EReal) + ∑ r : Fin 5000, ((x0 (ix2 r j) : EReal) + x1 (ix2 (0 : Fin 1) j)) := by
  unfold k4_pay4
  refine (congrFun (shapeCast_self _ _) _).trans ?_
  refine congrArg (fun s : EReal => (acc (ix2 (0 : Fin 1) j) : EReal) + s) ?_
  refine (shapeCast_a_1a_apply _ shapeCasts_S128_S1x128 (0 : Fin 1) j).trans ?_
  refine (Ideal.multiReduction_add_single (k4_pay3 x0 x1) _ reduces_S5000x128_S128 _ _ (ix1 j)).trans ?_
  refine Finset.sum_congr rfl fun r _ => ?_
  rw [lift4_eq j r]
  exact pay3_4_apply x0 x1 r j

/-- One point's step of the second running sum: plus the block's column sum of z*z. -/
theorem pay5_4_apply (x0 : Vec Ideal S5000x128 .f32) (x1 acc : Vec Ideal S1x128 .f32) (j : Fin 128) :
    (k4_pay5 x0 x1 acc : FVec Ideal S1x128 .f32) (ix2 (0 : Fin 1) j)
      = (acc (ix2 (0 : Fin 1) j) : EReal) + ∑ r : Fin 5000, (((x0 (ix2 r j) : EReal) + x1 (ix2 (0 : Fin 1) j)) * ((x0 (ix2 r j) : EReal) + x1 (ix2 (0 : Fin 1) j))) := by
  unfold k4_pay5
  refine (congrFun (shapeCast_self _ _) _).trans ?_
  refine congrArg (fun s : EReal => (acc (ix2 (0 : Fin 1) j) : EReal) + s) ?_
  refine (shapeCast_a_1a_apply _ shapeCasts_S128_S1x128 (0 : Fin 1) j).trans ?_
  refine (Ideal.multiReduction_add_single (mulf (k4_pay3 x0 x1) (k4_pay3 x0 x1)) _ reduces_S5000x128_S128 _ _ (ix1 j)).trans ?_
  refine Finset.sum_congr rfl fun r _ => ?_
  rw [lift4_eq j r]
  exact congrArg₂ (· * ·) (pay3_4_apply x0 x1 r j) (pay3_4_apply x0 x1 r j)

/-- The divisor: the f32 word of 100000. -/
abbrev N4 : EReal := Ideal.ofBits .f32 0x47C35000#32

/-- The mean row from the final sum; the variance row from both. -/
theorem pay6_4_apply (s : Vec Ideal S1x128 .f32) (i : S1x128.Idx) :
    (k4_pay6 s : FVec Ideal S1x128 .f32) i = Ideal.div (s i) N4 := rfl
theorem pay7_4_apply (s q : Vec Ideal S1x128 .f32) (i : S1x128.Idx) :
    (k4_pay7 s q : FVec Ideal S1x128 .f32) i = Ideal.div (q i) N4 - Ideal.div (s i) N4 * Ideal.div (s i) N4 := rfl

end Pointwise

section Values
variable (V : (c : Dev nD) → (b : Ref sig .tc) → Buf (Elt Ideal) ((c : Thread nD τ).loc b))

/-! ## The blocks, read off the arrays -/

/-- The region's input array and its bias row, as the region finds them, as functions into the extended reals. -/
def xin4 (c : Dev nD) : S100000x128.Idx → EReal := V c main_v68
def bias4 (c : Dev nD) : S1x128.Idx → EReal := V c main_v33
theorem xin4_def (c : Dev nD) : xin4 V c = V c main_v68 := rfl
theorem bias4_def (c : Dev nD) : bias4 V c = V c main_v33 := rfl

theorem rows4 : 20 * 5000 = 100000 := rfl

/-- The index maps, decided over the grid: point `t` stages row block `t` of the input and the one bias row. -/
theorem idx4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem idx4_1 : ∀ t : Fin cfg4.N, win4_1.index t (0 : Fin 2) = 0 ∧ win4_1.index t (1 : Fin 2) = 0 :=
  (by decide +kernel : ∀ t : Fin grid4.N, win4_1.index t (0 : Fin 2) = 0 ∧ win4_1.index t (1 : Fin 2) = 0)

/-- Block `t` of the input at (r, j) is the input at row 5000 t + r. -/
theorem iblk4_0_apply (c : Dev nD) (t : Fin cfg4.N) (ht : t.val < 20) (r : Fin 5000) (j : Fin 128) :
    ((iblk4 V c 0 t : Vec Ideal S5000x128 .f32) (ix2 r j) : EReal)
      = xin4 V c (ix2 (LibBlocks.row rows4 ⟨t.val, ht⟩ r) j) := by
  unfold iblk4 xin4
  rw [View.read_apply]
  show (V c main_v68 : S100000x128.Idx → EReal) _ = _
  congr 1
  funext a
  apply Fin.ext
  match a with
  | ⟨0, _⟩ =>
    show win4_0.index t 0 * 5000 + 1 * r.val = 5000 * t.val + r.val
    rw [(idx4_0 t).1]; omega
  | ⟨1, _⟩ =>
    show win4_0.index t 1 * 128 + 1 * j.val = j.val
    rw [(idx4_0 t).2]; omega

/-- The bias window's block is the bias row at every point. -/
theorem iblk4_1_apply (c : Dev nD) (t : Fin cfg4.N) (j : Fin 128) :
    ((iblk4 V c 1 t : Vec Ideal S1x128 .f32) (ix2 (0 : Fin 1) j) : EReal)
      = bias4 V c (ix2 (0 : Fin 1) j) := by
  unfold iblk4 bias4
  rw [View.read_apply]
  show (V c main_v33 : S1x128.Idx → EReal) _ = _
  congr 1
  funext a
  apply Fin.ext
  match a with
  | ⟨0, _⟩ =>
    show win4_1.index t 0 * 1 + 1 * 0 = 0
    rw [(idx4_1 t).1]
  | ⟨1, _⟩ =>
    show win4_1.index t 1 * 128 + 1 * j.val = j.val
    rw [(idx4_1 t).2]; omega

/-! ## The running sums, lane by lane -/

/-- z r j: row `r` of the input plus the bias row, at lane `j`. -/
def z4 (c : Dev nD) (r : Fin 100000) (j : Fin 128) : EReal :=
  xin4 V c (ix2 r j) + bias4 V c (ix2 (0 : Fin 1) j)

theorem z4_def (c : Dev nD) (r : Fin 100000) (j : Fin 128) :
    z4 V c r j = xin4 V c (ix2 r j) + bias4 V c (ix2 (0 : Fin 1) j) := rfl

/-- Block `u`'s column sum of z, and of z*z, at lane `j` (zero past the grid). -/
def bsum4 (c : Dev nD) (j : Fin 128) (u : ℕ) : EReal :=
  if hu : u < 20 then ∑ r : Fin 5000, z4 V c (LibBlocks.row rows4 ⟨u, hu⟩ r) j else 0
def bsq4 (c : Dev nD) (j : Fin 128) (u : ℕ) : EReal :=
  if hu : u < 20 then ∑ r : Fin 5000, z4 V c (LibBlocks.row rows4 ⟨u, hu⟩ r) j * z4 V c (LibBlocks.row rows4 ⟨u, hu⟩ r) j else 0

/-- A block's z at (r, j), read off the arrays. -/
theorem zblk4 (c : Dev nD) (t : Fin cfg4.N) (ht : t.val < 20) (r : Fin 5000) (j : Fin 128)
    (x0 : Vec Ideal S5000x128 .f32) (x1 : Vec Ideal S1x128 .f32) (e0 : x0 = iblk4 V c 0 t) (e1 : x1 = iblk4 V c 1 t) :
    (x0 (ix2 r j) : EReal) + x1 (ix2 (0 : Fin 1) j) = z4 V c (LibBlocks.row rows4 ⟨t.val, ht⟩ r) j := by
  subst e0 e1
  exact congrArg₂ (· + ·) (iblk4_0_apply V c t ht r j) (iblk4_1_apply V c t j)

/-- After point `n` the first running sum at lane `j` is the sum of the first n+1 blocks' column sums of z. -/
theorem sums4_fst (c : Dev nD) (j : Fin 128) : ∀ (n : ℕ) (h : n < cfg4.N),
    ((sums4 V c n h).1 (ix2 (0 : Fin 1) j) : EReal) = ∑ u ∈ Finset.range (n + 1), bsum4 V c j u
  | 0, h => by
    refine (pay4_4_apply (iblk4 V c 0 ⟨0, h⟩) (iblk4 V c 1 ⟨0, h⟩) (k4_pay1 (F := Ideal)) j).trans ?_
    rw [pay1_4_apply, zero_add, Finset.sum_range_one]
    unfold bsum4
    rw [dif_pos (by decide : (0 : ℕ) < 20)]
    exact Finset.sum_congr rfl fun r _ => zblk4 V c ⟨0, h⟩ (by decide : (0 : ℕ) < 20) r j _ _ rfl rfl
  | n + 1, h => by
    have hn : n + 1 < 20 := lt_of_lt_of_eq h N_4
    refine (pay4_4_apply (iblk4 V c 0 ⟨n + 1, h⟩) (iblk4 V c 1 ⟨n + 1, h⟩) (sums4 V c n (Nat.lt_of_succ_lt h)).1 j).trans ?_
    rw [sums4_fst c j n (Nat.lt_of_succ_lt h), Finset.sum_range_succ (bsum4 V c j) (n + 1)]
    refine congrArg _ ?_
    unfold bsum4
    rw [dif_pos hn]
    exact Finset.sum_congr rfl fun r _ => zblk4 V c ⟨n + 1, h⟩ hn r j _ _ rfl rfl

/-- The second likewise, of z*z. -/
theorem sums4_snd (c : Dev nD) (j : Fin 128) : ∀ (n : ℕ) (h : n < cfg4.N),
    ((sums4 V c n h).2 (ix2 (0 : Fin 1) j) : EReal) = ∑ u ∈ Finset.range (n + 1), bsq4 V c j u
  | 0, h => by
    refine (pay5_4_apply (iblk4 V c 0 ⟨0, h⟩) (iblk4 V c 1 ⟨0, h⟩) (k4_pay2 (F := Ideal)) j).trans ?_
    rw [pay2_4_apply, zero_add, Finset.sum_range_one]
    unfold bsq4
    rw [dif_pos (by decide : (0 : ℕ) < 20)]
    exact Finset.sum_congr rfl fun r _ => congrArg₂ (· * ·) (zblk4 V c ⟨0, h⟩ (by decide : (0 : ℕ) < 20) r j _ _ rfl rfl) (zblk4 V c ⟨0, h⟩ (by decide : (0 : ℕ) < 20) r j _ _ rfl rfl)
  | n + 1, h => by
    have hn : n + 1 < 20 := lt_of_lt_of_eq h N_4
    refine (pay5_4_apply (iblk4 V c 0 ⟨n + 1, h⟩) (iblk4 V c 1 ⟨n + 1, h⟩) (sums4 V c n (Nat.lt_of_succ_lt h)).2 j).trans ?_
    rw [sums4_snd c j n (Nat.lt_of_succ_lt h), Finset.sum_range_succ (bsq4 V c j) (n + 1)]
    refine congrArg _ ?_
    unfold bsq4
    rw [dif_pos hn]
    exact Finset.sum_congr rfl fun r _ => congrArg₂ (· * ·) (zblk4 V c ⟨n + 1, h⟩ hn r j _ _ rfl rfl) (zblk4 V c ⟨n + 1, h⟩ hn r j _ _ rfl rfl)

/-- The last point of the grid. -/
abbrev tl4 : Fin cfg4.N := ⟨19, (by rw [show cfg4.N = 20 from N_4]; decide)⟩

/-- After the last point the running sums are the sums over all 100000 rows: twenty block sums regrouped. -/
theorem total4_fst (c : Dev nD) (j : Fin 128) :
    ((sums4 V c 19 tl4.isLt).1 (ix2 (0 : Fin 1) j) : EReal) = ∑ r : Fin 100000, z4 V c r j := by
  rw [sums4_fst V c j 19 tl4.isLt]
  show ∑ u ∈ Finset.range 20, bsum4 V c j u = _
  rw [LibBlocks.sum_range_fin 20 (bsum4 V c j), LibBlocks.sum_rows rows4 (fun r => z4 V c r j)]
  refine Finset.sum_congr rfl fun t _ => ?_
  unfold bsum4
  rw [dif_pos t.isLt]

theorem total4_snd (c : Dev nD) (j : Fin 128) :
    ((sums4 V c 19 tl4.isLt).2 (ix2 (0 : Fin 1) j) : EReal) = ∑ r : Fin 100000, z4 V c r j * z4 V c r j := by
  rw [sums4_snd V c j 19 tl4.isLt]
  show ∑ u ∈ Finset.range 20, bsq4 V c j u = _
  rw [LibBlocks.sum_range_fin 20 (bsq4 V c j), LibBlocks.sum_rows rows4 (fun r => z4 V c r j * z4 V c r j)]
  refine Finset.sum_congr rfl fun t _ => ?_
  unfold bsq4
  rw [dif_pos t.isLt]

/-! ## The result arrays -/

/-- What the last point writes: the mean row and the variance row of the final sums. -/
def mean4 (c : Dev nD) : Buf (Elt Ideal) ((c : Thread nD τ).loc main_v69_0) :=
  k4_pay6 (sums4 V c 19 tl4.isLt).1
def var4 (c : Dev nD) : Buf (Elt Ideal) ((c : Thread nD τ).loc main_v69_1) :=
  k4_pay7 (sums4 V c 19 tl4.isLt).1 (sums4 V c 19 tl4.isLt).2

/-- The one write-back of result window 2, at the last point, writes the mean row: block (0, 0) of the [1,128] array
    read through zero offsets is the array. -/
theorem flushed4_2_eq (c : Dev nD) (t : Fin cfg4.N) (hf : (cfg4.win 2).flush t = true) :
    (dat4 V c).flushed 2 t = ((cfg4.win 2).blk t).view.read (Elt Ideal) (mean4 V c) := by
  have hN : cfg4.N = 20 := N_4
  have h19 : t.val = 19 := by have := (flush4_2 t).mp hf; have := t.isLt; omega
  obtain rfl : t = tl4 := Fin.ext h19
  show (cfg4.win 2).cut (grid4.coords tl4) ((dat4 V c).after 2 tl4) = _
  rw [after4_2]
  rw [show (outsAt4 V c tl4.val tl4.isLt).1 = _ from (outsAt4_last V c tl4.isLt).1]
  have hz' : (fun a => win4_2.index tl4 a * main_v69_0.ty.shape.size a) = fun _ => 0 := funext fun a => by fin_cases a <;> decide +kernel
  exact (Memref.read_access_unit_zero (Elt Ideal) main_v69_0 hz' (fun a => by rw [congrFun hz' a]; simp) (mean4 V c)).symm

/-- So that result array ends holding the mean row. -/
theorem final4_2 (c : Dev nD) : (dat4 V c).arrAt 2 cfg4.N = mean4 V c :=
  (dat4 V c).arrAt_eq_of_cover 2 (mean4 V c) (flushed4_2_eq V c) fun i => ⟨tl4, (flush4_2 tl4).mpr rfl, by
      show i ∈ ((View.whole main_v69_0).slice (win4_2.rect tl4)).set
      rw [View.set_slice_whole, Rect.mem_set_unit]
      intro a
      have h0 : (i 0 : Nat) < 1 := (i 0).isLt
      have h1 : (i 1 : Nat) < 128 := (i 1).isLt
      match a with
      | ⟨0, _⟩ => show win4_2.index tl4 0 * win4_2.size 0 ≤ (i 0 : Nat) ∧ (i 0 : Nat) < win4_2.index tl4 0 * win4_2.size 0 + win4_2.xsize (grid4.coords tl4) 0
                  rw [show win4_2.index tl4 0 * win4_2.size 0 = 0 from by decide +kernel, show win4_2.xsize (grid4.coords tl4) 0 = 1 from by decide +kernel]; omega
      | ⟨1, _⟩ => show win4_2.index tl4 1 * win4_2.size 1 ≤ (i 1 : Nat) ∧ (i 1 : Nat) < win4_2.index tl4 1 * win4_2.size 1 + win4_2.xsize (grid4.coords tl4) 1
                  rw [show win4_2.index tl4 1 * win4_2.size 1 = 0 from by decide +kernel, show win4_2.xsize (grid4.coords tl4) 1 = 128 from by decide +kernel]; omega⟩

/-- The one write-back of result window 3, at the last point, writes the var row: block (0, 0) of the [1,128] array
    read through zero offsets is the array. -/
theorem flushed4_3_eq (c : Dev nD) (t : Fin cfg4.N) (hf : (cfg4.win 3).flush t = true) :
    (dat4 V c).flushed 3 t = ((cfg4.win 3).blk t).view.read (Elt Ideal) (var4 V c) := by
  have hN : cfg4.N = 20 := N_4
  have h19 : t.val = 19 := by have := (flush4_3 t).mp hf; have := t.isLt; omega
  obtain rfl : t = tl4 := Fin.ext h19
  show (cfg4.win 3).cut (grid4.coords tl4) ((dat4 V c).after 3 tl4) = _
  rw [after4_3]
  rw [show (outsAt4 V c tl4.val tl4.isLt).2.1 = _ from (outsAt4_last V c tl4.isLt).2]
  have hz' : (fun a => win4_3.index tl4 a * main_v69_1.ty.shape.size a) = fun _ => 0 := funext fun a => by fin_cases a <;> decide +kernel
  exact (Memref.read_access_unit_zero (Elt Ideal) main_v69_1 hz' (fun a => by rw [congrFun hz' a]; simp) (var4 V c)).symm

/-- So that result array ends holding the var row. -/
theorem final4_3 (c : Dev nD) : (dat4 V c).arrAt 3 cfg4.N = var4 V c :=
  (dat4 V c).arrAt_eq_of_cover 3 (var4 V c) (flushed4_3_eq V c) fun i => ⟨tl4, (flush4_3 tl4).mpr rfl, by
      show i ∈ ((View.whole main_v69_1).slice (win4_3.rect tl4)).set
      rw [View.set_slice_whole, Rect.mem_set_unit]
      intro a
      have h0 : (i 0 : Nat) < 1 := (i 0).isLt
      have h1 : (i 1 : Nat) < 128 := (i 1).isLt
      match a with
      | ⟨0, _⟩ => show win4_3.index tl4 0 * win4_3.size 0 ≤ (i 0 : Nat) ∧ (i 0 : Nat) < win4_3.index tl4 0 * win4_3.size 0 + win4_3.xsize (grid4.coords tl4) 0
                  rw [show win4_3.index tl4 0 * win4_3.size 0 = 0 from by decide +kernel, show win4_3.xsize (grid4.coords tl4) 0 = 1 from by decide +kernel]; omega
      | ⟨1, _⟩ => show win4_3.index tl4 1 * win4_3.size 1 ≤ (i 1 : Nat) ∧ (i 1 : Nat) < win4_3.index tl4 1 * win4_3.size 1 + win4_3.xsize (grid4.coords tl4) 1
                  rw [show win4_3.index tl4 1 * win4_3.size 1 = 0 from by decide +kernel, show win4_3.xsize (grid4.coords tl4) 1 = 128 from by decide +kernel]; omega⟩

/-- THE MEAN: the first result array ends holding, at lane j, the sum of z over all rows divided by 100000. -/
theorem val4_mean (c : Dev nD) :
    (dat4 V c).arrAt 2 cfg4.N = fun i => Ideal.div (∑ r : Fin 100000, z4 V c r (i 1)) N4 := by
  rw [final4_2]
  funext i
  obtain ⟨u, j, rfl⟩ : ∃ (u : Fin 1) (j : Fin 128), i = ix2 u j := ⟨i 0, i 1, eq_ix2 i⟩
  obtain rfl : u = 0 := Subsingleton.elim _ _
  show Ideal.div ((sums4 V c 19 tl4.isLt).1 (ix2 (0 : Fin 1) j)) N4 = Ideal.div (∑ r : Fin 100000, z4 V c r j) N4
  rw [total4_fst]

/-- THE VARIANCE: the second ends holding the sum of z*z over all rows divided by 100000, minus the mean's square. -/
theorem val4_var (c : Dev nD) :
    (dat4 V c).arrAt 3 cfg4.N = fun i => Ideal.div (∑ r : Fin 100000, z4 V c r (i 1) * z4 V c r (i 1)) N4
      - Ideal.div (∑ r : Fin 100000, z4 V c r (i 1)) N4 * Ideal.div (∑ r : Fin 100000, z4 V c r (i 1)) N4 := by
  rw [final4_3]
  funext i
  obtain ⟨u, j, rfl⟩ : ∃ (u : Fin 1) (j : Fin 128), i = ix2 u j := ⟨i 0, i 1, eq_ix2 i⟩
  obtain rfl : u = 0 := Subsingleton.elim _ _
  show Ideal.div ((sums4 V c 19 tl4.isLt).2 (ix2 (0 : Fin 1) j)) N4
      - Ideal.div ((sums4 V c 19 tl4.isLt).1 (ix2 (0 : Fin 1) j)) N4 * Ideal.div ((sums4 V c 19 tl4.isLt).1 (ix2 (0 : Fin 1) j)) N4 = _
  rw [total4_fst, total4_snd]
  rfl

end Values

end Cert.KernelIdeal.Hand

end
-- ==== Proof.KI.StageR.lean ====
/- The two statistics regions' results, read through the run.
   The first statistics region is entered with the first layer's aggregated product A in its input array and the
   bias row b1 (laid out as a one-row table by the first host stretch, and untouched since) in its bias array; it leaves
   in its two result arrays the column mean and the mean-of-squares variance of z = A + b1. The second statistics
   region likewise, of the second layer's aggregated product and the bias row b2. Each is the region's value lemma,
   with the region's arrays read where the run last wrote them. -/
import proofs.«171122_j58480274703249_1_alg».proof.Proof.KI.Keep
import proofs.«171122_j58480274703249_1_alg».proof.Proof.KI.HostRead
import proofs.«171122_j58480274703249_1_alg».proof.Proof.KI.Val1
import proofs.«171122_j58480274703249_1_alg».proof.Proof.KI.Val4
import proofs.«171122_j58480274703249_1_alg».proof.Proof.Bridge.KerForms

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx Cert.ReferenceIdeal.Hand Cert.Bridge

variable (m : (ℓ : Loc nD τ sig) → Buf (Elt Ideal) ℓ) (c : Dev nD)

/-! ## The first statistics region -/

/-- Its bias array at entry is the bias row the first host stretch laid out. -/
theorem bias1_at_entry : bias1 (V5 m) c = (W3 m c (Proc.devRef .tc main_v32) : Row2) :=
  (keep5 m c main_v32 (by decide)).trans (keep4 m c main_v32 (by decide))

theorem st_mu1 (A : Arr) (hA : (W5 m c (Proc.devRef .tc main_v52) : Arr) = A) (j : Fin 128) :
    (W6 m c (Proc.devRef .tc main_v53_0) : Row2) (ix2 0 j) = kMean (refBias A (W0 m c (Proc.devRef .tc main_arg3))) j := by
  have e := congrFun ((stepW_arr (p := 1) (dat1 (V5 m)) (W5 m) launch1 c 2).trans (val1_mean (V5 m) c)) (ix2 0 j)
  refine e.trans ?_
  have hx : xin1 (V5 m) c = A := hA
  show Ideal.div (∑ r : Fin 100000, (xin1 (V5 m) c (ix2 r j) + bias1 (V5 m) c (ix2 (0 : Fin 1) j))) (Ideal.ofBits .f32 0x47C35000#32) = _
  rw [hx, bias1_at_entry m c]
  exact mean_form A (W3 m c (Proc.devRef .tc main_v32)) (W0 m c (Proc.devRef .tc main_arg3)) (read_b1_at m c) j

theorem st_var1 (A : Arr) (hA : (W5 m c (Proc.devRef .tc main_v52) : Arr) = A) (j : Fin 128) :
    (W6 m c (Proc.devRef .tc main_v53_1) : Row2) (ix2 0 j) = kVar (refBias A (W0 m c (Proc.devRef .tc main_arg3))) j := by
  have e := congrFun ((stepW_arr (p := 1) (dat1 (V5 m)) (W5 m) launch1 c 3).trans (val1_var (V5 m) c)) (ix2 0 j)
  refine e.trans ?_
  have hx : xin1 (V5 m) c = A := hA
  show Ideal.div (∑ r : Fin 100000, (xin1 (V5 m) c (ix2 r j) + bias1 (V5 m) c (ix2 (0 : Fin 1) j)) * (xin1 (V5 m) c (ix2 r j) + bias1 (V5 m) c (ix2 (0 : Fin 1) j))) (Ideal.ofBits .f32 0x47C35000#32)
      - Ideal.div (∑ r : Fin 100000, (xin1 (V5 m) c (ix2 r j) + bias1 (V5 m) c (ix2 (0 : Fin 1) j))) (Ideal.ofBits .f32 0x47C35000#32)
        * Ideal.div (∑ r : Fin 100000, (xin1 (V5 m) c (ix2 r j) + bias1 (V5 m) c (ix2 (0 : Fin 1) j))) (Ideal.ofBits .f32 0x47C35000#32) = _
  rw [hx, bias1_at_entry m c]
  exact var_form A (W3 m c (Proc.devRef .tc main_v32)) (W0 m c (Proc.devRef .tc main_arg3)) (read_b1_at m c) j

/-! ## The second statistics region -/

theorem bias4_at_entry : bias4 (V9 m) c = (W3 m c (Proc.devRef .tc main_v33) : Row2) :=
  (keep9 m c main_v33 (by decide)).trans <| (keep8 m c main_v33 (by decide)).trans <| (keep7 m c main_v33 (by decide)).trans <|
    (keep6 m c main_v33 (by decide)).trans <| (keep5 m c main_v33 (by decide)).trans (keep4 m c main_v33 (by decide))

theorem st_mu2 (A : Arr) (hA : (W9 m c (Proc.devRef .tc main_v68) : Arr) = A) (j : Fin 128) :
    (W10 m c (Proc.devRef .tc main_v69_0) : Row2) (ix2 0 j) = kMean (refBias A (W0 m c (Proc.devRef .tc main_arg5))) j := by
  have e := congrFun ((stepW_arr (p := 4) (dat4 (V9 m)) (W9 m) launch4 c 2).trans (val4_mean (V9 m) c)) (ix2 0 j)
  refine e.trans ?_
  have hx : xin4 (V9 m) c = A := hA
  show Ideal.div (∑ r : Fin 100000, (xin4 (V9 m) c (ix2 r j) + bias4 (V9 m) c (ix2 (0 : Fin 1) j))) (Ideal.ofBits .f32 0x47C35000#32) = _
  rw [hx, bias4_at_entry m c]
  exact mean_form A (W3 m c (Proc.devRef .tc main_v33)) (W0 m c (Proc.devRef .tc main_arg5)) (read_b2_at m c) j

theorem st_var2 (A : Arr) (hA : (W9 m c (Proc.devRef .tc main_v68) : Arr) = A) (j : Fin 128) :
    (W10 m c (Proc.devRef .tc main_v69_1) : Row2) (ix2 0 j) = kVar (refBias A (W0 m c (Proc.devRef .tc main_arg5))) j := by
  have e := congrFun ((stepW_arr (p := 4) (dat4 (V9 m)) (W9 m) launch4 c 3).trans (val4_var (V9 m) c)) (ix2 0 j)
  refine e.trans ?_
  have hx : xin4 (V9 m) c = A := hA
  show Ideal.div (∑ r : Fin 100000, (xin4 (V9 m) c (ix2 r j) + bias4 (V9 m) c (ix2 (0 : Fin 1) j)) * (xin4 (V9 m) c (ix2 r j) + bias4 (V9 m) c (ix2 (0 : Fin 1) j))) (Ideal.ofBits .f32 0x47C35000#32)
      - Ideal.div (∑ r : Fin 100000, (xin4 (V9 m) c (ix2 r j) + bias4 (V9 m) c (ix2 (0 : Fin 1) j))) (Ideal.ofBits .f32 0x47C35000#32)
        * Ideal.div (∑ r : Fin 100000, (xin4 (V9 m) c (ix2 r j) + bias4 (V9 m) c (ix2 (0 : Fin 1) j))) (Ideal.ofBits .f32 0x47C35000#32) = _
  rw [hx, bias4_at_entry m c]
  exact var_form A (W3 m c (Proc.devRef .tc main_v33)) (W0 m c (Proc.devRef .tc main_arg5)) (read_b2_at m c) j

end Cert.KernelIdeal.Hand

end
-- ==== Proof.KI.Value.lean ====
/-
  The kernel program's result as one function of its arguments.

  Product, aggregation, bias and statistics, normalise-and-rectify — twice — then product, aggregation and bias: the
  stages composed.  The result is the three-layer network in the kernel's spelling (the variance as mean of squares
  minus squared mean), over the aggregation the host stretches compute.
-/
import proofs.«171122_j58480274703249_1_alg».proof.Proof.KI.StageAgg
import proofs.«171122_j58480274703249_1_alg».proof.Proof.KI.StageA
import proofs.«171122_j58480274703249_1_alg».proof.Proof.KI.StageR

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx Cert.ReferenceIdeal.Hand Cert.Bridge

variable (m : (ℓ : Loc nD τ sig) → Buf (Elt Ideal) ℓ) (c : Dev nD)

theorem kernel_value :
    (W14 m c (Proc.devRef .tc main_v85) : Arr)
      = KerNet (kerAgg (F := Ideal) (W0 m c (Proc.devRef .tc main_arg1)))
          (W0 m c (Proc.devRef .tc main_arg0)) (W0 m c (Proc.devRef .tc main_arg2)) (W0 m c (Proc.devRef .tc main_arg3))
          (W0 m c (Proc.devRef .tc main_arg4)) (W0 m c (Proc.devRef .tc main_arg5)) (W0 m c (Proc.devRef .tc main_arg6))
          (W0 m c (Proc.devRef .tc main_arg7)) (W0 m c (Proc.devRef .tc main_arg8)) (W0 m c (Proc.devRef .tc main_arg9))
          (W0 m c (Proc.devRef .tc main_arg10)) (W0 m c (Proc.devRef .tc main_arg11)) := by
  have h1 := st_mm1 m c
  have a1 := st_agg1 m c _ h1
  have y1 := st_bn1 m c _ a1 (st_mu1 m c _ a1) (st_var1 m c _ a1)
  have h2 := st_mm2 m c _ y1
  have a2 := st_agg2 m c _ h2
  have y2 := st_bn2 m c _ a2 (st_mu2 m c _ a2) (st_var2 m c _ a2)
  have h3 := st_mm3 m c _ y2
  have a3 := st_agg3 m c _ h3
  exact st_out m c _ a3

end Cert.KernelIdeal.Hand

end
-- ==== Proof.Ref.Net.lean ====
/- The reference network as one function of its twelve arguments.
   The graph part is kept as the composition of host operations the program applies, unread:
   the edge list's two rows with the 100000 self loops appended (refSrc, refDst), jnp's wrap of a
   negative index (refWrap), the degree as a scatter-add of ones over the targets (refDeg), its
   guarded reciprocal square root (refDis), the edge weight dis[src] * dis[dst] (refNorm), and
   the aggregation of a layer's product: gather its rows at the sources, scale each by the edge
   weight, scatter-add into zeros at the targets (refAgg).
   The dense part is the index-level forms: three layers  z = refAgg (h W) + b, the first two
   followed by batch normalization and the rectifier (RefNet). -/
import proofs.«171122_j58480274703249_1_alg».proof.Proof.Gen.ReferenceIdeal
import proofs.«171122_j58480274703249_1_alg».proof.Proof.Ref.Forms

noncomputable section

namespace Cert.ReferenceIdeal.Hand

open Cert.ReferenceIdeal Cert.ReferenceIdeal.Gen Idealize.ShloMosaic

variable {F : FTy → Type} [FloatOps F]

/-- The sources: row 0 of the edge list, flattened, with the self loops 0 … 99999 appended. -/
def refSrc (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets: row 1 of the edge list, flattened, with the self loops appended. -/
def refDst (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative index has 100000 added (the wrap jnp applies before a gather). -/
def refWrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- An index list as the one-column index array a gather or scatter takes. -/
def refCol (v : IVec S1700000 32) : IVec S1700000x1 32 :=
  broadcastInDim S1700000x1 ![0] bcast_S1700000_S1700000x1_0 v

/-- The degree: ones scatter-added into zeros at the targets. -/
def refDeg (ei : IVec S2x1600000 32) : FVec F S100000 .f32 :=
  Host.scatterAdd scatter_S100000_S1700000x1_S1700000_n_0_0_1
    (broadcastInDim S100000 ![] bcast_S_S100000 (constant S_ .f32 0x00000000#32))
    (refCol (refDst ei))
    (broadcastInDim S1700000 ![] bcast_S_S1700000 (constant S_ .f32 0x3F800000#32))

/-- Where the degree is positive the reciprocal square root of max (degree, 1), elsewhere 0. -/
def refDis (ei : IVec S2x1600000 32) : FVec F S100000 .f32 :=
  select (cmpf .ogt (refDeg (F := F) ei) (broadcastInDim S100000 ![] bcast_S_S100000 (constant S_ .f32 0x00000000#32)))
    (Host.rsqrt (maximumf (refDeg (F := F) ei) (broadcastInDim S100000 ![] bcast_S_S100000 (constant S_ .f32 0x3F800000#32))))
    (broadcastInDim S100000 ![] bcast_S_S100000 (constant S_ .f32 0x00000000#32))

/-- The edge weight: dis at the source times dis at the target. -/
def refNorm (ei : IVec S2x1600000 32) : FVec F S1700000 .f32 :=
  mulf (Host.gather gather_S100000_S1700000x1_S1700000_n_0_n_n_0_1_1 (refDis (F := F) ei) (refCol (refWrap (refSrc ei))))
    (Host.gather gather_S100000_S1700000x1_S1700000_n_0_n_n_0_1_1 (refDis (F := F) ei) (refCol (refWrap (refDst ei))))

/-- The aggregation of a layer's product `hw`: its rows gathered at the sources, each scaled by its
    edge weight, scatter-added into zeros at the targets. -/
def refAgg (ei : IVec S2x1600000 32) (hw : FVec F S100000x128 .f32) : FVec F S100000x128 .f32 :=
  Host.scatterAdd scatter_S100000x128_S1700000x1_S1700000x128_1_0_0_1
    (broadcastInDim S100000x128 ![] bcast_S_S100000x128 (constant S_ .f32 0x00000000#32))
    (refCol (refDst ei))
    (mulf (Host.gather gather_S100000x128_S1700000x1_S1700000x128_1_0_n_n_0_1_1128 hw (refCol (refWrap (refSrc ei))))
      (broadcastInDim S1700000x128 ![0, 1] bcast_S1700000x1_S1700000x128_0_1
        (broadcastInDim S1700000x1 ![0] bcast_S1700000_S1700000x1_0 (refNorm (F := F) ei))))

/-- One graph convolution: the aggregated product plus the bias row. -/
def refConv (ei : IVec S2x1600000 32) (h : Arr) (w : Mat) (b : Row) : Arr :=
  refBias (refAgg (F := Ideal) ei (refMM h w)) b

/-- The reference network: three graph convolutions, the first two followed by batch normalization
    and the rectifier. -/
def RefNet (x : Arr) (ei : IVec S2x1600000 32) (W1 : Mat) (b1 : Row) (W2 : Mat) (b2 : Row) (W3 : Mat) (b3 : Row)
    (g1 be1 g2 be2 : Row) : Arr :=
  refConv ei (refRelu (refBN (refConv ei (refRelu (refBN (refConv ei x W1 b1) g1 be1)) W2 b2) g2 be2)) W3 b3

end Cert.ReferenceIdeal.Hand

end
-- ==== Proof.Ref.Dense.lean ====
/- The reference's dense stages, read at an index.
   Each dense stage of the reference is a composition of host operations on whole arrays: a
   row broadcast over the rows (hBc), a literal as a row (hLit), the column sum with initial
   value 0 (hSum), the column mean and biased variance as quotients by the literal 100000
   (hMean, hVar), batch normalization (hBN), the rectifier (hRelu), the product (hMM) and one
   graph convolution (hConv).  Read at an index each is the index-level form of the same name:
   a broadcast row at (r, c) is the row at c; a column sum at c is 0 plus the sum over the rows
   r of the array at (r, c); the product at (r, c) is the sum over k of h (r, k) * w (k, c).
   The program's stages are these compositions verbatim, so the result is RefNet of the twelve
   arguments. -/
import proofs.«171122_j58480274703249_1_alg».proof.Proof.Ref.ReadP
import proofs.«171122_j58480274703249_1_alg».proof.Proof.Ref.Net

noncomputable section

open scoped BigOperators

namespace Cert.ReferenceIdeal.Hand

open Cert.ReferenceIdeal Cert.ReferenceIdeal.Gen Cert.ReferenceIdeal.ReadP Idealize.ShloMosaic Idealize.ShloMosaic.ValueIdx

local notation "𝔸" => FVec Ideal S100000x128 FTy.f32
local notation "𝕄" => FVec Ideal S128x128 FTy.f32
local notation "𝕍" => FVec Ideal S128 FTy.f32
local notation "𝔼" => IVec S2x1600000 32

/-! ## The stages as compositions of host operations -/

/-- A row broadcast over the 100000 rows. -/
def hBc (r : 𝕍) : 𝔸 :=
  broadcastInDim S100000x128 ![0, 1] bcast_S1x128_S100000x128_0_1 (broadcastInDim S1x128 ![1] bcast_S128_S1x128_1 r)

/-- A float literal as a row. -/
def hLit (b : BitVec 32) : 𝕍 :=
  broadcastInDim S128 ![] bcast_S_S128 (constant (F := Ideal) S_ .f32 b)

/-- The column sums, from the initial value 0. -/
def hSum (z : 𝔸) : 𝕍 :=
  Host.reduceAdd z (constant (F := Ideal) S_ .f32 0x00000000#32) reducesTo_S100000x128_S128_d0 h_S_

/-- The column means: the column sums divided by the literal 100000. -/
def hMean (z : 𝔸) : 𝕍 :=
  Host.divf (hSum z) (hLit 0x47C35000#32)

/-- The biased column variances: the column sums of the squared deviations from the column means,
    divided by the literal 100000. -/
def hVar (z : 𝔸) : 𝕍 :=
  Host.divf (hSum (mulf (subf z (hBc (hMean z))) (subf z (hBc (hMean z))))) (hLit 0x47C35000#32)

/-- Batch normalization with scale `g` and shift `be`. -/
def hBN (z : 𝔸) (g be : 𝕍) : 𝔸 :=
  addf (mulf (mulf (subf z (hBc (hMean z))) (hBc (Host.rsqrt (addf (hVar z) (hLit 0x3727C5AC#32))))) (hBc g)) (hBc be)

/-- The rectifier: the maximum with the literal 0 broadcast to the whole array. -/
def hRelu (y : 𝔸) : 𝔸 :=
  maximumf y (broadcastInDim S100000x128 ![] bcast_S_S100000x128 (constant (F := Ideal) S_ .f32 0x00000000#32))

/-- The product of a [100000, 128] array and a [128, 128] matrix. -/
def hMM (h : 𝔸) (w : 𝕄) : 𝔸 :=
  Host.dotGeneral dot_S100000x128_S128x128_S100000x128_1_0_0_1_n_n none h w

/-- One graph convolution: the aggregated product plus the bias row. -/
def hConv (ei : 𝔼) (h : 𝔸) (w : 𝕄) (b : 𝕍) : 𝔸 :=
  addf (refAgg (F := Ideal) ei (hMM h w)) (hBc b)

/-! ## Each composition read at an index -/

/-- A broadcast row at (r, c) is the row at c. -/
theorem hBc_apply (r : 𝕍) (i : S100000x128.Idx) : hBc r i = r (ix1 (i 1)) := by
  show val_main_v47 (F := Ideal) r i = _
  rw [val_main_v47_apply, val_main_v46_apply]
  exact congrArg r (funext fun a => Fin.ext (by match a with | ⟨0, _⟩ => rfl))

/-- A literal row is the literal at every column. -/
theorem hLit_apply (b : BitVec 32) (j : S128.Idx) : hLit b j = Ideal.ofBits .f32 b := by
  unfold hLit
  exact broadcastInDim_apply _ bcast_S_S128 (constant (F := Ideal) S_ .f32 b) j (fun a => a.elim0) (fun a => a.elim0)

/-- The column sum at c is 0 plus the sum over the rows r of the array at (r, c). -/
theorem hSum_apply (z : 𝔸) (j : S128.Idx) : hSum z j = 0 + ∑ r : Fin 100000, z (ix2 r (j 0)) := by
  unfold hSum
  simp only [Host.reduceAdd, Ideal.hostReduceAdd_def]
  rw [Ideal.hostReduceAdd_single reducesTo_S100000x128_S128_d0 (by decide)]
  refine congrArg₂ (· + ·) ofBits_zero (Finset.sum_congr rfl fun k _ => ?_)
  exact congrArg z (funext fun a => Fin.ext (by match a with | ⟨0, _⟩ => rfl | ⟨1, _⟩ => rfl))

/-- The column means are the index-level form. -/
theorem hMean_eq (z : 𝔸) : hMean z = refMean z := by
  funext j
  show Ideal.div (hSum z j) (hLit 0x47C35000#32 j) = _
  rw [hSum_apply, hLit_apply]
  rfl

/-- The column variances are the index-level form. -/
theorem hVar_eq (z : 𝔸) : hVar z = refVar z := by
  funext j
  have hb : ∀ r : Fin 100000, hBc (refMean z) (ix2 r (j 0)) = refMean z j := fun r => by
    rw [hBc_apply]
    exact congrArg (refMean z) (eq_ix1 j).symm
  show Ideal.div (hSum (mulf (subf z (hBc (hMean z))) (subf z (hBc (hMean z)))) j) (hLit 0x47C35000#32 j) = _
  rw [hSum_apply, hLit_apply, hMean_eq]
  show Ideal.div (0 + ∑ r : Fin 100000, (z (ix2 r (j 0)) - hBc (refMean z) (ix2 r (j 0))) * (z (ix2 r (j 0)) - hBc (refMean z) (ix2 r (j 0)))) _ = _
  simp only [hb]
  rfl

/-- Batch normalization is the index-level form. -/
theorem hBN_eq (z : 𝔸) (g be : 𝕍) : hBN z g be = refBN z g be := by
  funext i
  show (z i - hBc (hMean z) i) * hBc (Host.rsqrt (addf (hVar z) (hLit 0x3727C5AC#32))) i * hBc g i + hBc be i = _
  simp only [hBc_apply, hMean_eq, hVar_eq]
  show (z i - refMean z (ix1 (i 1))) * Ideal.rsqrt (refVar z (ix1 (i 1)) + hLit 0x3727C5AC#32 (ix1 (i 1))) * g (ix1 (i 1)) + be (ix1 (i 1)) = _
  rw [hLit_apply]
  rfl

/-- The rectifier is the maximum with 0. -/
theorem hRelu_eq (y : 𝔸) : hRelu y = refRelu y := by
  funext i
  show max (y i) (Ideal.ofBits .f32 0x00000000#32) = _
  rw [ofBits_zero]
  rfl

/-- The product at (r, c) is the sum over k of h (r, k) * w (k, c). -/
theorem hMM_eq (h : 𝔸) (w : 𝕄) : hMM h w = refMM h w := by
  funext i
  show val_main_v32 (F := Ideal) h w i = _
  rw [val_main_v32_apply]
  refine Finset.sum_congr rfl fun k _ => ?_
  have el : lidx_main_v32 i k = ix2 (i 0) k :=
    funext fun a => Fin.ext (by match a with | ⟨0, _⟩ => rfl | ⟨1, _⟩ => rfl)
  have er : ridx_main_v32 i k = ix2 k (i 1) :=
    funext fun a => Fin.ext (by match a with | ⟨0, _⟩ => rfl | ⟨1, _⟩ => rfl)
  rw [el, er]
  rfl

/-- One graph convolution is the index-level form over the aggregation. -/
theorem hConv_eq (ei : 𝔼) (h : 𝔸) (w : 𝕄) (b : 𝕍) : hConv ei h w b = refConv ei h w b := by
  unfold hConv refConv refBias
  rw [hMM_eq]
  funext i
  rw [addf_apply, hBc_apply]

/-! ## The program's stages are these compositions -/

section Stages

variable (x0 : 𝔸) (x1 : 𝔼) (x2 : 𝕄) (x3 : 𝕍) (x4 : 𝕄) (x5 : 𝕍) (x6 : 𝕄) (x7 x8 x9 x10 x11 : 𝕍)

/-- The first convolution. -/
theorem stage48 : val_main_v48 (F := Ideal) x0 x1 x2 x3 = hConv x1 x0 x2 x3 := rfl

/-- The first normalization and rectifier. -/
theorem stage74 : val_main_v74 (F := Ideal) x0 x1 x2 x3 x8 x9
    = hRelu (hBN (val_main_v48 (F := Ideal) x0 x1 x2 x3) x8 x9) := rfl

/-- The second convolution. -/
theorem stage91 : val_main_v91 (F := Ideal) x0 x1 x2 x3 x4 x5 x8 x9
    = hConv x1 (val_main_v74 (F := Ideal) x0 x1 x2 x3 x8 x9) x4 x5 := rfl

/-- The second normalization and rectifier. -/
theorem stage117 : val_main_v117 (F := Ideal) x0 x1 x2 x3 x4 x5 x8 x9 x10 x11
    = hRelu (hBN (val_main_v91 (F := Ideal) x0 x1 x2 x3 x4 x5 x8 x9) x10 x11) := rfl

/-- The third convolution, the result. -/
theorem stage134 : val_main_v134 (F := Ideal) x0 x1 x2 x3 x4 x5 x6 x7 x8 x9 x10 x11
    = hConv x1 (val_main_v117 (F := Ideal) x0 x1 x2 x3 x4 x5 x8 x9 x10 x11) x6 x7 := rfl

/-- The reference's result is `RefNet` of its twelve arguments. -/
theorem result_eq : val_main_v134 (F := Ideal) x0 x1 x2 x3 x4 x5 x6 x7 x8 x9 x10 x11
    = RefNet x0 x1 x2 x3 x4 x5 x6 x7 x8 x9 x10 x11 := by
  rw [stage134, stage117, stage91, stage74, stage48]
  simp only [hConv_eq, hBN_eq, hRelu_eq]
  rfl

end Stages

end Cert.ReferenceIdeal.Hand

end
-- ==== Proof.Ref.Run.lean ====
/- The reference's run: every weakly fair execution of the host program ends, faults nowhere,
   leaves its twelve arguments unchanged (the frame), and its result array is RefNet of the
   twelve arguments as the run finds them (the value): the generated run states the result as
   the composed term of the arguments, which is the last stage of the stage-by-stage reading,
   which is RefNet. -/
import proofs.«171122_j58480274703249_1_alg».proof.Proof.Ref.RunP
import proofs.«171122_j58480274703249_1_alg».proof.Proof.Ref.Dense

noncomputable section

namespace Cert.ReferenceIdeal.Hand

open Cert.ReferenceIdeal Cert.ReferenceIdeal.Gen Idealize.ShloMosaic Idealize.ShloMosaic.TcCoe Idealize.SL.Sem

/-- The term the run names for the result is the last stage of the stage-by-stage reading. -/
theorem res_eq_stage (m : (ℓ : Loc nD τ sig) → Buf (Elt Ideal) ℓ) (c : Dev nD) :
    Cert.ReferenceIdeal.ValueP.res_main_v134 m c
      = Cert.ReferenceIdeal.ReadP.val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.ValueP.res_main_v134; rfl

/-- The value: the run ends with the result array at `RefNet` of the arguments, the arguments unchanged. -/
theorem run_value (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v134)
        = RefNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) :=
  (θ_run (Cert.ReferenceIdeal.defs (F := Ideal)) _ _).mono
    (fun _ h c => ⟨((h c).1.trans (res_eq_stage m c)).trans (result_eq _ _ _ _ _ _ _ _ _ _ _ _), (h c).2⟩)
    (Cert.ReferenceIdeal.ValueP.run (F := Ideal) m ρ)

/-- The frame: the run ends and leaves the twelve arguments unchanged. -/
theorem frame (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) :=
  (θ_run (Cert.ReferenceIdeal.defs (F := Ideal)) _ _).mono (fun _ h c => (h c).2) (run_value m ρ)

end Cert.ReferenceIdeal.Hand

end
-- ==== Proof.Bridge.AggEq.lean ====
/-
  The two programs aggregate alike.

  Both append the self loops to the edge list, count degrees, take the reciprocal root of the clamped degree where
  it is positive, multiply the two endpoint factors, and scatter-add the scaled gathered rows: the same
  operations in the same order on the same shapes, so the two aggregations are one function.
-/
import proofs.«171122_j58480274703249_1_alg».proof.Proof.Gen.KernelIdeal
import proofs.«171122_j58480274703249_1_alg».proof.Proof.Gen.ReferenceIdeal
import proofs.«171122_j58480274703249_1_alg».proof.Proof.KI.HostForms
import proofs.«171122_j58480274703249_1_alg».proof.Proof.Ref.Net

noncomputable section

namespace Cert.Bridge

open Idealize.ShloMosaic

theorem agg_eq (ei : IVec Cert.KernelIdeal.S2x1600000 32) (hw : FVec Ideal Cert.KernelIdeal.S100000x128 .f32) :
    Cert.KernelIdeal.Hand.kerAgg (F := Ideal) ei hw = Cert.ReferenceIdeal.Hand.refAgg (F := Ideal) ei hw := rfl

end Cert.Bridge

end
-- ==== Proof.LibFiniteOps.lean ====
/-
  Finiteness carried through the host's array operations, on the extended reals.

  A table is FINITE when every entry is a real number. This module carries finiteness through the operations a
  message-passing layer is made of, each read at the ideal float instance:
    - a gather reads, at every result index, SOME entry of its operand (a clamped start plus offsets), so a gather
      of a finite table is finite, whatever the indices are;
    - an accumulating scatter leaves, at every index, the operand's entry plus a finite sum of update entries (the
      updates whose target is that index; an update aimed outside the operand is dropped), so it is finite when the
      operand and the updates are; and where the operand is zero and every update is one, an entry is the NUMBER of
      updates aimed at it, which is at least one as soon as one update is aimed there;
    - a matrix product's entry is a finite sum of products of entries; a sum-reduction's entry is the initial value
      plus a finite sum of entries; point-wise sums, differences, products and maxima keep finiteness.
  Nothing here depends on the shapes' extents.
-/
import Idealize.ShloMosaic.PureOps.Ideal.Laws
import Idealize.ShloMosaic.Lib.ValueIdx
import proofs.«171122_j58480274703249_1_alg».proof.Proof.LibFinite

noncomputable section

open scoped BigOperators

namespace Cert.LibFiniteOps

open Idealize.ShloMosaic Cert.LibFinite

/-- A table all of whose entries are real numbers. -/
def Finite {ι : Type} (x : ι → EReal) : Prop := ∀ i, IsReal (x i)

/-- A gather's entry is an entry of its operand. -/
theorem gather_mem {s si t : Shape} {w : Nat} {α : Type} (d : GatherDims s si t) (x : s.Idx → α) (idx : IVec si w) (j : t.Idx) :
    ∃ i, Host.gather d x idx j = x i := ⟨_, rfl⟩

/-- A gather of a finite table is finite, whatever the indices. -/
theorem gather_finite {s si t : Shape} {w : Nat} (d : GatherDims s si t) (x : s.Idx → EReal) (idx : IVec si w) (hx : Finite x) :
    Finite (Host.gather d x idx) := fun j => by
  obtain ⟨i, hi⟩ := gather_mem d x idx j
  rw [hi]; exact hx i

/-- An accumulating scatter at an index: the operand's entry plus the sum of the updates aimed at it. -/
theorem scatterAdd_apply {s si u : Shape} {w : Nat} {φ : FTy} (d : ScatterDims s si u) (x : FVec Ideal s φ) (idx : IVec si w)
    (upd : FVec Ideal u φ) (i : s.Idx) :
    Host.scatterAdd d x idx upd i = x i + ∑ j ∈ Finset.univ.filter (fun j => d.resultIdx? j idx = some i), upd j := rfl

/-- An accumulating scatter of finite updates into a finite operand is finite. -/
theorem scatterAdd_finite {s si u : Shape} {w : Nat} {φ : FTy} (d : ScatterDims s si u) (x : FVec Ideal s φ) (idx : IVec si w)
    (upd : FVec Ideal u φ) (hx : Finite (fun i => (x i : EReal))) (hu : Finite (fun j => (upd j : EReal))) :
    Finite (fun i => (Host.scatterAdd d x idx upd i : EReal)) := fun i => by
  show IsReal (Host.scatterAdd d x idx upd i)
  rw [scatterAdd_apply]
  exact (hx i).add (isReal_sum _ _ fun j _ => hu j)

/-- One added to itself n times is the real number n. -/
theorem nsmul_one_eq (n : ℕ) : n • (1 : EReal) = ((n : ℝ) : EReal) := by
  induction n with
  | zero => simp
  | succ n ih => rw [succ_nsmul, ih, Nat.cast_succ, EReal.coe_add, EReal.coe_one]

/-- Counting: into a zero operand, with every update equal to one, an entry is the number of updates aimed at it —
    a real number, and at least one as soon as one update is aimed there. -/
theorem scatterAdd_count {s si u : Shape} {w : Nat} {φ : FTy} (d : ScatterDims s si u) (x : FVec Ideal s φ) (idx : IVec si w)
    (upd : FVec Ideal u φ) (hx : ∀ i, (x i : EReal) = 0) (hu : ∀ j, (upd j : EReal) = 1) (i : s.Idx)
    (j₀ : u.Idx) (hj : d.resultIdx? j₀ idx = some i) :
    ∃ r : ℝ, 1 ≤ r ∧ (Host.scatterAdd d x idx upd i : EReal) = (r : EReal) := by
  classical
  refine ⟨((Finset.univ.filter (fun j => d.resultIdx? j idx = some i)).card : ℝ), ?_, ?_⟩
  · have hpos : 0 < (Finset.univ.filter (fun j => d.resultIdx? j idx = some i)).card :=
      Finset.card_pos.mpr ⟨j₀, Finset.mem_filter.mpr ⟨Finset.mem_univ _, hj⟩⟩
    exact_mod_cast hpos
  · rw [scatterAdd_apply, hx i, zero_add, Finset.sum_congr rfl (fun j _ => hu j), Finset.sum_const]
    exact nsmul_one_eq _

/-- A host matrix product of finite tables is finite. -/
theorem dotGeneral_finite {sl sr so : Shape} {φ₁ φ₂ : FTy} (d : DotDims sl sr so) (prec : Option ContractPrecision)
    (l : FVec Ideal sl φ₁) (r : FVec Ideal sr φ₂) (hl : Finite (fun i => (l i : EReal))) (hr : Finite (fun i => (r i : EReal))) :
    Finite (fun j => (Host.dotGeneral d prec l r j : EReal)) := fun j => by
  show IsReal (Host.dotGeneral d prec l r j)
  simp only [Host.dotGeneral]
  rw [Ideal.dotGeneral_apply]
  exact isReal_sum _ _ fun k _ => (hl _).mul (hr _)

end Cert.LibFiniteOps

end
-- ==== Proof.Bridge.AggReal.lean ====
/-
  The reference's graph aggregation keeps finiteness.

  The degree is a scatter-add of ones into zeros: at every node a finite sum of reals, a real. The guarded reciprocal
  square root  select (deg > 0, rsqrt (max (deg, 1)), 0)  is a real for EVERY value of the degree: max (deg, 1) is a
  real that is at least 1, hence positive, and the reciprocal square root of a positive real is a real; the other
  branch is 0. The edge weight is a product of two gathered entries of that table, a real. The aggregation scatter-adds,
  into zeros, gathered entries of a finite table each scaled by an edge weight: at every index a finite sum of
  products of reals, a real.
-/
import proofs.«171122_j58480274703249_1_alg».proof.Proof.Ref.Net
import proofs.«171122_j58480274703249_1_alg».proof.Proof.LibFiniteOps
import Idealize.ShloMosaic.Lib.IdealHost

noncomputable section

namespace Cert.Bridge

open Idealize.ShloMosaic Cert.LibFinite Cert.LibFiniteOps Cert.ReferenceIdeal Cert.ReferenceIdeal.Gen
  Cert.ReferenceIdeal.Hand

/-- A table filled with the zero word is 0 at every index. -/
theorem bcast_zero_apply {T : Shape} (h : S_.BroadcastsInDim T (![] : Fin 0 → Fin T.rank)) (j : T.Idx) :
    (broadcastInDim T ![] h (constant (F := Ideal) S_ .f32 0x00000000#32) j : EReal) = 0 := by
  simp only [broadcastInDim, constant, Ideal.ofBits_def, Ideal.ofBits_zero_f32]

/-- A table filled with the word 0x3F800000 is 1 at every index. -/
theorem bcast_one_apply {T : Shape} (h : S_.BroadcastsInDim T (![] : Fin 0 → Fin T.rank)) (j : T.Idx) :
    (broadcastInDim T ![] h (constant (F := Ideal) S_ .f32 0x3F800000#32) j : EReal) = 1 := by
  simp only [broadcastInDim, constant, Ideal.ofBits_def, Ideal.ofBits_one_f32]

/-- A table filled with the zero word is a real at every index. -/
theorem bcast_zero_real {T : Shape} (h : S_.BroadcastsInDim T (![] : Fin 0 → Fin T.rank)) (j : T.Idx) :
    IsReal (broadcastInDim T ![] h (constant (F := Ideal) S_ .f32 0x00000000#32) j : EReal) := by
  rw [bcast_zero_apply]; exact isReal_zero

/-- A table filled with the word 0x3F800000 is a real at every index. -/
theorem bcast_one_real {T : Shape} (h : S_.BroadcastsInDim T (![] : Fin 0 → Fin T.rank)) (j : T.Idx) :
    IsReal (broadcastInDim T ![] h (constant (F := Ideal) S_ .f32 0x3F800000#32) j : EReal) := by
  rw [bcast_one_apply]; exact isReal_one

/-- An entrywise product of reals is a real. -/
theorem mulf_real {s : Shape} (x y : FVec Ideal s .f32) (i : s.Idx) (hx : IsReal (x i : EReal))
    (hy : IsReal (y i : EReal)) : IsReal (mulf x y i : EReal) := hx.mul hy

/-- An entrywise choice between two reals is a real. -/
theorem select_real {s : Shape} (c : IVec s 1) (a b : FVec Ideal s .f32) (i : s.Idx) (ha : IsReal (a i : EReal))
    (hb : IsReal (b i : EReal)) : IsReal (select c a b i : EReal) := by
  show IsReal (Scalar.select (c i) (a i) (b i) : EReal)
  unfold Scalar.select
  split_ifs
  · exact ha
  · exact hb

/-- The reciprocal square root of max (x, 1) is a real wherever x is. -/
theorem rsqrt_max_one_real {s : Shape} (x o : FVec Ideal s .f32) (i : s.Idx) (hx : IsReal (x i : EReal))
    (ho : (o i : EReal) = 1) : IsReal (Host.rsqrt (maximumf x o) i : EReal) := by
  show IsReal (Ideal.rsqrt (max (x i : EReal) (o i)))
  obtain ⟨r, hr⟩ := hx
  have h1 : max (r : EReal) 1 = ((max r 1 : ℝ) : EReal) := by
    rw [← EReal.coe_one]; exact (EReal.coe_strictMono.monotone.map_max).symm
  rw [hr, ho, h1]
  exact isReal_rsqrt_pos (lt_of_lt_of_le one_pos (le_max_right r 1))

/-- The degree of every node is a real. -/
theorem refDeg_real (ei : IVec S2x1600000 32) : ∀ i, IsReal (refDeg (F := Ideal) ei i : EReal) :=
  scatterAdd_finite _ _ _ _ (fun i => bcast_zero_real _ i) (fun j => bcast_one_real _ j)

/-- The guarded reciprocal square root of the degree is a real at every node, whatever the degree. -/
theorem refDis_real (ei : IVec S2x1600000 32) : ∀ i, IsReal (refDis (F := Ideal) ei i : EReal) := fun i =>
  select_real _ _ _ i (rsqrt_max_one_real _ _ i (refDeg_real ei i) (bcast_one_apply _ i)) (bcast_zero_real _ i)

/-- Every edge weight is a real. -/
theorem refNorm_real (ei : IVec S2x1600000 32) : ∀ e, IsReal (refNorm (F := Ideal) ei e : EReal) := fun e =>
  mulf_real _ _ e (gather_finite _ _ _ (refDis_real ei) e) (gather_finite _ _ _ (refDis_real ei) e)

/-- The aggregation of a finite table is finite. -/
theorem refAgg_real (ei : IVec Cert.ReferenceIdeal.S2x1600000 32) (h : Cert.ReferenceIdeal.Hand.Arr)
    (hh : ∀ i, Cert.LibFinite.IsReal (h i)) :
    ∀ i, Cert.LibFinite.IsReal (Cert.ReferenceIdeal.Hand.refAgg (F := Ideal) ei h i) :=
  scatterAdd_finite _ _ _ _ (fun i => bcast_zero_real _ i)
    (fun j => mulf_real _ _ j (gather_finite _ _ _ hh j) (refNorm_real ei _))

end Cert.Bridge
-- ==== Proof.Bridge.PreReal.lean ====
/-
  From the stated input precondition to the finiteness of every float argument.

  The precondition is the conjunction, over the eleven float arguments x, of "every entry of x has absolute value
  below +∞": an and-reduction over all axes of the entrywise comparison  max x (−x) < +∞ . An and-reduction into a
  single word that is 1 had a 1 at every entry; the word 0x7F800000 is +∞ on the extended reals; and an extended real
  whose absolute value  max x (−x)  is below +∞ is neither infinity, hence a real number.
-/
import proofs.«171122_j58480274703249_1_alg».proof.Defs
import proofs.«171122_j58480274703249_1_alg».proof.Proof.LibFinite
import Idealize.ShloMosaic.Lib.ReduceAll
import Idealize.ShloMosaic.Lib.IdealHost
import Idealize.ShloMosaic.Lib.Affine

noncomputable section

namespace Cert.Bridge

open Idealize.ShloMosaic Idealize.SL.Sem Cert.LibFinite

/-- The shape of a single word has exactly one index. -/
instance subsingleton_scalar_idx : Subsingleton Cert.Pre_finite_inputs.S_.Idx :=
  ⟨fun a b => funext fun d => d.elim0⟩

/-- The word 0x7F800000 is +∞. -/
theorem ofBits_inf_f32 : Ideal.ofBits .f32 0x7F800000#32 = (⊤ : EReal) := by
  simp [Ideal.ofBits, Ideal.ieee]

/-- A truth value whose one-bit word is 1 is true. -/
theorem ofBool_eq_one {b : Bool} (h : BitVec.ofBool b = 1#1) : b = true := by
  cases b
  · exact absurd h (by decide)
  · rfl

/-- One conjunct: if the and-reduction over all axes of  |x| < +∞  is 1, every entry of x is a real. -/
theorem all_abs_lt_inf_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant Cert.Pre_finite_inputs.S_ .f32 0x7F800000#32)))
          (constantI Cert.Pre_finite_inputs.S_ 1 1#1) hr hu j = 1#1) :
    ∀ i, IsReal (x i : EReal) := by
  intro i
  have h : BitVec.ofBool (decide (max (x i : EReal) (-x i) < Ideal.ofBits .f32 0x7F800000#32)) = 1#1 :=
    Host.reduce_andi_all _ _ hr hu j e i
  rw [ofBits_inf_f32] at h
  exact isReal_of_abs_lt_top (of_decide_eq_true (ofBool_eq_one h))

/-- Under the stated precondition every entry of every float argument, on every core, is a real. -/
theorem pre_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0) : Cert.KernelIdeal.S100000x128.Idx → EReal) i))
    ∧ (∀ i, IsReal ((m ((c.tc : Thread Cert.KernelIdeal.nD Cert.KernelIdeal.τ).loc Cert.KernelIdeal.main_arg2) : Cert.KernelIdeal.S128x128.Idx → EReal) i))
    ∧ (∀ i, IsReal ((m ((c.tc : Thread Cert.KernelIdeal.nD Cert.KernelIdeal.τ).loc Cert.KernelIdeal.main_arg3) : Cert.KernelIdeal.S128.Idx → EReal) i))
    ∧ (∀ i, IsReal ((m ((c.tc : Thread Cert.KernelIdeal.nD Cert.KernelIdeal.τ).loc Cert.KernelIdeal.main_arg4) : Cert.KernelIdeal.S128x128.Idx → EReal) i))
    ∧ (∀ i, IsReal ((m ((c.tc : Thread Cert.KernelIdeal.nD Cert.KernelIdeal.τ).loc Cert.KernelIdeal.main_arg5) : Cert.KernelIdeal.S128.Idx → EReal) i))
    ∧ (∀ i, IsReal ((m ((c.tc : Thread Cert.KernelIdeal.nD Cert.KernelIdeal.τ).loc Cert.KernelIdeal.main_arg6) : Cert.KernelIdeal.S128x128.Idx → EReal) i))
    ∧ (∀ i, IsReal ((m ((c.tc : Thread Cert.KernelIdeal.nD Cert.KernelIdeal.τ).loc Cert.KernelIdeal.main_arg7) : Cert.KernelIdeal.S128.Idx → EReal) i))
    ∧ (∀ i, IsReal ((m ((c.tc : Thread Cert.KernelIdeal.nD Cert.KernelIdeal.τ).loc Cert.KernelIdeal.main_arg8) : Cert.KernelIdeal.S128.Idx → EReal) i))
    ∧ (∀ i, IsReal ((m ((c.tc : Thread Cert.KernelIdeal.nD Cert.KernelIdeal.τ).loc Cert.KernelIdeal.main_arg9) : Cert.KernelIdeal.S128.Idx → EReal) i))
    ∧ (∀ i, IsReal ((m ((c.tc : Thread Cert.KernelIdeal.nD Cert.KernelIdeal.τ).loc Cert.KernelIdeal.main_arg10) : Cert.KernelIdeal.S128.Idx → EReal) i))
    ∧ (∀ i, IsReal ((m ((c.tc : Thread Cert.KernelIdeal.nD Cert.KernelIdeal.τ).loc Cert.KernelIdeal.main_arg11) : Cert.KernelIdeal.S128.Idx → EReal) i)) := by
  have h0 := congrFun (h c) ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨h_0, h_2⟩, h_3⟩, h_4⟩, h_5⟩, h_6⟩, h_7⟩, h_8⟩, h_9⟩, h_10⟩, h_11⟩ := h0
  exact ⟨all_abs_lt_inf_real _ _ _ _ _ h_0, all_abs_lt_inf_real _ _ _ _ _ h_2, all_abs_lt_inf_real _ _ _ _ _ h_3,
    all_abs_lt_inf_real _ _ _ _ _ h_4, all_abs_lt_inf_real _ _ _ _ _ h_5, all_abs_lt_inf_real _ _ _ _ _ h_6,
    all_abs_lt_inf_real _ _ _ _ _ h_7, all_abs_lt_inf_real _ _ _ _ _ h_8, all_abs_lt_inf_real _ _ _ _ _ h_9,
    all_abs_lt_inf_real _ _ _ _ _ h_10, all_abs_lt_inf_real _ _ _ _ _ h_11⟩

end Cert.Bridge
-- ==== Proof.Bridge.Final.lean ====
/-
  The two networks agree on inputs satisfying the stated precondition.

  The reference network is three graph convolutions  z = agg (h W) + b , the first two followed by batch
  normalisation and the rectifier, with agg the reference's aggregation over the edge list. The kernel's network is
  the same three layers with its own normalise-and-rectify pass, over the kernel program's copy of the aggregation,
  which is the same composition of host operations. Under the precondition every entry of every float argument is a
  real; the aggregation keeps tables of reals real; and on tables of reals the kernel's normalise-and-rectify pass
  is the reference's. Hence the two networks are equal as tables of extended reals.
-/
import proofs.«171122_j58480274703249_1_alg».proof.Proof.Bridge.Layer
import proofs.«171122_j58480274703249_1_alg».proof.Proof.Bridge.AggEq
import proofs.«171122_j58480274703249_1_alg».proof.Proof.Bridge.AggReal
import proofs.«171122_j58480274703249_1_alg».proof.Proof.Bridge.PreReal

noncomputable section

namespace Cert.Bridge

open Idealize.ShloMosaic Idealize.SL.Sem Cert.LibFinite Cert.ReferenceIdeal.Hand

/-- On every core, under the stated precondition, the reference network of the argument arrays is the kernel's
    network of the same arrays over the kernel program's aggregation. -/
theorem nets_agree [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.ReferenceIdeal.Hand.RefNet
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
      = Cert.Bridge.KerNet
        (Cert.KernelIdeal.Hand.kerAgg (F := Ideal) (m ((c.tc : Thread Cert.KernelIdeal.nD Cert.KernelIdeal.τ).loc Cert.KernelIdeal.main_arg1)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)) := by
  obtain ⟨r0, r2, r3, r4, r5, _, _, r8, r9, _, _⟩ := pre_real m h c
  -- the kernel program's aggregation is the reference's: the same composition of host operations
  have hk : Cert.KernelIdeal.Hand.kerAgg (F := Ideal) (m ((c.tc : Thread Cert.KernelIdeal.nD Cert.KernelIdeal.τ).loc Cert.KernelIdeal.main_arg1))
      = Cert.ReferenceIdeal.Hand.refAgg (F := Ideal) (m ((c.tc : Thread Cert.KernelIdeal.nD Cert.KernelIdeal.τ).loc Cert.KernelIdeal.main_arg1)) :=
    funext fun hw => agg_eq _ hw
  rw [hk]
  -- the reference network is three layers over its aggregation, and on reals the two layer forms agree
  exact (net_eq (Cert.ReferenceIdeal.Hand.refAgg (F := Ideal) (m ((c.tc : Thread Cert.KernelIdeal.nD Cert.KernelIdeal.τ).loc Cert.KernelIdeal.main_arg1)))
    (refAgg_real _) _ _ _ _ _ _ _ _ _ _ _ r0 r2 r3 r4 r5 r8 r9).symm

end Cert.Bridge
-- ==== Proof.lean ====
/-
  The claim: a three-layer graph convolution with two batch normalisations, computed by eight tiled kernels among
  host gathers and scatter-adds, against its plain reference.

  Frames: every region stages its windows, runs its body at the twenty grid points and writes its output blocks
  back; nothing writes an argument (Kernel and KernelIdeal: K/Frame.lean, KI/Frame.lean; the reference has no
  kernel and its run is read back operation by operation).  Nothing was rewritten by the idealisation, so
  `preserves` asks nothing.  At the extended reals the two programs differ in one place only: the kernel's
  statistics pass forms the variance as the mean of squares minus the squared mean, the reference as the mean of
  squared deviations.  On real entries these agree, and the precondition makes every entry real through all three
  layers; the product (a truncation to a narrower format is the identity here), the gather / scale / scatter-add
  aggregation and the bias are the same functions on both sides.
-/
import proofs.«171122_j58480274703249_1_alg».proof.Defs
import proofs.«171122_j58480274703249_1_alg».proof.Proof.Gen.Kernel
import proofs.«171122_j58480274703249_1_alg».proof.Proof.Gen.KernelIdeal
import proofs.«171122_j58480274703249_1_alg».proof.Proof.Gen.ReferenceIdeal
import proofs.«171122_j58480274703249_1_alg».proof.Proof.Gen.Pre_finite_inputs
import proofs.«171122_j58480274703249_1_alg».proof.Proof.K.Frame
import proofs.«171122_j58480274703249_1_alg».proof.Proof.KI.Frame
import proofs.«171122_j58480274703249_1_alg».proof.Proof.KI.Value
import proofs.«171122_j58480274703249_1_alg».proof.Proof.Ref.Run
import proofs.«171122_j58480274703249_1_alg».proof.Proof.Bridge.Final
import Idealize.ShloMosaic.Adequacy
import Idealize.ShloMosaic.Init

set_option maxRecDepth 16384

noncomputable section

namespace Cert.Proof

open Idealize.ShloMosaic Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ => Cert.ReferenceIdeal.Hand.frame m ρ

/-- The idealisation rewrote nothing. -/
theorem preserves : Cert.preserves_Kernel_KernelIdeal := trivial

/-- Both programs end at the three-layer network of the arguments: the kernel in its own spelling, the reference in
    its own, equal on real entries. -/
theorem algebraic : Cert.algebraic_KernelIdeal_ReferenceIdeal := by
  intro m ρ m' ρ' hpre hagree
  refine ⟨fun c => Cert.Bridge.KerNet (Cert.KernelIdeal.Hand.kerAgg (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.Hand.kernel_value m c), (h c).2⟩)
      (Cert.KernelIdeal.Hand.run_result m ρ)
  · refine (θ_run Cert.ReferenceIdeal.defs _ _).mono (fun r h c => ⟨(h c).1.trans ?_, (h c).2⟩)
      (Cert.ReferenceIdeal.Hand.run_value m' ρ')
    obtain ⟨e0, e1, e2, e3, e4, e5, e6, e7, e8, e9, e10, e11⟩ := hagree c
    rw [e0, e1, e2, e3, e4, e5, e6, e7, e8, e9, e10, e11]
    exact Cert.Bridge.nets_agree m hpre c

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
